-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v242)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v242) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S5x64x128 : Shape := ⟨3, ![5, 64, 128]⟩
abbrev S128 : Shape := ⟨1, ![128]⟩
abbrev S64x128 : Shape := ⟨2, ![64, 128]⟩
abbrev S5x128x128 : Shape := ⟨3, ![5, 128, 128]⟩
abbrev S128x128 : Shape := ⟨2, ![128, 128]⟩
abbrev S5x128x350 : Shape := ⟨3, ![5, 128, 350]⟩
abbrev S350 : Shape := ⟨1, ![350]⟩
abbrev S128x350 : Shape := ⟨2, ![128, 350]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S5x64x128 : S_.BroadcastsInDim S5x64x128 (![] : Fin 0 → Fin S5x64x128.rank)
  reducesTo_S5x64x128_S_d0_1_2 : S5x64x128.ReducesTo [0, 1, 2] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S5x128x128 : S_.BroadcastsInDim S5x128x128 (![] : Fin 0 → Fin S5x128x128.rank)
  reducesTo_S5x128x128_S_d0_1_2 : S5x128x128.ReducesTo [0, 1, 2] S_
  bcast_S_S128x128 : S_.BroadcastsInDim S128x128 (![] : Fin 0 → Fin S128x128.rank)
  reducesTo_S128x128_S_d0_1 : S128x128.ReducesTo [0, 1] S_
  bcast_S_S5x128x350 : S_.BroadcastsInDim S5x128x350 (![] : Fin 0 → Fin S5x128x350.rank)
  reducesTo_S5x128x350_S_d0_1_2 : S5x128x350.ReducesTo [0, 1, 2] S_
  bcast_S_S350 : S_.BroadcastsInDim S350 (![] : Fin 0 → Fin S350.rank)
  reducesTo_S350_S_d0 : S350.ReducesTo [0] S_
  bcast_S_S128x350 : S_.BroadcastsInDim S128x350 (![] : Fin 0 → Fin S128x350.rank)
  reducesTo_S128x350_S_d0_1 : S128x350.ReducesTo [0, 1] S_

variable [Facts]

def fn_part3 {F : FTy → Type} [FloatOps F] (main_arg12 : FVec F S128x350 .f32) (main_arg13 : FVec F S350 .f32) (main_v48 : IVec S_ 1) (main_v49 : FVec F S350 .f32) (main_v50 : FVec F S350 .f32) : IVec S_ 1 :=
  let main_v51 : IVec S350 1 := cmpf .olt main_v49 main_v50
  let main_c_19 : IVec S_ 1 := constantI S_ 1 1#1
  let main_v52 : IVec S_ 1 := (fun x v => Host.reduce IntOp.andi x v reducesTo_S350_S_d0 h_S_) main_v51 main_c_19
  let main_v53 : IVec S_ 1 := andi main_v48 main_v52
  let main_v54 : FVec F S128x350 .f32 := Host.absf main_arg12
  let main_cst_20 : FVec F S_ .f32 := constant S_ .f32 0x7F800000#32
  let main_v55 : FVec F S128x350 .f32 := broadcastInDim S128x350 ![] bcast_S_S128x350 main_cst_20
  let main_v56 : IVec S128x350 1 := cmpf .olt main_v54 main_v55
  let main_c_21 : IVec S_ 1 := constantI S_ 1 1#1
  let main_v57 : IVec S_ 1 := (fun x v => Host.reduce IntOp.andi x v reducesTo_S128x350_S_d0_1 h_S_) main_v56 main_c_21
  let main_v58 : IVec S_ 1 := andi main_v53 main_v57
  let main_v59 : FVec F S350 .f32 := Host.absf main_arg13
  let main_cst_22 : FVec F S_ .f32 := constant S_ .f32 0x7F800000#32
  let main_v60 : FVec F S350 .f32 := broadcastInDim S350 ![] bcast_S_S350 main_cst_22
  let main_v61 : IVec S350 1 := cmpf .olt main_v59 main_v60
  let main_c_23 : IVec S_ 1 := constantI S_ 1 1#1
  let main_v62 : IVec S_ 1 := (fun x v => Host.reduce IntOp.andi x v reducesTo_S350_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S5x128x350 .f32) (main_arg11 : FVec F S350 .f32) (main_arg12 : FVec F S128x350 .f32) (main_arg13 : FVec F S350 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S5x128x350 .f32 := Host.absf main_arg10
  let main_cst_16 : FVec F S_ .f32 := constant S_ .f32 0x7F800000#32
  let main_v45 : FVec F S5x128x350 .f32 := broadcastInDim S5x128x350 ![] bcast_S_S5x128x350 main_cst_16
  let main_v46 : IVec S5x128x350 1 := cmpf .olt main_v44 main_v45
  let main_c_17 : IVec S_ 1 := constantI S_ 1 1#1
  let main_v47 : IVec S_ 1 := (fun x v => Host.reduce IntOp.andi x v reducesTo_S5x128x350_S_d0_1_2 h_S_) main_v46 main_c_17
  let main_v48 : IVec S_ 1 := andi main_v43 main_v47
  let main_v49 : FVec F S350 .f32 := Host.absf main_arg11
  let main_cst_18 : FVec F S_ .f32 := constant S_ .f32 0x7F800000#32
  let main_v50 : FVec F S350 .f32 := broadcastInDim S350 ![] bcast_S_S350 main_cst_18
  fn_part3 (F := F) main_arg12 main_arg13 main_v48 main_v49 main_v50

def fn_part1 {F : FTy → Type} [FloatOps F] (main_arg5 : FVec F S128 .f32) (main_arg6 : FVec F S5x128x128 .f32) (main_arg7 : FVec F S128 .f32) (main_arg8 : FVec F S128x128 .f32) (main_arg9 : FVec F S128 .f32) (main_arg10 : FVec F S5x128x350 .f32) (main_arg11 : FVec F S350 .f32) (main_arg12 : FVec F S128x350 .f32) (main_arg13 : FVec F S350 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S5x128x128 .f32 := Host.absf main_arg6
  let main_cst_8 : FVec F S_ .f32 := constant S_ .f32 0x7F800000#32
  let main_v25 : FVec F S5x128x128 .f32 := broadcastInDim S5x128x128 ![] bcast_S_S5x128x128 main_cst_8
  let main_v26 : IVec S5x128x128 1 := cmpf .olt main_v24 main_v25
  let main_c_9 : IVec S_ 1 := constantI S_ 1 1#1
  let main_v27 : IVec S_ 1 := (fun x v => Host.reduce IntOp.andi x v reducesTo_S5x128x128_S_d0_1_2 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x64 .f32) (main_arg1 : IVec S2x800000 32) (main_arg2 : FVec F S5x64x128 .f32) (main_arg3 : FVec F S128 .f32) (main_arg4 : FVec F S64x128 .f32) (main_arg5 : FVec F S128 .f32) (main_arg6 : FVec F S5x128x128 .f32) (main_arg7 : FVec F S128 .f32) (main_arg8 : FVec F S128x128 .f32) (main_arg9 : FVec F S128 .f32) (main_arg10 : FVec F S5x128x350 .f32) (main_arg11 : FVec F S350 .f32) (main_arg12 : FVec F S128x350 .f32) (main_arg13 : FVec F S350 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S5x64x128 .f32 := Host.absf main_arg2
  let main_cst_0 : FVec F S_ .f32 := constant S_ .f32 0x7F800000#32
  let main_v5 : FVec F S5x64x128 .f32 := broadcastInDim S5x64x128 ![] bcast_S_S5x64x128 main_cst_0
  let main_v6 : IVec S5x64x128 1 := cmpf .olt main_v4 main_v5
  let main_c_1 : IVec S_ 1 := constantI S_ 1 1#1
  let main_v7 : IVec S_ 1 := (fun x v => Host.reduce IntOp.andi x v reducesTo_S5x64x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S5x64x128 : Shape := ⟨3, ![5, 64, 128]⟩
abbrev S128 : Shape := ⟨1, ![128]⟩
abbrev S64x128 : Shape := ⟨2, ![64, 128]⟩
abbrev S5x128x128 : Shape := ⟨3, ![5, 128, 128]⟩
abbrev S128x128 : Shape := ⟨2, ![128, 128]⟩
abbrev S5x128x350 : Shape := ⟨3, ![5, 128, 350]⟩
abbrev S350 : Shape := ⟨1, ![350]⟩
abbrev S128x350 : Shape := ⟨2, ![128, 350]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x50000x64 : Shape := ⟨3, ![1, 50000, 64]⟩
abbrev S5x50000x64 : Shape := ⟨3, ![5, 50000, 64]⟩
abbrev S1x128 : Shape := ⟨2, ![1, 128]⟩
abbrev S50000x128 : Shape := ⟨2, ![50000, 128]⟩
abbrev S5x2000x64 : Shape := ⟨3, ![5, 2000, 64]⟩
abbrev S2000x128 : Shape := ⟨2, ![2000, 128]⟩
abbrev S1x2000x64 : Shape := ⟨3, ![1, 2000, 64]⟩
abbrev S2000x64 : Shape := ⟨2, ![2000, 64]⟩
abbrev S1x64x128 : Shape := ⟨3, ![1, 64, 128]⟩
abbrev S800000x128 : Shape := ⟨2, ![800000, 128]⟩
abbrev S1x50000x128 : Shape := ⟨3, ![1, 50000, 128]⟩
abbrev S5x50000x128 : Shape := ⟨3, ![5, 50000, 128]⟩
abbrev S5x2000x128 : Shape := ⟨3, ![5, 2000, 128]⟩
abbrev S1x2000x128 : Shape := ⟨3, ![1, 2000, 128]⟩
abbrev S1x128x128 : Shape := ⟨3, ![1, 128, 128]⟩
abbrev S1x350 : Shape := ⟨2, ![1, 350]⟩
abbrev S50000x350 : Shape := ⟨2, ![50000, 350]⟩
abbrev S2000x350 : Shape := ⟨2, ![2000, 350]⟩
abbrev S1x128x350 : Shape := ⟨3, ![1, 128, 350]⟩
abbrev S17500000 : Shape := ⟨1, ![17500000]⟩

abbrev nBuf : Space → Nat
  | .hbm => 317
  | .vmem => 24
  | .smem => 0
  | _ => 0

abbrev hbmTy0_0 (i : Nat) : BufTy := match i % 128 with
  | 0 => ⟨S50000x64, .f32⟩
  | 1 => ⟨S2x800000, .i32⟩
  | 2 => ⟨S5x64x128, .f32⟩
  | 3 => ⟨S128, .f32⟩
  | 4 => ⟨S64x128, .f32⟩
  | 5 => ⟨S128, .f32⟩
  | 6 => ⟨S5x128x128, .f32⟩
  | 7 => ⟨S128, .f32⟩
  | 8 => ⟨S128x128, .f32⟩
  | 9 => ⟨S128, .f32⟩
  | 10 => ⟨S5x128x350, .f32⟩
  | 11 => ⟨S350, .f32⟩
  | 12 => ⟨S128x350, .f32⟩
  | 13 => ⟨S350, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .i1⟩
  | 30 => ⟨S_, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S800000x1, .f32⟩
  | 71 => ⟨S800000x64, .f32⟩
  | 72 => ⟨S800000x64, .f32⟩
  | 73 => ⟨S_, .f32⟩
  | 74 => ⟨S50000x64, .f32⟩
  | 75 => ⟨S800000x1, .i32⟩
  | 76 => ⟨S50000x64, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S800000x1, .f32⟩
  | 87 => ⟨S800000x64, .f32⟩
  | 88 => ⟨S800000x64, .f32⟩
  | 89 => ⟨S_, .f32⟩
  | 90 => ⟨S50000x64, .f32⟩
  | 91 => ⟨S800000x1, .i32⟩
  | 92 => ⟨S50000x64, .f32⟩
  | 93 => ⟨S_, .f32⟩
  | 94 => ⟨S50000x64, .f32⟩
  | 95 => ⟨S50000x64, .f32⟩
  | 96 => ⟨S50000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x1, .f32⟩
  | 107 => ⟨S800000x64, .f32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .f32⟩
  | 126 => ⟨S800000x1, .f32⟩
  | 127 => ⟨S800000x64, .f32⟩
  | _ => ⟨S50000x64, .f32⟩

abbrev hbmTy0_1 (i : Nat) : BufTy := match i % 128 with
  | 0 => ⟨S800000x64, .f32⟩
  | 1 => ⟨S_, .f32⟩
  | 2 => ⟨S50000x64, .f32⟩
  | 3 => ⟨S800000x1, .i32⟩
  | 4 => ⟨S50000x64, .f32⟩
  | 5 => ⟨S_, .f32⟩
  | 6 => ⟨S50000x64, .f32⟩
  | 7 => ⟨S50000x64, .f32⟩
  | 8 => ⟨S50000x64, .f32⟩
  | 9 => ⟨S1x50000x64, .f32⟩
  | 10 => ⟨S1x50000x64, .f32⟩
  | 11 => ⟨S1x50000x64, .f32⟩
  | 12 => ⟨S1x50000x64, .f32⟩
  | 13 => ⟨S1x50000x64, .f32⟩
  | 14 => ⟨S5x50000x64, .f32⟩
  | 15 => ⟨S1x128, .f32⟩
  | 16 => ⟨S1x128, .f32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S800000x1, .f32⟩
  | 28 => ⟨S800000x128, .f32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x1, .f32⟩
  | 44 => ⟨S800000x128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S_, .f32⟩
  | 51 => ⟨S50000x128, .f32⟩
  | 52 => ⟨S50000x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x1, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S800000x1, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S1x50000x128, .f32⟩
  | 95 => ⟨S1x50000x128, .f32⟩
  | 96 => ⟨S1x50000x128, .f32⟩
  | 97 => ⟨S1x50000x128, .f32⟩
  | 98 => ⟨S1x50000x128, .f32⟩
  | 99 => ⟨S5x50000x128, .f32⟩
  | 100 => ⟨S1x128, .f32⟩
  | 101 => ⟨S1x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x1, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x64, .f32⟩

abbrev hbmTy0_2 (i : Nat) : BufTy := match i % 128 with
  | 0 => ⟨S800000x1, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S_, .f32⟩
  | 8 => ⟨S50000x128, .f32⟩
  | 9 => ⟨S50000x128, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x1, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x1, .f32⟩
  | 41 => ⟨S800000x128, .f32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S_, .f32⟩
  | 48 => ⟨S50000x128, .f32⟩
  | 49 => ⟨S50000x128, .f32⟩
  | 50 => ⟨S50000x128, .f32⟩
  | 51 => ⟨S1x50000x128, .f32⟩
  | 52 => ⟨S1x50000x128, .f32⟩
  | 53 => ⟨S1x50000x128, .f32⟩
  | 54 => ⟨S1x50000x128, .f32⟩
  | 55 => ⟨S1x50000x128, .f32⟩
  | 56 => ⟨S5x50000x128, .f32⟩
  | 57 => ⟨S1x350, .f32⟩
  | 58 => ⟨S1x350, .f32⟩
  | 59 => ⟨S50000x350, .f32⟩
  | 60 => ⟨S17500000, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S5x2000x64, .f32⟩
  | .local _ .vmem, ⟨1, _⟩ => ⟨S5x2000x64, .f32⟩
  | .local _ .vmem, ⟨2, _⟩ => ⟨S5x64x128, .f32⟩
  | .local _ .vmem, ⟨3, _⟩ => ⟨S1x128, .f32⟩
  | .local _ .vmem, ⟨4, _⟩ => ⟨S64x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S5x2000x128, .f32⟩
  | .local _ .vmem, ⟨9, _⟩ => ⟨S5x2000x128, .f32⟩
  | .local _ .vmem, ⟨10, _⟩ => ⟨S5x128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S5x2000x128, .f32⟩
  | .local _ .vmem, ⟨17, _⟩ => ⟨S5x2000x128, .f32⟩
  | .local _ .vmem, ⟨18, _⟩ => ⟨S5x128x350, .f32⟩
  | .local _ .vmem, ⟨19, _⟩ => ⟨S1x350, .f32⟩
  | .local _ .vmem, ⟨20, _⟩ => ⟨S128x350, .f32⟩
  | .local _ .vmem, ⟨21, _⟩ => ⟨S1x350, .f32⟩
  | .local _ .vmem, ⟨22, _⟩ => ⟨S2000x350, .f32⟩
  | .local _ .vmem, ⟨23, _⟩ => ⟨S2000x350, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_6 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_7 : Ref sig .tc := ⟨.hbm, 51, rfl⟩
abbrev main_v24 : Ref sig .tc := ⟨.hbm, 52, rfl⟩
abbrev main_v25 : Ref sig .tc := ⟨.hbm, 53, rfl⟩
abbrev main_c_8 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_9 : Ref sig .tc := ⟨.hbm, 61, rfl⟩
abbrev main_v32 : Ref sig .tc := ⟨.hbm, 62, rfl⟩
abbrev main_v33 : Ref sig .tc := ⟨.hbm, 63, rfl⟩
abbrev main_c_10 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_12 : Ref sig .tc := ⟨.hbm, 77, rfl⟩
abbrev main_v45 : Ref sig .tc := ⟨.hbm, 78, rfl⟩
abbrev main_v46 : Ref sig .tc := ⟨.hbm, 79, rfl⟩
abbrev main_c_13 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_16 : Ref sig .tc := ⟨.hbm, 97, rfl⟩
abbrev main_v61 : Ref sig .tc := ⟨.hbm, 98, rfl⟩
abbrev main_v62 : Ref sig .tc := ⟨.hbm, 99, rfl⟩
abbrev main_c_17 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_18 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_19 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_20 : Ref sig .tc := ⟨.hbm, 117, rfl⟩
abbrev main_v77 : Ref sig .tc := ⟨.hbm, 118, rfl⟩
abbrev main_v78 : Ref sig .tc := ⟨.hbm, 119, rfl⟩
abbrev main_c_21 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_22 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_23 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_c_24 : Ref sig .tc := ⟨.hbm, 146, rfl⟩
abbrev main_v102 : Ref sig .tc := ⟨.hbm, 147, rfl⟩
abbrev main_v103 : Ref sig .tc := ⟨.hbm, 148, rfl⟩
abbrev main_c_25 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_26 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_27 : Ref sig .tc := ⟨.hbm, 162, rfl⟩
abbrev main_v115 : Ref sig .tc := ⟨.hbm, 163, rfl⟩
abbrev main_v116 : Ref sig .tc := ⟨.hbm, 164, rfl⟩
abbrev main_c_28 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_29 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_30 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_c_31 : Ref sig .tc := ⟨.hbm, 182, rfl⟩
abbrev main_v131 : Ref sig .tc := ⟨.hbm, 183, rfl⟩
abbrev main_v132 : Ref sig .tc := ⟨.hbm, 184, rfl⟩
abbrev main_c_32 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_33 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_34 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_c_35 : Ref sig .tc := ⟨.hbm, 202, rfl⟩
abbrev main_v147 : Ref sig .tc := ⟨.hbm, 203, rfl⟩
abbrev main_v148 : Ref sig .tc := ⟨.hbm, 204, rfl⟩
abbrev main_c_36 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_37 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_cst_38 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_c_39 : Ref sig .tc := ⟨.hbm, 231, rfl⟩
abbrev main_v172 : Ref sig .tc := ⟨.hbm, 232, rfl⟩
abbrev main_v173 : Ref sig .tc := ⟨.hbm, 233, rfl⟩
abbrev main_c_40 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_cst_41 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_c_42 : Ref sig .tc := ⟨.hbm, 247, rfl⟩
abbrev main_v185 : Ref sig .tc := ⟨.hbm, 248, rfl⟩
abbrev main_v186 : Ref sig .tc := ⟨.hbm, 249, rfl⟩
abbrev main_c_43 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_cst_44 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_cst_45 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_c_46 : Ref sig .tc := ⟨.hbm, 267, rfl⟩
abbrev main_v201 : Ref sig .tc := ⟨.hbm, 268, rfl⟩
abbrev main_v202 : Ref sig .tc := ⟨.hbm, 269, rfl⟩
abbrev main_c_47 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_cst_48 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_cst_49 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_c_50 : Ref sig .tc := ⟨.hbm, 287, rfl⟩
abbrev main_v217 : Ref sig .tc := ⟨.hbm, 288, rfl⟩
abbrev main_v218 : Ref sig .tc := ⟨.hbm, 289, rfl⟩
abbrev main_c_51 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_cst_52 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_cst_53 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5x2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5x128x350 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x350 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x350 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x350 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x350 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x64_S1x50000x64_1_2 : S50000x64.BroadcastsInDim S1x50000x64 (![1, 2] : Fin 2 → Fin S1x50000x64.rank)
  concatenates_S1x50000x64_S1x50000x64_S1x50000x64_S1x50000x64_S1x50000x64_S5x50000x64_d0 : Shape.Concatenates [S1x50000x64, S1x50000x64, S1x50000x64, S1x50000x64, S1x50000x64] S5x50000x64 0
  shapeCasts_S128_S1x128 : S128.ShapeCasts S1x128
  inb_S5x2000x64_S1x2000x64_0_0_0 : ∀ a, (![0, 0, 0] : Fin 3 → Nat) a + S1x2000x64.size a ≤ S5x2000x64.size a
  h_S1x2000x64 : 0 < S1x2000x64.numel
  shapeCasts_S1x2000x64_S2000x64 : S1x2000x64.ShapeCasts S2000x64
  bitsLt_bf16_f32 : FTy.bits .bf16 < FTy.bits .f32
  inb_S5x64x128_S1x64x128_0_0_0 : ∀ a, (![0, 0, 0] : Fin 3 → Nat) a + S1x64x128.size a ≤ S5x64x128.size a
  h_S1x64x128 : 0 < S1x64x128.numel
  shapeCasts_S1x64x128_S64x128 : S1x64x128.ShapeCasts S64x128
  inb_S5x2000x64_S1x2000x64_1_0_0 : ∀ a, (![1, 0, 0] : Fin 3 → Nat) a + S1x2000x64.size a ≤ S5x2000x64.size a
  inb_S5x64x128_S1x64x128_1_0_0 : ∀ a, (![1, 0, 0] : Fin 3 → Nat) a + S1x64x128.size a ≤ S5x64x128.size a
  inb_S5x2000x64_S1x2000x64_2_0_0 : ∀ a, (![2, 0, 0] : Fin 3 → Nat) a + S1x2000x64.size a ≤ S5x2000x64.size a
  inb_S5x64x128_S1x64x128_2_0_0 : ∀ a, (![2, 0, 0] : Fin 3 → Nat) a + S1x64x128.size a ≤ S5x64x128.size a
  inb_S5x2000x64_S1x2000x64_3_0_0 : ∀ a, (![3, 0, 0] : Fin 3 → Nat) a + S1x2000x64.size a ≤ S5x2000x64.size a
  inb_S5x64x128_S1x64x128_3_0_0 : ∀ a, (![3, 0, 0] : Fin 3 → Nat) a + S1x64x128.size a ≤ S5x64x128.size a
  inb_S5x2000x64_S1x2000x64_4_0_0 : ∀ a, (![4, 0, 0] : Fin 3 → Nat) a + S1x2000x64.size a ≤ S5x2000x64.size a
  inb_S5x64x128_S1x64x128_4_0_0 : ∀ a, (![4, 0, 0] : Fin 3 → Nat) a + S1x64x128.size a ≤ S5x64x128.size a
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x128_S1x50000x128_1_2 : S50000x128.BroadcastsInDim S1x50000x128 (![1, 2] : Fin 2 → Fin S1x50000x128.rank)
  concatenates_S1x50000x128_S1x50000x128_S1x50000x128_S1x50000x128_S1x50000x128_S5x50000x128_d0 : Shape.Concatenates [S1x50000x128, S1x50000x128, S1x50000x128, S1x50000x128, S1x50000x128] S5x50000x128 0
  inb_S5x2000x128_S1x2000x128_0_0_0 : ∀ a, (![0, 0, 0] : Fin 3 → Nat) a + S1x2000x128.size a ≤ S5x2000x128.size a
  h_S1x2000x128 : 0 < S1x2000x128.numel
  shapeCasts_S1x2000x128_S2000x128 : S1x2000x128.ShapeCasts S2000x128
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S5x2000x128_S1x2000x128_1_0_0 : ∀ a, (![1, 0, 0] : Fin 3 → Nat) a + S1x2000x128.size a ≤ S5x2000x128.size a
  inb_S5x128x128_S1x128x128_1_0_0 : ∀ a, (![1, 0, 0] : Fin 3 → Nat) a + S1x128x128.size a ≤ S5x128x128.size a
  inb_S5x2000x128_S1x2000x128_2_0_0 : ∀ a, (![2, 0, 0] : Fin 3 → Nat) a + S1x2000x128.size a ≤ S5x2000x128.size a
  inb_S5x128x128_S1x128x128_2_0_0 : ∀ a, (![2, 0, 0] : Fin 3 → Nat) a + S1x128x128.size a ≤ S5x128x128.size a
  inb_S5x2000x128_S1x2000x128_3_0_0 : ∀ a, (![3, 0, 0] : Fin 3 → Nat) a + S1x2000x128.size a ≤ S5x2000x128.size a
  inb_S5x128x128_S1x128x128_3_0_0 : ∀ a, (![3, 0, 0] : Fin 3 → Nat) a + S1x128x128.size a ≤ S5x128x128.size a
  inb_S5x2000x128_S1x2000x128_4_0_0 : ∀ a, (![4, 0, 0] : Fin 3 → Nat) a + S1x2000x128.size a ≤ S5x2000x128.size a
  inb_S5x128x128_S1x128x128_4_0_0 : ∀ a, (![4, 0, 0] : Fin 3 → Nat) a + S1x128x128.size a ≤ S5x128x128.size a
  inb_S128x128_S128x128_0_0 : ∀ a, (![0, 0] : Fin 2 → Nat) a + S128x128.size a ≤ S128x128.size a
  h_S128x128 : 0 < S128x128.numel
  shapeCasts_S350_S1x350 : S350.ShapeCasts S1x350
  inb_S5x128x350_S1x128x350_0_0_0 : ∀ a, (![0, 0, 0] : Fin 3 → Nat) a + S1x128x350.size a ≤ S5x128x350.size a
  h_S1x128x350 : 0 < S1x128x350.numel
  shapeCasts_S1x128x350_S128x350 : S1x128x350.ShapeCasts S128x350
  inb_S5x128x350_S1x128x350_1_0_0 : ∀ a, (![1, 0, 0] : Fin 3 → Nat) a + S1x128x350.size a ≤ S5x128x350.size a
  inb_S5x128x350_S1x128x350_2_0_0 : ∀ a, (![2, 0, 0] : Fin 3 → Nat) a + S1x128x350.size a ≤ S5x128x350.size a
  inb_S5x128x350_S1x128x350_3_0_0 : ∀ a, (![3, 0, 0] : Fin 3 → Nat) a + S1x128x350.size a ≤ S5x128x350.size a
  inb_S5x128x350_S1x128x350_4_0_0 : ∀ a, (![4, 0, 0] : Fin 3 → Nat) a + S1x128x350.size a ≤ S5x128x350.size a
  inb_S128x350_S128x350_0_0 : ∀ a, (![0, 0] : Fin 2 → Nat) a + S128x350.size a ≤ S128x350.size a
  h_S128x350 : 0 < S128x350.numel
  inb_S1x350_S1x350_0_0 : ∀ a, (![0, 0] : Fin 2 → Nat) a + S1x350.size a ≤ S1x350.size a
  h_S1x350 : 0 < S1x350.numel
  shapeCasts_S1x350_S1x350 : S1x350.ShapeCasts S1x350
  broadcasts_S1x350_S2000x350 : S1x350.Broadcasts S2000x350
  inb_S2000x350_S2000x350_0_0 : ∀ a, (![0, 0] : Fin 2 → Nat) a + S2000x350.size a ≤ S2000x350.size a
  h_S2000x350 : 0 < S2000x350.numel
  shapeCasts_S50000x350_S17500000 : S50000x350.ShapeCasts S17500000
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x350_S2000x350_1_0_0_1_n_n_wf : DotDims.WF S2000x128 S128x350 S2000x350 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x2000x64.size a ≤ S5x50000x64.size a
  hwx0_0 : ∀ i : grid0.Coords, EltTy.bits .f32 = 32 ∨ (Rect.block (s := S5x50000x64) S5x2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64x128.size a ≤ S5x64x128.size a
  hwx0_1 : ∀ i : grid0.Coords, EltTy.bits .f32 = 32 ∨ (Rect.block (s := S5x64x128) S5x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5x2000x128.size a ≤ S5x50000x128.size a
  hwx1_0 : ∀ i : grid1.Coords, EltTy.bits .f32 = 32 ∨ (Rect.block (s := S5x50000x128) S5x2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x128x128.size a ≤ S5x128x128.size a
  hwx1_1 : ∀ i : grid1.Coords, EltTy.bits .f32 = 32 ∨ (Rect.block (s := S5x128x128) S5x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5x2000x128.size a ≤ S5x50000x128.size a
  hwx2_0 : ∀ i : grid2.Coords, EltTy.bits .f32 = 32 ∨ (Rect.block (s := S5x50000x128) S5x2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5x128x350.size a ≤ S5x128x350.size a
  hwx2_1 : ∀ i : grid2.Coords, EltTy.bits .f32 = 32 ∨ (Rect.block (s := S5x128x350) S5x128x350.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x350.size a ≤ S1x350.size a
  hwx2_2 : ∀ i : grid2.Coords, EltTy.bits .f32 = 32 ∨ (Rect.block (s := S1x350) S1x350.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x350.size a ≤ S128x350.size a
  hwx2_3 : ∀ i : grid2.Coords, EltTy.bits .f32 = 32 ∨ (Rect.block (s := S128x350) S128x350.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x350.size a ≤ S1x350.size a
  hwx2_4 : ∀ i : grid2.Coords, EltTy.bits .f32 = 32 ∨ (Rect.block (s := S1x350) S1x350.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x350.size a ≤ S50000x350.size a
  hwx2_5 : ∀ i : grid2.Coords, EltTy.bits .f32 = 32 ∨ (Rect.block (s := S50000x350) S2000x350.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x350_S2000x350_1_0_0_1_n_n : DotDims S2000x128 S128x350 S2000x350 where
  lhsContracting := [1]
  rhsContracting := [0]
  lhsNonContracting := [0]
  rhsNonContracting := [1]
  lhsBatch := []
  rhsBatch := []
  wf := dot_S2000x128_S128x350_S2000x350_1_0_0_1_n_n_wf

abbrev win0_0 : Pipeline.Window sig grid0 :=
  Pipeline.Window.ofSpec (Memref.whole main_v98) S5x2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v99) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v100) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v101) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v168) S5x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S5x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v169) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v170) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v171) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v238) S5x2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S5x128x350.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v239) S1x350.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x350.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v240) S1x350.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v241) S2000x350.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S5x64x128 : Shape := ⟨3, ![5, 64, 128]⟩
abbrev S128 : Shape := ⟨1, ![128]⟩
abbrev S64x128 : Shape := ⟨2, ![64, 128]⟩
abbrev S5x128x128 : Shape := ⟨3, ![5, 128, 128]⟩
abbrev S128x128 : Shape := ⟨2, ![128, 128]⟩
abbrev S5x128x350 : Shape := ⟨3, ![5, 128, 350]⟩
abbrev S350 : Shape := ⟨1, ![350]⟩
abbrev S128x350 : Shape := ⟨2, ![128, 350]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x64x128 : Shape := ⟨3, ![1, 64, 128]⟩
abbrev S50000x128 : Shape := ⟨2, ![50000, 128]⟩
abbrev S800000x64 : Shape := ⟨2, ![800000, 64]⟩
abbrev S1x128 : Shape := ⟨2, ![1, 128]⟩
abbrev S1x128x128 : Shape := ⟨3, ![1, 128, 128]⟩
abbrev S800000x128 : Shape := ⟨2, ![800000, 128]⟩
abbrev S1x128x350 : Shape := ⟨3, ![1, 128, 350]⟩
abbrev S50000x350 : Shape := ⟨2, ![50000, 350]⟩
abbrev S1x350 : Shape := ⟨2, ![1, 350]⟩
abbrev S17500000 : Shape := ⟨1, ![17500000]⟩

abbrev nBuf : Space → Nat
  | .hbm => 377
  | .vmem => 0
  | .smem => 0
  | _ => 0

abbrev hbmTy0_0 (i : Nat) : BufTy := match i % 128 with
  | 0 => ⟨S50000x64, .f32⟩
  | 1 => ⟨S2x800000, .i32⟩
  | 2 => ⟨S5x64x128, .f32⟩
  | 3 => ⟨S128, .f32⟩
  | 4 => ⟨S64x128, .f32⟩
  | 5 => ⟨S128, .f32⟩
  | 6 => ⟨S5x128x128, .f32⟩
  | 7 => ⟨S128, .f32⟩
  | 8 => ⟨S128x128, .f32⟩
  | 9 => ⟨S128, .f32⟩
  | 10 => ⟨S5x128x350, .f32⟩
  | 11 => ⟨S350, .f32⟩
  | 12 => ⟨S128x350, .f32⟩
  | 13 => ⟨S350, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .i1⟩
  | 30 => ⟨S_, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S1x64x128, .f32⟩
  | 62 => ⟨S64x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .f32⟩
  | 73 => ⟨S800000x1, .f32⟩
  | 74 => ⟨S800000x64, .f32⟩
  | 75 => ⟨S800000x64, .f32⟩
  | 76 => ⟨S_, .f32⟩
  | 77 => ⟨S50000x64, .f32⟩
  | 78 => ⟨S800000x1, .i32⟩
  | 79 => ⟨S50000x64, .f32⟩
  | 80 => ⟨S1x64x128, .f32⟩
  | 81 => ⟨S64x128, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x1, .f32⟩
  | 94 => ⟨S800000x64, .f32⟩
  | 95 => ⟨S800000x64, .f32⟩
  | 96 => ⟨S_, .f32⟩
  | 97 => ⟨S50000x64, .f32⟩
  | 98 => ⟨S800000x1, .i32⟩
  | 99 => ⟨S50000x64, .f32⟩
  | 100 => ⟨S_, .f32⟩
  | 101 => ⟨S50000x64, .f32⟩
  | 102 => ⟨S50000x64, .f32⟩
  | 103 => ⟨S50000x64, .f32⟩
  | 104 => ⟨S1x64x128, .f32⟩
  | 105 => ⟨S64x128, .f32⟩
  | 106 => ⟨S50000x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S800000x1, .f32⟩
  | 118 => ⟨S800000x64, .f32⟩
  | 119 => ⟨S800000x64, .f32⟩
  | 120 => ⟨S_, .f32⟩
  | 121 => ⟨S50000x64, .f32⟩
  | 122 => ⟨S800000x1, .i32⟩
  | 123 => ⟨S50000x64, .f32⟩
  | 124 => ⟨S_, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S1x64x128, .f32⟩
  | 1 => ⟨S64x128, .f32⟩
  | 2 => ⟨S50000x128, .f32⟩
  | 3 => ⟨S50000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x64, .f32⟩
  | 13 => ⟨S800000x1, .f32⟩
  | 14 => ⟨S800000x64, .f32⟩
  | 15 => ⟨S800000x64, .f32⟩
  | 16 => ⟨S_, .f32⟩
  | 17 => ⟨S50000x64, .f32⟩
  | 18 => ⟨S800000x1, .i32⟩
  | 19 => ⟨S50000x64, .f32⟩
  | 20 => ⟨S_, .f32⟩
  | 21 => ⟨S50000x64, .f32⟩
  | 22 => ⟨S50000x64, .f32⟩
  | 23 => ⟨S50000x64, .f32⟩
  | 24 => ⟨S1x64x128, .f32⟩
  | 25 => ⟨S64x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S1x128x128, .f32⟩
  | 59 => ⟨S128x128, .f32⟩
  | 60 => ⟨S50000x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x1, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S1x128x128, .f32⟩
  | 83 => ⟨S128x128, .f32⟩
  | 84 => ⟨S50000x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S800000x1, .f32⟩
  | 96 => ⟨S800000x128, .f32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S1x128x128, .f32⟩
  | 107 => ⟨S128x128, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S800000x1, .f32⟩
  | 120 => ⟨S800000x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S_, .f32⟩
  | 127 => ⟨S50000x128, .f32⟩
  | _ => ⟨S50000x64, .f32⟩

abbrev hbmTy0_2 (i : Nat) : BufTy := match i % 128 with
  | 0 => ⟨S50000x128, .f32⟩
  | 1 => ⟨S50000x128, .f32⟩
  | 2 => ⟨S1x128x128, .f32⟩
  | 3 => ⟨S128x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S1x128x350, .f32⟩
  | 18 => ⟨S128x350, .f32⟩
  | 19 => ⟨S50000x350, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S800000x1, .f32⟩
  | 30 => ⟨S800000x128, .f32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S1x128x350, .f32⟩
  | 37 => ⟨S128x350, .f32⟩
  | 38 => ⟨S50000x350, .f32⟩
  | 39 => ⟨S50000x350, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x1, .f32⟩
  | 50 => ⟨S800000x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S_, .f32⟩
  | 57 => ⟨S50000x128, .f32⟩
  | 58 => ⟨S50000x128, .f32⟩
  | 59 => ⟨S50000x128, .f32⟩
  | 60 => ⟨S1x128x350, .f32⟩
  | 61 => ⟨S128x350, .f32⟩
  | 62 => ⟨S50000x350, .f32⟩
  | 63 => ⟨S50000x350, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x1, .f32⟩
  | 74 => ⟨S800000x128, .f32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S1x128x350, .f32⟩
  | 85 => ⟨S128x350, .f32⟩
  | 86 => ⟨S50000x350, .f32⟩
  | 87 => ⟨S50000x350, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x1, .f32⟩
  | 98 => ⟨S800000x128, .f32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S1x128x350, .f32⟩
  | 109 => ⟨S128x350, .f32⟩
  | 110 => ⟨S50000x350, .f32⟩
  | 111 => ⟨S50000x350, .f32⟩
  | 112 => ⟨S1x350, .f32⟩
  | 113 => ⟨S50000x350, .f32⟩
  | 114 => ⟨S50000x350, .f32⟩
  | 115 => ⟨S50000x350, .f32⟩
  | 116 => ⟨S50000x350, .f32⟩
  | 117 => ⟨S1x350, .f32⟩
  | 118 => ⟨S50000x350, .f32⟩
  | 119 => ⟨S50000x350, .f32⟩
  | 120 => ⟨S17500000, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_6 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_7 : Ref sig .tc := ⟨.hbm, 51, rfl⟩
abbrev main_v24 : Ref sig .tc := ⟨.hbm, 52, rfl⟩
abbrev main_v25 : Ref sig .tc := ⟨.hbm, 53, rfl⟩
abbrev main_c_8 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_9 : Ref sig .tc := ⟨.hbm, 64, rfl⟩
abbrev main_v35 : Ref sig .tc := ⟨.hbm, 65, rfl⟩
abbrev main_v36 : Ref sig .tc := ⟨.hbm, 66, rfl⟩
abbrev main_c_10 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_v52 : Ref sig .tc := ⟨.hbm, 85, rfl⟩
abbrev main_v53 : Ref sig .tc := ⟨.hbm, 86, rfl⟩
abbrev main_c_13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_20 : Ref sig .tc := ⟨.hbm, 132, rfl⟩
abbrev main_v92 : Ref sig .tc := ⟨.hbm, 133, rfl⟩
abbrev main_v93 : Ref sig .tc := ⟨.hbm, 134, rfl⟩
abbrev main_c_21 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_22 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_23 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_call2_cst : Ref sig .tc := ⟨.hbm, 164, rfl⟩
abbrev main_call2_v0 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_c_24 : Ref sig .tc := ⟨.hbm, 170, rfl⟩
abbrev main_v124 : Ref sig .tc := ⟨.hbm, 171, rfl⟩
abbrev main_v125 : Ref sig .tc := ⟨.hbm, 172, rfl⟩
abbrev main_c_25 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_26 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_c_27 : Ref sig .tc := ⟨.hbm, 190, rfl⟩
abbrev main_v141 : Ref sig .tc := ⟨.hbm, 191, rfl⟩
abbrev main_v142 : Ref sig .tc := ⟨.hbm, 192, rfl⟩
abbrev main_c_28 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_29 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_30 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_c_31 : Ref sig .tc := ⟨.hbm, 214, rfl⟩
abbrev main_v161 : Ref sig .tc := ⟨.hbm, 215, rfl⟩
abbrev main_v162 : Ref sig .tc := ⟨.hbm, 216, rfl⟩
abbrev main_c_32 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_33 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_cst_34 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_c_35 : Ref sig .tc := ⟨.hbm, 238, rfl⟩
abbrev main_v181 : Ref sig .tc := ⟨.hbm, 239, rfl⟩
abbrev main_v182 : Ref sig .tc := ⟨.hbm, 240, rfl⟩
abbrev main_c_36 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_cst_37 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_cst_38 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_call3_cst : Ref sig .tc := ⟨.hbm, 270, rfl⟩
abbrev main_call3_v0 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_c_39 : Ref sig .tc := ⟨.hbm, 276, rfl⟩
abbrev main_v213 : Ref sig .tc := ⟨.hbm, 277, rfl⟩
abbrev main_v214 : Ref sig .tc := ⟨.hbm, 278, rfl⟩
abbrev main_c_40 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_cst_41 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_c_42 : Ref sig .tc := ⟨.hbm, 296, rfl⟩
abbrev main_v230 : Ref sig .tc := ⟨.hbm, 297, rfl⟩
abbrev main_v231 : Ref sig .tc := ⟨.hbm, 298, rfl⟩
abbrev main_c_43 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_cst_44 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_cst_45 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_c_46 : Ref sig .tc := ⟨.hbm, 320, rfl⟩
abbrev main_v250 : Ref sig .tc := ⟨.hbm, 321, rfl⟩
abbrev main_v251 : Ref sig .tc := ⟨.hbm, 322, rfl⟩
abbrev main_c_47 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_cst_48 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_cst_49 : Ref sig .tc := ⟨.hbm, 336, rfl⟩
abbrev main_v263 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_c_50 : Ref sig .tc := ⟨.hbm, 344, rfl⟩
abbrev main_v270 : Ref sig .tc := ⟨.hbm, 345, rfl⟩
abbrev main_v271 : Ref sig .tc := ⟨.hbm, 346, rfl⟩
abbrev main_c_51 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_cst_52 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_cst_53 : Ref sig .tc := ⟨.hbm, 360, rfl⟩
abbrev main_v283 : Ref sig .tc := ⟨.hbm, 361, rfl⟩
abbrev main_v284 : Ref sig .tc := ⟨.hbm, 362, rfl⟩
abbrev main_v285 : Ref sig .tc := ⟨.hbm, 363, rfl⟩
abbrev main_v286 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S5x64x128_S1x64x128_0_0_0 : S5x64x128.Slices ![0, 0, 0] S1x64x128
  shapeCasts_S1x64x128_S64x128 : S1x64x128.ShapeCasts S64x128
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S5x64x128_S1x64x128_1_0_0 : S5x64x128.Slices ![1, 0, 0] S1x64x128
  slices_S5x64x128_S1x64x128_2_0_0 : S5x64x128.Slices ![2, 0, 0] S1x64x128
  slices_S5x64x128_S1x64x128_3_0_0 : S5x64x128.Slices ![3, 0, 0] S1x64x128
  slices_S5x64x128_S1x64x128_4_0_0 : S5x64x128.Slices ![4, 0, 0] S1x64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  slices_S5x128x128_S1x128x128_1_0_0 : S5x128x128.Slices ![1, 0, 0] S1x128x128
  slices_S5x128x128_S1x128x128_2_0_0 : S5x128x128.Slices ![2, 0, 0] S1x128x128
  slices_S5x128x128_S1x128x128_3_0_0 : S5x128x128.Slices ![3, 0, 0] S1x128x128
  slices_S5x128x128_S1x128x128_4_0_0 : S5x128x128.Slices ![4, 0, 0] S1x128x128
  slices_S5x128x350_S1x128x350_0_0_0 : S5x128x350.Slices ![0, 0, 0] S1x128x350
  shapeCasts_S1x128x350_S128x350 : S1x128x350.ShapeCasts S128x350
  slices_S5x128x350_S1x128x350_1_0_0 : S5x128x350.Slices ![1, 0, 0] S1x128x350
  slices_S5x128x350_S1x128x350_2_0_0 : S5x128x350.Slices ![2, 0, 0] S1x128x350
  slices_S5x128x350_S1x128x350_3_0_0 : S5x128x350.Slices ![3, 0, 0] S1x128x350
  slices_S5x128x350_S1x128x350_4_0_0 : S5x128x350.Slices ![4, 0, 0] S1x128x350
  bcast_S350_S1x350_1 : S350.BroadcastsInDim S1x350 (![1] : Fin 1 → Fin S1x350.rank)
  bcast_S1x350_S50000x350_0_1 : S1x350.BroadcastsInDim S50000x350 (![0, 1] : Fin 2 → Fin S50000x350.rank)
  shapeCasts_S50000x350_S17500000 : S50000x350.ShapeCasts S17500000
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x128_S50000x128_1_0_0_1_n_n_wf : DotDims.WF S50000x64 S64x128 S50000x128 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x350_S50000x350_1_0_0_1_n_n_wf : DotDims.WF S50000x128 S128x350 S50000x350 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x350_S50000x350_1_0_0_1_n_n : DotDims S50000x128 S128x350 S50000x350 where
  lhsContracting := [1]
  rhsContracting := [0]
  lhsNonContracting := [0]
  rhsNonContracting := [1]
  lhsBatch := []
  rhsBatch := []
  wf := dot_S50000x128_S128x350_S50000x350_1_0_0_1_n_n_wf

class Facts : Prop extends Facts₀ where

variable [Facts]
-- ==== Proof.BitsLayer0.lean ====
import proofs.«162653_j26706106646651_1_alg».proof.Proof.Gen.Kernel.Launch
import proofs.«162653_j26706106646651_1_alg».proof.Proof.Gen.Kernel.Skeleton
import proofs.«162653_j26706106646651_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 0: one grid point of the fused Chebyshev layer

The layer's kernel is launched over 25 row tiles of 2000 nodes. At a tile it is handed the tile's rows of the five
stacked Chebyshev terms `T_0 … T_4` (window 0, a `5 × 2000 × 64` block), and — the same at every tile — the five
filter matrices `W_0 … W_4` (window 1), the filter bias (window 2), the residual matrix `W_l` (window 3) and the
residual bias (window 4). It writes the tile's `2000 × 128` rows of

  `max(((((((0 + T_0·W_0) + T_1·W_1) + T_2·W_2) + T_3·W_3) + T_4·W_4) + T_0·W_l) + b_c + b_l, 0)`

(window 5) and touches nothing else. This file states what the output tile holds after the body as a function of the
five input blocks (`tileOut`), proves that the body computes exactly that and gives the input blocks back unchanged
(`body_sound`), and packages it as the per-point obligation of the pipelined launch, for any contents `V` the region
may find in the device's buffers when it is entered.
-/

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the layer's region is entered
variable (V : (c : Dev nD) → (b : Ref sig .tc) → Buf (Elt F) ((c : Thread nD τ).loc b))

/-! ## The blocks a grid point sees -/

/-- Window `w`'s block at grid point `t`: the part of the window's array (as the region finds it) that the point's
    index map selects — for window 0 rows `2000·t … 2000·t + 1999` of every Chebyshev term, for windows 1–4 the whole
    array. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds that window's block of the entry contents at every grid point, whether
    the point fetches it or not (an unfetched block's index has not moved since the last fetch). -/
theorem before0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds that window's block of the entry contents at every grid point, whether
    the point fetches it or not (an unfetched block's index has not moved since the last fetch). -/
theorem before1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds that window's block of the entry contents at every grid point, whether
    the point fetches it or not (an unfetched block's index has not moved since the last fetch). -/
theorem before2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds that window's block of the entry contents at every grid point, whether
    the point fetches it or not (an unfetched block's index has not moved since the last fetch). -/
theorem before3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds that window's block of the entry contents at every grid point, whether
    the point fetches it or not (an unfetched block's index has not moved since the last fetch). -/
theorem before4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output tile -/

/-- The whole output tile, the one rectangle the body stores through. -/
abbrev outRect : Rect S2000x128 := Rect.unit (s := S2000x128) ![0, 0] S2000x128.size inb_S2000x128_S2000x128_0_0

/-- The output tile after the body, from the five input blocks: the single store's value — the accumulated products of
    term `k`'s rows (slab `k` of `x0`) with filter `k` (slab `k` of `x1`), the residual product of term 0's rows with
    `x3`, and the two biases `x2`, `x4` — written over the whole tile. -/
def tileOut (x0 : Vec F S5x2000x64 .f32) (x1 : Vec F S5x64x128 .f32) (x2 : Vec F S1x128 .f32) (x3 : Vec F S64x128 .f32) (x4 : Vec F S1x128 .f32) : Vec F S2000x128 .f32 :=
  View.canon [⟨outRect, k0_pay1
    (k0_pay2 (View.ld x0 (Rect.unit (s := S5x2000x64) ![0, 0, 0] S1x2000x64.size inb_S5x2000x64_S1x2000x64_0_0_0)) (View.ld x1 (Rect.unit (s := S5x64x128) ![0, 0, 0] S1x64x128.size inb_S5x64x128_S1x64x128_0_0_0)) (View.ld x0 (Rect.unit (s := S5x2000x64) ![1, 0, 0] S1x2000x64.size inb_S5x2000x64_S1x2000x64_1_0_0)) (View.ld x1 (Rect.unit (s := S5x64x128) ![1, 0, 0] S1x64x128.size inb_S5x64x128_S1x64x128_1_0_0)) (View.ld x0 (Rect.unit (s := S5x2000x64) ![2, 0, 0] S1x2000x64.size inb_S5x2000x64_S1x2000x64_2_0_0)) (View.ld x1 (Rect.unit (s := S5x64x128) ![2, 0, 0] S1x64x128.size inb_S5x64x128_S1x64x128_2_0_0)))
    (k0_pay3 (View.ld x0 (Rect.unit (s := S5x2000x64) ![3, 0, 0] S1x2000x64.size inb_S5x2000x64_S1x2000x64_3_0_0))) (k0_pay4 (View.ld x1 (Rect.unit (s := S5x64x128) ![3, 0, 0] S1x64x128.size inb_S5x64x128_S1x64x128_3_0_0)))
    (View.ld x0 (Rect.unit (s := S5x2000x64) ![4, 0, 0] S1x2000x64.size inb_S5x2000x64_S1x2000x64_4_0_0)) (View.ld x1 (Rect.unit (s := S5x64x128) ![4, 0, 0] S1x64x128.size inb_S5x64x128_S1x64x128_4_0_0)) (View.ld x0 (Rect.unit (s := S5x2000x64) ![0, 0, 0] S1x2000x64.size inb_S5x2000x64_S1x2000x64_0_0_0)) (View.ld x3 (Rect.unit (s := S64x128) ![0, 0] S64x128.size inb_S64x128_S64x128_0_0)) (View.ld x2 (Rect.unit (s := S1x128) ![0, 0] S1x128.size inb_S1x128_S1x128_0_0)) (View.ld x4 (Rect.unit (s := S1x128) ![0, 0] S1x128.size inb_S1x128_S1x128_0_0))⟩]

/-- That one store covers the tile: its rectangle is the whole tile. -/
theorem tile_covered (p : Vec F S2000x128 .f32) (y : S2000x128.Idx) :
    ∃ pc ∈ ([⟨outRect, p⟩] : List (View.Piece (Elt F) S2000x128 .f32)), y ∈ pc.1.set :=
  View.cover_of_tiled [⟨outRect, p⟩] S2000x128.size (by rfl) y

/-! ## The body computes `tileOut` and gives its inputs back -/

set_option maxHeartbeats 4000000 in
/-- Run on whole staging buffers — the five inputs holding `x0 … x4`, the output holding anything — the body ends
    with the inputs as they were and the output at `tileOut x0 … x4`. -/
theorem body_sound (c : Dev nD) (E : Set ℕ) (i : grid0.Coords) (arg1 : Memref sig .tc .vmem S5x2000x64 .f32) (harg1 : arg1.IsWhole) (arg2 : Memref sig .tc .vmem S5x64x128 .f32) (harg2 : arg2.IsWhole) (arg3 : Memref sig .tc .vmem S1x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2000x128 .f32) (harg6 : arg6.IsWhole)
    (x0 : Vec F S5x2000x64 .f32) (x1 : Vec F S5x64x128 .f32) (x2 : Vec F S1x128 .f32) (x3 : Vec F S64x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tileOut x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_covered _)

/-! ## The launch's bookkeeping for this layer -/

/-- What the pipelined launch is told about this layer on core `c`: the arrays are the entry contents `V`; after the
    body at point `t` every input buffer still holds its block and the output buffer holds `tileOut` of the point's
    blocks; nothing else of the core is touched and nothing is owed to another core. -/
def layerDat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => tileOut (blockAt V c 0 t) (blockAt V c 1 t) (blockAt V c 2 t) (blockAt V c 3 t) (blockAt V c 4 t)
  Φ _ := Pipeline.ΦA spec0 c
  q _ := fullShare
  owed _ := 0

theorem A_eq (c : Dev nD) (w : Fin cfg0.W) : (layerDat V c).A w = V c (Pipeline.arrRef spec0 w) := by
  dsimp only [layerDat]

theorem after0 (c : Dev nD) (t : Fin cfg0.N) : (layerDat V c).after 0 t = blockAt V c 0 t := by dsimp only [layerDat]
theorem after1 (c : Dev nD) (t : Fin cfg0.N) : (layerDat V c).after 1 t = blockAt V c 1 t := by dsimp only [layerDat]
theorem after2 (c : Dev nD) (t : Fin cfg0.N) : (layerDat V c).after 2 t = blockAt V c 2 t := by dsimp only [layerDat]
theorem after3 (c : Dev nD) (t : Fin cfg0.N) : (layerDat V c).after 3 t = blockAt V c 3 t := by dsimp only [layerDat]
theorem after4 (c : Dev nD) (t : Fin cfg0.N) : (layerDat V c).after 4 t = blockAt V c 4 t := by dsimp only [layerDat]
theorem after5 (c : Dev nD) (t : Fin cfg0.N) : (layerDat V c).after 5 t = tileOut (blockAt V c 0 t) (blockAt V c 1 t) (blockAt V c 2 t) (blockAt V c 3 t) (blockAt V c 4 t) := by dsimp only [layerDat]

theorem before0 (c : Dev nD) (t : Fin cfg0.N) (d) : (layerDat V c).before 0 t d = blockAt V c 0 t :=
  before0_of V (layerDat V c) (A_eq V c 0) (after0 V c) t d
theorem before1 (c : Dev nD) (t : Fin cfg0.N) (d) : (layerDat V c).before 1 t d = blockAt V c 1 t :=
  before1_of V (layerDat V c) (A_eq V c 1) (after1 V c) t d
theorem before2 (c : Dev nD) (t : Fin cfg0.N) (d) : (layerDat V c).before 2 t d = blockAt V c 2 t :=
  before2_of V (layerDat V c) (A_eq V c 2) (after2 V c) t d
theorem before3 (c : Dev nD) (t : Fin cfg0.N) (d) : (layerDat V c).before 3 t d = blockAt V c 3 t :=
  before3_of V (layerDat V c) (A_eq V c 3) (after3 V c) t d
theorem before4 (c : Dev nD) (t : Fin cfg0.N) (d) : (layerDat V c).before 4 t d = blockAt V c 4 t :=
  before4_of V (layerDat V c) (A_eq V c 4) (after4 V c) t d

/-! ## The per-point obligation -/

/-- What the body is handed at point `t`: the untouched rest of the core, and each window's current staging buffer. -/
def pointPre (c : Dev nD) (t : Fin cfg0.N) : sProp 𝕄 :=
  iprop((layerDat V c).Φ t.castSucc ∗ (layerDat V c).owesAt () t.castSucc
    ∗ (∃ d, owns (c : Thread nD τ) (st0_0 t) fullShare ((layerDat V c).before 0 t d))
    ∗ (∃ d, owns (c : Thread nD τ) (st0_1 t) fullShare ((layerDat V c).before 1 t d))
    ∗ (∃ d, owns (c : Thread nD τ) (st0_2 t) fullShare ((layerDat V c).before 2 t d))
    ∗ (∃ d, owns (c : Thread nD τ) (st0_3 t) fullShare ((layerDat V c).before 3 t d))
    ∗ (∃ d, owns (c : Thread nD τ) (st0_4 t) fullShare ((layerDat V c).before 4 t d))
    ∗ (∃ d, owns (c : Thread nD τ) (st0_5 t) fullShare ((layerDat V c).before 5 t d)))

/-- and what it hands back. -/
def pointPost (c : Dev nD) (t : Fin cfg0.N) : sProp 𝕄 :=
  iprop((layerDat V c).Φ t.succ ∗ (layerDat V c).owesAt () t.succ
    ∗ owns (c : Thread nD τ) (st0_0 t) fullShare ((layerDat V c).after 0 t)
    ∗ owns (c : Thread nD τ) (st0_1 t) fullShare ((layerDat V c).after 1 t)
    ∗ owns (c : Thread nD τ) (st0_2 t) fullShare ((layerDat V c).after 2 t)
    ∗ owns (c : Thread nD τ) (st0_3 t) fullShare ((layerDat V c).after 3 t)
    ∗ owns (c : Thread nD τ) (st0_4 t) fullShare ((layerDat V c).after 4 t)
    ∗ owns (c : Thread nD τ) (st0_5 t) fullShare ((layerDat V c).after 5 t))

set_option maxHeartbeats 1000000 in
/-- The body at any grid point: its input buffers hold the point's blocks, so `body_sound` applies. -/
theorem point_sound (c : Dev nD) (t : Fin cfg0.N) :
    pointPre V c t ⊢ wp frame (wpE (defs₀ (F := F)) Variants.none c none) Set.univ (bodyAt0 t) (fun _ => pointPost V c t) := by
  unfold pointPre pointPost bodyAt0
  simp only [before0, before1, before2, before3, before4]
  rw [show (layerDat V c).Φ t.succ = (layerDat V c).Φ t.castSucc from rfl,
    show (layerDat V c).owesAt () t.succ = (layerDat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_sound c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation for this layer, at every grid point. -/
theorem layer_obligation (c : Dev nD) : BodyObligation (layerDat (F := F) V c) (defs₀ (F := F)) Variants.none () Set.univ := fun t => by
  rw [bigSep_W0, bigSep_W0]
  exact point_sound V c t

end Cert.Kernel.Layer0

end
-- ==== Proof.BitsLayer1.lean ====
import proofs.«162653_j26706106646651_1_alg».proof.Proof.Gen.Kernel.Launch
import proofs.«162653_j26706106646651_1_alg».proof.Proof.Gen.Kernel.Skeleton
import proofs.«162653_j26706106646651_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 1: one grid point of the fused Chebyshev layer

The layer's kernel is launched over 25 row tiles of 2000 nodes. At a tile it is handed the tile's rows of the five
stacked Chebyshev terms `T_0 … T_4` (window 0, a `5 × 2000 × 128` block), and — the same at every tile — the five
filter matrices `W_0 … W_4` (window 1), the filter bias (window 2), the residual matrix `W_l` (window 3) and the
residual bias (window 4). It writes the tile's `2000 × 128` rows of

  `max(((((((0 + T_0·W_0) + T_1·W_1) + T_2·W_2) + T_3·W_3) + T_4·W_4) + T_0·W_l) + b_c + b_l, 0)`

(window 5) and touches nothing else. This file states what the output tile holds after the body as a function of the
five input blocks (`tileOut`), proves that the body computes exactly that and gives the input blocks back unchanged
(`body_sound`), and packages it as the per-point obligation of the pipelined launch, for any contents `V` the region
may find in the device's buffers when it is entered.
-/

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the layer's region is entered
variable (V : (c : Dev nD) → (b : Ref sig .tc) → Buf (Elt F) ((c : Thread nD τ).loc b))

/-! ## The blocks a grid point sees -/

/-- Window `w`'s block at grid point `t`: the part of the window's array (as the region finds it) that the point's
    index map selects — for window 0 rows `2000·t … 2000·t + 1999` of every Chebyshev term, for windows 1–4 the whole
    array. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds that window's block of the entry contents at every grid point, whether
    the point fetches it or not (an unfetched block's index has not moved since the last fetch). -/
theorem before0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds that window's block of the entry contents at every grid point, whether
    the point fetches it or not (an unfetched block's index has not moved since the last fetch). -/
theorem before1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds that window's block of the entry contents at every grid point, whether
    the point fetches it or not (an unfetched block's index has not moved since the last fetch). -/
theorem before2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds that window's block of the entry contents at every grid point, whether
    the point fetches it or not (an unfetched block's index has not moved since the last fetch). -/
theorem before3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds that window's block of the entry contents at every grid point, whether
    the point fetches it or not (an unfetched block's index has not moved since the last fetch). -/
theorem before4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output tile -/

/-- The whole output tile, the one rectangle the body stores through. -/
abbrev outRect : Rect S2000x128 := Rect.unit (s := S2000x128) ![0, 0] S2000x128.size inb_S2000x128_S2000x128_0_0

/-- The output tile after the body, from the five input blocks: the single store's value — the accumulated products of
    term `k`'s rows (slab `k` of `x0`) with filter `k` (slab `k` of `x1`), the residual product of term 0's rows with
    `x3`, and the two biases `x2`, `x4` — written over the whole tile. -/
def tileOut (x0 : Vec F S5x2000x128 .f32) (x1 : Vec F S5x128x128 .f32) (x2 : Vec F S1x128 .f32) (x3 : Vec F S128x128 .f32) (x4 : Vec F S1x128 .f32) : Vec F S2000x128 .f32 :=
  View.canon [⟨outRect, k1_pay1
    (k1_pay2 (View.ld x0 (Rect.unit (s := S5x2000x128) ![0, 0, 0] S1x2000x128.size inb_S5x2000x128_S1x2000x128_0_0_0)) (View.ld x1 (Rect.unit (s := S5x128x128) ![0, 0, 0] S1x128x128.size inb_S5x128x128_S1x128x128_0_0_0)) (View.ld x0 (Rect.unit (s := S5x2000x128) ![1, 0, 0] S1x2000x128.size inb_S5x2000x128_S1x2000x128_1_0_0)) (View.ld x1 (Rect.unit (s := S5x128x128) ![1, 0, 0] S1x128x128.size inb_S5x128x128_S1x128x128_1_0_0)) (View.ld x0 (Rect.unit (s := S5x2000x128) ![2, 0, 0] S1x2000x128.size inb_S5x2000x128_S1x2000x128_2_0_0)) (View.ld x1 (Rect.unit (s := S5x128x128) ![2, 0, 0] S1x128x128.size inb_S5x128x128_S1x128x128_2_0_0)))
    (k1_pay3 (View.ld x0 (Rect.unit (s := S5x2000x128) ![3, 0, 0] S1x2000x128.size inb_S5x2000x128_S1x2000x128_3_0_0))) (k1_pay4 (View.ld x1 (Rect.unit (s := S5x128x128) ![3, 0, 0] S1x128x128.size inb_S5x128x128_S1x128x128_3_0_0)))
    (View.ld x0 (Rect.unit (s := S5x2000x128) ![4, 0, 0] S1x2000x128.size inb_S5x2000x128_S1x2000x128_4_0_0)) (View.ld x1 (Rect.unit (s := S5x128x128) ![4, 0, 0] S1x128x128.size inb_S5x128x128_S1x128x128_4_0_0)) (View.ld x0 (Rect.unit (s := S5x2000x128) ![0, 0, 0] S1x2000x128.size inb_S5x2000x128_S1x2000x128_0_0_0)) (View.ld x3 (Rect.unit (s := S128x128) ![0, 0] S128x128.size inb_S128x128_S128x128_0_0)) (View.ld x2 (Rect.unit (s := S1x128) ![0, 0] S1x128.size inb_S1x128_S1x128_0_0)) (View.ld x4 (Rect.unit (s := S1x128) ![0, 0] S1x128.size inb_S1x128_S1x128_0_0))⟩]

/-- That one store covers the tile: its rectangle is the whole tile. -/
theorem tile_covered (p : Vec F S2000x128 .f32) (y : S2000x128.Idx) :
    ∃ pc ∈ ([⟨outRect, p⟩] : List (View.Piece (Elt F) S2000x128 .f32)), y ∈ pc.1.set :=
  View.cover_of_tiled [⟨outRect, p⟩] S2000x128.size (by rfl) y

/-! ## The body computes `tileOut` and gives its inputs back -/

set_option maxHeartbeats 4000000 in
/-- Run on whole staging buffers — the five inputs holding `x0 … x4`, the output holding anything — the body ends
    with the inputs as they were and the output at `tileOut x0 … x4`. -/
theorem body_sound (c : Dev nD) (E : Set ℕ) (i : grid1.Coords) (arg1 : Memref sig .tc .vmem S5x2000x128 .f32) (harg1 : arg1.IsWhole) (arg2 : Memref sig .tc .vmem S5x128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S5x2000x128 .f32) (x1 : Vec F S5x128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tileOut x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_covered _)

/-! ## The launch's bookkeeping for this layer -/

/-- What the pipelined launch is told about this layer on core `c`: the arrays are the entry contents `V`; after the
    body at point `t` every input buffer still holds its block and the output buffer holds `tileOut` of the point's
    blocks; nothing else of the core is touched and nothing is owed to another core. -/
def layerDat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => tileOut (blockAt V c 0 t) (blockAt V c 1 t) (blockAt V c 2 t) (blockAt V c 3 t) (blockAt V c 4 t)
  Φ _ := Pipeline.ΦA spec1 c
  q _ := fullShare
  owed _ := 0

theorem A_eq (c : Dev nD) (w : Fin cfg1.W) : (layerDat V c).A w = V c (Pipeline.arrRef spec1 w) := by
  dsimp only [layerDat]

theorem after0 (c : Dev nD) (t : Fin cfg1.N) : (layerDat V c).after 0 t = blockAt V c 0 t := by dsimp only [layerDat]
theorem after1 (c : Dev nD) (t : Fin cfg1.N) : (layerDat V c).after 1 t = blockAt V c 1 t := by dsimp only [layerDat]
theorem after2 (c : Dev nD) (t : Fin cfg1.N) : (layerDat V c).after 2 t = blockAt V c 2 t := by dsimp only [layerDat]
theorem after3 (c : Dev nD) (t : Fin cfg1.N) : (layerDat V c).after 3 t = blockAt V c 3 t := by dsimp only [layerDat]
theorem after4 (c : Dev nD) (t : Fin cfg1.N) : (layerDat V c).after 4 t = blockAt V c 4 t := by dsimp only [layerDat]
theorem after5 (c : Dev nD) (t : Fin cfg1.N) : (layerDat V c).after 5 t = tileOut (blockAt V c 0 t) (blockAt V c 1 t) (blockAt V c 2 t) (blockAt V c 3 t) (blockAt V c 4 t) := by dsimp only [layerDat]

theorem before0 (c : Dev nD) (t : Fin cfg1.N) (d) : (layerDat V c).before 0 t d = blockAt V c 0 t :=
  before0_of V (layerDat V c) (A_eq V c 0) (after0 V c) t d
theorem before1 (c : Dev nD) (t : Fin cfg1.N) (d) : (layerDat V c).before 1 t d = blockAt V c 1 t :=
  before1_of V (layerDat V c) (A_eq V c 1) (after1 V c) t d
theorem before2 (c : Dev nD) (t : Fin cfg1.N) (d) : (layerDat V c).before 2 t d = blockAt V c 2 t :=
  before2_of V (layerDat V c) (A_eq V c 2) (after2 V c) t d
theorem before3 (c : Dev nD) (t : Fin cfg1.N) (d) : (layerDat V c).before 3 t d = blockAt V c 3 t :=
  before3_of V (layerDat V c) (A_eq V c 3) (after3 V c) t d
theorem before4 (c : Dev nD) (t : Fin cfg1.N) (d) : (layerDat V c).before 4 t d = blockAt V c 4 t :=
  before4_of V (layerDat V c) (A_eq V c 4) (after4 V c) t d

/-! ## The per-point obligation -/

/-- What the body is handed at point `t`: the untouched rest of the core, and each window's current staging buffer. -/
def pointPre (c : Dev nD) (t : Fin cfg1.N) : sProp 𝕄 :=
  iprop((layerDat V c).Φ t.castSucc ∗ (layerDat V c).owesAt () t.castSucc
    ∗ (∃ d, owns (c : Thread nD τ) (st1_0 t) fullShare ((layerDat V c).before 0 t d))
    ∗ (∃ d, owns (c : Thread nD τ) (st1_1 t) fullShare ((layerDat V c).before 1 t d))
    ∗ (∃ d, owns (c : Thread nD τ) (st1_2 t) fullShare ((layerDat V c).before 2 t d))
    ∗ (∃ d, owns (c : Thread nD τ) (st1_3 t) fullShare ((layerDat V c).before 3 t d))
    ∗ (∃ d, owns (c : Thread nD τ) (st1_4 t) fullShare ((layerDat V c).before 4 t d))
    ∗ (∃ d, owns (c : Thread nD τ) (st1_5 t) fullShare ((layerDat V c).before 5 t d)))

/-- and what it hands back. -/
def pointPost (c : Dev nD) (t : Fin cfg1.N) : sProp 𝕄 :=
  iprop((layerDat V c).Φ t.succ ∗ (layerDat V c).owesAt () t.succ
    ∗ owns (c : Thread nD τ) (st1_0 t) fullShare ((layerDat V c).after 0 t)
    ∗ owns (c : Thread nD τ) (st1_1 t) fullShare ((layerDat V c).after 1 t)
    ∗ owns (c : Thread nD τ) (st1_2 t) fullShare ((layerDat V c).after 2 t)
    ∗ owns (c : Thread nD τ) (st1_3 t) fullShare ((layerDat V c).after 3 t)
    ∗ owns (c : Thread nD τ) (st1_4 t) fullShare ((layerDat V c).after 4 t)
    ∗ owns (c : Thread nD τ) (st1_5 t) fullShare ((layerDat V c).after 5 t))

set_option maxHeartbeats 1000000 in
/-- The body at any grid point: its input buffers hold the point's blocks, so `body_sound` applies. -/
theorem point_sound (c : Dev nD) (t : Fin cfg1.N) :
    pointPre V c t ⊢ wp frame (wpE (defs₀ (F := F)) Variants.none c none) Set.univ (bodyAt1 t) (fun _ => pointPost V c t) := by
  unfold pointPre pointPost bodyAt1
  simp only [before0, before1, before2, before3, before4]
  rw [show (layerDat V c).Φ t.succ = (layerDat V c).Φ t.castSucc from rfl,
    show (layerDat V c).owesAt () t.succ = (layerDat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_sound c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation for this layer, at every grid point. -/
theorem layer_obligation (c : Dev nD) : BodyObligation (layerDat (F := F) V c) (defs₀ (F := F)) Variants.none () Set.univ := fun t => by
  rw [bigSep_W1, bigSep_W1]
  exact point_sound V c t

end Cert.Kernel.Layer1

end
-- ==== Proof.BitsLayer2.lean ====
import proofs.«162653_j26706106646651_1_alg».proof.Proof.Gen.Kernel.Launch
import proofs.«162653_j26706106646651_1_alg».proof.Proof.Gen.Kernel.Skeleton
import proofs.«162653_j26706106646651_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 2: one grid point of the fused Chebyshev layer

The layer's kernel is launched over 25 row tiles of 2000 nodes. At a tile it is handed the tile's rows of the five
stacked Chebyshev terms `T_0 … T_4` (window 0, a `5 × 2000 × 128` block), and — the same at every tile — the five
filter matrices `W_0 … W_4` (window 1), the filter bias (window 2), the residual matrix `W_l` (window 3) and the
residual bias (window 4). It writes the tile's `2000 × 350` rows of

  `((((((0 + T_0·W_0) + T_1·W_1) + T_2·W_2) + T_3·W_3) + T_4·W_4) + T_0·W_l) + b_c + b_l`

(window 5) and touches nothing else. This file states what the output tile holds after the body as a function of the
five input blocks (`tileOut`), proves that the body computes exactly that and gives the input blocks back unchanged
(`body_sound`), and packages it as the per-point obligation of the pipelined launch, for any contents `V` the region
may find in the device's buffers when it is entered.
-/

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the layer's region is entered
variable (V : (c : Dev nD) → (b : Ref sig .tc) → Buf (Elt F) ((c : Thread nD τ).loc b))

/-! ## The blocks a grid point sees -/

/-- Window `w`'s block at grid point `t`: the part of the window's array (as the region finds it) that the point's
    index map selects — for window 0 rows `2000·t … 2000·t + 1999` of every Chebyshev term, for windows 1–4 the whole
    array. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds that window's block of the entry contents at every grid point, whether
    the point fetches it or not (an unfetched block's index has not moved since the last fetch). -/
theorem before0_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds that window's block of the entry contents at every grid point, whether
    the point fetches it or not (an unfetched block's index has not moved since the last fetch). -/
theorem before1_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds that window's block of the entry contents at every grid point, whether
    the point fetches it or not (an unfetched block's index has not moved since the last fetch). -/
theorem before2_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds that window's block of the entry contents at every grid point, whether
    the point fetches it or not (an unfetched block's index has not moved since the last fetch). -/
theorem before3_of {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds that window's block of the entry contents at every grid point, whether
    the point fetches it or not (an unfetched block's index has not moved since the last fetch). -/
theorem before4_of {c : Dev nD} (dat : Dat τ (Elt F) Unit ℕ (UR sig nD τ) ℕ cfg2 c) (hA : dat.A 4 = V c (Pipeline.arrRef spec2 4))
    (hafter : ∀ t, dat.after 4 t = blockAt V c 4 t) (t : Fin cfg2.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output tile -/

/-- The whole output tile, the one rectangle the body stores through. -/
abbrev outRect : Rect S2000x350 := Rect.unit (s := S2000x350) ![0, 0] S2000x350.size inb_S2000x350_S2000x350_0_0

/-- The output tile after the body, from the five input blocks: the single store's value — the accumulated products of
    term `k`'s rows (slab `k` of `x0`) with filter `k` (slab `k` of `x1`), the residual product of term 0's rows with
    `x3`, and the two biases `x2`, `x4` — written over the whole tile. -/
def tileOut (x0 : Vec F S5x2000x128 .f32) (x1 : Vec F S5x128x350 .f32) (x2 : Vec F S1x350 .f32) (x3 : Vec F S128x350 .f32) (x4 : Vec F S1x350 .f32) : Vec F S2000x350 .f32 :=
  View.canon [⟨outRect, k2_pay1
    (k2_pay2 (View.ld x0 (Rect.unit (s := S5x2000x128) ![0, 0, 0] S1x2000x128.size inb_S5x2000x128_S1x2000x128_0_0_0)) (View.ld x1 (Rect.unit (s := S5x128x350) ![0, 0, 0] S1x128x350.size inb_S5x128x350_S1x128x350_0_0_0)) (View.ld x0 (Rect.unit (s := S5x2000x128) ![1, 0, 0] S1x2000x128.size inb_S5x2000x128_S1x2000x128_1_0_0)) (View.ld x1 (Rect.unit (s := S5x128x350) ![1, 0, 0] S1x128x350.size inb_S5x128x350_S1x128x350_1_0_0)) (View.ld x0 (Rect.unit (s := S5x2000x128) ![2, 0, 0] S1x2000x128.size inb_S5x2000x128_S1x2000x128_2_0_0)) (View.ld x1 (Rect.unit (s := S5x128x350) ![2, 0, 0] S1x128x350.size inb_S5x128x350_S1x128x350_2_0_0)))
    (k2_pay3 (View.ld x0 (Rect.unit (s := S5x2000x128) ![3, 0, 0] S1x2000x128.size inb_S5x2000x128_S1x2000x128_3_0_0))) (k2_pay4 (View.ld x1 (Rect.unit (s := S5x128x350) ![3, 0, 0] S1x128x350.size inb_S5x128x350_S1x128x350_3_0_0)))
    (View.ld x0 (Rect.unit (s := S5x2000x128) ![4, 0, 0] S1x2000x128.size inb_S5x2000x128_S1x2000x128_4_0_0)) (View.ld x1 (Rect.unit (s := S5x128x350) ![4, 0, 0] S1x128x350.size inb_S5x128x350_S1x128x350_4_0_0)) (View.ld x0 (Rect.unit (s := S5x2000x128) ![0, 0, 0] S1x2000x128.size inb_S5x2000x128_S1x2000x128_0_0_0)) (View.ld x3 (Rect.unit (s := S128x350) ![0, 0] S128x350.size inb_S128x350_S128x350_0_0)) (View.ld x2 (Rect.unit (s := S1x350) ![0, 0] S1x350.size inb_S1x350_S1x350_0_0)) (View.ld x4 (Rect.unit (s := S1x350) ![0, 0] S1x350.size inb_S1x350_S1x350_0_0))⟩]

/-- That one store covers the tile: its rectangle is the whole tile. -/
theorem tile_covered (p : Vec F S2000x350 .f32) (y : S2000x350.Idx) :
    ∃ pc ∈ ([⟨outRect, p⟩] : List (View.Piece (Elt F) S2000x350 .f32)), y ∈ pc.1.set :=
  View.cover_of_tiled [⟨outRect, p⟩] S2000x350.size (by rfl) y

/-! ## The body computes `tileOut` and gives its inputs back -/

set_option maxHeartbeats 4000000 in
/-- Run on whole staging buffers — the five inputs holding `x0 … x4`, the output holding anything — the body ends
    with the inputs as they were and the output at `tileOut x0 … x4`. -/
theorem body_sound (c : Dev nD) (E : Set ℕ) (i : grid2.Coords) (arg1 : Memref sig .tc .vmem S5x2000x128 .f32) (harg1 : arg1.IsWhole) (arg2 : Memref sig .tc .vmem S5x128x350 .f32) (harg2 : arg2.IsWhole) (arg3 : Memref sig .tc .vmem S1x350 .f32) (harg3 : arg3.IsWhole) (arg4 : Memref sig .tc .vmem S128x350 .f32) (harg4 : arg4.IsWhole) (arg5 : Memref sig .tc .vmem S1x350 .f32) (harg5 : arg5.IsWhole) (arg6 : Memref sig .tc .vmem S2000x350 .f32) (harg6 : arg6.IsWhole)
    (x0 : Vec F S5x2000x128 .f32) (x1 : Vec F S5x128x350 .f32) (x2 : Vec F S1x350 .f32) (x3 : Vec F S128x350 .f32) (x4 : Vec F S1x350 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tileOut x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_covered _)

/-! ## The launch's bookkeeping for this layer -/

/-- What the pipelined launch is told about this layer on core `c`: the arrays are the entry contents `V`; after the
    body at point `t` every input buffer still holds its block and the output buffer holds `tileOut` of the point's
    blocks; nothing else of the core is touched and nothing is owed to another core. -/
def layerDat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => tileOut (blockAt V c 0 t) (blockAt V c 1 t) (blockAt V c 2 t) (blockAt V c 3 t) (blockAt V c 4 t)
  Φ _ := Pipeline.ΦA spec2 c
  q _ := fullShare
  owed _ := 0

theorem A_eq (c : Dev nD) (w : Fin cfg2.W) : (layerDat V c).A w = V c (Pipeline.arrRef spec2 w) := by
  dsimp only [layerDat]

theorem after0 (c : Dev nD) (t : Fin cfg2.N) : (layerDat V c).after 0 t = blockAt V c 0 t := by dsimp only [layerDat]
theorem after1 (c : Dev nD) (t : Fin cfg2.N) : (layerDat V c).after 1 t = blockAt V c 1 t := by dsimp only [layerDat]
theorem after2 (c : Dev nD) (t : Fin cfg2.N) : (layerDat V c).after 2 t = blockAt V c 2 t := by dsimp only [layerDat]
theorem after3 (c : Dev nD) (t : Fin cfg2.N) : (layerDat V c).after 3 t = blockAt V c 3 t := by dsimp only [layerDat]
theorem after4 (c : Dev nD) (t : Fin cfg2.N) : (layerDat V c).after 4 t = blockAt V c 4 t := by dsimp only [layerDat]
theorem after5 (c : Dev nD) (t : Fin cfg2.N) : (layerDat V c).after 5 t = tileOut (blockAt V c 0 t) (blockAt V c 1 t) (blockAt V c 2 t) (blockAt V c 3 t) (blockAt V c 4 t) := by dsimp only [layerDat]

theorem before0 (c : Dev nD) (t : Fin cfg2.N) (d) : (layerDat V c).before 0 t d = blockAt V c 0 t :=
  before0_of V (layerDat V c) (A_eq V c 0) (after0 V c) t d
theorem before1 (c : Dev nD) (t : Fin cfg2.N) (d) : (layerDat V c).before 1 t d = blockAt V c 1 t :=
  before1_of V (layerDat V c) (A_eq V c 1) (after1 V c) t d
theorem before2 (c : Dev nD) (t : Fin cfg2.N) (d) : (layerDat V c).before 2 t d = blockAt V c 2 t :=
  before2_of V (layerDat V c) (A_eq V c 2) (after2 V c) t d
theorem before3 (c : Dev nD) (t : Fin cfg2.N) (d) : (layerDat V c).before 3 t d = blockAt V c 3 t :=
  before3_of V (layerDat V c) (A_eq V c 3) (after3 V c) t d
theorem before4 (c : Dev nD) (t : Fin cfg2.N) (d) : (layerDat V c).before 4 t d = blockAt V c 4 t :=
  before4_of V (layerDat V c) (A_eq V c 4) (after4 V c) t d

/-! ## The per-point obligation -/

/-- What the body is handed at point `t`: the untouched rest of the core, and each window's current staging buffer. -/
def pointPre (c : Dev nD) (t : Fin cfg2.N) : sProp 𝕄 :=
  iprop((layerDat V c).Φ t.castSucc ∗ (layerDat V c).owesAt () t.castSucc
    ∗ (∃ d, owns (c : Thread nD τ) (st2_0 t) fullShare ((layerDat V c).before 0 t d))
    ∗ (∃ d, owns (c : Thread nD τ) (st2_1 t) fullShare ((layerDat V c).before 1 t d))
    ∗ (∃ d, owns (c : Thread nD τ) (st2_2 t) fullShare ((layerDat V c).before 2 t d))
    ∗ (∃ d, owns (c : Thread nD τ) (st2_3 t) fullShare ((layerDat V c).before 3 t d))
    ∗ (∃ d, owns (c : Thread nD τ) (st2_4 t) fullShare ((layerDat V c).before 4 t d))
    ∗ (∃ d, owns (c : Thread nD τ) (st2_5 t) fullShare ((layerDat V c).before 5 t d)))

/-- and what it hands back. -/
def pointPost (c : Dev nD) (t : Fin cfg2.N) : sProp 𝕄 :=
  iprop((layerDat V c).Φ t.succ ∗ (layerDat V c).owesAt () t.succ
    ∗ owns (c : Thread nD τ) (st2_0 t) fullShare ((layerDat V c).after 0 t)
    ∗ owns (c : Thread nD τ) (st2_1 t) fullShare ((layerDat V c).after 1 t)
    ∗ owns (c : Thread nD τ) (st2_2 t) fullShare ((layerDat V c).after 2 t)
    ∗ owns (c : Thread nD τ) (st2_3 t) fullShare ((layerDat V c).after 3 t)
    ∗ owns (c : Thread nD τ) (st2_4 t) fullShare ((layerDat V c).after 4 t)
    ∗ owns (c : Thread nD τ) (st2_5 t) fullShare ((layerDat V c).after 5 t))

set_option maxHeartbeats 1000000 in
/-- The body at any grid point: its input buffers hold the point's blocks, so `body_sound` applies. -/
theorem point_sound (c : Dev nD) (t : Fin cfg2.N) :
    pointPre V c t ⊢ wp frame (wpE (defs₀ (F := F)) Variants.none c none) Set.univ (bodyAt2 t) (fun _ => pointPost V c t) := by
  unfold pointPre pointPost bodyAt2
  simp only [before0, before1, before2, before3, before4]
  rw [show (layerDat V c).Φ t.succ = (layerDat V c).Φ t.castSucc from rfl,
    show (layerDat V c).owesAt () t.succ = (layerDat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_sound c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation for this layer, at every grid point. -/
theorem layer_obligation (c : Dev nD) : BodyObligation (layerDat (F := F) V c) (defs₀ (F := F)) Variants.none () Set.univ := fun t => by
  rw [bigSep_W2, bigSep_W2]
  exact point_sound V c t

end Cert.Kernel.Layer2

end
-- ==== Proof.BitsWhole.lean ====
import proofs.«162653_j26706106646651_1_alg».proof.Proof.BitsLayer0
import proofs.«162653_j26706106646651_1_alg».proof.Proof.BitsLayer1
import proofs.«162653_j26706106646651_1_alg».proof.Proof.BitsLayer2

/-!
# The whole program's run: three fused layers among the graph-propagation glue

The program is fifteen pieces in a row: seven stretches of host operations (the edge normalisation
`w = -d^{-1/2}[row] · d^{-1/2}[col]`, the four propagations `prop(t) = segment_sum(t[col] · w, row)` and the stacking of
`T_0 … T_4` for layer 0), layer 0's region, two stretches (the same propagations and stacking on layer 0's output),
layer 1's region, two more stretches, layer 2's region, and the final flattening. This file follows the device's buffer
contents from one boundary to the next (`B0 … B15`): a host stretch leaves every buffer at what its operations compute
from the contents before it, and a layer's region leaves its output array at the row tiles its 25 grid points wrote and
every other buffer alone. No piece writes an argument array, so each argument ends as launched. The run itself is the
library's launch of such a sequence, given each layer's per-point obligation.
-/

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes, and that none allocates -/

theorem main_part0_ops0_fresh : (main_part0_ops0 : List (HloOp τ sig (Elt F))).Forall fun op => op.fresh = ∅ := by
  simp only [List.Forall]; repeat' constructor
/-- The buffers the operations of `main_part0_ops0` write: one result each. -/
abbrev main_part0_ops0_W : List (Ref sig .tc) := [main_v0, main_v1, main_v2, main_v3, main_cst, main_v4, main_cst_0, main_v5, main_v6, main_v7, main_cst_1, main_v8, main_v9, main_cst_2, main_v10, main_v11, main_cst_3]
set_option maxHeartbeats 4000000 in
theorem main_part0_ops0_writes : (main_part0_ops0 : List (HloOp τ sig (Elt F))).Forall fun op => op.writes ⊆ (main_part0_ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part0_ops1_fresh : (main_part0_ops1 : List (HloOp τ sig (Elt F))).Forall fun op => op.fresh = ∅ := by
  simp only [List.Forall]; repeat' constructor
/-- The buffers the operations of `main_part0_ops1` write: one result each. -/
abbrev main_part0_ops1_W : List (Ref sig .tc) := [main_call0_v0, main_call0_v1, main_v12]
set_option maxHeartbeats 4000000 in
theorem main_part0_ops1_writes : (main_part0_ops1 : List (HloOp τ sig (Elt F))).Forall fun op => op.writes ⊆ (main_part0_ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part0_ops2_fresh : (main_part0_ops2 : List (HloOp τ sig (Elt F))).Forall fun op => op.fresh = ∅ := by
  simp only [List.Forall]; repeat' constructor
/-- The buffers the operations of `main_part0_ops2` write: one result each. -/
abbrev main_part0_ops2_W : List (Ref sig .tc) := [main_cst_4, main_v13, main_v14, main_cst_5]
set_option maxHeartbeats 4000000 in
theorem main_part0_ops2_writes : (main_part0_ops2 : List (HloOp τ sig (Elt F))).Forall fun op => op.writes ⊆ (main_part0_ops2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part0_ops3_fresh : (main_part0_ops3 : List (HloOp τ sig (Elt F))).Forall fun op => op.fresh = ∅ := by
  simp only [List.Forall]; repeat' constructor
/-- The buffers the operations of `main_part0_ops3` write: one result each. -/
abbrev main_part0_ops3_W : List (Ref sig .tc) := [main_call1_v0, main_call1_v1, main_v15]
set_option maxHeartbeats 4000000 in
theorem main_part0_ops3_writes : (main_part0_ops3 : List (HloOp τ sig (Elt F))).Forall fun op => op.writes ⊆ (main_part0_ops3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part0_ops4_fresh : (main_part0_ops4 : List (HloOp τ sig (Elt F))).Forall fun op => op.fresh = ∅ := by
  simp only [List.Forall]; repeat' constructor
/-- The buffers the operations of `main_part0_ops4` write: one result each. -/
abbrev main_part0_ops4_W : List (Ref sig .tc) := [main_c, main_v16, main_v17, main_c_6, main_v18, main_v19, main_v20, main_v21, main_v22, main_v23, main_c_7, main_v24, main_v25, main_c_8, main_v26, main_v27, main_v28, main_v29, main_v30, main_v31, main_c_9, main_v32, main_v33, main_c_10, main_v34, main_v35, main_v36, main_v37, main_v38, main_v39, main_v40, main_v41, main_cst_11, main_v42, main_v43, main_v44, main_c_12]
set_option maxHeartbeats 4000000 in
theorem main_part0_ops4_writes : (main_part0_ops4 : List (HloOp τ sig (Elt F))).Forall fun op => op.writes ⊆ (main_part0_ops4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part1_ops0_fresh : (main_part1_ops0 : List (HloOp τ sig (Elt F))).Forall fun op => op.fresh = ∅ := by
  simp only [List.Forall]; repeat' constructor
/-- The buffers the operations of `main_part1_ops0` write: one result each. -/
abbrev main_part1_ops0_W : List (Ref sig .tc) := [main_v45, main_v46, main_c_13, main_v47, main_v48, main_v49, main_v50, main_v51, main_v52, main_v53, main_v54, main_cst_14, main_v55, main_v56, main_v57, main_cst_15, main_v58, main_v59, main_v60, main_c_16, main_v61, main_v62, main_c_17, main_v63, main_v64, main_v65, main_v66, main_v67, main_v68, main_v69, main_v70, main_cst_18, main_v71, main_v72, main_v73, main_cst_19, main_v74, main_v75, main_v76, main_c_20, main_v77, main_v78, main_c_21, main_v79, main_v80, main_v81, main_v82, main_v83, main_v84, main_v85, main_v86, main_cst_22, main_v87, main_v88, main_v89, main_cst_23, main_v90, main_v91, main_v92, main_v93]
set_option maxHeartbeats 4000000 in
theorem main_part1_ops0_writes : (main_part1_ops0 : List (HloOp τ sig (Elt F))).Forall fun op => op.writes ⊆ (main_part1_ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part2_ops0_fresh : (main_part2_ops0 : List (HloOp τ sig (Elt F))).Forall fun op => op.fresh = ∅ := by
  simp only [List.Forall]; repeat' constructor
/-- The buffers the operations of `main_part2_ops0` write: one result each. -/
abbrev main_part2_ops0_W : List (Ref sig .tc) := [main_v94, main_v95, main_v96, main_v97, main_v98, main_v99, main_v100]
set_option maxHeartbeats 4000000 in
theorem main_part2_ops0_writes : (main_part2_ops0 : List (HloOp τ sig (Elt F))).Forall fun op => op.writes ⊆ (main_part2_ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part2_ops1_fresh : (main_part2_ops1 : List (HloOp τ sig (Elt F))).Forall fun op => op.fresh = ∅ := by
  simp only [List.Forall]; repeat' constructor
/-- The buffers the operations of `main_part2_ops1` write: one result each. -/
abbrev main_part2_ops1_W : List (Ref sig .tc) := [main_c_24, main_v102, main_v103, main_c_25, main_v104, main_v105, main_v106, main_v107, main_v108, main_v109, main_v110, main_v111, main_cst_26, main_v112, main_v113, main_v114, main_c_27, main_v115, main_v116, main_c_28, main_v117, main_v118, main_v119, main_v120, main_v121, main_v122, main_v123, main_v124, main_cst_29, main_v125, main_v126, main_v127, main_cst_30, main_v128, main_v129, main_v130, main_c_31, main_v131, main_v132, main_c_32, main_v133, main_v134, main_v135, main_v136, main_v137, main_v138, main_v139, main_v140, main_cst_33, main_v141, main_v142, main_v143]
set_option maxHeartbeats 4000000 in
theorem main_part2_ops1_writes : (main_part2_ops1 : List (HloOp τ sig (Elt F))).Forall fun op => op.writes ⊆ (main_part2_ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part3_ops0_fresh : (main_part3_ops0 : List (HloOp τ sig (Elt F))).Forall fun op => op.fresh = ∅ := by
  simp only [List.Forall]; repeat' constructor
/-- The buffers the operations of `main_part3_ops0` write: one result each. -/
abbrev main_part3_ops0_W : List (Ref sig .tc) := [main_cst_34, main_v144, main_v145, main_v146, main_c_35, main_v147, main_v148, main_c_36, main_v149, main_v150, main_v151, main_v152, main_v153, main_v154, main_v155, main_v156, main_cst_37, main_v157, main_v158, main_v159, main_cst_38, main_v160, main_v161, main_v162, main_v163, main_v164, main_v165, main_v166, main_v167, main_v168, main_v169, main_v170]
set_option maxHeartbeats 4000000 in
theorem main_part3_ops0_writes : (main_part3_ops0 : List (HloOp τ sig (Elt F))).Forall fun op => op.writes ⊆ (main_part3_ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part3_ops1_fresh : (main_part3_ops1 : List (HloOp τ sig (Elt F))).Forall fun op => op.fresh = ∅ := by
  simp only [List.Forall]; repeat' constructor
/-- The buffers the operations of `main_part3_ops1` write: one result each. -/
abbrev main_part3_ops1_W : List (Ref sig .tc) := [main_c_39, main_v172, main_v173, main_c_40, main_v174, main_v175, main_v176, main_v177, main_v178, main_v179, main_v180, main_v181, main_cst_41, main_v182, main_v183, main_v184, main_c_42, main_v185, main_v186, main_c_43, main_v187, main_v188, main_v189, main_v190, main_v191, main_v192, main_v193]
set_option maxHeartbeats 4000000 in
theorem main_part3_ops1_writes : (main_part3_ops1 : List (HloOp τ sig (Elt F))).Forall fun op => op.writes ⊆ (main_part3_ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part4_ops0_fresh : (main_part4_ops0 : List (HloOp τ sig (Elt F))).Forall fun op => op.fresh = ∅ := by
  simp only [List.Forall]; repeat' constructor
/-- The buffers the operations of `main_part4_ops0` write: one result each. -/
abbrev main_part4_ops0_W : List (Ref sig .tc) := [main_v194, main_cst_44, main_v195, main_v196, main_v197, main_cst_45, main_v198, main_v199, main_v200, main_c_46, main_v201, main_v202, main_c_47, main_v203, main_v204, main_v205, main_v206, main_v207, main_v208, main_v209, main_v210, main_cst_48, main_v211, main_v212, main_v213, main_cst_49, main_v214, main_v215, main_v216, main_c_50, main_v217, main_v218, main_c_51, main_v219, main_v220, main_v221, main_v222, main_v223, main_v224, main_v225, main_v226, main_cst_52, main_v227, main_v228, main_v229, main_cst_53, main_v230, main_v231, main_v232, main_v233, main_v234, main_v235, main_v236, main_v237, main_v238, main_v239, main_v240]
set_option maxHeartbeats 4000000 in
theorem main_part4_ops0_writes : (main_part4_ops0 : List (HloOp τ sig (Elt F))).Forall fun op => op.writes ⊆ (main_part4_ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part4_ops1_fresh : (main_part4_ops1 : List (HloOp τ sig (Elt F))).Forall fun op => op.fresh = ∅ := by
  simp only [List.Forall]; repeat' constructor
/-- The buffers the operations of `main_part4_ops1` write: one result each. -/
abbrev main_part4_ops1_W : List (Ref sig .tc) := [main_v242]
set_option maxHeartbeats 4000000 in
theorem main_part4_ops1_writes : (main_part4_ops1 : List (HloOp τ sig (Elt F))).Forall fun op => op.writes ⊆ (main_part4_ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The buffer contents at each boundary -/

/-- Core `c`'s buffers at launch. -/
abbrev B0 : Dev nD → Valuation τ sig (Elt F) := fun c b => (s₀ m ρ).mem ((c : Dev nD), b)
/-- After `main_part0_ops0`. -/
abbrev B1 : Dev nD → Valuation τ sig (Elt F) := fun c => StableHlo.after main_part0_ops0 (B0 m ρ c)
theorem B1_keeps (c : Dev nD) (r : Ref sig .tc) (h : r ∉ main_part0_ops0_W) : B1 m ρ c (Proc.devRef .tc r) = B0 m ρ c (Proc.devRef .tc r) :=
  StableHlo.after_of_writes_sub main_part0_ops0 _ main_part0_ops0_writes h
/-- After `main_part0_ops1`. -/
abbrev B2 : Dev nD → Valuation τ sig (Elt F) := fun c => StableHlo.after main_part0_ops1 (B1 m ρ c)
theorem B2_keeps (c : Dev nD) (r : Ref sig .tc) (h : r ∉ main_part0_ops1_W) : B2 m ρ c (Proc.devRef .tc r) = B1 m ρ c (Proc.devRef .tc r) :=
  StableHlo.after_of_writes_sub main_part0_ops1 _ main_part0_ops1_writes h
/-- After `main_part0_ops2`. -/
abbrev B3 : Dev nD → Valuation τ sig (Elt F) := fun c => StableHlo.after main_part0_ops2 (B2 m ρ c)
theorem B3_keeps (c : Dev nD) (r : Ref sig .tc) (h : r ∉ main_part0_ops2_W) : B3 m ρ c (Proc.devRef .tc r) = B2 m ρ c (Proc.devRef .tc r) :=
  StableHlo.after_of_writes_sub main_part0_ops2 _ main_part0_ops2_writes h
/-- After `main_part0_ops3`. -/
abbrev B4 : Dev nD → Valuation τ sig (Elt F) := fun c => StableHlo.after main_part0_ops3 (B3 m ρ c)
theorem B4_keeps (c : Dev nD) (r : Ref sig .tc) (h : r ∉ main_part0_ops3_W) : B4 m ρ c (Proc.devRef .tc r) = B3 m ρ c (Proc.devRef .tc r) :=
  StableHlo.after_of_writes_sub main_part0_ops3 _ main_part0_ops3_writes h
/-- After `main_part0_ops4`. -/
abbrev B5 : Dev nD → Valuation τ sig (Elt F) := fun c => StableHlo.after main_part0_ops4 (B4 m ρ c)
theorem B5_keeps (c : Dev nD) (r : Ref sig .tc) (h : r ∉ main_part0_ops4_W) : B5 m ρ c (Proc.devRef .tc r) = B4 m ρ c (Proc.devRef .tc r) :=
  StableHlo.after_of_writes_sub main_part0_ops4 _ main_part0_ops4_writes h
/-- After `main_part1_ops0`. -/
abbrev B6 : Dev nD → Valuation τ sig (Elt F) := fun c => StableHlo.after main_part1_ops0 (B5 m ρ c)
theorem B6_keeps (c : Dev nD) (r : Ref sig .tc) (h : r ∉ main_part1_ops0_W) : B6 m ρ c (Proc.devRef .tc r) = B5 m ρ c (Proc.devRef .tc r) :=
  StableHlo.after_of_writes_sub main_part1_ops0 _ main_part1_ops0_writes h
/-- After `main_part2_ops0`. -/
abbrev B7 : Dev nD → Valuation τ sig (Elt F) := fun c => StableHlo.after main_part2_ops0 (B6 m ρ c)
theorem B7_keeps (c : Dev nD) (r : Ref sig .tc) (h : r ∉ main_part2_ops0_W) : B7 m ρ c (Proc.devRef .tc r) = B6 m ρ c (Proc.devRef .tc r) :=
  StableHlo.after_of_writes_sub main_part2_ops0 _ main_part2_ops0_writes h
/-- Layer 0's region is entered from `B7`; read at the TensorCore's references: -/
abbrev E0 : (c : Dev nD) → (b : Ref sig .tc) → Buf (Elt F) ((c : Thread nD τ).loc b) := fun c b => B7 m ρ c b
/-- and left with its six arrays at what the pipelined launch leaves (the inputs as entered, the output at the tiles its
    grid points wrote back) and every other buffer as entered. -/
def B8 (c : Dev nD) : Valuation τ sig (Elt F) :=
  Pipeline.withArrays spec0 c (B7 m ρ c) fun w => (Layer0.layerDat (E0 m ρ) c).arrAt w cfg0.N
theorem B8_arr (c : Dev nD) (w : Fin cfg0.W) :
    B8 m ρ c (Proc.devRef .tc (Pipeline.arrRef spec0 w)) = (Layer0.layerDat (E0 m ρ) c).arrAt w cfg0.N := by
  unfold B8; exact Pipeline.withArrays_arr spec0 launch0.win.arr_inj c _ _ w
theorem B8_of_ne (c : Dev nD) (b : Ref sig .tc) (hb : ∀ w, Pipeline.arrRef spec0 w ≠ b) :
    B8 m ρ c (Proc.devRef .tc b) = B7 m ρ c (Proc.devRef .tc b) := by
  unfold B8; exact Pipeline.withArrays_of_ne spec0 c _ _ b hb
abbrev X0 : (c : Dev nD) → (b : Ref sig .tc) → Buf (Elt F) ((c : Thread nD τ).loc b) := fun c b => B8 m ρ c b
theorem left0 (c : Dev nD) (w : Fin cfg0.W) : (Layer0.layerDat (E0 m ρ) c).arrAt w cfg0.N = X0 m ρ c (Pipeline.arrRef spec0 w) :=
  (B8_arr m ρ c w).symm
theorem rest0 (c : Dev nD) : ∀ b, b ∉ Finset.univ.image (Pipeline.arrRef spec0) → X0 m ρ c b = E0 m ρ c b :=
  fun b hb => B8_of_ne m ρ c b fun w e => hb (Finset.mem_image.mpr ⟨w, Finset.mem_univ _, e⟩)
/-- An input window's array leaves the region as it entered it. -/
theorem B8_input (c : Dev nD) (w : Fin cfg0.W) (hw : (cfg0.win w).isOut = false) :
    B8 m ρ c (Proc.devRef .tc (Pipeline.arrRef spec0 w)) = B7 m ρ c (Proc.devRef .tc (Pipeline.arrRef spec0 w)) :=
  (B8_arr m ρ c w).trans (((Layer0.layerDat (E0 m ρ) c).arrAt_in w hw _).trans (Layer0.A_eq (E0 m ρ) c w))
/-- After `main_part2_ops1`. -/
abbrev B9 : Dev nD → Valuation τ sig (Elt F) := fun c => StableHlo.after main_part2_ops1 (B8 m ρ c)
theorem B9_keeps (c : Dev nD) (r : Ref sig .tc) (h : r ∉ main_part2_ops1_W) : B9 m ρ c (Proc.devRef .tc r) = B8 m ρ c (Proc.devRef .tc r) :=
  StableHlo.after_of_writes_sub main_part2_ops1 _ main_part2_ops1_writes h
/-- After `main_part3_ops0`. -/
abbrev B10 : Dev nD → Valuation τ sig (Elt F) := fun c => StableHlo.after main_part3_ops0 (B9 m ρ c)
theorem B10_keeps (c : Dev nD) (r : Ref sig .tc) (h : r ∉ main_part3_ops0_W) : B10 m ρ c (Proc.devRef .tc r) = B9 m ρ c (Proc.devRef .tc r) :=
  StableHlo.after_of_writes_sub main_part3_ops0 _ main_part3_ops0_writes h
/-- Layer 1's region is entered from `B10`; read at the TensorCore's references: -/
abbrev E1 : (c : Dev nD) → (b : Ref sig .tc) → Buf (Elt F) ((c : Thread nD τ).loc b) := fun c b => B10 m ρ c b
/-- and left with its six arrays at what the pipelined launch leaves (the inputs as entered, the output at the tiles its
    grid points wrote back) and every other buffer as entered. -/
def B11 (c : Dev nD) : Valuation τ sig (Elt F) :=
  Pipeline.withArrays spec1 c (B10 m ρ c) fun w => (Layer1.layerDat (E1 m ρ) c).arrAt w cfg1.N
theorem B11_arr (c : Dev nD) (w : Fin cfg1.W) :
    B11 m ρ c (Proc.devRef .tc (Pipeline.arrRef spec1 w)) = (Layer1.layerDat (E1 m ρ) c).arrAt w cfg1.N := by
  unfold B11; exact Pipeline.withArrays_arr spec1 launch1.win.arr_inj c _ _ w
theorem B11_of_ne (c : Dev nD) (b : Ref sig .tc) (hb : ∀ w, Pipeline.arrRef spec1 w ≠ b) :
    B11 m ρ c (Proc.devRef .tc b) = B10 m ρ c (Proc.devRef .tc b) := by
  unfold B11; exact Pipeline.withArrays_of_ne spec1 c _ _ b hb
abbrev X1 : (c : Dev nD) → (b : Ref sig .tc) → Buf (Elt F) ((c : Thread nD τ).loc b) := fun c b => B11 m ρ c b
theorem left1 (c : Dev nD) (w : Fin cfg1.W) : (Layer1.layerDat (E1 m ρ) c).arrAt w cfg1.N = X1 m ρ c (Pipeline.arrRef spec1 w) :=
  (B11_arr m ρ c w).symm
theorem rest1 (c : Dev nD) : ∀ b, b ∉ Finset.univ.image (Pipeline.arrRef spec1) → X1 m ρ c b = E1 m ρ c b :=
  fun b hb => B11_of_ne m ρ c b fun w e => hb (Finset.mem_image.mpr ⟨w, Finset.mem_univ _, e⟩)
/-- An input window's array leaves the region as it entered it. -/
theorem B11_input (c : Dev nD) (w : Fin cfg1.W) (hw : (cfg1.win w).isOut = false) :
    B11 m ρ c (Proc.devRef .tc (Pipeline.arrRef spec1 w)) = B10 m ρ c (Proc.devRef .tc (Pipeline.arrRef spec1 w)) :=
  (B11_arr m ρ c w).trans (((Layer1.layerDat (E1 m ρ) c).arrAt_in w hw _).trans (Layer1.A_eq (E1 m ρ) c w))
/-- After `main_part3_ops1`. -/
abbrev B12 : Dev nD → Valuation τ sig (Elt F) := fun c => StableHlo.after main_part3_ops1 (B11 m ρ c)
theorem B12_keeps (c : Dev nD) (r : Ref sig .tc) (h : r ∉ main_part3_ops1_W) : B12 m ρ c (Proc.devRef .tc r) = B11 m ρ c (Proc.devRef .tc r) :=
  StableHlo.after_of_writes_sub main_part3_ops1 _ main_part3_ops1_writes h
/-- After `main_part4_ops0`. -/
abbrev B13 : Dev nD → Valuation τ sig (Elt F) := fun c => StableHlo.after main_part4_ops0 (B12 m ρ c)
theorem B13_keeps (c : Dev nD) (r : Ref sig .tc) (h : r ∉ main_part4_ops0_W) : B13 m ρ c (Proc.devRef .tc r) = B12 m ρ c (Proc.devRef .tc r) :=
  StableHlo.after_of_writes_sub main_part4_ops0 _ main_part4_ops0_writes h
/-- Layer 2's region is entered from `B13`; read at the TensorCore's references: -/
abbrev E2 : (c : Dev nD) → (b : Ref sig .tc) → Buf (Elt F) ((c : Thread nD τ).loc b) := fun c b => B13 m ρ c b
/-- and left with its six arrays at what the pipelined launch leaves (the inputs as entered, the output at the tiles its
    grid points wrote back) and every other buffer as entered. -/
def B14 (c : Dev nD) : Valuation τ sig (Elt F) :=
  Pipeline.withArrays spec2 c (B13 m ρ c) fun w => (Layer2.layerDat (E2 m ρ) c).arrAt w cfg2.N
theorem B14_arr (c : Dev nD) (w : Fin cfg2.W) :
    B14 m ρ c (Proc.devRef .tc (Pipeline.arrRef spec2 w)) = (Layer2.layerDat (E2 m ρ) c).arrAt w cfg2.N := by
  unfold B14; exact Pipeline.withArrays_arr spec2 launch2.win.arr_inj c _ _ w
theorem B14_of_ne (c : Dev nD) (b : Ref sig .tc) (hb : ∀ w, Pipeline.arrRef spec2 w ≠ b) :
    B14 m ρ c (Proc.devRef .tc b) = B13 m ρ c (Proc.devRef .tc b) := by
  unfold B14; exact Pipeline.withArrays_of_ne spec2 c _ _ b hb
abbrev X2 : (c : Dev nD) → (b : Ref sig .tc) → Buf (Elt F) ((c : Thread nD τ).loc b) := fun c b => B14 m ρ c b
theorem left2 (c : Dev nD) (w : Fin cfg2.W) : (Layer2.layerDat (E2 m ρ) c).arrAt w cfg2.N = X2 m ρ c (Pipeline.arrRef spec2 w) :=
  (B14_arr m ρ c w).symm
theorem rest2 (c : Dev nD) : ∀ b, b ∉ Finset.univ.image (Pipeline.arrRef spec2) → X2 m ρ c b = E2 m ρ c b :=
  fun b hb => B14_of_ne m ρ c b fun w e => hb (Finset.mem_image.mpr ⟨w, Finset.mem_univ _, e⟩)
/-- An input window's array leaves the region as it entered it. -/
theorem B14_input (c : Dev nD) (w : Fin cfg2.W) (hw : (cfg2.win w).isOut = false) :
    B14 m ρ c (Proc.devRef .tc (Pipeline.arrRef spec2 w)) = B13 m ρ c (Proc.devRef .tc (Pipeline.arrRef spec2 w)) :=
  (B14_arr m ρ c w).trans (((Layer2.layerDat (E2 m ρ) c).arrAt_in w hw _).trans (Layer2.A_eq (E2 m ρ) c w))
/-- After `main_part4_ops1`. -/
abbrev B15 : Dev nD → Valuation τ sig (Elt F) := fun c => StableHlo.after main_part4_ops1 (B14 m ρ c)
theorem B15_keeps (c : Dev nD) (r : Ref sig .tc) (h : r ∉ main_part4_ops1_W) : B15 m ρ c (Proc.devRef .tc r) = B14 m ρ c (Proc.devRef .tc r) :=
  StableHlo.after_of_writes_sub main_part4_ops1 _ main_part4_ops1_writes h

/-! ## Every argument array ends as launched -/
theorem kept_arg0 (c : Dev nD) : B15 m ρ c (Proc.devRef .tc main_arg0) = m ((c : Thread nD τ).loc main_arg0) :=
  (B15_keeps m ρ c main_arg0 (by decide)).trans <|
    (B14_of_ne m ρ c main_arg0 (by decide)).trans <|
    (B13_keeps m ρ c main_arg0 (by decide)).trans <|
    (B12_keeps m ρ c main_arg0 (by decide)).trans <|
    (B11_of_ne m ρ c main_arg0 (by decide)).trans <|
    (B10_keeps m ρ c main_arg0 (by decide)).trans <|
    (B9_keeps m ρ c main_arg0 (by decide)).trans <|
    (B8_of_ne m ρ c main_arg0 (by decide)).trans <|
    (B7_keeps m ρ c main_arg0 (by decide)).trans <|
    (B6_keeps m ρ c main_arg0 (by decide)).trans <|
    (B5_keeps m ρ c main_arg0 (by decide)).trans <|
    (B4_keeps m ρ c main_arg0 (by decide)).trans <|
    (B3_keeps m ρ c main_arg0 (by decide)).trans <|
    (B2_keeps m ρ c main_arg0 (by decide)).trans <|
    (B1_keeps m ρ c main_arg0 (by decide)).trans <| rfl
theorem kept_arg1 (c : Dev nD) : B15 m ρ c (Proc.devRef .tc main_arg1) = m ((c : Thread nD τ).loc main_arg1) :=
  (B15_keeps m ρ c main_arg1 (by decide)).trans <|
    (B14_of_ne m ρ c main_arg1 (by decide)).trans <|
    (B13_keeps m ρ c main_arg1 (by decide)).trans <|
    (B12_keeps m ρ c main_arg1 (by decide)).trans <|
    (B11_of_ne m ρ c main_arg1 (by decide)).trans <|
    (B10_keeps m ρ c main_arg1 (by decide)).trans <|
    (B9_keeps m ρ c main_arg1 (by decide)).trans <|
    (B8_of_ne m ρ c main_arg1 (by decide)).trans <|
    (B7_keeps m ρ c main_arg1 (by decide)).trans <|
    (B6_keeps m ρ c main_arg1 (by decide)).trans <|
    (B5_keeps m ρ c main_arg1 (by decide)).trans <|
    (B4_keeps m ρ c main_arg1 (by decide)).trans <|
    (B3_keeps m ρ c main_arg1 (by decide)).trans <|
    (B2_keeps m ρ c main_arg1 (by decide)).trans <|
    (B1_keeps m ρ c main_arg1 (by decide)).trans <| rfl
theorem kept_arg2 (c : Dev nD) : B15 m ρ c (Proc.devRef .tc main_arg2) = m ((c : Thread nD τ).loc main_arg2) :=
  (B15_keeps m ρ c main_arg2 (by decide)).trans <|
    (B14_of_ne m ρ c main_arg2 (by decide)).trans <|
    (B13_keeps m ρ c main_arg2 (by decide)).trans <|
    (B12_keeps m ρ c main_arg2 (by decide)).trans <|
    (B11_of_ne m ρ c main_arg2 (by decide)).trans <|
    (B10_keeps m ρ c main_arg2 (by decide)).trans <|
    (B9_keeps m ρ c main_arg2 (by decide)).trans <|
    (B8_input m ρ c 1 rfl).trans <|
    (B7_keeps m ρ c main_arg2 (by decide)).trans <|
    (B6_keeps m ρ c main_arg2 (by decide)).trans <|
    (B5_keeps m ρ c main_arg2 (by decide)).trans <|
    (B4_keeps m ρ c main_arg2 (by decide)).trans <|
    (B3_keeps m ρ c main_arg2 (by decide)).trans <|
    (B2_keeps m ρ c main_arg2 (by decide)).trans <|
    (B1_keeps m ρ c main_arg2 (by decide)).trans <| rfl
theorem kept_arg3 (c : Dev nD) : B15 m ρ c (Proc.devRef .tc main_arg3) = m ((c : Thread nD τ).loc main_arg3) :=
  (B15_keeps m ρ c main_arg3 (by decide)).trans <|
    (B14_of_ne m ρ c main_arg3 (by decide)).trans <|
    (B13_keeps m ρ c main_arg3 (by decide)).trans <|
    (B12_keeps m ρ c main_arg3 (by decide)).trans <|
    (B11_of_ne m ρ c main_arg3 (by decide)).trans <|
    (B10_keeps m ρ c main_arg3 (by decide)).trans <|
    (B9_keeps m ρ c main_arg3 (by decide)).trans <|
    (B8_of_ne m ρ c main_arg3 (by decide)).trans <|
    (B7_keeps m ρ c main_arg3 (by decide)).trans <|
    (B6_keeps m ρ c main_arg3 (by decide)).trans <|
    (B5_keeps m ρ c main_arg3 (by decide)).trans <|
    (B4_keeps m ρ c main_arg3 (by decide)).trans <|
    (B3_keeps m ρ c main_arg3 (by decide)).trans <|
    (B2_keeps m ρ c main_arg3 (by decide)).trans <|
    (B1_keeps m ρ c main_arg3 (by decide)).trans <| rfl
theorem kept_arg4 (c : Dev nD) : B15 m ρ c (Proc.devRef .tc main_arg4) = m ((c : Thread nD τ).loc main_arg4) :=
  (B15_keeps m ρ c main_arg4 (by decide)).trans <|
    (B14_of_ne m ρ c main_arg4 (by decide)).trans <|
    (B13_keeps m ρ c main_arg4 (by decide)).trans <|
    (B12_keeps m ρ c main_arg4 (by decide)).trans <|
    (B11_of_ne m ρ c main_arg4 (by decide)).trans <|
    (B10_keeps m ρ c main_arg4 (by decide)).trans <|
    (B9_keeps m ρ c main_arg4 (by decide)).trans <|
    (B8_input m ρ c 3 rfl).trans <|
    (B7_keeps m ρ c main_arg4 (by decide)).trans <|
    (B6_keeps m ρ c main_arg4 (by decide)).trans <|
    (B5_keeps m ρ c main_arg4 (by decide)).trans <|
    (B4_keeps m ρ c main_arg4 (by decide)).trans <|
    (B3_keeps m ρ c main_arg4 (by decide)).trans <|
    (B2_keeps m ρ c main_arg4 (by decide)).trans <|
    (B1_keeps m ρ c main_arg4 (by decide)).trans <| rfl
theorem kept_arg5 (c : Dev nD) : B15 m ρ c (Proc.devRef .tc main_arg5) = m ((c : Thread nD τ).loc main_arg5) :=
  (B15_keeps m ρ c main_arg5 (by decide)).trans <|
    (B14_of_ne m ρ c main_arg5 (by decide)).trans <|
    (B13_keeps m ρ c main_arg5 (by decide)).trans <|
    (B12_keeps m ρ c main_arg5 (by decide)).trans <|
    (B11_of_ne m ρ c main_arg5 (by decide)).trans <|
    (B10_keeps m ρ c main_arg5 (by decide)).trans <|
    (B9_keeps m ρ c main_arg5 (by decide)).trans <|
    (B8_of_ne m ρ c main_arg5 (by decide)).trans <|
    (B7_keeps m ρ c main_arg5 (by decide)).trans <|
    (B6_keeps m ρ c main_arg5 (by decide)).trans <|
    (B5_keeps m ρ c main_arg5 (by decide)).trans <|
    (B4_keeps m ρ c main_arg5 (by decide)).trans <|
    (B3_keeps m ρ c main_arg5 (by decide)).trans <|
    (B2_keeps m ρ c main_arg5 (by decide)).trans <|
    (B1_keeps m ρ c main_arg5 (by decide)).trans <| rfl
theorem kept_arg6 (c : Dev nD) : B15 m ρ c (Proc.devRef .tc main_arg6) = m ((c : Thread nD τ).loc main_arg6) :=
  (B15_keeps m ρ c main_arg6 (by decide)).trans <|
    (B14_of_ne m ρ c main_arg6 (by decide)).trans <|
    (B13_keeps m ρ c main_arg6 (by decide)).trans <|
    (B12_keeps m ρ c main_arg6 (by decide)).trans <|
    (B11_input m ρ c 1 rfl).trans <|
    (B10_keeps m ρ c main_arg6 (by decide)).trans <|
    (B9_keeps m ρ c main_arg6 (by decide)).trans <|
    (B8_of_ne m ρ c main_arg6 (by decide)).trans <|
    (B7_keeps m ρ c main_arg6 (by decide)).trans <|
    (B6_keeps m ρ c main_arg6 (by decide)).trans <|
    (B5_keeps m ρ c main_arg6 (by decide)).trans <|
    (B4_keeps m ρ c main_arg6 (by decide)).trans <|
    (B3_keeps m ρ c main_arg6 (by decide)).trans <|
    (B2_keeps m ρ c main_arg6 (by decide)).trans <|
    (B1_keeps m ρ c main_arg6 (by decide)).trans <| rfl
theorem kept_arg7 (c : Dev nD) : B15 m ρ c (Proc.devRef .tc main_arg7) = m ((c : Thread nD τ).loc main_arg7) :=
  (B15_keeps m ρ c main_arg7 (by decide)).trans <|
    (B14_of_ne m ρ c main_arg7 (by decide)).trans <|
    (B13_keeps m ρ c main_arg7 (by decide)).trans <|
    (B12_keeps m ρ c main_arg7 (by decide)).trans <|
    (B11_of_ne m ρ c main_arg7 (by decide)).trans <|
    (B10_keeps m ρ c main_arg7 (by decide)).trans <|
    (B9_keeps m ρ c main_arg7 (by decide)).trans <|
    (B8_of_ne m ρ c main_arg7 (by decide)).trans <|
    (B7_keeps m ρ c main_arg7 (by decide)).trans <|
    (B6_keeps m ρ c main_arg7 (by decide)).trans <|
    (B5_keeps m ρ c main_arg7 (by decide)).trans <|
    (B4_keeps m ρ c main_arg7 (by decide)).trans <|
    (B3_keeps m ρ c main_arg7 (by decide)).trans <|
    (B2_keeps m ρ c main_arg7 (by decide)).trans <|
    (B1_keeps m ρ c main_arg7 (by decide)).trans <| rfl
theorem kept_arg8 (c : Dev nD) : B15 m ρ c (Proc.devRef .tc main_arg8) = m ((c : Thread nD τ).loc main_arg8) :=
  (B15_keeps m ρ c main_arg8 (by decide)).trans <|
    (B14_of_ne m ρ c main_arg8 (by decide)).trans <|
    (B13_keeps m ρ c main_arg8 (by decide)).trans <|
    (B12_keeps m ρ c main_arg8 (by decide)).trans <|
    (B11_input m ρ c 3 rfl).trans <|
    (B10_keeps m ρ c main_arg8 (by decide)).trans <|
    (B9_keeps m ρ c main_arg8 (by decide)).trans <|
    (B8_of_ne m ρ c main_arg8 (by decide)).trans <|
    (B7_keeps m ρ c main_arg8 (by decide)).trans <|
    (B6_keeps m ρ c main_arg8 (by decide)).trans <|
    (B5_keeps m ρ c main_arg8 (by decide)).trans <|
    (B4_keeps m ρ c main_arg8 (by decide)).trans <|
    (B3_keeps m ρ c main_arg8 (by decide)).trans <|
    (B2_keeps m ρ c main_arg8 (by decide)).trans <|
    (B1_keeps m ρ c main_arg8 (by decide)).trans <| rfl
theorem kept_arg9 (c : Dev nD) : B15 m ρ c (Proc.devRef .tc main_arg9) = m ((c : Thread nD τ).loc main_arg9) :=
  (B15_keeps m ρ c main_arg9 (by decide)).trans <|
    (B14_of_ne m ρ c main_arg9 (by decide)).trans <|
    (B13_keeps m ρ c main_arg9 (by decide)).trans <|
    (B12_keeps m ρ c main_arg9 (by decide)).trans <|
    (B11_of_ne m ρ c main_arg9 (by decide)).trans <|
    (B10_keeps m ρ c main_arg9 (by decide)).trans <|
    (B9_keeps m ρ c main_arg9 (by decide)).trans <|
    (B8_of_ne m ρ c main_arg9 (by decide)).trans <|
    (B7_keeps m ρ c main_arg9 (by decide)).trans <|
    (B6_keeps m ρ c main_arg9 (by decide)).trans <|
    (B5_keeps m ρ c main_arg9 (by decide)).trans <|
    (B4_keeps m ρ c main_arg9 (by decide)).trans <|
    (B3_keeps m ρ c main_arg9 (by decide)).trans <|
    (B2_keeps m ρ c main_arg9 (by decide)).trans <|
    (B1_keeps m ρ c main_arg9 (by decide)).trans <| rfl
theorem kept_arg10 (c : Dev nD) : B15 m ρ c (Proc.devRef .tc main_arg10) = m ((c : Thread nD τ).loc main_arg10) :=
  (B15_keeps m ρ c main_arg10 (by decide)).trans <|
    (B14_input m ρ c 1 rfl).trans <|
    (B13_keeps m ρ c main_arg10 (by decide)).trans <|
    (B12_keeps m ρ c main_arg10 (by decide)).trans <|
    (B11_of_ne m ρ c main_arg10 (by decide)).trans <|
    (B10_keeps m ρ c main_arg10 (by decide)).trans <|
    (B9_keeps m ρ c main_arg10 (by decide)).trans <|
    (B8_of_ne m ρ c main_arg10 (by decide)).trans <|
    (B7_keeps m ρ c main_arg10 (by decide)).trans <|
    (B6_keeps m ρ c main_arg10 (by decide)).trans <|
    (B5_keeps m ρ c main_arg10 (by decide)).trans <|
    (B4_keeps m ρ c main_arg10 (by decide)).trans <|
    (B3_keeps m ρ c main_arg10 (by decide)).trans <|
    (B2_keeps m ρ c main_arg10 (by decide)).trans <|
    (B1_keeps m ρ c main_arg10 (by decide)).trans <| rfl
theorem kept_arg11 (c : Dev nD) : B15 m ρ c (Proc.devRef .tc main_arg11) = m ((c : Thread nD τ).loc main_arg11) :=
  (B15_keeps m ρ c main_arg11 (by decide)).trans <|
    (B14_of_ne m ρ c main_arg11 (by decide)).trans <|
    (B13_keeps m ρ c main_arg11 (by decide)).trans <|
    (B12_keeps m ρ c main_arg11 (by decide)).trans <|
    (B11_of_ne m ρ c main_arg11 (by decide)).trans <|
    (B10_keeps m ρ c main_arg11 (by decide)).trans <|
    (B9_keeps m ρ c main_arg11 (by decide)).trans <|
    (B8_of_ne m ρ c main_arg11 (by decide)).trans <|
    (B7_keeps m ρ c main_arg11 (by decide)).trans <|
    (B6_keeps m ρ c main_arg11 (by decide)).trans <|
    (B5_keeps m ρ c main_arg11 (by decide)).trans <|
    (B4_keeps m ρ c main_arg11 (by decide)).trans <|
    (B3_keeps m ρ c main_arg11 (by decide)).trans <|
    (B2_keeps m ρ c main_arg11 (by decide)).trans <|
    (B1_keeps m ρ c main_arg11 (by decide)).trans <| rfl
theorem kept_arg12 (c : Dev nD) : B15 m ρ c (Proc.devRef .tc main_arg12) = m ((c : Thread nD τ).loc main_arg12) :=
  (B15_keeps m ρ c main_arg12 (by decide)).trans <|
    (B14_input m ρ c 3 rfl).trans <|
    (B13_keeps m ρ c main_arg12 (by decide)).trans <|
    (B12_keeps m ρ c main_arg12 (by decide)).trans <|
    (B11_of_ne m ρ c main_arg12 (by decide)).trans <|
    (B10_keeps m ρ c main_arg12 (by decide)).trans <|
    (B9_keeps m ρ c main_arg12 (by decide)).trans <|
    (B8_of_ne m ρ c main_arg12 (by decide)).trans <|
    (B7_keeps m ρ c main_arg12 (by decide)).trans <|
    (B6_keeps m ρ c main_arg12 (by decide)).trans <|
    (B5_keeps m ρ c main_arg12 (by decide)).trans <|
    (B4_keeps m ρ c main_arg12 (by decide)).trans <|
    (B3_keeps m ρ c main_arg12 (by decide)).trans <|
    (B2_keeps m ρ c main_arg12 (by decide)).trans <|
    (B1_keeps m ρ c main_arg12 (by decide)).trans <| rfl
theorem kept_arg13 (c : Dev nD) : B15 m ρ c (Proc.devRef .tc main_arg13) = m ((c : Thread nD τ).loc main_arg13) :=
  (B15_keeps m ρ c main_arg13 (by decide)).trans <|
    (B14_of_ne m ρ c main_arg13 (by decide)).trans <|
    (B13_keeps m ρ c main_arg13 (by decide)).trans <|
    (B12_keeps m ρ c main_arg13 (by decide)).trans <|
    (B11_of_ne m ρ c main_arg13 (by decide)).trans <|
    (B10_keeps m ρ c main_arg13 (by decide)).trans <|
    (B9_keeps m ρ c main_arg13 (by decide)).trans <|
    (B8_of_ne m ρ c main_arg13 (by decide)).trans <|
    (B7_keeps m ρ c main_arg13 (by decide)).trans <|
    (B6_keeps m ρ c main_arg13 (by decide)).trans <|
    (B5_keeps m ρ c main_arg13 (by decide)).trans <|
    (B4_keeps m ρ c main_arg13 (by decide)).trans <|
    (B3_keeps m ρ c main_arg13 (by decide)).trans <|
    (B2_keeps m ρ c main_arg13 (by decide)).trans <|
    (B1_keeps m ρ c main_arg13 (by decide)).trans <| rfl

/-! ## The three pipelines' bookkeeping and what rides along -/

abbrev adm : (p : Fin 3) → (pcfgs (F := F) p).Adm := fun p => (cfgs p).toPCfg_adm
/-- Each layer's launch data, at the contents its region is entered from. -/
def pdats : (p : Fin 3) → (c : Dev nD) → Dat τ (Elt F) Unit ℕ (UR sig nD τ) ℕ (Pipeline.pin (pcfgs (F := F)) adm p) c
  | ⟨0, _⟩ => fun c => Layer0.layerDat (E0 m ρ) c
  | ⟨1, _⟩ => fun c => Layer1.layerDat (E1 m ρ) c
  | ⟨2, _⟩ => fun c => Layer2.layerDat (E2 m ρ) c
abbrev 𝒱₀ : Variants := Variants.none
abbrev L : GSem nD τ sig → Finset Unit := fun _ => ∅
abbrev lv : GSem nD τ sig → Unit → ℕ := fun _ _ => 0
/-- Beside the buffers: the core's random-number register at some state, and nothing owed to any other core. -/
abbrev R (c : Dev nD) : sProp 𝕄 := iprop((∃ r, prngReg c r) ∗ ∃ W, owes (c : Thread nD τ) (0 : CellTallies nD τ sig Unit) W)
/-- A host stretch run from the contents `W`: it leaves every unscoped buffer at what its operations compute from `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (B15 m ρ c) ∗ ∃ r, prngReg c r)

/-! ## Each layer's region between its two boundaries -/

set_option backward.isDefEq.respectTransparency.types false in
/-- Layer 0's region: entered with every unscoped buffer at `B7`, left with them at `B8`. Its six arrays are
    taken out of the unscoped buffers for the launch and put back at what the launch leaves; the random-number register
    goes in and comes back; nothing is owed. -/
def layer0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer0.layer_obligation (E0 m ρ) c).loose
  hwaits := Pipeline.hwaits_of_owed_zero _ _ _ _ L lv 0 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's region: entered with every unscoped buffer at `B10`, left with them at `B11`. Its six arrays are
    taken out of the unscoped buffers for the launch and put back at what the launch leaves; the random-number register
    goes in and comes back; nothing is owed. -/
def layer1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer1.layer_obligation (E1 m ρ) c).loose
  hwaits := Pipeline.hwaits_of_owed_zero _ _ _ _ L lv 1 fun _ _ => rfl
  pre c := iprop(StableHlo.held (c : Thread nD τ) (Pipeline.ucRefs τ sig) (B10 m ρ c) ∗ R c)
  post c := iprop(StableHlo.held (c : Thread nD τ) (Pipeline.ucRefs τ sig) (B11 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region: entered with every unscoped buffer at `B13`, left with them at `B14`. Its six arrays are
    taken out of the unscoped buffers for the launch and put back at what the launch leaves; the random-number register
    goes in and comes back; nothing is owed. -/
def layer2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Layer2.layer_obligation (E2 m ρ) c).loose
  hwaits := Pipeline.hwaits_of_owed_zero _ _ _ _ L lv 2 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (left2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its fifteen pieces, and the run -/

abbrev pieces : List (Pipeline.Seg (pcfgs (F := F)) adm (pdats m ρ) () defs₀ 𝒱₀ L lv) :=
  [ .host (stretch main_part0_ops0 main_part0_ops0_sub main_part0_ops0_fresh (B0 m ρ)),
    .host (stretch main_part0_ops1 main_part0_ops1_sub main_part0_ops1_fresh (B1 m ρ)),
    .host (stretch main_part0_ops2 main_part0_ops2_sub main_part0_ops2_fresh (B2 m ρ)),
    .host (stretch main_part0_ops3 main_part0_ops3_sub main_part0_ops3_fresh (B3 m ρ)),
    .host (stretch main_part0_ops4 main_part0_ops4_sub main_part0_ops4_fresh (B4 m ρ)),
    .host (stretch main_part1_ops0 main_part1_ops0_sub main_part1_ops0_fresh (B5 m ρ)),
    .host (stretch main_part2_ops0 main_part2_ops0_sub main_part2_ops0_fresh (B6 m ρ)),
    .region (layer0 m ρ),
    .host (stretch main_part2_ops1 main_part2_ops1_sub main_part2_ops1_fresh (B8 m ρ)),
    .host (stretch main_part3_ops0 main_part3_ops0_sub main_part3_ops0_fresh (B9 m ρ)),
    .region (layer1 m ρ),
    .host (stretch main_part3_ops1 main_part3_ops1_sub main_part3_ops1_fresh (B11 m ρ)),
    .host (stretch main_part4_ops0 main_part4_ops0_sub main_part4_ops0_fresh (B12 m ρ)),
    .region (layer2 m ρ),
    .host (stretch main_part4_ops1 main_part4_ops1_sub main_part4_ops1_fresh (B14 m ρ)) ]

/-- The printed program is the run of those pieces. -/
theorem main_is_pieces (c : Dev nD) : main (F := F) c = Pipeline.Seg.run (pieces m ρ) := (main_chain_windows c).trans (by chain_rfl)

set_option backward.isDefEq.respectTransparency.types false in
set_option maxHeartbeats 4000000 in
/-- THE RUN. From any memory with zero counters, every weakly fair execution of the program terminates, nothing
    faults, and every unscoped buffer of every core ends at `B15`'s contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B15 m ρ c b) :=
  Pipeline.θ_run_regions_kit (pcfgs (F := F)) adm (pdats m ρ) () cellOf_inj emb₁ defs₀ 𝒱₀ L lv m ρ main (pieces m ρ)
    (fun c Q => by rw [main_is_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B15 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B15 m ρ c b)
    (hfin := fun c s' => by
      iintro ⟨⟨Hh, -⟩, HSI⟩
      unfold StableHlo.held
      imodintro
      iapply (pointsTo_read_all (Pipeline.ucRefs τ sig) (fun b => (((c : Thread nD τ)).1, b)) (B15 m ρ c) s')
      isplitl [Hh] <;> iassumption)
    (hQ := fun s h c => h c)

/-- THE FRAME: the program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c),
     (h c _ (mem_uc main_arg6 (by decide))).trans (kept_arg6 m ρ c),
     (h c _ (mem_uc main_arg7 (by decide))).trans (kept_arg7 m ρ c),
     (h c _ (mem_uc main_arg8 (by decide))).trans (kept_arg8 m ρ c),
     (h c _ (mem_uc main_arg9 (by decide))).trans (kept_arg9 m ρ c),
     (h c _ (mem_uc main_arg10 (by decide))).trans (kept_arg10 m ρ c),
     (h c _ (mem_uc main_arg11 (by decide))).trans (kept_arg11 m ρ c),
     (h c _ (mem_uc main_arg12 (by decide))).trans (kept_arg12 m ρ c),
     (h c _ (mem_uc main_arg13 (by decide))).trans (kept_arg13 m ρ c)⟩) (run m ρ)

end Cert.Kernel.Whole

end
-- ==== Proof.IdealLayer0.lean ====
import proofs.«162653_j26706106646651_1_alg».proof.Proof.Gen.KernelIdeal.Launch
import proofs.«162653_j26706106646651_1_alg».proof.Proof.Gen.KernelIdeal.Skeleton
import proofs.«162653_j26706106646651_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 0: one grid point of the fused Chebyshev layer

The layer's kernel is launched over 25 row tiles of 2000 nodes. At a tile it is handed the tile's rows of the five
stacked Chebyshev terms `T_0 … T_4` (window 0, a `5 × 2000 × 64` block), and — the same at every tile — the five
filter matrices `W_0 … W_4` (window 1), the filter bias (window 2), the residual matrix `W_l` (window 3) and the
residual bias (window 4). It writes the tile's `2000 × 128` rows of

  `max(((((((0 + T_0·W_0) + T_1·W_1) + T_2·W_2) + T_3·W_3) + T_4·W_4) + T_0·W_l) + b_c + b_l, 0)`

(window 5) and touches nothing else. This file states what the output tile holds after the body as a function of the
five input blocks (`tileOut`), proves that the body computes exactly that and gives the input blocks back unchanged
(`body_sound`), and packages it as the per-point obligation of the pipelined launch, for any contents `V` the region
may find in the device's buffers when it is entered.
-/

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the layer's region is entered
variable (V : (c : Dev nD) → (b : Ref sig .tc) → Buf (Elt F) ((c : Thread nD τ).loc b))

/-! ## The blocks a grid point sees -/

/-- Window `w`'s block at grid point `t`: the part of the window's array (as the region finds it) that the point's
    index map selects — for window 0 rows `2000·t … 2000·t + 1999` of every Chebyshev term, for windows 1–4 the whole
    array. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds that window's block of the entry contents at every grid point, whether
    the point fetches it or not (an unfetched block's index has not moved since the last fetch). -/
theorem before0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds that window's block of the entry contents at every grid point, whether
    the point fetches it or not (an unfetched block's index has not moved since the last fetch). -/
theorem before1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds that window's block of the entry contents at every grid point, whether
    the point fetches it or not (an unfetched block's index has not moved since the last fetch). -/
theorem before2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds that window's block of the entry contents at every grid point, whether
    the point fetches it or not (an unfetched block's index has not moved since the last fetch). -/
theorem before3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds that window's block of the entry contents at every grid point, whether
    the point fetches it or not (an unfetched block's index has not moved since the last fetch). -/
theorem before4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output tile -/

/-- The whole output tile, the one rectangle the body stores through. -/
abbrev outRect : Rect S2000x128 := Rect.unit (s := S2000x128) ![0, 0] S2000x128.size inb_S2000x128_S2000x128_0_0

/-- The output tile after the body, from the five input blocks: the single store's value — the accumulated products of
    term `k`'s rows (slab `k` of `x0`) with filter `k` (slab `k` of `x1`), the residual product of term 0's rows with
    `x3`, and the two biases `x2`, `x4` — written over the whole tile. -/
def tileOut (x0 : Vec F S5x2000x64 .f32) (x1 : Vec F S5x64x128 .f32) (x2 : Vec F S1x128 .f32) (x3 : Vec F S64x128 .f32) (x4 : Vec F S1x128 .f32) : Vec F S2000x128 .f32 :=
  View.canon [⟨outRect, k0_pay1
    (k0_pay2 (View.ld x0 (Rect.unit (s := S5x2000x64) ![0, 0, 0] S1x2000x64.size inb_S5x2000x64_S1x2000x64_0_0_0)) (View.ld x1 (Rect.unit (s := S5x64x128) ![0, 0, 0] S1x64x128.size inb_S5x64x128_S1x64x128_0_0_0)) (View.ld x0 (Rect.unit (s := S5x2000x64) ![1, 0, 0] S1x2000x64.size inb_S5x2000x64_S1x2000x64_1_0_0)) (View.ld x1 (Rect.unit (s := S5x64x128) ![1, 0, 0] S1x64x128.size inb_S5x64x128_S1x64x128_1_0_0)) (View.ld x0 (Rect.unit (s := S5x2000x64) ![2, 0, 0] S1x2000x64.size inb_S5x2000x64_S1x2000x64_2_0_0)) (View.ld x1 (Rect.unit (s := S5x64x128) ![2, 0, 0] S1x64x128.size inb_S5x64x128_S1x64x128_2_0_0)))
    (k0_pay3 (View.ld x0 (Rect.unit (s := S5x2000x64) ![3, 0, 0] S1x2000x64.size inb_S5x2000x64_S1x2000x64_3_0_0))) (k0_pay4 (View.ld x1 (Rect.unit (s := S5x64x128) ![3, 0, 0] S1x64x128.size inb_S5x64x128_S1x64x128_3_0_0)))
    (View.ld x0 (Rect.unit (s := S5x2000x64) ![4, 0, 0] S1x2000x64.size inb_S5x2000x64_S1x2000x64_4_0_0)) (View.ld x1 (Rect.unit (s := S5x64x128) ![4, 0, 0] S1x64x128.size inb_S5x64x128_S1x64x128_4_0_0)) (View.ld x0 (Rect.unit (s := S5x2000x64) ![0, 0, 0] S1x2000x64.size inb_S5x2000x64_S1x2000x64_0_0_0)) (View.ld x3 (Rect.unit (s := S64x128) ![0, 0] S64x128.size inb_S64x128_S64x128_0_0)) (View.ld x2 (Rect.unit (s := S1x128) ![0, 0] S1x128.size inb_S1x128_S1x128_0_0)) (View.ld x4 (Rect.unit (s := S1x128) ![0, 0] S1x128.size inb_S1x128_S1x128_0_0))⟩]

/-- That one store covers the tile: its rectangle is the whole tile. -/
theorem tile_covered (p : Vec F S2000x128 .f32) (y : S2000x128.Idx) :
    ∃ pc ∈ ([⟨outRect, p⟩] : List (View.Piece (Elt F) S2000x128 .f32)), y ∈ pc.1.set :=
  View.cover_of_tiled [⟨outRect, p⟩] S2000x128.size (by rfl) y

/-! ## The body computes `tileOut` and gives its inputs back -/

set_option maxHeartbeats 4000000 in
/-- Run on whole staging buffers — the five inputs holding `x0 … x4`, the output holding anything — the body ends
    with the inputs as they were and the output at `tileOut x0 … x4`. -/
theorem body_sound (c : Dev nD) (E : Set ℕ) (i : grid0.Coords) (arg1 : Memref sig .tc .vmem S5x2000x64 .f32) (harg1 : arg1.IsWhole) (arg2 : Memref sig .tc .vmem S5x64x128 .f32) (harg2 : arg2.IsWhole) (arg3 : Memref sig .tc .vmem S1x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S2000x128 .f32) (harg6 : arg6.IsWhole)
    (x0 : Vec F S5x2000x64 .f32) (x1 : Vec F S5x64x128 .f32) (x2 : Vec F S1x128 .f32) (x3 : Vec F S64x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tileOut x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_covered _)

/-! ## The launch's bookkeeping for this layer -/

/-- What the pipelined launch is told about this layer on core `c`: the arrays are the entry contents `V`; after the
    body at point `t` every input buffer still holds its block and the output buffer holds `tileOut` of the point's
    blocks; nothing else of the core is touched and nothing is owed to another core. -/
def layerDat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => tileOut (blockAt V c 0 t) (blockAt V c 1 t) (blockAt V c 2 t) (blockAt V c 3 t) (blockAt V c 4 t)
  Φ _ := Pipeline.ΦA spec0 c
  q _ := fullShare
  owed _ := 0

theorem A_eq (c : Dev nD) (w : Fin cfg0.W) : (layerDat V c).A w = V c (Pipeline.arrRef spec0 w) := by
  dsimp only [layerDat]

theorem after0 (c : Dev nD) (t : Fin cfg0.N) : (layerDat V c).after 0 t = blockAt V c 0 t := by dsimp only [layerDat]
theorem after1 (c : Dev nD) (t : Fin cfg0.N) : (layerDat V c).after 1 t = blockAt V c 1 t := by dsimp only [layerDat]
theorem after2 (c : Dev nD) (t : Fin cfg0.N) : (layerDat V c).after 2 t = blockAt V c 2 t := by dsimp only [layerDat]
theorem after3 (c : Dev nD) (t : Fin cfg0.N) : (layerDat V c).after 3 t = blockAt V c 3 t := by dsimp only [layerDat]
theorem after4 (c : Dev nD) (t : Fin cfg0.N) : (layerDat V c).after 4 t = blockAt V c 4 t := by dsimp only [layerDat]
theorem after5 (c : Dev nD) (t : Fin cfg0.N) : (layerDat V c).after 5 t = tileOut (blockAt V c 0 t) (blockAt V c 1 t) (blockAt V c 2 t) (blockAt V c 3 t) (blockAt V c 4 t) := by dsimp only [layerDat]

theorem before0 (c : Dev nD) (t : Fin cfg0.N) (d) : (layerDat V c).before 0 t d = blockAt V c 0 t :=
  before0_of V (layerDat V c) (A_eq V c 0) (after0 V c) t d
theorem before1 (c : Dev nD) (t : Fin cfg0.N) (d) : (layerDat V c).before 1 t d = blockAt V c 1 t :=
  before1_of V (layerDat V c) (A_eq V c 1) (after1 V c) t d
theorem before2 (c : Dev nD) (t : Fin cfg0.N) (d) : (layerDat V c).before 2 t d = blockAt V c 2 t :=
  before2_of V (layerDat V c) (A_eq V c 2) (after2 V c) t d
theorem before3 (c : Dev nD) (t : Fin cfg0.N) (d) : (layerDat V c).before 3 t d = blockAt V c 3 t :=
  before3_of V (layerDat V c) (A_eq V c 3) (after3 V c) t d
theorem before4 (c : Dev nD) (t : Fin cfg0.N) (d) : (layerDat V c).before 4 t d = blockAt V c 4 t :=
  before4_of V (layerDat V c) (A_eq V c 4) (after4 V c) t d

/-! ## The per-point obligation -/

/-- What the body is handed at point `t`: the untouched rest of the core, and each window's current staging buffer. -/
def pointPre (c : Dev nD) (t : Fin cfg0.N) : sProp 𝕄 :=
  iprop((layerDat V c).Φ t.castSucc ∗ (layerDat V c).owesAt () t.castSucc
    ∗ (∃ d, owns (c : Thread nD τ) (st0_0 t) fullShare ((layerDat V c).before 0 t d))
    ∗ (∃ d, owns (c : Thread nD τ) (st0_1 t) fullShare ((layerDat V c).before 1 t d))
    ∗ (∃ d, owns (c : Thread nD τ) (st0_2 t) fullShare ((layerDat V c).before 2 t d))
    ∗ (∃ d, owns (c : Thread nD τ) (st0_3 t) fullShare ((layerDat V c).before 3 t d))
    ∗ (∃ d, owns (c : Thread nD τ) (st0_4 t) fullShare ((layerDat V c).before 4 t d))
    ∗ (∃ d, owns (c : Thread nD τ) (st0_5 t) fullShare ((layerDat V c).before 5 t d)))

/-- and what it hands back. -/
def pointPost (c : Dev nD) (t : Fin cfg0.N) : sProp 𝕄 :=
  iprop((layerDat V c).Φ t.succ ∗ (layerDat V c).owesAt () t.succ
    ∗ owns (c : Thread nD τ) (st0_0 t) fullShare ((layerDat V c).after 0 t)
    ∗ owns (c : Thread nD τ) (st0_1 t) fullShare ((layerDat V c).after 1 t)
    ∗ owns (c : Thread nD τ) (st0_2 t) fullShare ((layerDat V c).after 2 t)
    ∗ owns (c : Thread nD τ) (st0_3 t) fullShare ((layerDat V c).after 3 t)
    ∗ owns (c : Thread nD τ) (st0_4 t) fullShare ((layerDat V c).after 4 t)
    ∗ owns (c : Thread nD τ) (st0_5 t) fullShare ((layerDat V c).after 5 t))

set_option maxHeartbeats 1000000 in
/-- The body at any grid point: its input buffers hold the point's blocks, so `body_sound` applies. -/
theorem point_sound (c : Dev nD) (t : Fin cfg0.N) :
    pointPre V c t ⊢ wp frame (wpE (defs₀ (F := F)) Variants.none c none) Set.univ (bodyAt0 t) (fun _ => pointPost V c t) := by
  unfold pointPre pointPost bodyAt0
  simp only [before0, before1, before2, before3, before4]
  rw [show (layerDat V c).Φ t.succ = (layerDat V c).Φ t.castSucc from rfl,
    show (layerDat V c).owesAt () t.succ = (layerDat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_sound c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation for this layer, at every grid point. -/
theorem layer_obligation (c : Dev nD) : BodyObligation (layerDat (F := F) V c) (defs₀ (F := F)) Variants.none () Set.univ := fun t => by
  rw [bigSep_W0, bigSep_W0]
  exact point_sound V c t

end Cert.KernelIdeal.Layer0

end
-- ==== Proof.IdealLayer1.lean ====
import proofs.«162653_j26706106646651_1_alg».proof.Proof.Gen.KernelIdeal.Launch
import proofs.«162653_j26706106646651_1_alg».proof.Proof.Gen.KernelIdeal.Skeleton
import proofs.«162653_j26706106646651_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 1: one grid point of the fused Chebyshev layer

The layer's kernel is launched over 25 row tiles of 2000 nodes. At a tile it is handed the tile's rows of the five
stacked Chebyshev terms `T_0 … T_4` (window 0, a `5 × 2000 × 128` block), and — the same at every tile — the five
filter matrices `W_0 … W_4` (window 1), the filter bias (window 2), the residual matrix `W_l` (window 3) and the
residual bias (window 4). It writes the tile's `2000 × 128` rows of

  `max(((((((0 + T_0·W_0) + T_1·W_1) + T_2·W_2) + T_3·W_3) + T_4·W_4) + T_0·W_l) + b_c + b_l, 0)`

(window 5) and touches nothing else. This file states what the output tile holds after the body as a function of the
five input blocks (`tileOut`), proves that the body computes exactly that and gives the input blocks back unchanged
(`body_sound`), and packages it as the per-point obligation of the pipelined launch, for any contents `V` the region
may find in the device's buffers when it is entered.
-/

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the layer's region is entered
variable (V : (c : Dev nD) → (b : Ref sig .tc) → Buf (Elt F) ((c : Thread nD τ).loc b))

/-! ## The blocks a grid point sees -/

/-- Window `w`'s block at grid point `t`: the part of the window's array (as the region finds it) that the point's
    index map selects — for window 0 rows `2000·t … 2000·t + 1999` of every Chebyshev term, for windows 1–4 the whole
    array. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds that window's block of the entry contents at every grid point, whether
    the point fetches it or not (an unfetched block's index has not moved since the last fetch). -/
theorem before0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds that window's block of the entry contents at every grid point, whether
    the point fetches it or not (an unfetched block's index has not moved since the last fetch). -/
theorem before1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds that window's block of the entry contents at every grid point, whether
    the point fetches it or not (an unfetched block's index has not moved since the last fetch). -/
theorem before2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds that window's block of the entry contents at every grid point, whether
    the point fetches it or not (an unfetched block's index has not moved since the last fetch). -/
theorem before3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds that window's block of the entry contents at every grid point, whether
    the point fetches it or not (an unfetched block's index has not moved since the last fetch). -/
theorem before4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output tile -/

/-- The whole output tile, the one rectangle the body stores through. -/
abbrev outRect : Rect S2000x128 := Rect.unit (s := S2000x128) ![0, 0] S2000x128.size inb_S2000x128_S2000x128_0_0

/-- The output tile after the body, from the five input blocks: the single store's value — the accumulated products of
    term `k`'s rows (slab `k` of `x0`) with filter `k` (slab `k` of `x1`), the residual product of term 0's rows with
    `x3`, and the two biases `x2`, `x4` — written over the whole tile. -/
def tileOut (x0 : Vec F S5x2000x128 .f32) (x1 : Vec F S5x128x128 .f32) (x2 : Vec F S1x128 .f32) (x3 : Vec F S128x128 .f32) (x4 : Vec F S1x128 .f32) : Vec F S2000x128 .f32 :=
  View.canon [⟨outRect, k1_pay1
    (k1_pay2 (View.ld x0 (Rect.unit (s := S5x2000x128) ![0, 0, 0] S1x2000x128.size inb_S5x2000x128_S1x2000x128_0_0_0)) (View.ld x1 (Rect.unit (s := S5x128x128) ![0, 0, 0] S1x128x128.size inb_S5x128x128_S1x128x128_0_0_0)) (View.ld x0 (Rect.unit (s := S5x2000x128) ![1, 0, 0] S1x2000x128.size inb_S5x2000x128_S1x2000x128_1_0_0)) (View.ld x1 (Rect.unit (s := S5x128x128) ![1, 0, 0] S1x128x128.size inb_S5x128x128_S1x128x128_1_0_0)) (View.ld x0 (Rect.unit (s := S5x2000x128) ![2, 0, 0] S1x2000x128.size inb_S5x2000x128_S1x2000x128_2_0_0)) (View.ld x1 (Rect.unit (s := S5x128x128) ![2, 0, 0] S1x128x128.size inb_S5x128x128_S1x128x128_2_0_0)))
    (k1_pay3 (View.ld x0 (Rect.unit (s := S5x2000x128) ![3, 0, 0] S1x2000x128.size inb_S5x2000x128_S1x2000x128_3_0_0))) (k1_pay4 (View.ld x1 (Rect.unit (s := S5x128x128) ![3, 0, 0] S1x128x128.size inb_S5x128x128_S1x128x128_3_0_0)))
    (View.ld x0 (Rect.unit (s := S5x2000x128) ![4, 0, 0] S1x2000x128.size inb_S5x2000x128_S1x2000x128_4_0_0)) (View.ld x1 (Rect.unit (s := S5x128x128) ![4, 0, 0] S1x128x128.size inb_S5x128x128_S1x128x128_4_0_0)) (View.ld x0 (Rect.unit (s := S5x2000x128) ![0, 0, 0] S1x2000x128.size inb_S5x2000x128_S1x2000x128_0_0_0)) (View.ld x3 (Rect.unit (s := S128x128) ![0, 0] S128x128.size inb_S128x128_S128x128_0_0)) (View.ld x2 (Rect.unit (s := S1x128) ![0, 0] S1x128.size inb_S1x128_S1x128_0_0)) (View.ld x4 (Rect.unit (s := S1x128) ![0, 0] S1x128.size inb_S1x128_S1x128_0_0))⟩]

/-- That one store covers the tile: its rectangle is the whole tile. -/
theorem tile_covered (p : Vec F S2000x128 .f32) (y : S2000x128.Idx) :
    ∃ pc ∈ ([⟨outRect, p⟩] : List (View.Piece (Elt F) S2000x128 .f32)), y ∈ pc.1.set :=
  View.cover_of_tiled [⟨outRect, p⟩] S2000x128.size (by rfl) y

/-! ## The body computes `tileOut` and gives its inputs back -/

set_option maxHeartbeats 4000000 in
/-- Run on whole staging buffers — the five inputs holding `x0 … x4`, the output holding anything — the body ends
    with the inputs as they were and the output at `tileOut x0 … x4`. -/
theorem body_sound (c : Dev nD) (E : Set ℕ) (i : grid1.Coords) (arg1 : Memref sig .tc .vmem S5x2000x128 .f32) (harg1 : arg1.IsWhole) (arg2 : Memref sig .tc .vmem S5x128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole)
    (x0 : Vec F S5x2000x128 .f32) (x1 : Vec F S5x128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tileOut x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_covered _)

/-! ## The launch's bookkeeping for this layer -/

/-- What the pipelined launch is told about this layer on core `c`: the arrays are the entry contents `V`; after the
    body at point `t` every input buffer still holds its block and the output buffer holds `tileOut` of the point's
    blocks; nothing else of the core is touched and nothing is owed to another core. -/
def layerDat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => tileOut (blockAt V c 0 t) (blockAt V c 1 t) (blockAt V c 2 t) (blockAt V c 3 t) (blockAt V c 4 t)
  Φ _ := Pipeline.ΦA spec1 c
  q _ := fullShare
  owed _ := 0

theorem A_eq (c : Dev nD) (w : Fin cfg1.W) : (layerDat V c).A w = V c (Pipeline.arrRef spec1 w) := by
  dsimp only [layerDat]

theorem after0 (c : Dev nD) (t : Fin cfg1.N) : (layerDat V c).after 0 t = blockAt V c 0 t := by dsimp only [layerDat]
theorem after1 (c : Dev nD) (t : Fin cfg1.N) : (layerDat V c).after 1 t = blockAt V c 1 t := by dsimp only [layerDat]
theorem after2 (c : Dev nD) (t : Fin cfg1.N) : (layerDat V c).after 2 t = blockAt V c 2 t := by dsimp only [layerDat]
theorem after3 (c : Dev nD) (t : Fin cfg1.N) : (layerDat V c).after 3 t = blockAt V c 3 t := by dsimp only [layerDat]
theorem after4 (c : Dev nD) (t : Fin cfg1.N) : (layerDat V c).after 4 t = blockAt V c 4 t := by dsimp only [layerDat]
theorem after5 (c : Dev nD) (t : Fin cfg1.N) : (layerDat V c).after 5 t = tileOut (blockAt V c 0 t) (blockAt V c 1 t) (blockAt V c 2 t) (blockAt V c 3 t) (blockAt V c 4 t) := by dsimp only [layerDat]

theorem before0 (c : Dev nD) (t : Fin cfg1.N) (d) : (layerDat V c).before 0 t d = blockAt V c 0 t :=
  before0_of V (layerDat V c) (A_eq V c 0) (after0 V c) t d
theorem before1 (c : Dev nD) (t : Fin cfg1.N) (d) : (layerDat V c).before 1 t d = blockAt V c 1 t :=
  before1_of V (layerDat V c) (A_eq V c 1) (after1 V c) t d
theorem before2 (c : Dev nD) (t : Fin cfg1.N) (d) : (layerDat V c).before 2 t d = blockAt V c 2 t :=
  before2_of V (layerDat V c) (A_eq V c 2) (after2 V c) t d
theorem before3 (c : Dev nD) (t : Fin cfg1.N) (d) : (layerDat V c).before 3 t d = blockAt V c 3 t :=
  before3_of V (layerDat V c) (A_eq V c 3) (after3 V c) t d
theorem before4 (c : Dev nD) (t : Fin cfg1.N) (d) : (layerDat V c).before 4 t d = blockAt V c 4 t :=
  before4_of V (layerDat V c) (A_eq V c 4) (after4 V c) t d

/-! ## The per-point obligation -/

/-- What the body is handed at point `t`: the untouched rest of the core, and each window's current staging buffer. -/
def pointPre (c : Dev nD) (t : Fin cfg1.N) : sProp 𝕄 :=
  iprop((layerDat V c).Φ t.castSucc ∗ (layerDat V c).owesAt () t.castSucc
    ∗ (∃ d, owns (c : Thread nD τ) (st1_0 t) fullShare ((layerDat V c).before 0 t d))
    ∗ (∃ d, owns (c : Thread nD τ) (st1_1 t) fullShare ((layerDat V c).before 1 t d))
    ∗ (∃ d, owns (c : Thread nD τ) (st1_2 t) fullShare ((layerDat V c).before 2 t d))
    ∗ (∃ d, owns (c : Thread nD τ) (st1_3 t) fullShare ((layerDat V c).before 3 t d))
    ∗ (∃ d, owns (c : Thread nD τ) (st1_4 t) fullShare ((layerDat V c).before 4 t d))
    ∗ (∃ d, owns (c : Thread nD τ) (st1_5 t) fullShare ((layerDat V c).before 5 t d)))

/-- and what it hands back. -/
def pointPost (c : Dev nD) (t : Fin cfg1.N) : sProp 𝕄 :=
  iprop((layerDat V c).Φ t.succ ∗ (layerDat V c).owesAt () t.succ
    ∗ owns (c : Thread nD τ) (st1_0 t) fullShare ((layerDat V c).after 0 t)
    ∗ owns (c : Thread nD τ) (st1_1 t) fullShare ((layerDat V c).after 1 t)
    ∗ owns (c : Thread nD τ) (st1_2 t) fullShare ((layerDat V c).after 2 t)
    ∗ owns (c : Thread nD τ) (st1_3 t) fullShare ((layerDat V c).after 3 t)
    ∗ owns (c : Thread nD τ) (st1_4 t) fullShare ((layerDat V c).after 4 t)
    ∗ owns (c : Thread nD τ) (st1_5 t) fullShare ((layerDat V c).after 5 t))

set_option maxHeartbeats 1000000 in
/-- The body at any grid point: its input buffers hold the point's blocks, so `body_sound` applies. -/
theorem point_sound (c : Dev nD) (t : Fin cfg1.N) :
    pointPre V c t ⊢ wp frame (wpE (defs₀ (F := F)) Variants.none c none) Set.univ (bodyAt1 t) (fun _ => pointPost V c t) := by
  unfold pointPre pointPost bodyAt1
  simp only [before0, before1, before2, before3, before4]
  rw [show (layerDat V c).Φ t.succ = (layerDat V c).Φ t.castSucc from rfl,
    show (layerDat V c).owesAt () t.succ = (layerDat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_sound c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation for this layer, at every grid point. -/
theorem layer_obligation (c : Dev nD) : BodyObligation (layerDat (F := F) V c) (defs₀ (F := F)) Variants.none () Set.univ := fun t => by
  rw [bigSep_W1, bigSep_W1]
  exact point_sound V c t

end Cert.KernelIdeal.Layer1

end
-- ==== Proof.IdealLayer2.lean ====
import proofs.«162653_j26706106646651_1_alg».proof.Proof.Gen.KernelIdeal.Launch
import proofs.«162653_j26706106646651_1_alg».proof.Proof.Gen.KernelIdeal.Skeleton
import proofs.«162653_j26706106646651_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Layer 2: one grid point of the fused Chebyshev layer

The layer's kernel is launched over 25 row tiles of 2000 nodes. At a tile it is handed the tile's rows of the five
stacked Chebyshev terms `T_0 … T_4` (window 0, a `5 × 2000 × 128` block), and — the same at every tile — the five
filter matrices `W_0 … W_4` (window 1), the filter bias (window 2), the residual matrix `W_l` (window 3) and the
residual bias (window 4). It writes the tile's `2000 × 350` rows of

  `((((((0 + T_0·W_0) + T_1·W_1) + T_2·W_2) + T_3·W_3) + T_4·W_4) + T_0·W_l) + b_c + b_l`

(window 5) and touches nothing else. This file states what the output tile holds after the body as a function of the
five input blocks (`tileOut`), proves that the body computes exactly that and gives the input blocks back unchanged
(`body_sound`), and packages it as the per-point obligation of the pipelined launch, for any contents `V` the region
may find in the device's buffers when it is entered.
-/

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the layer's region is entered
variable (V : (c : Dev nD) → (b : Ref sig .tc) → Buf (Elt F) ((c : Thread nD τ).loc b))

/-! ## The blocks a grid point sees -/

/-- Window `w`'s block at grid point `t`: the part of the window's array (as the region finds it) that the point's
    index map selects — for window 0 rows `2000·t … 2000·t + 1999` of every Chebyshev term, for windows 1–4 the whole
    array. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds that window's block of the entry contents at every grid point, whether
    the point fetches it or not (an unfetched block's index has not moved since the last fetch). -/
theorem before0_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds that window's block of the entry contents at every grid point, whether
    the point fetches it or not (an unfetched block's index has not moved since the last fetch). -/
theorem before1_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds that window's block of the entry contents at every grid point, whether
    the point fetches it or not (an unfetched block's index has not moved since the last fetch). -/
theorem before2_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds that window's block of the entry contents at every grid point, whether
    the point fetches it or not (an unfetched block's index has not moved since the last fetch). -/
theorem before3_of {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's staging buffer holds that window's block of the entry contents at every grid point, whether
    the point fetches it or not (an unfetched block's index has not moved since the last fetch). -/
theorem before4_of {c : Dev nD} (dat : Dat τ (Elt F) Unit ℕ (UR sig nD τ) ℕ cfg2 c) (hA : dat.A 4 = V c (Pipeline.arrRef spec2 4))
    (hafter : ∀ t, dat.after 4 t = blockAt V c 4 t) (t : Fin cfg2.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output tile -/

/-- The whole output tile, the one rectangle the body stores through. -/
abbrev outRect : Rect S2000x350 := Rect.unit (s := S2000x350) ![0, 0] S2000x350.size inb_S2000x350_S2000x350_0_0

/-- The output tile after the body, from the five input blocks: the single store's value — the accumulated products of
    term `k`'s rows (slab `k` of `x0`) with filter `k` (slab `k` of `x1`), the residual product of term 0's rows with
    `x3`, and the two biases `x2`, `x4` — written over the whole tile. -/
def tileOut (x0 : Vec F S5x2000x128 .f32) (x1 : Vec F S5x128x350 .f32) (x2 : Vec F S1x350 .f32) (x3 : Vec F S128x350 .f32) (x4 : Vec F S1x350 .f32) : Vec F S2000x350 .f32 :=
  View.canon [⟨outRect, k2_pay1
    (k2_pay2 (View.ld x0 (Rect.unit (s := S5x2000x128) ![0, 0, 0] S1x2000x128.size inb_S5x2000x128_S1x2000x128_0_0_0)) (View.ld x1 (Rect.unit (s := S5x128x350) ![0, 0, 0] S1x128x350.size inb_S5x128x350_S1x128x350_0_0_0)) (View.ld x0 (Rect.unit (s := S5x2000x128) ![1, 0, 0] S1x2000x128.size inb_S5x2000x128_S1x2000x128_1_0_0)) (View.ld x1 (Rect.unit (s := S5x128x350) ![1, 0, 0] S1x128x350.size inb_S5x128x350_S1x128x350_1_0_0)) (View.ld x0 (Rect.unit (s := S5x2000x128) ![2, 0, 0] S1x2000x128.size inb_S5x2000x128_S1x2000x128_2_0_0)) (View.ld x1 (Rect.unit (s := S5x128x350) ![2, 0, 0] S1x128x350.size inb_S5x128x350_S1x128x350_2_0_0)))
    (k2_pay3 (View.ld x0 (Rect.unit (s := S5x2000x128) ![3, 0, 0] S1x2000x128.size inb_S5x2000x128_S1x2000x128_3_0_0))) (k2_pay4 (View.ld x1 (Rect.unit (s := S5x128x350) ![3, 0, 0] S1x128x350.size inb_S5x128x350_S1x128x350_3_0_0)))
    (View.ld x0 (Rect.unit (s := S5x2000x128) ![4, 0, 0] S1x2000x128.size inb_S5x2000x128_S1x2000x128_4_0_0)) (View.ld x1 (Rect.unit (s := S5x128x350) ![4, 0, 0] S1x128x350.size inb_S5x128x350_S1x128x350_4_0_0)) (View.ld x0 (Rect.unit (s := S5x2000x128) ![0, 0, 0] S1x2000x128.size inb_S5x2000x128_S1x2000x128_0_0_0)) (View.ld x3 (Rect.unit (s := S128x350) ![0, 0] S128x350.size inb_S128x350_S128x350_0_0)) (View.ld x2 (Rect.unit (s := S1x350) ![0, 0] S1x350.size inb_S1x350_S1x350_0_0)) (View.ld x4 (Rect.unit (s := S1x350) ![0, 0] S1x350.size inb_S1x350_S1x350_0_0))⟩]

/-- That one store covers the tile: its rectangle is the whole tile. -/
theorem tile_covered (p : Vec F S2000x350 .f32) (y : S2000x350.Idx) :
    ∃ pc ∈ ([⟨outRect, p⟩] : List (View.Piece (Elt F) S2000x350 .f32)), y ∈ pc.1.set :=
  View.cover_of_tiled [⟨outRect, p⟩] S2000x350.size (by rfl) y

/-! ## The body computes `tileOut` and gives its inputs back -/

set_option maxHeartbeats 4000000 in
/-- Run on whole staging buffers — the five inputs holding `x0 … x4`, the output holding anything — the body ends
    with the inputs as they were and the output at `tileOut x0 … x4`. -/
theorem body_sound (c : Dev nD) (E : Set ℕ) (i : grid2.Coords) (arg1 : Memref sig .tc .vmem S5x2000x128 .f32) (harg1 : arg1.IsWhole) (arg2 : Memref sig .tc .vmem S5x128x350 .f32) (harg2 : arg2.IsWhole) (arg3 : Memref sig .tc .vmem S1x350 .f32) (harg3 : arg3.IsWhole) (arg4 : Memref sig .tc .vmem S128x350 .f32) (harg4 : arg4.IsWhole) (arg5 : Memref sig .tc .vmem S1x350 .f32) (harg5 : arg5.IsWhole) (arg6 : Memref sig .tc .vmem S2000x350 .f32) (harg6 : arg6.IsWhole)
    (x0 : Vec F S5x2000x128 .f32) (x1 : Vec F S5x128x350 .f32) (x2 : Vec F S1x350 .f32) (x3 : Vec F S128x350 .f32) (x4 : Vec F S1x350 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tileOut x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_covered _)

/-! ## The launch's bookkeeping for this layer -/

/-- What the pipelined launch is told about this layer on core `c`: the arrays are the entry contents `V`; after the
    body at point `t` every input buffer still holds its block and the output buffer holds `tileOut` of the point's
    blocks; nothing else of the core is touched and nothing is owed to another core. -/
def layerDat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => tileOut (blockAt V c 0 t) (blockAt V c 1 t) (blockAt V c 2 t) (blockAt V c 3 t) (blockAt V c 4 t)
  Φ _ := Pipeline.ΦA spec2 c
  q _ := fullShare
  owed _ := 0

theorem A_eq (c : Dev nD) (w : Fin cfg2.W) : (layerDat V c).A w = V c (Pipeline.arrRef spec2 w) := by
  dsimp only [layerDat]

theorem after0 (c : Dev nD) (t : Fin cfg2.N) : (layerDat V c).after 0 t = blockAt V c 0 t := by dsimp only [layerDat]
theorem after1 (c : Dev nD) (t : Fin cfg2.N) : (layerDat V c).after 1 t = blockAt V c 1 t := by dsimp only [layerDat]
theorem after2 (c : Dev nD) (t : Fin cfg2.N) : (layerDat V c).after 2 t = blockAt V c 2 t := by dsimp only [layerDat]
theorem after3 (c : Dev nD) (t : Fin cfg2.N) : (layerDat V c).after 3 t = blockAt V c 3 t := by dsimp only [layerDat]
theorem after4 (c : Dev nD) (t : Fin cfg2.N) : (layerDat V c).after 4 t = blockAt V c 4 t := by dsimp only [layerDat]
theorem after5 (c : Dev nD) (t : Fin cfg2.N) : (layerDat V c).after 5 t = tileOut (blockAt V c 0 t) (blockAt V c 1 t) (blockAt V c 2 t) (blockAt V c 3 t) (blockAt V c 4 t) := by dsimp only [layerDat]

theorem before0 (c : Dev nD) (t : Fin cfg2.N) (d) : (layerDat V c).before 0 t d = blockAt V c 0 t :=
  before0_of V (layerDat V c) (A_eq V c 0) (after0 V c) t d
theorem before1 (c : Dev nD) (t : Fin cfg2.N) (d) : (layerDat V c).before 1 t d = blockAt V c 1 t :=
  before1_of V (layerDat V c) (A_eq V c 1) (after1 V c) t d
theorem before2 (c : Dev nD) (t : Fin cfg2.N) (d) : (layerDat V c).before 2 t d = blockAt V c 2 t :=
  before2_of V (layerDat V c) (A_eq V c 2) (after2 V c) t d
theorem before3 (c : Dev nD) (t : Fin cfg2.N) (d) : (layerDat V c).before 3 t d = blockAt V c 3 t :=
  before3_of V (layerDat V c) (A_eq V c 3) (after3 V c) t d
theorem before4 (c : Dev nD) (t : Fin cfg2.N) (d) : (layerDat V c).before 4 t d = blockAt V c 4 t :=
  before4_of V (layerDat V c) (A_eq V c 4) (after4 V c) t d

/-! ## The per-point obligation -/

/-- What the body is handed at point `t`: the untouched rest of the core, and each window's current staging buffer. -/
def pointPre (c : Dev nD) (t : Fin cfg2.N) : sProp 𝕄 :=
  iprop((layerDat V c).Φ t.castSucc ∗ (layerDat V c).owesAt () t.castSucc
    ∗ (∃ d, owns (c : Thread nD τ) (st2_0 t) fullShare ((layerDat V c).before 0 t d))
    ∗ (∃ d, owns (c : Thread nD τ) (st2_1 t) fullShare ((layerDat V c).before 1 t d))
    ∗ (∃ d, owns (c : Thread nD τ) (st2_2 t) fullShare ((layerDat V c).before 2 t d))
    ∗ (∃ d, owns (c : Thread nD τ) (st2_3 t) fullShare ((layerDat V c).before 3 t d))
    ∗ (∃ d, owns (c : Thread nD τ) (st2_4 t) fullShare ((layerDat V c).before 4 t d))
    ∗ (∃ d, owns (c : Thread nD τ) (st2_5 t) fullShare ((layerDat V c).before 5 t d)))

/-- and what it hands back. -/
def pointPost (c : Dev nD) (t : Fin cfg2.N) : sProp 𝕄 :=
  iprop((layerDat V c).Φ t.succ ∗ (layerDat V c).owesAt () t.succ
    ∗ owns (c : Thread nD τ) (st2_0 t) fullShare ((layerDat V c).after 0 t)
    ∗ owns (c : Thread nD τ) (st2_1 t) fullShare ((layerDat V c).after 1 t)
    ∗ owns (c : Thread nD τ) (st2_2 t) fullShare ((layerDat V c).after 2 t)
    ∗ owns (c : Thread nD τ) (st2_3 t) fullShare ((layerDat V c).after 3 t)
    ∗ owns (c : Thread nD τ) (st2_4 t) fullShare ((layerDat V c).after 4 t)
    ∗ owns (c : Thread nD τ) (st2_5 t) fullShare ((layerDat V c).after 5 t))

set_option maxHeartbeats 1000000 in
/-- The body at any grid point: its input buffers hold the point's blocks, so `body_sound` applies. -/
theorem point_sound (c : Dev nD) (t : Fin cfg2.N) :
    pointPre V c t ⊢ wp frame (wpE (defs₀ (F := F)) Variants.none c none) Set.univ (bodyAt2 t) (fun _ => pointPost V c t) := by
  unfold pointPre pointPost bodyAt2
  simp only [before0, before1, before2, before3, before4]
  rw [show (layerDat V c).Φ t.succ = (layerDat V c).Φ t.castSucc from rfl,
    show (layerDat V c).owesAt () t.succ = (layerDat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_sound c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation for this layer, at every grid point. -/
theorem layer_obligation (c : Dev nD) : BodyObligation (layerDat (F := F) V c) (defs₀ (F := F)) Variants.none () Set.univ := fun t => by
  rw [bigSep_W2, bigSep_W2]
  exact point_sound V c t

end Cert.KernelIdeal.Layer2

end
-- ==== Proof.IdealWhole.lean ====
import proofs.«162653_j26706106646651_1_alg».proof.Proof.IdealLayer0
import proofs.«162653_j26706106646651_1_alg».proof.Proof.IdealLayer1
import proofs.«162653_j26706106646651_1_alg».proof.Proof.IdealLayer2

/-!
# The whole program's run: three fused layers among the graph-propagation glue

The program is fifteen pieces in a row: seven stretches of host operations (the edge normalisation
`w = -d^{-1/2}[row] · d^{-1/2}[col]`, the four propagations `prop(t) = segment_sum(t[col] · w, row)` and the stacking of
`T_0 … T_4` for layer 0), layer 0's region, two stretches (the same propagations and stacking on layer 0's output),
layer 1's region, two more stretches, layer 2's region, and the final flattening. This file follows the device's buffer
contents from one boundary to the next (`B0 … B15`): a host stretch leaves every buffer at what its operations compute
from the contents before it, and a layer's region leaves its output array at the row tiles its 25 grid points wrote and
every other buffer alone. No piece writes an argument array, so each argument ends as launched. The run itself is the
library's launch of such a sequence, given each layer's per-point obligation.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes, and that none allocates -/

theorem main_part0_ops0_fresh : (main_part0_ops0 : List (HloOp τ sig (Elt F))).Forall fun op => op.fresh = ∅ := by
  simp only [List.Forall]; repeat' constructor
/-- The buffers the operations of `main_part0_ops0` write: one result each. -/
abbrev main_part0_ops0_W : List (Ref sig .tc) := [main_v0, main_v1, main_v2, main_v3, main_cst, main_v4, main_cst_0, main_v5, main_v6, main_v7, main_cst_1, main_v8, main_v9, main_cst_2, main_v10, main_v11, main_cst_3]
set_option maxHeartbeats 4000000 in
theorem main_part0_ops0_writes : (main_part0_ops0 : List (HloOp τ sig (Elt F))).Forall fun op => op.writes ⊆ (main_part0_ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part0_ops1_fresh : (main_part0_ops1 : List (HloOp τ sig (Elt F))).Forall fun op => op.fresh = ∅ := by
  simp only [List.Forall]; repeat' constructor
/-- The buffers the operations of `main_part0_ops1` write: one result each. -/
abbrev main_part0_ops1_W : List (Ref sig .tc) := [main_call0_v0, main_call0_v1, main_v12]
set_option maxHeartbeats 4000000 in
theorem main_part0_ops1_writes : (main_part0_ops1 : List (HloOp τ sig (Elt F))).Forall fun op => op.writes ⊆ (main_part0_ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part0_ops2_fresh : (main_part0_ops2 : List (HloOp τ sig (Elt F))).Forall fun op => op.fresh = ∅ := by
  simp only [List.Forall]; repeat' constructor
/-- The buffers the operations of `main_part0_ops2` write: one result each. -/
abbrev main_part0_ops2_W : List (Ref sig .tc) := [main_cst_4, main_v13, main_v14, main_cst_5]
set_option maxHeartbeats 4000000 in
theorem main_part0_ops2_writes : (main_part0_ops2 : List (HloOp τ sig (Elt F))).Forall fun op => op.writes ⊆ (main_part0_ops2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part0_ops3_fresh : (main_part0_ops3 : List (HloOp τ sig (Elt F))).Forall fun op => op.fresh = ∅ := by
  simp only [List.Forall]; repeat' constructor
/-- The buffers the operations of `main_part0_ops3` write: one result each. -/
abbrev main_part0_ops3_W : List (Ref sig .tc) := [main_call1_v0, main_call1_v1, main_v15]
set_option maxHeartbeats 4000000 in
theorem main_part0_ops3_writes : (main_part0_ops3 : List (HloOp τ sig (Elt F))).Forall fun op => op.writes ⊆ (main_part0_ops3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part0_ops4_fresh : (main_part0_ops4 : List (HloOp τ sig (Elt F))).Forall fun op => op.fresh = ∅ := by
  simp only [List.Forall]; repeat' constructor
/-- The buffers the operations of `main_part0_ops4` write: one result each. -/
abbrev main_part0_ops4_W : List (Ref sig .tc) := [main_c, main_v16, main_v17, main_c_6, main_v18, main_v19, main_v20, main_v21, main_v22, main_v23, main_c_7, main_v24, main_v25, main_c_8, main_v26, main_v27, main_v28, main_v29, main_v30, main_v31, main_c_9, main_v32, main_v33, main_c_10, main_v34, main_v35, main_v36, main_v37, main_v38, main_v39, main_v40, main_v41, main_cst_11, main_v42, main_v43, main_v44, main_c_12]
set_option maxHeartbeats 4000000 in
theorem main_part0_ops4_writes : (main_part0_ops4 : List (HloOp τ sig (Elt F))).Forall fun op => op.writes ⊆ (main_part0_ops4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part1_ops0_fresh : (main_part1_ops0 : List (HloOp τ sig (Elt F))).Forall fun op => op.fresh = ∅ := by
  simp only [List.Forall]; repeat' constructor
/-- The buffers the operations of `main_part1_ops0` write: one result each. -/
abbrev main_part1_ops0_W : List (Ref sig .tc) := [main_v45, main_v46, main_c_13, main_v47, main_v48, main_v49, main_v50, main_v51, main_v52, main_v53, main_v54, main_cst_14, main_v55, main_v56, main_v57, main_cst_15, main_v58, main_v59, main_v60, main_c_16, main_v61, main_v62, main_c_17, main_v63, main_v64, main_v65, main_v66, main_v67, main_v68, main_v69, main_v70, main_cst_18, main_v71, main_v72, main_v73, main_cst_19, main_v74, main_v75, main_v76, main_c_20, main_v77, main_v78, main_c_21, main_v79, main_v80, main_v81, main_v82, main_v83, main_v84, main_v85, main_v86, main_cst_22, main_v87, main_v88, main_v89, main_cst_23, main_v90, main_v91, main_v92, main_v93]
set_option maxHeartbeats 4000000 in
theorem main_part1_ops0_writes : (main_part1_ops0 : List (HloOp τ sig (Elt F))).Forall fun op => op.writes ⊆ (main_part1_ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part2_ops0_fresh : (main_part2_ops0 : List (HloOp τ sig (Elt F))).Forall fun op => op.fresh = ∅ := by
  simp only [List.Forall]; repeat' constructor
/-- The buffers the operations of `main_part2_ops0` write: one result each. -/
abbrev main_part2_ops0_W : List (Ref sig .tc) := [main_v94, main_v95, main_v96, main_v97, main_v98, main_v99, main_v100]
set_option maxHeartbeats 4000000 in
theorem main_part2_ops0_writes : (main_part2_ops0 : List (HloOp τ sig (Elt F))).Forall fun op => op.writes ⊆ (main_part2_ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part2_ops1_fresh : (main_part2_ops1 : List (HloOp τ sig (Elt F))).Forall fun op => op.fresh = ∅ := by
  simp only [List.Forall]; repeat' constructor
/-- The buffers the operations of `main_part2_ops1` write: one result each. -/
abbrev main_part2_ops1_W : List (Ref sig .tc) := [main_c_24, main_v102, main_v103, main_c_25, main_v104, main_v105, main_v106, main_v107, main_v108, main_v109, main_v110, main_v111, main_cst_26, main_v112, main_v113, main_v114, main_c_27, main_v115, main_v116, main_c_28, main_v117, main_v118, main_v119, main_v120, main_v121, main_v122, main_v123, main_v124, main_cst_29, main_v125, main_v126, main_v127, main_cst_30, main_v128, main_v129, main_v130, main_c_31, main_v131, main_v132, main_c_32, main_v133, main_v134, main_v135, main_v136, main_v137, main_v138, main_v139, main_v140, main_cst_33, main_v141, main_v142, main_v143]
set_option maxHeartbeats 4000000 in
theorem main_part2_ops1_writes : (main_part2_ops1 : List (HloOp τ sig (Elt F))).Forall fun op => op.writes ⊆ (main_part2_ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part3_ops0_fresh : (main_part3_ops0 : List (HloOp τ sig (Elt F))).Forall fun op => op.fresh = ∅ := by
  simp only [List.Forall]; repeat' constructor
/-- The buffers the operations of `main_part3_ops0` write: one result each. -/
abbrev main_part3_ops0_W : List (Ref sig .tc) := [main_cst_34, main_v144, main_v145, main_v146, main_c_35, main_v147, main_v148, main_c_36, main_v149, main_v150, main_v151, main_v152, main_v153, main_v154, main_v155, main_v156, main_cst_37, main_v157, main_v158, main_v159, main_cst_38, main_v160, main_v161, main_v162, main_v163, main_v164, main_v165, main_v166, main_v167, main_v168, main_v169, main_v170]
set_option maxHeartbeats 4000000 in
theorem main_part3_ops0_writes : (main_part3_ops0 : List (HloOp τ sig (Elt F))).Forall fun op => op.writes ⊆ (main_part3_ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part3_ops1_fresh : (main_part3_ops1 : List (HloOp τ sig (Elt F))).Forall fun op => op.fresh = ∅ := by
  simp only [List.Forall]; repeat' constructor
/-- The buffers the operations of `main_part3_ops1` write: one result each. -/
abbrev main_part3_ops1_W : List (Ref sig .tc) := [main_c_39, main_v172, main_v173, main_c_40, main_v174, main_v175, main_v176, main_v177, main_v178, main_v179, main_v180, main_v181, main_cst_41, main_v182, main_v183, main_v184, main_c_42, main_v185, main_v186, main_c_43, main_v187, main_v188, main_v189, main_v190, main_v191, main_v192, main_v193]
set_option maxHeartbeats 4000000 in
theorem main_part3_ops1_writes : (main_part3_ops1 : List (HloOp τ sig (Elt F))).Forall fun op => op.writes ⊆ (main_part3_ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part4_ops0_fresh : (main_part4_ops0 : List (HloOp τ sig (Elt F))).Forall fun op => op.fresh = ∅ := by
  simp only [List.Forall]; repeat' constructor
/-- The buffers the operations of `main_part4_ops0` write: one result each. -/
abbrev main_part4_ops0_W : List (Ref sig .tc) := [main_v194, main_cst_44, main_v195, main_v196, main_v197, main_cst_45, main_v198, main_v199, main_v200, main_c_46, main_v201, main_v202, main_c_47, main_v203, main_v204, main_v205, main_v206, main_v207, main_v208, main_v209, main_v210, main_cst_48, main_v211, main_v212, main_v213, main_cst_49, main_v214, main_v215, main_v216, main_c_50, main_v217, main_v218, main_c_51, main_v219, main_v220, main_v221, main_v222, main_v223, main_v224, main_v225, main_v226, main_cst_52, main_v227, main_v228, main_v229, main_cst_53, main_v230, main_v231, main_v232, main_v233, main_v234, main_v235, main_v236, main_v237, main_v238, main_v239, main_v240]
set_option maxHeartbeats 4000000 in
theorem main_part4_ops0_writes : (main_part4_ops0 : List (HloOp τ sig (Elt F))).Forall fun op => op.writes ⊆ (main_part4_ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem main_part4_ops1_fresh : (main_part4_ops1 : List (HloOp τ sig (Elt F))).Forall fun op => op.fresh = ∅ := by
  simp only [List.Forall]; repeat' constructor
/-- The buffers the operations of `main_part4_ops1` write: one result each. -/
abbrev main_part4_ops1_W : List (Ref sig .tc) := [main_v242]
set_option maxHeartbeats 4000000 in
theorem main_part4_ops1_writes : (main_part4_ops1 : List (HloOp τ sig (Elt F))).Forall fun op => op.writes ⊆ (main_part4_ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The buffer contents at each boundary -/

/-- Core `c`'s buffers at launch. -/
abbrev B0 : Dev nD → Valuation τ sig (Elt F) := fun c b => (s₀ m ρ).mem ((c : Dev nD), b)
/-- After `main_part0_ops0`. -/
abbrev B1 : Dev nD → Valuation τ sig (Elt F) := fun c => StableHlo.after main_part0_ops0 (B0 m ρ c)
theorem B1_keeps (c : Dev nD) (r : Ref sig .tc) (h : r ∉ main_part0_ops0_W) : B1 m ρ c (Proc.devRef .tc r) = B0 m ρ c (Proc.devRef .tc r) :=
  StableHlo.after_of_writes_sub main_part0_ops0 _ main_part0_ops0_writes h
/-- After `main_part0_ops1`. -/
abbrev B2 : Dev nD → Valuation τ sig (Elt F) := fun c => StableHlo.after main_part0_ops1 (B1 m ρ c)
theorem B2_keeps (c : Dev nD) (r : Ref sig .tc) (h : r ∉ main_part0_ops1_W) : B2 m ρ c (Proc.devRef .tc r) = B1 m ρ c (Proc.devRef .tc r) :=
  StableHlo.after_of_writes_sub main_part0_ops1 _ main_part0_ops1_writes h
/-- After `main_part0_ops2`. -/
abbrev B3 : Dev nD → Valuation τ sig (Elt F) := fun c => StableHlo.after main_part0_ops2 (B2 m ρ c)
theorem B3_keeps (c : Dev nD) (r : Ref sig .tc) (h : r ∉ main_part0_ops2_W) : B3 m ρ c (Proc.devRef .tc r) = B2 m ρ c (Proc.devRef .tc r) :=
  StableHlo.after_of_writes_sub main_part0_ops2 _ main_part0_ops2_writes h
/-- After `main_part0_ops3`. -/
abbrev B4 : Dev nD → Valuation τ sig (Elt F) := fun c => StableHlo.after main_part0_ops3 (B3 m ρ c)
theorem B4_keeps (c : Dev nD) (r : Ref sig .tc) (h : r ∉ main_part0_ops3_W) : B4 m ρ c (Proc.devRef .tc r) = B3 m ρ c (Proc.devRef .tc r) :=
  StableHlo.after_of_writes_sub main_part0_ops3 _ main_part0_ops3_writes h
/-- After `main_part0_ops4`. -/
abbrev B5 : Dev nD → Valuation τ sig (Elt F) := fun c => StableHlo.after main_part0_ops4 (B4 m ρ c)
theorem B5_keeps (c : Dev nD) (r : Ref sig .tc) (h : r ∉ main_part0_ops4_W) : B5 m ρ c (Proc.devRef .tc r) = B4 m ρ c (Proc.devRef .tc r) :=
  StableHlo.after_of_writes_sub main_part0_ops4 _ main_part0_ops4_writes h
/-- After `main_part1_ops0`. -/
abbrev B6 : Dev nD → Valuation τ sig (Elt F) := fun c => StableHlo.after main_part1_ops0 (B5 m ρ c)
theorem B6_keeps (c : Dev nD) (r : Ref sig .tc) (h : r ∉ main_part1_ops0_W) : B6 m ρ c (Proc.devRef .tc r) = B5 m ρ c (Proc.devRef .tc r) :=
  StableHlo.after_of_writes_sub main_part1_ops0 _ main_part1_ops0_writes h
/-- After `main_part2_ops0`. -/
abbrev B7 : Dev nD → Valuation τ sig (Elt F) := fun c => StableHlo.after main_part2_ops0 (B6 m ρ c)
theorem B7_keeps (c : Dev nD) (r : Ref sig .tc) (h : r ∉ main_part2_ops0_W) : B7 m ρ c (Proc.devRef .tc r) = B6 m ρ c (Proc.devRef .tc r) :=
  StableHlo.after_of_writes_sub main_part2_ops0 _ main_part2_ops0_writes h
/-- Layer 0's region is entered from `B7`; read at the TensorCore's references: -/
abbrev E0 : (c : Dev nD) → (b : Ref sig .tc) → Buf (Elt F) ((c : Thread nD τ).loc b) := fun c b => B7 m ρ c b
/-- and left with its six arrays at what the pipelined launch leaves (the inputs as entered, the output at the tiles its
    grid points wrote back) and every other buffer as entered. -/
def B8 (c : Dev nD) : Valuation τ sig (Elt F) :=
  Pipeline.withArrays spec0 c (B7 m ρ c) fun w => (Layer0.layerDat (E0 m ρ) c).arrAt w cfg0.N
theorem B8_arr (c : Dev nD) (w : Fin cfg0.W) :
    B8 m ρ c (Proc.devRef .tc (Pipeline.arrRef spec0 w)) = (Layer0.layerDat (E0 m ρ) c).arrAt w cfg0.N := by
  unfold B8; exact Pipeline.withArrays_arr spec0 launch0.win.arr_inj c _ _ w
theorem B8_of_ne (c : Dev nD) (b : Ref sig .tc) (hb : ∀ w, Pipeline.arrRef spec0 w ≠ b) :
    B8 m ρ c (Proc.devRef .tc b) = B7 m ρ c (Proc.devRef .tc b) := by
  unfold B8; exact Pipeline.withArrays_of_ne spec0 c _ _ b hb
abbrev X0 : (c : Dev nD) → (b : Ref sig .tc) → Buf (Elt F) ((c : Thread nD τ).loc b) := fun c b => B8 m ρ c b
theorem left0 (c : Dev nD) (w : Fin cfg0.W) : (Layer0.layerDat (E0 m ρ) c).arrAt w cfg0.N = X0 m ρ c (Pipeline.arrRef spec0 w) :=
  (B8_arr m ρ c w).symm
theorem rest0 (c : Dev nD) : ∀ b, b ∉ Finset.univ.image (Pipeline.arrRef spec0) → X0 m ρ c b = E0 m ρ c b :=
  fun b hb => B8_of_ne m ρ c b fun w e => hb (Finset.mem_image.mpr ⟨w, Finset.mem_univ _, e⟩)
/-- An input window's array leaves the region as it entered it. -/
theorem B8_input (c : Dev nD) (w : Fin cfg0.W) (hw : (cfg0.win w).isOut = false) :
    B8 m ρ c (Proc.devRef .tc (Pipeline.arrRef spec0 w)) = B7 m ρ c (Proc.devRef .tc (Pipeline.arrRef spec0 w)) :=
  (B8_arr m ρ c w).trans (((Layer0.layerDat (E0 m ρ) c).arrAt_in w hw _).trans (Layer0.A_eq (E0 m ρ) c w))
/-- After `main_part2_ops1`. -/
abbrev B9 : Dev nD → Valuation τ sig (Elt F) := fun c => StableHlo.after main_part2_ops1 (B8 m ρ c)
theorem B9_keeps (c : Dev nD) (r : Ref sig .tc) (h : r ∉ main_part2_ops1_W) : B9 m ρ c (Proc.devRef .tc r) = B8 m ρ c (Proc.devRef .tc r) :=
  StableHlo.after_of_writes_sub main_part2_ops1 _ main_part2_ops1_writes h
/-- After `main_part3_ops0`. -/
abbrev B10 : Dev nD → Valuation τ sig (Elt F) := fun c => StableHlo.after main_part3_ops0 (B9 m ρ c)
theorem B10_keeps (c : Dev nD) (r : Ref sig .tc) (h : r ∉ main_part3_ops0_W) : B10 m ρ c (Proc.devRef .tc r) = B9 m ρ c (Proc.devRef .tc r) :=
  StableHlo.after_of_writes_sub main_part3_ops0 _ main_part3_ops0_writes h
/-- Layer 1's region is entered from `B10`; read at the TensorCore's references: -/
abbrev E1 : (c : Dev nD) → (b : Ref sig .tc) → Buf (Elt F) ((c : Thread nD τ).loc b) := fun c b => B10 m ρ c b
/-- and left with its six arrays at what the pipelined launch leaves (the inputs as entered, the output at the tiles its
    grid points wrote back) and every other buffer as entered. -/
def B11 (c : Dev nD) : Valuation τ sig (Elt F) :=
  Pipeline.withArrays spec1 c (B10 m ρ c) fun w => (Layer1.layerDat (E1 m ρ) c).arrAt w cfg1.N
theorem B11_arr (c : Dev nD) (w : Fin cfg1.W) :
    B11 m ρ c (Proc.devRef .tc (Pipeline.arrRef spec1 w)) = (Layer1.layerDat (E1 m ρ) c).arrAt w cfg1.N := by
  unfold B11; exact Pipeline.withArrays_arr spec1 launch1.win.arr_inj c _ _ w
theorem B11_of_ne (c : Dev nD) (b : Ref sig .tc) (hb : ∀ w, Pipeline.arrRef spec1 w ≠ b) :
    B11 m ρ c (Proc.devRef .tc b) = B10 m ρ c (Proc.devRef .tc b) := by
  unfold B11; exact Pipeline.withArrays_of_ne spec1 c _ _ b hb
abbrev X1 : (c : Dev nD) → (b : Ref sig .tc) → Buf (Elt F) ((c : Thread nD τ).loc b) := fun c b => B11 m ρ c b
theorem left1 (c : Dev nD) (w : Fin cfg1.W) : (Layer1.layerDat (E1 m ρ) c).arrAt w cfg1.N = X1 m ρ c (Pipeline.arrRef spec1 w) :=
  (B11_arr m ρ c w).symm
theorem rest1 (c : Dev nD) : ∀ b, b ∉ Finset.univ.image (Pipeline.arrRef spec1) → X1 m ρ c b = E1 m ρ c b :=
  fun b hb => B11_of_ne m ρ c b fun w e => hb (Finset.mem_image.mpr ⟨w, Finset.mem_univ _, e⟩)
/-- An input window's array leaves the region as it entered it. -/
theorem B11_input (c : Dev nD) (w : Fin cfg1.W) (hw : (cfg1.win w).isOut = false) :
    B11 m ρ c (Proc.devRef .tc (Pipeline.arrRef spec1 w)) = B10 m ρ c (Proc.devRef .tc (Pipeline.arrRef spec1 w)) :=
  (B11_arr m ρ c w).trans (((Layer1.layerDat (E1 m ρ) c).arrAt_in w hw _).trans (Layer1.A_eq (E1 m ρ) c w))
/-- After `main_part3_ops1`. -/
abbrev B12 : Dev nD → Valuation τ sig (Elt F) := fun c => StableHlo.after main_part3_ops1 (B11 m ρ c)
theorem B12_keeps (c : Dev nD) (r : Ref sig .tc) (h : r ∉ main_part3_ops1_W) : B12 m ρ c (Proc.devRef .tc r) = B11 m ρ c (Proc.devRef .tc r) :=
  StableHlo.after_of_writes_sub main_part3_ops1 _ main_part3_ops1_writes h
/-- After `main_part4_ops0`. -/
abbrev B13 : Dev nD → Valuation τ sig (Elt F) := fun c => StableHlo.after main_part4_ops0 (B12 m ρ c)
theorem B13_keeps (c : Dev nD) (r : Ref sig .tc) (h : r ∉ main_part4_ops0_W) : B13 m ρ c (Proc.devRef .tc r) = B12 m ρ c (Proc.devRef .tc r) :=
  StableHlo.after_of_writes_sub main_part4_ops0 _ main_part4_ops0_writes h
/-- Layer 2's region is entered from `B13`; read at the TensorCore's references: -/
abbrev E2 : (c : Dev nD) → (b : Ref sig .tc) → Buf (Elt F) ((c : Thread nD τ).loc b) := fun c b => B13 m ρ c b
/-- and left with its six arrays at what the pipelined launch leaves (the inputs as entered, the output at the tiles its
    grid points wrote back) and every other buffer as entered. -/
def B14 (c : Dev nD) : Valuation τ sig (Elt F) :=
  Pipeline.withArrays spec2 c (B13 m ρ c) fun w => (Layer2.layerDat (E2 m ρ) c).arrAt w cfg2.N
theorem B14_arr (c : Dev nD) (w : Fin cfg2.W) :
    B14 m ρ c (Proc.devRef .tc (Pipeline.arrRef spec2 w)) = (Layer2.layerDat (E2 m ρ) c).arrAt w cfg2.N := by
  unfold B14; exact Pipeline.withArrays_arr spec2 launch2.win.arr_inj c _ _ w
theorem B14_of_ne (c : Dev nD) (b : Ref sig .tc) (hb : ∀ w, Pipeline.arrRef spec2 w ≠ b) :
    B14 m ρ c (Proc.devRef .tc b) = B13 m ρ c (Proc.devRef .tc b) := by
  unfold B14; exact Pipeline.withArrays_of_ne spec2 c _ _ b hb
abbrev X2 : (c : Dev nD) → (b : Ref sig .tc) → Buf (Elt F) ((c : Thread nD τ).loc b) := fun c b => B14 m ρ c b
theorem left2 (c : Dev nD) (w : Fin cfg2.W) : (Layer2.layerDat (E2 m ρ) c).arrAt w cfg2.N = X2 m ρ c (Pipeline.arrRef spec2 w) :=
  (B14_arr m ρ c w).symm
theorem rest2 (c : Dev nD) : ∀ b, b ∉ Finset.univ.image (Pipeline.arrRef spec2) → X2 m ρ c b = E2 m ρ c b :=
  fun b hb => B14_of_ne m ρ c b fun w e => hb (Finset.mem_image.mpr ⟨w, Finset.mem_univ _, e⟩)
/-- An input window's array leaves the region as it entered it. -/
theorem B14_input (c : Dev nD) (w : Fin cfg2.W) (hw : (cfg2.win w).isOut = false) :
    B14 m ρ c (Proc.devRef .tc (Pipeline.arrRef spec2 w)) = B13 m ρ c (Proc.devRef .tc (Pipeline.arrRef spec2 w)) :=
  (B14_arr m ρ c w).trans (((Layer2.layerDat (E2 m ρ) c).arrAt_in w hw _).trans (Layer2.A_eq (E2 m ρ) c w))
/-- After `main_part4_ops1`. -/
abbrev B15 : Dev nD → Valuation τ sig (Elt F) := fun c => StableHlo.after main_part4_ops1 (B14 m ρ c)
theorem B15_keeps (c : Dev nD) (r : Ref sig .tc) (h : r ∉ main_part4_ops1_W) : B15 m ρ c (Proc.devRef .tc r) = B14 m ρ c (Proc.devRef .tc r) :=
  StableHlo.after_of_writes_sub main_part4_ops1 _ main_part4_ops1_writes h

/-! ## Every argument array ends as launched -/
theorem kept_arg0 (c : Dev nD) : B15 m ρ c (Proc.devRef .tc main_arg0) = m ((c : Thread nD τ).loc main_arg0) :=
  (B15_keeps m ρ c main_arg0 (by decide)).trans <|
    (B14_of_ne m ρ c main_arg0 (by decide)).trans <|
    (B13_keeps m ρ c main_arg0 (by decide)).trans <|
    (B12_keeps m ρ c main_arg0 (by decide)).trans <|
    (B11_of_ne m ρ c main_arg0 (by decide)).trans <|
    (B10_keeps m ρ c main_arg0 (by decide)).trans <|
    (B9_keeps m ρ c main_arg0 (by decide)).trans <|
    (B8_of_ne m ρ c main_arg0 (by decide)).trans <|
    (B7_keeps m ρ c main_arg0 (by decide)).trans <|
    (B6_keeps m ρ c main_arg0 (by decide)).trans <|
    (B5_keeps m ρ c main_arg0 (by decide)).trans <|
    (B4_keeps m ρ c main_arg0 (by decide)).trans <|
    (B3_keeps m ρ c main_arg0 (by decide)).trans <|
    (B2_keeps m ρ c main_arg0 (by decide)).trans <|
    (B1_keeps m ρ c main_arg0 (by decide)).trans <| rfl
theorem kept_arg1 (c : Dev nD) : B15 m ρ c (Proc.devRef .tc main_arg1) = m ((c : Thread nD τ).loc main_arg1) :=
  (B15_keeps m ρ c main_arg1 (by decide)).trans <|
    (B14_of_ne m ρ c main_arg1 (by decide)).trans <|
    (B13_keeps m ρ c main_arg1 (by decide)).trans <|
    (B12_keeps m ρ c main_arg1 (by decide)).trans <|
    (B11_of_ne m ρ c main_arg1 (by decide)).trans <|
    (B10_keeps m ρ c main_arg1 (by decide)).trans <|
    (B9_keeps m ρ c main_arg1 (by decide)).trans <|
    (B8_of_ne m ρ c main_arg1 (by decide)).trans <|
    (B7_keeps m ρ c main_arg1 (by decide)).trans <|
    (B6_keeps m ρ c main_arg1 (by decide)).trans <|
    (B5_keeps m ρ c main_arg1 (by decide)).trans <|
    (B4_keeps m ρ c main_arg1 (by decide)).trans <|
    (B3_keeps m ρ c main_arg1 (by decide)).trans <|
    (B2_keeps m ρ c main_arg1 (by decide)).trans <|
    (B1_keeps m ρ c main_arg1 (by decide)).trans <| rfl
theorem kept_arg2 (c : Dev nD) : B15 m ρ c (Proc.devRef .tc main_arg2) = m ((c : Thread nD τ).loc main_arg2) :=
  (B15_keeps m ρ c main_arg2 (by decide)).trans <|
    (B14_of_ne m ρ c main_arg2 (by decide)).trans <|
    (B13_keeps m ρ c main_arg2 (by decide)).trans <|
    (B12_keeps m ρ c main_arg2 (by decide)).trans <|
    (B11_of_ne m ρ c main_arg2 (by decide)).trans <|
    (B10_keeps m ρ c main_arg2 (by decide)).trans <|
    (B9_keeps m ρ c main_arg2 (by decide)).trans <|
    (B8_input m ρ c 1 rfl).trans <|
    (B7_keeps m ρ c main_arg2 (by decide)).trans <|
    (B6_keeps m ρ c main_arg2 (by decide)).trans <|
    (B5_keeps m ρ c main_arg2 (by decide)).trans <|
    (B4_keeps m ρ c main_arg2 (by decide)).trans <|
    (B3_keeps m ρ c main_arg2 (by decide)).trans <|
    (B2_keeps m ρ c main_arg2 (by decide)).trans <|
    (B1_keeps m ρ c main_arg2 (by decide)).trans <| rfl
theorem kept_arg3 (c : Dev nD) : B15 m ρ c (Proc.devRef .tc main_arg3) = m ((c : Thread nD τ).loc main_arg3) :=
  (B15_keeps m ρ c main_arg3 (by decide)).trans <|
    (B14_of_ne m ρ c main_arg3 (by decide)).trans <|
    (B13_keeps m ρ c main_arg3 (by decide)).trans <|
    (B12_keeps m ρ c main_arg3 (by decide)).trans <|
    (B11_of_ne m ρ c main_arg3 (by decide)).trans <|
    (B10_keeps m ρ c main_arg3 (by decide)).trans <|
    (B9_keeps m ρ c main_arg3 (by decide)).trans <|
    (B8_of_ne m ρ c main_arg3 (by decide)).trans <|
    (B7_keeps m ρ c main_arg3 (by decide)).trans <|
    (B6_keeps m ρ c main_arg3 (by decide)).trans <|
    (B5_keeps m ρ c main_arg3 (by decide)).trans <|
    (B4_keeps m ρ c main_arg3 (by decide)).trans <|
    (B3_keeps m ρ c main_arg3 (by decide)).trans <|
    (B2_keeps m ρ c main_arg3 (by decide)).trans <|
    (B1_keeps m ρ c main_arg3 (by decide)).trans <| rfl
theorem kept_arg4 (c : Dev nD) : B15 m ρ c (Proc.devRef .tc main_arg4) = m ((c : Thread nD τ).loc main_arg4) :=
  (B15_keeps m ρ c main_arg4 (by decide)).trans <|
    (B14_of_ne m ρ c main_arg4 (by decide)).trans <|
    (B13_keeps m ρ c main_arg4 (by decide)).trans <|
    (B12_keeps m ρ c main_arg4 (by decide)).trans <|
    (B11_of_ne m ρ c main_arg4 (by decide)).trans <|
    (B10_keeps m ρ c main_arg4 (by decide)).trans <|
    (B9_keeps m ρ c main_arg4 (by decide)).trans <|
    (B8_input m ρ c 3 rfl).trans <|
    (B7_keeps m ρ c main_arg4 (by decide)).trans <|
    (B6_keeps m ρ c main_arg4 (by decide)).trans <|
    (B5_keeps m ρ c main_arg4 (by decide)).trans <|
    (B4_keeps m ρ c main_arg4 (by decide)).trans <|
    (B3_keeps m ρ c main_arg4 (by decide)).trans <|
    (B2_keeps m ρ c main_arg4 (by decide)).trans <|
    (B1_keeps m ρ c main_arg4 (by decide)).trans <| rfl
theorem kept_arg5 (c : Dev nD) : B15 m ρ c (Proc.devRef .tc main_arg5) = m ((c : Thread nD τ).loc main_arg5) :=
  (B15_keeps m ρ c main_arg5 (by decide)).trans <|
    (B14_of_ne m ρ c main_arg5 (by decide)).trans <|
    (B13_keeps m ρ c main_arg5 (by decide)).trans <|
    (B12_keeps m ρ c main_arg5 (by decide)).trans <|
    (B11_of_ne m ρ c main_arg5 (by decide)).trans <|
    (B10_keeps m ρ c main_arg5 (by decide)).trans <|
    (B9_keeps m ρ c main_arg5 (by decide)).trans <|
    (B8_of_ne m ρ c main_arg5 (by decide)).trans <|
    (B7_keeps m ρ c main_arg5 (by decide)).trans <|
    (B6_keeps m ρ c main_arg5 (by decide)).trans <|
    (B5_keeps m ρ c main_arg5 (by decide)).trans <|
    (B4_keeps m ρ c main_arg5 (by decide)).trans <|
    (B3_keeps m ρ c main_arg5 (by decide)).trans <|
    (B2_keeps m ρ c main_arg5 (by decide)).trans <|
    (B1_keeps m ρ c main_arg5 (by decide)).trans <| rfl
theorem kept_arg6 (c : Dev nD) : B15 m ρ c (Proc.devRef .tc main_arg6) = m ((c : Thread nD τ).loc main_arg6) :=
  (B15_keeps m ρ c main_arg6 (by decide)).trans <|
    (B14_of_ne m ρ c main_arg6 (by decide)).trans <|
    (B13_keeps m ρ c main_arg6 (by decide)).trans <|
    (B12_keeps m ρ c main_arg6 (by decide)).trans <|
    (B11_input m ρ c 1 rfl).trans <|
    (B10_keeps m ρ c main_arg6 (by decide)).trans <|
    (B9_keeps m ρ c main_arg6 (by decide)).trans <|
    (B8_of_ne m ρ c main_arg6 (by decide)).trans <|
    (B7_keeps m ρ c main_arg6 (by decide)).trans <|
    (B6_keeps m ρ c main_arg6 (by decide)).trans <|
    (B5_keeps m ρ c main_arg6 (by decide)).trans <|
    (B4_keeps m ρ c main_arg6 (by decide)).trans <|
    (B3_keeps m ρ c main_arg6 (by decide)).trans <|
    (B2_keeps m ρ c main_arg6 (by decide)).trans <|
    (B1_keeps m ρ c main_arg6 (by decide)).trans <| rfl
theorem kept_arg7 (c : Dev nD) : B15 m ρ c (Proc.devRef .tc main_arg7) = m ((c : Thread nD τ).loc main_arg7) :=
  (B15_keeps m ρ c main_arg7 (by decide)).trans <|
    (B14_of_ne m ρ c main_arg7 (by decide)).trans <|
    (B13_keeps m ρ c main_arg7 (by decide)).trans <|
    (B12_keeps m ρ c main_arg7 (by decide)).trans <|
    (B11_of_ne m ρ c main_arg7 (by decide)).trans <|
    (B10_keeps m ρ c main_arg7 (by decide)).trans <|
    (B9_keeps m ρ c main_arg7 (by decide)).trans <|
    (B8_of_ne m ρ c main_arg7 (by decide)).trans <|
    (B7_keeps m ρ c main_arg7 (by decide)).trans <|
    (B6_keeps m ρ c main_arg7 (by decide)).trans <|
    (B5_keeps m ρ c main_arg7 (by decide)).trans <|
    (B4_keeps m ρ c main_arg7 (by decide)).trans <|
    (B3_keeps m ρ c main_arg7 (by decide)).trans <|
    (B2_keeps m ρ c main_arg7 (by decide)).trans <|
    (B1_keeps m ρ c main_arg7 (by decide)).trans <| rfl
theorem kept_arg8 (c : Dev nD) : B15 m ρ c (Proc.devRef .tc main_arg8) = m ((c : Thread nD τ).loc main_arg8) :=
  (B15_keeps m ρ c main_arg8 (by decide)).trans <|
    (B14_of_ne m ρ c main_arg8 (by decide)).trans <|
    (B13_keeps m ρ c main_arg8 (by decide)).trans <|
    (B12_keeps m ρ c main_arg8 (by decide)).trans <|
    (B11_input m ρ c 3 rfl).trans <|
    (B10_keeps m ρ c main_arg8 (by decide)).trans <|
    (B9_keeps m ρ c main_arg8 (by decide)).trans <|
    (B8_of_ne m ρ c main_arg8 (by decide)).trans <|
    (B7_keeps m ρ c main_arg8 (by decide)).trans <|
    (B6_keeps m ρ c main_arg8 (by decide)).trans <|
    (B5_keeps m ρ c main_arg8 (by decide)).trans <|
    (B4_keeps m ρ c main_arg8 (by decide)).trans <|
    (B3_keeps m ρ c main_arg8 (by decide)).trans <|
    (B2_keeps m ρ c main_arg8 (by decide)).trans <|
    (B1_keeps m ρ c main_arg8 (by decide)).trans <| rfl
theorem kept_arg9 (c : Dev nD) : B15 m ρ c (Proc.devRef .tc main_arg9) = m ((c : Thread nD τ).loc main_arg9) :=
  (B15_keeps m ρ c main_arg9 (by decide)).trans <|
    (B14_of_ne m ρ c main_arg9 (by decide)).trans <|
    (B13_keeps m ρ c main_arg9 (by decide)).trans <|
    (B12_keeps m ρ c main_arg9 (by decide)).trans <|
    (B11_of_ne m ρ c main_arg9 (by decide)).trans <|
    (B10_keeps m ρ c main_arg9 (by decide)).trans <|
    (B9_keeps m ρ c main_arg9 (by decide)).trans <|
    (B8_of_ne m ρ c main_arg9 (by decide)).trans <|
    (B7_keeps m ρ c main_arg9 (by decide)).trans <|
    (B6_keeps m ρ c main_arg9 (by decide)).trans <|
    (B5_keeps m ρ c main_arg9 (by decide)).trans <|
    (B4_keeps m ρ c main_arg9 (by decide)).trans <|
    (B3_keeps m ρ c main_arg9 (by decide)).trans <|
    (B2_keeps m ρ c main_arg9 (by decide)).trans <|
    (B1_keeps m ρ c main_arg9 (by decide)).trans <| rfl
theorem kept_arg10 (c : Dev nD) : B15 m ρ c (Proc.devRef .tc main_arg10) = m ((c : Thread nD τ).loc main_arg10) :=
  (B15_keeps m ρ c main_arg10 (by decide)).trans <|
    (B14_input m ρ c 1 rfl).trans <|
    (B13_keeps m ρ c main_arg10 (by decide)).trans <|
    (B12_keeps m ρ c main_arg10 (by decide)).trans <|
    (B11_of_ne m ρ c main_arg10 (by decide)).trans <|
    (B10_keeps m ρ c main_arg10 (by decide)).trans <|
    (B9_keeps m ρ c main_arg10 (by decide)).trans <|
    (B8_of_ne m ρ c main_arg10 (by decide)).trans <|
    (B7_keeps m ρ c main_arg10 (by decide)).trans <|
    (B6_keeps m ρ c main_arg10 (by decide)).trans <|
    (B5_keeps m ρ c main_arg10 (by decide)).trans <|
    (B4_keeps m ρ c main_arg10 (by decide)).trans <|
    (B3_keeps m ρ c main_arg10 (by decide)).trans <|
    (B2_keeps m ρ c main_arg10 (by decide)).trans <|
    (B1_keeps m ρ c main_arg10 (by decide)).trans <| rfl
theorem kept_arg11 (c : Dev nD) : B15 m ρ c (Proc.devRef .tc main_arg11) = m ((c : Thread nD τ).loc main_arg11) :=
  (B15_keeps m ρ c main_arg11 (by decide)).trans <|
    (B14_of_ne m ρ c main_arg11 (by decide)).trans <|
    (B13_keeps m ρ c main_arg11 (by decide)).trans <|
    (B12_keeps m ρ c main_arg11 (by decide)).trans <|
    (B11_of_ne m ρ c main_arg11 (by decide)).trans <|
    (B10_keeps m ρ c main_arg11 (by decide)).trans <|
    (B9_keeps m ρ c main_arg11 (by decide)).trans <|
    (B8_of_ne m ρ c main_arg11 (by decide)).trans <|
    (B7_keeps m ρ c main_arg11 (by decide)).trans <|
    (B6_keeps m ρ c main_arg11 (by decide)).trans <|
    (B5_keeps m ρ c main_arg11 (by decide)).trans <|
    (B4_keeps m ρ c main_arg11 (by decide)).trans <|
    (B3_keeps m ρ c main_arg11 (by decide)).trans <|
    (B2_keeps m ρ c main_arg11 (by decide)).trans <|
    (B1_keeps m ρ c main_arg11 (by decide)).trans <| rfl
theorem kept_arg12 (c : Dev nD) : B15 m ρ c (Proc.devRef .tc main_arg12) = m ((c : Thread nD τ).loc main_arg12) :=
  (B15_keeps m ρ c main_arg12 (by decide)).trans <|
    (B14_input m ρ c 3 rfl).trans <|
    (B13_keeps m ρ c main_arg12 (by decide)).trans <|
    (B12_keeps m ρ c main_arg12 (by decide)).trans <|
    (B11_of_ne m ρ c main_arg12 (by decide)).trans <|
    (B10_keeps m ρ c main_arg12 (by decide)).trans <|
    (B9_keeps m ρ c main_arg12 (by decide)).trans <|
    (B8_of_ne m ρ c main_arg12 (by decide)).trans <|
    (B7_keeps m ρ c main_arg12 (by decide)).trans <|
    (B6_keeps m ρ c main_arg12 (by decide)).trans <|
    (B5_keeps m ρ c main_arg12 (by decide)).trans <|
    (B4_keeps m ρ c main_arg12 (by decide)).trans <|
    (B3_keeps m ρ c main_arg12 (by decide)).trans <|
    (B2_keeps m ρ c main_arg12 (by decide)).trans <|
    (B1_keeps m ρ c main_arg12 (by decide)).trans <| rfl
theorem kept_arg13 (c : Dev nD) : B15 m ρ c (Proc.devRef .tc main_arg13) = m ((c : Thread nD τ).loc main_arg13) :=
  (B15_keeps m ρ c main_arg13 (by decide)).trans <|
    (B14_of_ne m ρ c main_arg13 (by decide)).trans <|
    (B13_keeps m ρ c main_arg13 (by decide)).trans <|
    (B12_keeps m ρ c main_arg13 (by decide)).trans <|
    (B11_of_ne m ρ c main_arg13 (by decide)).trans <|
    (B10_keeps m ρ c main_arg13 (by decide)).trans <|
    (B9_keeps m ρ c main_arg13 (by decide)).trans <|
    (B8_of_ne m ρ c main_arg13 (by decide)).trans <|
    (B7_keeps m ρ c main_arg13 (by decide)).trans <|
    (B6_keeps m ρ c main_arg13 (by decide)).trans <|
    (B5_keeps m ρ c main_arg13 (by decide)).trans <|
    (B4_keeps m ρ c main_arg13 (by decide)).trans <|
    (B3_keeps m ρ c main_arg13 (by decide)).trans <|
    (B2_keeps m ρ c main_arg13 (by decide)).trans <|
    (B1_keeps m ρ c main_arg13 (by decide)).trans <| rfl

/-! ## The three pipelines' bookkeeping and what rides along -/

abbrev adm : (p : Fin 3) → (pcfgs (F := F) p).Adm := fun p => (cfgs p).toPCfg_adm
/-- Each layer's launch data, at the contents its region is entered from. -/
def pdats : (p : Fin 3) → (c : Dev nD) → Dat τ (Elt F) Unit ℕ (UR sig nD τ) ℕ (Pipeline.pin (pcfgs (F := F)) adm p) c
  | ⟨0, _⟩ => fun c => Layer0.layerDat (E0 m ρ) c
  | ⟨1, _⟩ => fun c => Layer1.layerDat (E1 m ρ) c
  | ⟨2, _⟩ => fun c => Layer2.layerDat (E2 m ρ) c
abbrev 𝒱₀ : Variants := Variants.none
abbrev L : GSem nD τ sig → Finset Unit := fun _ => ∅
abbrev lv : GSem nD τ sig → Unit → ℕ := fun _ _ => 0
/-- Beside the buffers: the core's random-number register at some state, and nothing owed to any other core. -/
abbrev R (c : Dev nD) : sProp 𝕄 := iprop((∃ r, prngReg c r) ∗ ∃ W, owes (c : Thread nD τ) (0 : CellTallies nD τ sig Unit) W)
/-- A host stretch run from the contents `W`: it leaves every unscoped buffer at what its operations compute from `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (B15 m ρ c) ∗ ∃ r, prngReg c r)

/-! ## Each layer's region between its two boundaries -/

set_option backward.isDefEq.respectTransparency.types false in
/-- Layer 0's region: entered with every unscoped buffer at `B7`, left with them at `B8`. Its six arrays are
    taken out of the unscoped buffers for the launch and put back at what the launch leaves; the random-number register
    goes in and comes back; nothing is owed. -/
def layer0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer0.layer_obligation (E0 m ρ) c).loose
  hwaits := Pipeline.hwaits_of_owed_zero _ _ _ _ L lv 0 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's region: entered with every unscoped buffer at `B10`, left with them at `B11`. Its six arrays are
    taken out of the unscoped buffers for the launch and put back at what the launch leaves; the random-number register
    goes in and comes back; nothing is owed. -/
def layer1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer1.layer_obligation (E1 m ρ) c).loose
  hwaits := Pipeline.hwaits_of_owed_zero _ _ _ _ L lv 1 fun _ _ => rfl
  pre c := iprop(StableHlo.held (c : Thread nD τ) (Pipeline.ucRefs τ sig) (B10 m ρ c) ∗ R c)
  post c := iprop(StableHlo.held (c : Thread nD τ) (Pipeline.ucRefs τ sig) (B11 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region: entered with every unscoped buffer at `B13`, left with them at `B14`. Its six arrays are
    taken out of the unscoped buffers for the launch and put back at what the launch leaves; the random-number register
    goes in and comes back; nothing is owed. -/
def layer2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Layer2.layer_obligation (E2 m ρ) c).loose
  hwaits := Pipeline.hwaits_of_owed_zero _ _ _ _ L lv 2 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (left2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its fifteen pieces, and the run -/

abbrev pieces : List (Pipeline.Seg (pcfgs (F := F)) adm (pdats m ρ) () defs₀ 𝒱₀ L lv) :=
  [ .host (stretch main_part0_ops0 main_part0_ops0_sub main_part0_ops0_fresh (B0 m ρ)),
    .host (stretch main_part0_ops1 main_part0_ops1_sub main_part0_ops1_fresh (B1 m ρ)),
    .host (stretch main_part0_ops2 main_part0_ops2_sub main_part0_ops2_fresh (B2 m ρ)),
    .host (stretch main_part0_ops3 main_part0_ops3_sub main_part0_ops3_fresh (B3 m ρ)),
    .host (stretch main_part0_ops4 main_part0_ops4_sub main_part0_ops4_fresh (B4 m ρ)),
    .host (stretch main_part1_ops0 main_part1_ops0_sub main_part1_ops0_fresh (B5 m ρ)),
    .host (stretch main_part2_ops0 main_part2_ops0_sub main_part2_ops0_fresh (B6 m ρ)),
    .region (layer0 m ρ),
    .host (stretch main_part2_ops1 main_part2_ops1_sub main_part2_ops1_fresh (B8 m ρ)),
    .host (stretch main_part3_ops0 main_part3_ops0_sub main_part3_ops0_fresh (B9 m ρ)),
    .region (layer1 m ρ),
    .host (stretch main_part3_ops1 main_part3_ops1_sub main_part3_ops1_fresh (B11 m ρ)),
    .host (stretch main_part4_ops0 main_part4_ops0_sub main_part4_ops0_fresh (B12 m ρ)),
    .region (layer2 m ρ),
    .host (stretch main_part4_ops1 main_part4_ops1_sub main_part4_ops1_fresh (B14 m ρ)) ]

/-- The printed program is the run of those pieces. -/
theorem main_is_pieces (c : Dev nD) : main (F := F) c = Pipeline.Seg.run (pieces m ρ) := (main_chain_windows c).trans (by chain_rfl)

set_option backward.isDefEq.respectTransparency.types false in
set_option maxHeartbeats 4000000 in
/-- THE RUN. From any memory with zero counters, every weakly fair execution of the program terminates, nothing
    faults, and every unscoped buffer of every core ends at `B15`'s contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B15 m ρ c b) :=
  Pipeline.θ_run_regions_kit (pcfgs (F := F)) adm (pdats m ρ) () cellOf_inj emb₁ defs₀ 𝒱₀ L lv m ρ main (pieces m ρ)
    (fun c Q => by rw [main_is_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B15 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B15 m ρ c b)
    (hfin := fun c s' => by
      iintro ⟨⟨Hh, -⟩, HSI⟩
      unfold StableHlo.held
      imodintro
      iapply (pointsTo_read_all (Pipeline.ucRefs τ sig) (fun b => (((c : Thread nD τ)).1, b)) (B15 m ρ c) s')
      isplitl [Hh] <;> iassumption)
    (hQ := fun s h c => h c)

/-- THE FRAME: the program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c),
     (h c _ (mem_uc main_arg6 (by decide))).trans (kept_arg6 m ρ c),
     (h c _ (mem_uc main_arg7 (by decide))).trans (kept_arg7 m ρ c),
     (h c _ (mem_uc main_arg8 (by decide))).trans (kept_arg8 m ρ c),
     (h c _ (mem_uc main_arg9 (by decide))).trans (kept_arg9 m ρ c),
     (h c _ (mem_uc main_arg10 (by decide))).trans (kept_arg10 m ρ c),
     (h c _ (mem_uc main_arg11 (by decide))).trans (kept_arg11 m ρ c),
     (h c _ (mem_uc main_arg12 (by decide))).trans (kept_arg12 m ρ c),
     (h c _ (mem_uc main_arg13 (by decide))).trans (kept_arg13 m ρ c)⟩) (run m ρ)

end Cert.KernelIdeal.Whole

end
-- ==== Proof.RefWhole.lean ====
import proofs.«162653_j26706106646651_1_alg».proof.ReferenceIdeal
import proofs.«162653_j26706106646651_1_alg».proof.Proof.Gen.ReferenceIdeal
import Idealize.ShloMosaic.Lib.StableHlo.Run
import Idealize.ShloMosaic.Lib.Pipeline.Frame

/-!
# The reference program's run

The reference is 363 host operations in a row and nothing else: the edge normalisation (47 operations), then three
layers of about a hundred operations each (four propagations interleaved with the five products `T_k · Wc_k`, the
biases, the residual product and, in the first two layers, the `max(·, 0)`), then the flattening. They are listed here
in nine pieces, cut where a layer ends and where the printed program's six windows end. Every weakly fair execution of
such a program terminates and leaves each buffer at the fold of the operations' results over the launch contents. No
operation writes an argument array — each writes its own result buffer — so the arguments end as launched.
-/

noncomputable section

namespace Cert.ReferenceIdeal.Whole

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- Operations 1–47: the edge normalisation: row, col and the edge weights. -/
abbrev piece0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x00000000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (cmpf .ogt : (⟨S50000, .f32⟩ : BufTy).Contents (Elt F) → (⟨S50000, .f32⟩ : BufTy).Contents (Elt F) → (⟨S50000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v11) (TRef.of (T := ⟨S50000, .f32⟩) main_v7) (TRef.of (T := ⟨S50000, .f32⟩) main_call0_v1) (TRef.of (T := ⟨S50000, .f32⟩) main_v12) select,
    nullary main_cst_4 (constant S_ .f32 0xBF000000#32),
    unary main_cst_4 main_v13 (broadcastInDim S50000 ![] bcast_S_S50000 : (⟨S_, .f32⟩ : BufTy).Contents (Elt F) → (⟨S50000, .f32⟩ : BufTy).Contents (Elt F)),
    binary main_v12 main_v13 main_v14 (Host.powf : (⟨S50000, .f32⟩ : BufTy).Contents (Elt F) → (⟨S50000, .f32⟩ : BufTy).Contents (Elt F) → (⟨S50000, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v9) (TRef.of (T := ⟨S50000, .f32⟩) main_v14) (TRef.of (T := ⟨S50000, .f32⟩) main_call1_v1) (TRef.of (T := ⟨S50000, .f32⟩) main_v15) select,
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_v1 main_v16 main_v17 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v18 (broadcastInDim S800000 ![] bcast_S_S800000 : (⟨S_, .i32⟩ : BufTy).Contents (Elt F) → (⟨S800000, .i32⟩ : BufTy).Contents (Elt F)),
    binary main_v1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    unary main_v22 main_v23 (Host.negf : (⟨S800000, .f32⟩ : BufTy).Contents (Elt F) → (⟨S800000, .f32⟩ : BufTy).Contents (Elt F)),
    nullary main_c_7 (constantI S_ 32 0#32),
    unary main_c_7 main_v24 (broadcastInDim S800000 ![] bcast_S_S800000 : (⟨S_, .i32⟩ : BufTy).Contents (Elt F) → (⟨S800000, .i32⟩ : BufTy).Contents (Elt F)),
    binary main_v3 main_v24 main_v25 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v26 (broadcastInDim S800000 ![] bcast_S_S800000 : (⟨S_, .i32⟩ : BufTy).Contents (Elt F) → (⟨S800000, .i32⟩ : BufTy).Contents (Elt F)),
    binary main_v3 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v3 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v15 main_v29 main_v30 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v23 main_v30 main_v31 (mulf : (⟨S800000, .f32⟩ : BufTy).Contents (Elt F) → (⟨S800000, .f32⟩ : BufTy).Contents (Elt F) → (⟨S800000, .f32⟩ : BufTy).Contents (Elt F)) ]
set_option maxRecDepth 8192 in
theorem piece0_sub : (piece0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
/-- The buffers piece 0 writes. -/
abbrev piece0_W : List (Ref sig .tc) := [main_v0, main_v1, main_v2, main_v3, main_cst, main_v4, main_cst_0, main_v5, main_v6, main_v7, main_cst_1, main_v8, main_v9, main_cst_2, main_v10, main_v11, main_cst_3, main_call0_v0, main_call0_v1, main_v12, main_cst_4, main_v13, main_v14, main_cst_5, main_call1_v0, main_call1_v1, main_v15, main_c, main_v16, main_v17, main_c_6, main_v18, main_v19, main_v20, main_v21, main_v22, main_v23, main_c_7, main_v24, main_v25, main_c_8, main_v26, main_v27, main_v28, main_v29, main_v30, main_v31]
set_option maxHeartbeats 4000000 in
theorem piece0_writes : (piece0 : List (HloOp τ sig (Elt F))).Forall fun op => op.writes ⊆ (piece0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 48–64: layer 0, to the end of the first printed window. -/
abbrev piece1 : List (HloOp τ sig (Elt F)) :=
  [ unary main_arg2 main_v32 ((extractStridedSlice S1x64x128 ![0, 0, 0] · slices_S5x64x128_S1x64x128_0_0_0) : (⟨S5x64x128, .f32⟩ : BufTy).Contents (Elt F) → (⟨S1x64x128, .f32⟩ : BufTy).Contents (Elt F)),
    reshape main_v32 main_v33 rfl shapeCasts_S1x64x128_S64x128,
    binary main_arg0 main_v33 main_v34 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    nullary main_c_9 (constantI S_ 32 0#32),
    unary main_c_9 main_v35 (broadcastInDim S800000 ![] bcast_S_S800000 : (⟨S_, .i32⟩ : BufTy).Contents (Elt F) → (⟨S800000, .i32⟩ : BufTy).Contents (Elt F)),
    binary main_v3 main_v35 main_v36 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v37 (broadcastInDim S800000 ![] bcast_S_S800000 : (⟨S_, .i32⟩ : BufTy).Contents (Elt F) → (⟨S800000, .i32⟩ : BufTy).Contents (Elt F)),
    binary main_v3 main_v37 main_v38 (addi : (⟨S800000, .i32⟩ : BufTy).Contents (Elt F) → (⟨S800000, .i32⟩ : BufTy).Contents (Elt F) → (⟨S800000, .i32⟩ : BufTy).Contents (Elt F)),
    ternary main_v36 main_v38 main_v3 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v39 main_v40 (broadcastInDim S800000x1 ![0] bcast_S800000_S800000x1_0 : (⟨S800000, .i32⟩ : BufTy).Contents (Elt F) → (⟨S800000x1, .i32⟩ : BufTy).Contents (Elt F)),
    binary main_arg0 main_v40 main_v41 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v31 main_v42 (broadcastInDim S800000x1 ![0] bcast_S800000_S800000x1_0 : (⟨S800000, .f32⟩ : BufTy).Contents (Elt F) → (⟨S800000x1, .f32⟩ : BufTy).Contents (Elt F)),
    unary main_v42 main_v43 (broadcastInDim S800000x64 ![0, 1] bcast_S800000x1_S800000x64_0_1 : (⟨S800000x1, .f32⟩ : BufTy).Contents (Elt F) → (⟨S800000x64, .f32⟩ : BufTy).Contents (Elt F)),
    binary main_v41 main_v43 main_v44 (mulf : (⟨S800000x64, .f32⟩ : BufTy).Contents (Elt F) → (⟨S800000x64, .f32⟩ : BufTy).Contents (Elt F) → (⟨S800000x64, .f32⟩ : BufTy).Contents (Elt F)),
    nullary main_cst_11 (constant S_ .f32 0x00000000#32),
    unary main_cst_11 main_v45 (broadcastInDim S50000x64 ![] bcast_S_S50000x64 : (⟨S_, .f32⟩ : BufTy).Contents (Elt F) → (⟨S50000x64, .f32⟩ : BufTy).Contents (Elt F)) ]
set_option maxRecDepth 8192 in
theorem piece1_sub : (piece1 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub ..⟩
/-- The buffers piece 1 writes. -/
abbrev piece1_W : List (Ref sig .tc) := [main_v32, main_v33, main_v34, main_c_9, main_v35, main_v36, main_c_10, main_v37, main_v38, main_v39, main_v40, main_v41, main_v42, main_v43, main_v44, main_cst_11, main_v45]
set_option maxHeartbeats 4000000 in
theorem piece1_writes : (piece1 : List (HloOp τ sig (Elt F))).Forall fun op => op.writes ⊆ (piece1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 65–124: layer 0, second printed window. -/
abbrev piece2 : List (HloOp τ sig (Elt F)) :=
  [ unary main_v1 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg2 main_v48 ((extractStridedSlice S1x64x128 ![1, 0, 0] · slices_S5x64x128_S1x64x128_1_0_0) : (⟨S5x64x128, .f32⟩ : BufTy).Contents (Elt F) → (⟨S1x64x128, .f32⟩ : BufTy).Contents (Elt F)),
    reshape main_v48 main_v49 rfl shapeCasts_S1x64x128_S64x128,
    binary main_v47 main_v49 main_v50 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    binary main_v34 main_v50 main_v51 (addf : (⟨S50000x128, .f32⟩ : BufTy).Contents (Elt F) → (⟨S50000x128, .f32⟩ : BufTy).Contents (Elt F) → (⟨S50000x128, .f32⟩ : BufTy).Contents (Elt F)),
    nullary main_c_12 (constantI S_ 32 0#32),
    unary main_c_12 main_v52 (broadcastInDim S800000 ![] bcast_S_S800000 : (⟨S_, .i32⟩ : BufTy).Contents (Elt F) → (⟨S800000, .i32⟩ : BufTy).Contents (Elt F)),
    binary main_v3 main_v52 main_v53 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v54 (broadcastInDim S800000 ![] bcast_S_S800000 : (⟨S_, .i32⟩ : BufTy).Contents (Elt F) → (⟨S800000, .i32⟩ : BufTy).Contents (Elt F)),
    binary main_v3 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_v3 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v47 main_v57 main_v58 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v31 main_v59 (broadcastInDim S800000x1 ![0] bcast_S800000_S800000x1_0 : (⟨S800000, .f32⟩ : BufTy).Contents (Elt F) → (⟨S800000x1, .f32⟩ : BufTy).Contents (Elt F)),
    unary main_v59 main_v60 (broadcastInDim S800000x64 ![0, 1] bcast_S800000x1_S800000x64_0_1 : (⟨S800000x1, .f32⟩ : BufTy).Contents (Elt F) → (⟨S800000x64, .f32⟩ : BufTy).Contents (Elt F)),
    binary main_v58 main_v60 main_v61 (mulf : (⟨S800000x64, .f32⟩ : BufTy).Contents (Elt F) → (⟨S800000x64, .f32⟩ : BufTy).Contents (Elt F) → (⟨S800000x64, .f32⟩ : BufTy).Contents (Elt F)),
    nullary main_cst_14 (constant S_ .f32 0x00000000#32),
    unary main_cst_14 main_v62 (broadcastInDim S50000x64 ![] bcast_S_S50000x64 : (⟨S_, .f32⟩ : BufTy).Contents (Elt F) → (⟨S50000x64, .f32⟩ : BufTy).Contents (Elt F)),
    unary main_v1 main_v63 (broadcastInDim S800000x1 ![0] bcast_S800000_S800000x1_0 : (⟨S800000, .i32⟩ : BufTy).Contents (Elt F) → (⟨S800000x1, .i32⟩ : BufTy).Contents (Elt F)),
    ternary main_v62 main_v63 main_v61 main_v64 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_15 (constant S_ .f32 0x40000000#32),
    unary main_cst_15 main_v65 (broadcastInDim S50000x64 ![] bcast_S_S50000x64 : (⟨S_, .f32⟩ : BufTy).Contents (Elt F) → (⟨S50000x64, .f32⟩ : BufTy).Contents (Elt F)),
    binary main_v65 main_v64 main_v66 (mulf : (⟨S50000x64, .f32⟩ : BufTy).Contents (Elt F) → (⟨S50000x64, .f32⟩ : BufTy).Contents (Elt F) → (⟨S50000x64, .f32⟩ : BufTy).Contents (Elt F)),
    binary main_v66 main_arg0 main_v67 (subf : (⟨S50000x64, .f32⟩ : BufTy).Contents (Elt F) → (⟨S50000x64, .f32⟩ : BufTy).Contents (Elt F) → (⟨S50000x64, .f32⟩ : BufTy).Contents (Elt F)),
    unary main_arg2 main_v68 ((extractStridedSlice S1x64x128 ![2, 0, 0] · slices_S5x64x128_S1x64x128_2_0_0) : (⟨S5x64x128, .f32⟩ : BufTy).Contents (Elt F) → (⟨S1x64x128, .f32⟩ : BufTy).Contents (Elt F)),
    reshape main_v68 main_v69 rfl shapeCasts_S1x64x128_S64x128,
    binary main_v67 main_v69 main_v70 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    binary main_v51 main_v70 main_v71 (addf : (⟨S50000x128, .f32⟩ : BufTy).Contents (Elt F) → (⟨S50000x128, .f32⟩ : BufTy).Contents (Elt F) → (⟨S50000x128, .f32⟩ : BufTy).Contents (Elt F)),
    nullary main_c_16 (constantI S_ 32 0#32),
    unary main_c_16 main_v72 (broadcastInDim S800000 ![] bcast_S_S800000 : (⟨S_, .i32⟩ : BufTy).Contents (Elt F) → (⟨S800000, .i32⟩ : BufTy).Contents (Elt F)),
    binary main_v3 main_v72 main_v73 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v74 (broadcastInDim S800000 ![] bcast_S_S800000 : (⟨S_, .i32⟩ : BufTy).Contents (Elt F) → (⟨S800000, .i32⟩ : BufTy).Contents (Elt F)),
    binary main_v3 main_v74 main_v75 (addi : (⟨S800000, .i32⟩ : BufTy).Contents (Elt F) → (⟨S800000, .i32⟩ : BufTy).Contents (Elt F) → (⟨S800000, .i32⟩ : BufTy).Contents (Elt F)),
    ternary main_v73 main_v75 main_v3 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v76 main_v77 (broadcastInDim S800000x1 ![0] bcast_S800000_S800000x1_0 : (⟨S800000, .i32⟩ : BufTy).Contents (Elt F) → (⟨S800000x1, .i32⟩ : BufTy).Contents (Elt F)),
    binary main_v67 main_v77 main_v78 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v31 main_v79 (broadcastInDim S800000x1 ![0] bcast_S800000_S800000x1_0 : (⟨S800000, .f32⟩ : BufTy).Contents (Elt F) → (⟨S800000x1, .f32⟩ : BufTy).Contents (Elt F)),
    unary main_v79 main_v80 (broadcastInDim S800000x64 ![0, 1] bcast_S800000x1_S800000x64_0_1 : (⟨S800000x1, .f32⟩ : BufTy).Contents (Elt F) → (⟨S800000x64, .f32⟩ : BufTy).Contents (Elt F)),
    binary main_v78 main_v80 main_v81 (mulf : (⟨S800000x64, .f32⟩ : BufTy).Contents (Elt F) → (⟨S800000x64, .f32⟩ : BufTy).Contents (Elt F) → (⟨S800000x64, .f32⟩ : BufTy).Contents (Elt F)),
    nullary main_cst_18 (constant S_ .f32 0x00000000#32),
    unary main_cst_18 main_v82 (broadcastInDim S50000x64 ![] bcast_S_S50000x64 : (⟨S_, .f32⟩ : BufTy).Contents (Elt F) → (⟨S50000x64, .f32⟩ : BufTy).Contents (Elt F)),
    unary main_v1 main_v83 (broadcastInDim S800000x1 ![0] bcast_S800000_S800000x1_0 : (⟨S800000, .i32⟩ : BufTy).Contents (Elt F) → (⟨S800000x1, .i32⟩ : BufTy).Contents (Elt F)),
    ternary main_v82 main_v83 main_v81 main_v84 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_19 (constant S_ .f32 0x40000000#32),
    unary main_cst_19 main_v85 (broadcastInDim S50000x64 ![] bcast_S_S50000x64 : (⟨S_, .f32⟩ : BufTy).Contents (Elt F) → (⟨S50000x64, .f32⟩ : BufTy).Contents (Elt F)),
    binary main_v85 main_v84 main_v86 (mulf : (⟨S50000x64, .f32⟩ : BufTy).Contents (Elt F) → (⟨S50000x64, .f32⟩ : BufTy).Contents (Elt F) → (⟨S50000x64, .f32⟩ : BufTy).Contents (Elt F)),
    binary main_v86 main_v47 main_v87 (subf : (⟨S50000x64, .f32⟩ : BufTy).Contents (Elt F) → (⟨S50000x64, .f32⟩ : BufTy).Contents (Elt F) → (⟨S50000x64, .f32⟩ : BufTy).Contents (Elt F)),
    unary main_arg2 main_v88 ((extractStridedSlice S1x64x128 ![3, 0, 0] · slices_S5x64x128_S1x64x128_3_0_0) : (⟨S5x64x128, .f32⟩ : BufTy).Contents (Elt F) → (⟨S1x64x128, .f32⟩ : BufTy).Contents (Elt F)),
    reshape main_v88 main_v89 rfl shapeCasts_S1x64x128_S64x128,
    binary main_v87 main_v89 main_v90 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    binary main_v71 main_v90 main_v91 (addf : (⟨S50000x128, .f32⟩ : BufTy).Contents (Elt F) → (⟨S50000x128, .f32⟩ : BufTy).Contents (Elt F) → (⟨S50000x128, .f32⟩ : BufTy).Contents (Elt F)),
    nullary main_c_20 (constantI S_ 32 0#32),
    unary main_c_20 main_v92 (broadcastInDim S800000 ![] bcast_S_S800000 : (⟨S_, .i32⟩ : BufTy).Contents (Elt F) → (⟨S800000, .i32⟩ : BufTy).Contents (Elt F)),
    binary main_v3 main_v92 main_v93 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v94 (broadcastInDim S800000 ![] bcast_S_S800000 : (⟨S_, .i32⟩ : BufTy).Contents (Elt F) → (⟨S800000, .i32⟩ : BufTy).Contents (Elt F)),
    binary main_v3 main_v94 main_v95 (addi : (⟨S800000, .i32⟩ : BufTy).Contents (Elt F) → (⟨S800000, .i32⟩ : BufTy).Contents (Elt F) → (⟨S800000, .i32⟩ : BufTy).Contents (Elt F)) ]
set_option maxRecDepth 8192 in
theorem piece2_sub : (piece2 : List (HloOp τ sig (Elt F))).Forall fun op => op.bufs ⊆ tcRefs τ sig :=
  ⟨unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub ..⟩
/-- The buffers piece 2 writes. -/
abbrev piece2_W : List (Ref sig .tc) := [main_v46, main_v47, main_v48, main_v49, main_v50, main_v51, main_c_12, main_v52, main_v53, main_c_13, main_v54, main_v55, main_v56, main_v57, main_v58, main_v59, main_v60, main_v61, main_cst_14, main_v62, main_v63, main_v64, main_cst_15, main_v65, main_v66, main_v67, main_v68, main_v69, main_v70, main_v71, main_c_16, main_v72, main_v73, main_c_17, main_v74, main_v75, main_v76, main_v77, main_v78, main_v79, main_v80, main_v81, main_cst_18, main_v82, main_v83, main_v84, main_cst_19, main_v85, main_v86, main_v87, main_v88, main_v89, main_v90, main_v91, main_c_20, main_v92, main_v93, main_c_21, main_v94, main_v95]
set_option maxHeartbeats 4000000 in
theorem piece2_writes : (piece2 : List (HloOp τ sig (Elt F))).Forall fun op => op.writes ⊆ (piece2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 125–153: layer 0, its end. -/
abbrev piece3 : List (HloOp τ sig (Elt F)) :=
  [ ternary main_v93 main_v95 main_v3 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v96 main_v97 (broadcastInDim S800000x1 ![0] bcast_S800000_S800000x1_0 : (⟨S800000, .i32⟩ : BufTy).Contents (Elt F) → (⟨S800000x1, .i32⟩ : BufTy).Contents (Elt F)),
    binary main_v87 main_v97 main_v98 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v31 main_v99 (broadcastInDim S800000x1 ![0] bcast_S800000_S800000x1_0 : (⟨S800000, .f32⟩ : BufTy).Contents (Elt F) → (⟨S800000x1, .f32⟩ : BufTy).Contents (Elt F)),
    unary main_v99 main_v100 (broadcastInDim S800000x64 ![0, 1] bcast_S800000x1_S800000x64_0_1 : (⟨S800000x1, .f32⟩ : BufTy).Contents (Elt F) → (⟨S800000x64, .f32⟩ : BufTy).Contents (Elt F)),
    binary main_v98 main_v100 main_v101 (mulf : (⟨S800000x64, .f32⟩ : BufTy).Contents (Elt F) → (⟨S800000x64, .f32⟩ : BufTy).Contents (Elt F) → (⟨S800000x64, .f32⟩ : BufTy).Contents (Elt F)),
    nullary main_cst_22 (constant S_ .f32 0x00000000#32),
    unary main_cst_22 main_v102 (broadcastInDim S50000x64 ![] bcast_S_S50000x64 : (⟨S_, .f32⟩ : BufTy).Contents (Elt F) → (⟨S50000x64, .f32⟩ : BufTy).Contents (Elt F)),
    unary main_v1 main_v103 (broadcastInDim S800000x1 ![0] bcast_S800000_S800000x1_0 : (⟨S800000, .i32⟩ : BufTy).Contents (Elt F) → (⟨S800000x1, .i32⟩ : BufTy).Contents (Elt F)),
    ternary main_v102 main_v103 main_v101 main_v104 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_23 (constant S_ .f32 0x40000000#32),
    unary main_cst_23 main_v105 (broadcastInDim S50000x64 ![] bcast_S_S50000x64 : (⟨S_, .f32⟩ : BufTy).Contents (Elt F) → (⟨S50000x64, .f32⟩ : BufTy).Contents (Elt F)),
    binary main_v105 main_v104 main_v106 (mulf : (⟨S50000x64, .f32⟩ : BufTy).Contents (Elt F) → (⟨S50000x64, .f32⟩ : BufTy).Contents (Elt F) → (⟨S50000x64, .f32⟩ : BufTy).Contents (Elt F)),
    binary main_v106 main_v67 main_v107 (subf : (⟨S50000x64, .f32⟩ : BufTy).Contents (Elt F) → (⟨S50000x64, .f32⟩ : BufTy).Contents (Elt F) → (⟨S50000x64, .f32⟩ : BufTy).Contents (Elt F)),
    unary main_arg2 main_v108 ((extractStridedSlice S1x64x128 ![4, 0, 0] · slices_S5x64x128_S1x64x128_4_0_0) : (⟨S5x64x128, .f32⟩ : BufTy).Contents (Elt F) → (⟨S1x64x128, .f32⟩ : BufTy).Contents (Elt F)),
    reshape main_v108 main_v109 rfl shapeCasts_S1x64x128_S64x128,
    binary main_v107 main_v109 main_v110 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    binary main_v91 main_v110 main_v111 (addf : (⟨S50000x128, .f32⟩ : BufTy).Contents (Elt F) → (⟨S50000x128, .f32⟩ : BufTy).Contents (Elt F) → (⟨S50000x128, .f32⟩ : BufTy).Contents (Elt F)),
    unary main_arg3 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v111 main_v113 main_v114 (addf : (⟨S50000x128, .f32⟩ : BufTy).Contents (Elt F) → (⟨S50000x128, .f32⟩ : BufTy).Contents (Elt F) → (⟨S50000x128, .f32⟩ : BufTy).Contents (Elt F)),
    binary main_arg0 main_arg4 main_v115 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    binary main_v114 main_v115 main_v116 (addf : (⟨S50000x128, .f32⟩ : BufTy).Contents (Elt F) → (⟨S50000x128, .f32⟩ : BufTy).Contents (Elt F) → (⟨S50000x128, .f32⟩ : BufTy).Contents (Elt F)),
    unary main_arg5 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v116 main_v118 main_v119 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v119) (TRef.of (T := ⟨S50000x128, .f32⟩) main_call2_v0) (TRef.of (T := ⟨S50000x128, .f32⟩) main_v120) maximumf ]
set_option maxRecDepth 8192 in
theorem piece3_sub : (piece3 : List (HloOp τ sig (Elt F))).Forall fun op => op.bufs ⊆ tcRefs τ sig :=
  ⟨ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
/-- The buffers piece 3 writes. -/
abbrev piece3_W : List (Ref sig .tc) := [main_v96, main_v97, main_v98, main_v99, main_v100, main_v101, main_cst_22, main_v102, main_v103, main_v104, main_cst_23, main_v105, main_v106, main_v107, main_v108, main_v109, main_v110, main_v111, main_v112, main_v113, main_v114, main_v115, main_v116, main_v117, main_v118, main_v119, main_call2_cst, main_call2_v0, main_v120]
set_option maxHeartbeats 4000000 in
theorem piece3_writes : (piece3 : List (HloOp τ sig (Elt F))).Forall fun op => op.writes ⊆ (piece3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 154–186: layer 1, to the end of the third printed window. -/
abbrev piece4 : List (HloOp τ sig (Elt F)) :=
  [ unary main_arg6 main_v121 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v121 main_v122 rfl shapeCasts_S1x128x128_S128x128,
    binary main_v120 main_v122 main_v123 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_24 (constantI S_ 32 0#32),
    unary main_c_24 main_v124 (broadcastInDim S800000 ![] bcast_S_S800000 : (⟨S_, .i32⟩ : BufTy).Contents (Elt F) → (⟨S800000, .i32⟩ : BufTy).Contents (Elt F)),
    binary main_v3 main_v124 main_v125 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v126 (broadcastInDim S800000 ![] bcast_S_S800000 : (⟨S_, .i32⟩ : BufTy).Contents (Elt F) → (⟨S800000, .i32⟩ : BufTy).Contents (Elt F)),
    binary main_v3 main_v126 main_v127 (addi : (⟨S800000, .i32⟩ : BufTy).Contents (Elt F) → (⟨S800000, .i32⟩ : BufTy).Contents (Elt F) → (⟨S800000, .i32⟩ : BufTy).Contents (Elt F)),
    ternary main_v125 main_v127 main_v3 main_v128 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v128 main_v129 (broadcastInDim S800000x1 ![0] bcast_S800000_S800000x1_0 : (⟨S800000, .i32⟩ : BufTy).Contents (Elt F) → (⟨S800000x1, .i32⟩ : BufTy).Contents (Elt F)),
    binary main_v120 main_v129 main_v130 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v31 main_v131 (broadcastInDim S800000x1 ![0] bcast_S800000_S800000x1_0 : (⟨S800000, .f32⟩ : BufTy).Contents (Elt F) → (⟨S800000x1, .f32⟩ : BufTy).Contents (Elt F)),
    unary main_v131 main_v132 (broadcastInDim S800000x128 ![0, 1] bcast_S800000x1_S800000x128_0_1 : (⟨S800000x1, .f32⟩ : BufTy).Contents (Elt F) → (⟨S800000x128, .f32⟩ : BufTy).Contents (Elt F)),
    binary main_v130 main_v132 main_v133 (mulf : (⟨S800000x128, .f32⟩ : BufTy).Contents (Elt F) → (⟨S800000x128, .f32⟩ : BufTy).Contents (Elt F) → (⟨S800000x128, .f32⟩ : BufTy).Contents (Elt F)),
    nullary main_cst_26 (constant S_ .f32 0x00000000#32),
    unary main_cst_26 main_v134 (broadcastInDim S50000x128 ![] bcast_S_S50000x128 : (⟨S_, .f32⟩ : BufTy).Contents (Elt F) → (⟨S50000x128, .f32⟩ : BufTy).Contents (Elt F)),
    unary main_v1 main_v135 (broadcastInDim S800000x1 ![0] bcast_S800000_S800000x1_0 : (⟨S800000, .i32⟩ : BufTy).Contents (Elt F) → (⟨S800000x1, .i32⟩ : BufTy).Contents (Elt F)),
    ternary main_v134 main_v135 main_v133 main_v136 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v137 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v137 main_v138 rfl shapeCasts_S1x128x128_S128x128,
    binary main_v136 main_v138 main_v139 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v123 main_v139 main_v140 (addf : (⟨S50000x128, .f32⟩ : BufTy).Contents (Elt F) → (⟨S50000x128, .f32⟩ : BufTy).Contents (Elt F) → (⟨S50000x128, .f32⟩ : BufTy).Contents (Elt F)),
    nullary main_c_27 (constantI S_ 32 0#32),
    unary main_c_27 main_v141 (broadcastInDim S800000 ![] bcast_S_S800000 : (⟨S_, .i32⟩ : BufTy).Contents (Elt F) → (⟨S800000, .i32⟩ : BufTy).Contents (Elt F)),
    binary main_v3 main_v141 main_v142 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v143 (broadcastInDim S800000 ![] bcast_S_S800000 : (⟨S_, .i32⟩ : BufTy).Contents (Elt F) → (⟨S800000, .i32⟩ : BufTy).Contents (Elt F)),
    binary main_v3 main_v143 main_v144 (addi : (⟨S800000, .i32⟩ : BufTy).Contents (Elt F) → (⟨S800000, .i32⟩ : BufTy).Contents (Elt F) → (⟨S800000, .i32⟩ : BufTy).Contents (Elt F)),
    ternary main_v142 main_v144 main_v3 main_v145 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v145 main_v146 (broadcastInDim S800000x1 ![0] bcast_S800000_S800000x1_0 : (⟨S800000, .i32⟩ : BufTy).Contents (Elt F) → (⟨S800000x1, .i32⟩ : BufTy).Contents (Elt F)),
    binary main_v136 main_v146 main_v147 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v31 main_v148 (broadcastInDim S800000x1 ![0] bcast_S800000_S800000x1_0 : (⟨S800000, .f32⟩ : BufTy).Contents (Elt F) → (⟨S800000x1, .f32⟩ : BufTy).Contents (Elt F)) ]
set_option maxRecDepth 8192 in
theorem piece4_sub : (piece4 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩
/-- The buffers piece 4 writes. -/
abbrev piece4_W : List (Ref sig .tc) := [main_v121, main_v122, main_v123, main_c_24, main_v124, main_v125, main_c_25, main_v126, main_v127, main_v128, main_v129, main_v130, main_v131, main_v132, main_v133, main_cst_26, main_v134, main_v135, main_v136, main_v137, main_v138, main_v139, main_v140, main_c_27, main_v141, main_v142, main_c_28, main_v143, main_v144, main_v145, main_v146, main_v147, main_v148]
set_option maxHeartbeats 4000000 in
theorem piece4_writes : (piece4 : List (HloOp τ sig (Elt F))).Forall fun op => op.writes ⊆ (piece4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 187–246: layer 1, fourth printed window. -/
abbrev piece5 : List (HloOp τ sig (Elt F)) :=
  [ unary main_v148 main_v149 (broadcastInDim S800000x128 ![0, 1] bcast_S800000x1_S800000x128_0_1 : (⟨S800000x1, .f32⟩ : BufTy).Contents (Elt F) → (⟨S800000x128, .f32⟩ : BufTy).Contents (Elt F)),
    binary main_v147 main_v149 main_v150 (mulf : (⟨S800000x128, .f32⟩ : BufTy).Contents (Elt F) → (⟨S800000x128, .f32⟩ : BufTy).Contents (Elt F) → (⟨S800000x128, .f32⟩ : BufTy).Contents (Elt F)),
    nullary main_cst_29 (constant S_ .f32 0x00000000#32),
    unary main_cst_29 main_v151 (broadcastInDim S50000x128 ![] bcast_S_S50000x128 : (⟨S_, .f32⟩ : BufTy).Contents (Elt F) → (⟨S50000x128, .f32⟩ : BufTy).Contents (Elt F)),
    unary main_v1 main_v152 (broadcastInDim S800000x1 ![0] bcast_S800000_S800000x1_0 : (⟨S800000, .i32⟩ : BufTy).Contents (Elt F) → (⟨S800000x1, .i32⟩ : BufTy).Contents (Elt F)),
    ternary main_v151 main_v152 main_v150 main_v153 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_30 (constant S_ .f32 0x40000000#32),
    unary main_cst_30 main_v154 (broadcastInDim S50000x128 ![] bcast_S_S50000x128 : (⟨S_, .f32⟩ : BufTy).Contents (Elt F) → (⟨S50000x128, .f32⟩ : BufTy).Contents (Elt F)),
    binary main_v154 main_v153 main_v155 (mulf : (⟨S50000x128, .f32⟩ : BufTy).Contents (Elt F) → (⟨S50000x128, .f32⟩ : BufTy).Contents (Elt F) → (⟨S50000x128, .f32⟩ : BufTy).Contents (Elt F)),
    binary main_v155 main_v120 main_v156 (subf : (⟨S50000x128, .f32⟩ : BufTy).Contents (Elt F) → (⟨S50000x128, .f32⟩ : BufTy).Contents (Elt F) → (⟨S50000x128, .f32⟩ : BufTy).Contents (Elt F)),
    unary main_arg6 main_v157 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v157 main_v158 rfl shapeCasts_S1x128x128_S128x128,
    binary main_v156 main_v158 main_v159 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v140 main_v159 main_v160 (addf : (⟨S50000x128, .f32⟩ : BufTy).Contents (Elt F) → (⟨S50000x128, .f32⟩ : BufTy).Contents (Elt F) → (⟨S50000x128, .f32⟩ : BufTy).Contents (Elt F)),
    nullary main_c_31 (constantI S_ 32 0#32),
    unary main_c_31 main_v161 (broadcastInDim S800000 ![] bcast_S_S800000 : (⟨S_, .i32⟩ : BufTy).Contents (Elt F) → (⟨S800000, .i32⟩ : BufTy).Contents (Elt F)),
    binary main_v3 main_v161 main_v162 (cmpi .slt : (⟨S800000, .i32⟩ : BufTy).Contents (Elt F) → (⟨S800000, .i32⟩ : BufTy).Contents (Elt F) → (⟨S800000, .i1⟩ : BufTy).Contents (Elt F)),
    nullary main_c_32 (constantI S_ 32 50000#32),
    unary main_c_32 main_v163 (broadcastInDim S800000 ![] bcast_S_S800000 : (⟨S_, .i32⟩ : BufTy).Contents (Elt F) → (⟨S800000, .i32⟩ : BufTy).Contents (Elt F)),
    binary main_v3 main_v163 main_v164 (addi : (⟨S800000, .i32⟩ : BufTy).Contents (Elt F) → (⟨S800000, .i32⟩ : BufTy).Contents (Elt F) → (⟨S800000, .i32⟩ : BufTy).Contents (Elt F)),
    ternary main_v162 main_v164 main_v3 main_v165 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v165 main_v166 (broadcastInDim S800000x1 ![0] bcast_S800000_S800000x1_0 : (⟨S800000, .i32⟩ : BufTy).Contents (Elt F) → (⟨S800000x1, .i32⟩ : BufTy).Contents (Elt F)),
    binary main_v156 main_v166 main_v167 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v31 main_v168 (broadcastInDim S800000x1 ![0] bcast_S800000_S800000x1_0 : (⟨S800000, .f32⟩ : BufTy).Contents (Elt F) → (⟨S800000x1, .f32⟩ : BufTy).Contents (Elt F)),
    unary main_v168 main_v169 (broadcastInDim S800000x128 ![0, 1] bcast_S800000x1_S800000x128_0_1 : (⟨S800000x1, .f32⟩ : BufTy).Contents (Elt F) → (⟨S800000x128, .f32⟩ : BufTy).Contents (Elt F)),
    binary main_v167 main_v169 main_v170 (mulf : (⟨S800000x128, .f32⟩ : BufTy).Contents (Elt F) → (⟨S800000x128, .f32⟩ : BufTy).Contents (Elt F) → (⟨S800000x128, .f32⟩ : BufTy).Contents (Elt F)),
    nullary main_cst_33 (constant S_ .f32 0x00000000#32),
    unary main_cst_33 main_v171 (broadcastInDim S50000x128 ![] bcast_S_S50000x128 : (⟨S_, .f32⟩ : BufTy).Contents (Elt F) → (⟨S50000x128, .f32⟩ : BufTy).Contents (Elt F)),
    unary main_v1 main_v172 (broadcastInDim S800000x1 ![0] bcast_S800000_S800000x1_0 : (⟨S800000, .i32⟩ : BufTy).Contents (Elt F) → (⟨S800000x1, .i32⟩ : BufTy).Contents (Elt F)),
    ternary main_v171 main_v172 main_v170 main_v173 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_34 (constant S_ .f32 0x40000000#32),
    unary main_cst_34 main_v174 (broadcastInDim S50000x128 ![] bcast_S_S50000x128 : (⟨S_, .f32⟩ : BufTy).Contents (Elt F) → (⟨S50000x128, .f32⟩ : BufTy).Contents (Elt F)),
    binary main_v174 main_v173 main_v175 (mulf : (⟨S50000x128, .f32⟩ : BufTy).Contents (Elt F) → (⟨S50000x128, .f32⟩ : BufTy).Contents (Elt F) → (⟨S50000x128, .f32⟩ : BufTy).Contents (Elt F)),
    binary main_v175 main_v136 main_v176 (subf : (⟨S50000x128, .f32⟩ : BufTy).Contents (Elt F) → (⟨S50000x128, .f32⟩ : BufTy).Contents (Elt F) → (⟨S50000x128, .f32⟩ : BufTy).Contents (Elt F)),
    unary main_arg6 main_v177 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v177 main_v178 rfl shapeCasts_S1x128x128_S128x128,
    binary main_v176 main_v178 main_v179 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v160 main_v179 main_v180 (addf : (⟨S50000x128, .f32⟩ : BufTy).Contents (Elt F) → (⟨S50000x128, .f32⟩ : BufTy).Contents (Elt F) → (⟨S50000x128, .f32⟩ : BufTy).Contents (Elt F)),
    nullary main_c_35 (constantI S_ 32 0#32),
    unary main_c_35 main_v181 (broadcastInDim S800000 ![] bcast_S_S800000 : (⟨S_, .i32⟩ : BufTy).Contents (Elt F) → (⟨S800000, .i32⟩ : BufTy).Contents (Elt F)),
    binary main_v3 main_v181 main_v182 (cmpi .slt : (⟨S800000, .i32⟩ : BufTy).Contents (Elt F) → (⟨S800000, .i32⟩ : BufTy).Contents (Elt F) → (⟨S800000, .i1⟩ : BufTy).Contents (Elt F)),
    nullary main_c_36 (constantI S_ 32 50000#32),
    unary main_c_36 main_v183 (broadcastInDim S800000 ![] bcast_S_S800000 : (⟨S_, .i32⟩ : BufTy).Contents (Elt F) → (⟨S800000, .i32⟩ : BufTy).Contents (Elt F)),
    binary main_v3 main_v183 main_v184 (addi : (⟨S800000, .i32⟩ : BufTy).Contents (Elt F) → (⟨S800000, .i32⟩ : BufTy).Contents (Elt F) → (⟨S800000, .i32⟩ : BufTy).Contents (Elt F)),
    ternary main_v182 main_v184 main_v3 main_v185 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v185 main_v186 (broadcastInDim S800000x1 ![0] bcast_S800000_S800000x1_0 : (⟨S800000, .i32⟩ : BufTy).Contents (Elt F) → (⟨S800000x1, .i32⟩ : BufTy).Contents (Elt F)),
    binary main_v176 main_v186 main_v187 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v31 main_v188 (broadcastInDim S800000x1 ![0] bcast_S800000_S800000x1_0 : (⟨S800000, .f32⟩ : BufTy).Contents (Elt F) → (⟨S800000x1, .f32⟩ : BufTy).Contents (Elt F)),
    unary main_v188 main_v189 (broadcastInDim S800000x128 ![0, 1] bcast_S800000x1_S800000x128_0_1 : (⟨S800000x1, .f32⟩ : BufTy).Contents (Elt F) → (⟨S800000x128, .f32⟩ : BufTy).Contents (Elt F)),
    binary main_v187 main_v189 main_v190 (mulf : (⟨S800000x128, .f32⟩ : BufTy).Contents (Elt F) → (⟨S800000x128, .f32⟩ : BufTy).Contents (Elt F) → (⟨S800000x128, .f32⟩ : BufTy).Contents (Elt F)),
    nullary main_cst_37 (constant S_ .f32 0x00000000#32),
    unary main_cst_37 main_v191 (broadcastInDim S50000x128 ![] bcast_S_S50000x128 : (⟨S_, .f32⟩ : BufTy).Contents (Elt F) → (⟨S50000x128, .f32⟩ : BufTy).Contents (Elt F)),
    unary main_v1 main_v192 (broadcastInDim S800000x1 ![0] bcast_S800000_S800000x1_0 : (⟨S800000, .i32⟩ : BufTy).Contents (Elt F) → (⟨S800000x1, .i32⟩ : BufTy).Contents (Elt F)),
    ternary main_v191 main_v192 main_v190 main_v193 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_38 (constant S_ .f32 0x40000000#32),
    unary main_cst_38 main_v194 (broadcastInDim S50000x128 ![] bcast_S_S50000x128 : (⟨S_, .f32⟩ : BufTy).Contents (Elt F) → (⟨S50000x128, .f32⟩ : BufTy).Contents (Elt F)),
    binary main_v194 main_v193 main_v195 (mulf : (⟨S50000x128, .f32⟩ : BufTy).Contents (Elt F) → (⟨S50000x128, .f32⟩ : BufTy).Contents (Elt F) → (⟨S50000x128, .f32⟩ : BufTy).Contents (Elt F)),
    binary main_v195 main_v156 main_v196 (subf : (⟨S50000x128, .f32⟩ : BufTy).Contents (Elt F) → (⟨S50000x128, .f32⟩ : BufTy).Contents (Elt F) → (⟨S50000x128, .f32⟩ : BufTy).Contents (Elt F)),
    unary main_arg6 main_v197 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v197 main_v198 rfl shapeCasts_S1x128x128_S128x128 ]
set_option maxRecDepth 8192 in
theorem piece5_sub : (piece5 : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub ..⟩
/-- The buffers piece 5 writes. -/
abbrev piece5_W : List (Ref sig .tc) := [main_v149, main_v150, main_cst_29, main_v151, main_v152, main_v153, main_cst_30, main_v154, main_v155, main_v156, main_v157, main_v158, main_v159, main_v160, main_c_31, main_v161, main_v162, main_c_32, main_v163, main_v164, main_v165, main_v166, main_v167, main_v168, main_v169, main_v170, main_cst_33, main_v171, main_v172, main_v173, main_cst_34, main_v174, main_v175, main_v176, main_v177, main_v178, main_v179, main_v180, main_c_35, main_v181, main_v182, main_c_36, main_v183, main_v184, main_v185, main_v186, main_v187, main_v188, main_v189, main_v190, main_cst_37, main_v191, main_v192, main_v193, main_cst_38, main_v194, main_v195, main_v196, main_v197, main_v198]
set_option maxHeartbeats 4000000 in
theorem piece5_writes : (piece5 : List (HloOp τ sig (Elt F))).Forall fun op => op.writes ⊆ (piece5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 247–259: layer 1, its end. -/
abbrev piece6 : List (HloOp τ sig (Elt F)) :=
  [ binary main_v196 main_v198 main_v199 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v180 main_v199 main_v200 (addf : (⟨S50000x128, .f32⟩ : BufTy).Contents (Elt F) → (⟨S50000x128, .f32⟩ : BufTy).Contents (Elt F) → (⟨S50000x128, .f32⟩ : BufTy).Contents (Elt F)),
    unary main_arg7 main_v201 (broadcastInDim S1x128 ![1] bcast_S128_S1x128_1 : (⟨S128, .f32⟩ : BufTy).Contents (Elt F) → (⟨S1x128, .f32⟩ : BufTy).Contents (Elt F)),
    unary main_v201 main_v202 (broadcastInDim S50000x128 ![0, 1] bcast_S1x128_S50000x128_0_1 : (⟨S1x128, .f32⟩ : BufTy).Contents (Elt F) → (⟨S50000x128, .f32⟩ : BufTy).Contents (Elt F)),
    binary main_v200 main_v202 main_v203 (addf : (⟨S50000x128, .f32⟩ : BufTy).Contents (Elt F) → (⟨S50000x128, .f32⟩ : BufTy).Contents (Elt F) → (⟨S50000x128, .f32⟩ : BufTy).Contents (Elt F)),
    binary main_v120 main_arg8 main_v204 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v203 main_v204 main_v205 (addf : (⟨S50000x128, .f32⟩ : BufTy).Contents (Elt F) → (⟨S50000x128, .f32⟩ : BufTy).Contents (Elt F) → (⟨S50000x128, .f32⟩ : BufTy).Contents (Elt F)),
    unary main_arg9 main_v206 (broadcastInDim S1x128 ![1] bcast_S128_S1x128_1 : (⟨S128, .f32⟩ : BufTy).Contents (Elt F) → (⟨S1x128, .f32⟩ : BufTy).Contents (Elt F)),
    unary main_v206 main_v207 (broadcastInDim S50000x128 ![0, 1] bcast_S1x128_S50000x128_0_1 : (⟨S1x128, .f32⟩ : BufTy).Contents (Elt F) → (⟨S50000x128, .f32⟩ : BufTy).Contents (Elt F)),
    binary main_v205 main_v207 main_v208 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v208) (TRef.of (T := ⟨S50000x128, .f32⟩) main_call3_v0) (TRef.of (T := ⟨S50000x128, .f32⟩) main_v209) maximumf ]
set_option maxRecDepth 8192 in
theorem piece6_sub : (piece6 : List (HloOp τ sig (Elt F))).Forall fun op => op.bufs ⊆ tcRefs τ sig :=
  ⟨binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
/-- The buffers piece 6 writes. -/
abbrev piece6_W : List (Ref sig .tc) := [main_v199, main_v200, main_v201, main_v202, main_v203, main_v204, main_v205, main_v206, main_v207, main_v208, main_call3_cst, main_call3_v0, main_v209]
set_option maxHeartbeats 4000000 in
theorem piece6_writes : (piece6 : List (HloOp τ sig (Elt F))).Forall fun op => op.writes ⊆ (piece6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 260–308: layer 2, to the end of the fifth printed window. -/
abbrev piece7 : List (HloOp τ sig (Elt F)) :=
  [ unary main_arg10 main_v210 ((extractStridedSlice S1x128x350 ![0, 0, 0] · slices_S5x128x350_S1x128x350_0_0_0) : (⟨S5x128x350, .f32⟩ : BufTy).Contents (Elt F) → (⟨S1x128x350, .f32⟩ : BufTy).Contents (Elt F)),
    reshape main_v210 main_v211 rfl shapeCasts_S1x128x350_S128x350,
    binary main_v209 main_v211 main_v212 ((fun l r => Host.dotGeneral dot_S50000x128_S128x350_S50000x350_1_0_0_1_n_n none l r) : (⟨S50000x128, .f32⟩ : BufTy).Contents (Elt F) → (⟨S128x350, .f32⟩ : BufTy).Contents (Elt F) → (⟨S50000x350, .f32⟩ : BufTy).Contents (Elt F)),
    nullary main_c_39 (constantI S_ 32 0#32),
    unary main_c_39 main_v213 (broadcastInDim S800000 ![] bcast_S_S800000 : (⟨S_, .i32⟩ : BufTy).Contents (Elt F) → (⟨S800000, .i32⟩ : BufTy).Contents (Elt F)),
    binary main_v3 main_v213 main_v214 (cmpi .slt : (⟨S800000, .i32⟩ : BufTy).Contents (Elt F) → (⟨S800000, .i32⟩ : BufTy).Contents (Elt F) → (⟨S800000, .i1⟩ : BufTy).Contents (Elt F)),
    nullary main_c_40 (constantI S_ 32 50000#32),
    unary main_c_40 main_v215 (broadcastInDim S800000 ![] bcast_S_S800000 : (⟨S_, .i32⟩ : BufTy).Contents (Elt F) → (⟨S800000, .i32⟩ : BufTy).Contents (Elt F)),
    binary main_v3 main_v215 main_v216 (addi : (⟨S800000, .i32⟩ : BufTy).Contents (Elt F) → (⟨S800000, .i32⟩ : BufTy).Contents (Elt F) → (⟨S800000, .i32⟩ : BufTy).Contents (Elt F)),
    ternary main_v214 main_v216 main_v3 main_v217 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v217 main_v218 (broadcastInDim S800000x1 ![0] bcast_S800000_S800000x1_0 : (⟨S800000, .i32⟩ : BufTy).Contents (Elt F) → (⟨S800000x1, .i32⟩ : BufTy).Contents (Elt F)),
    binary main_v209 main_v218 main_v219 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v31 main_v220 (broadcastInDim S800000x1 ![0] bcast_S800000_S800000x1_0 : (⟨S800000, .f32⟩ : BufTy).Contents (Elt F) → (⟨S800000x1, .f32⟩ : BufTy).Contents (Elt F)),
    unary main_v220 main_v221 (broadcastInDim S800000x128 ![0, 1] bcast_S800000x1_S800000x128_0_1 : (⟨S800000x1, .f32⟩ : BufTy).Contents (Elt F) → (⟨S800000x128, .f32⟩ : BufTy).Contents (Elt F)),
    binary main_v219 main_v221 main_v222 (mulf : (⟨S800000x128, .f32⟩ : BufTy).Contents (Elt F) → (⟨S800000x128, .f32⟩ : BufTy).Contents (Elt F) → (⟨S800000x128, .f32⟩ : BufTy).Contents (Elt F)),
    nullary main_cst_41 (constant S_ .f32 0x00000000#32),
    unary main_cst_41 main_v223 (broadcastInDim S50000x128 ![] bcast_S_S50000x128 : (⟨S_, .f32⟩ : BufTy).Contents (Elt F) → (⟨S50000x128, .f32⟩ : BufTy).Contents (Elt F)),
    unary main_v1 main_v224 (broadcastInDim S800000x1 ![0] bcast_S800000_S800000x1_0 : (⟨S800000, .i32⟩ : BufTy).Contents (Elt F) → (⟨S800000x1, .i32⟩ : BufTy).Contents (Elt F)),
    ternary main_v223 main_v224 main_v222 main_v225 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg10 main_v226 ((extractStridedSlice S1x128x350 ![1, 0, 0] · slices_S5x128x350_S1x128x350_1_0_0) : (⟨S5x128x350, .f32⟩ : BufTy).Contents (Elt F) → (⟨S1x128x350, .f32⟩ : BufTy).Contents (Elt F)),
    reshape main_v226 main_v227 rfl shapeCasts_S1x128x350_S128x350,
    binary main_v225 main_v227 main_v228 ((fun l r => Host.dotGeneral dot_S50000x128_S128x350_S50000x350_1_0_0_1_n_n none l r) : (⟨S50000x128, .f32⟩ : BufTy).Contents (Elt F) → (⟨S128x350, .f32⟩ : BufTy).Contents (Elt F) → (⟨S50000x350, .f32⟩ : BufTy).Contents (Elt F)),
    binary main_v212 main_v228 main_v229 (addf : (⟨S50000x350, .f32⟩ : BufTy).Contents (Elt F) → (⟨S50000x350, .f32⟩ : BufTy).Contents (Elt F) → (⟨S50000x350, .f32⟩ : BufTy).Contents (Elt F)),
    nullary main_c_42 (constantI S_ 32 0#32),
    unary main_c_42 main_v230 (broadcastInDim S800000 ![] bcast_S_S800000 : (⟨S_, .i32⟩ : BufTy).Contents (Elt F) → (⟨S800000, .i32⟩ : BufTy).Contents (Elt F)),
    binary main_v3 main_v230 main_v231 (cmpi .slt : (⟨S800000, .i32⟩ : BufTy).Contents (Elt F) → (⟨S800000, .i32⟩ : BufTy).Contents (Elt F) → (⟨S800000, .i1⟩ : BufTy).Contents (Elt F)),
    nullary main_c_43 (constantI S_ 32 50000#32),
    unary main_c_43 main_v232 (broadcastInDim S800000 ![] bcast_S_S800000 : (⟨S_, .i32⟩ : BufTy).Contents (Elt F) → (⟨S800000, .i32⟩ : BufTy).Contents (Elt F)),
    binary main_v3 main_v232 main_v233 (addi : (⟨S800000, .i32⟩ : BufTy).Contents (Elt F) → (⟨S800000, .i32⟩ : BufTy).Contents (Elt F) → (⟨S800000, .i32⟩ : BufTy).Contents (Elt F)),
    ternary main_v231 main_v233 main_v3 main_v234 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v234 main_v235 (broadcastInDim S800000x1 ![0] bcast_S800000_S800000x1_0 : (⟨S800000, .i32⟩ : BufTy).Contents (Elt F) → (⟨S800000x1, .i32⟩ : BufTy).Contents (Elt F)),
    binary main_v225 main_v235 main_v236 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v31 main_v237 (broadcastInDim S800000x1 ![0] bcast_S800000_S800000x1_0 : (⟨S800000, .f32⟩ : BufTy).Contents (Elt F) → (⟨S800000x1, .f32⟩ : BufTy).Contents (Elt F)),
    unary main_v237 main_v238 (broadcastInDim S800000x128 ![0, 1] bcast_S800000x1_S800000x128_0_1 : (⟨S800000x1, .f32⟩ : BufTy).Contents (Elt F) → (⟨S800000x128, .f32⟩ : BufTy).Contents (Elt F)),
    binary main_v236 main_v238 main_v239 (mulf : (⟨S800000x128, .f32⟩ : BufTy).Contents (Elt F) → (⟨S800000x128, .f32⟩ : BufTy).Contents (Elt F) → (⟨S800000x128, .f32⟩ : BufTy).Contents (Elt F)),
    nullary main_cst_44 (constant S_ .f32 0x00000000#32),
    unary main_cst_44 main_v240 (broadcastInDim S50000x128 ![] bcast_S_S50000x128 : (⟨S_, .f32⟩ : BufTy).Contents (Elt F) → (⟨S50000x128, .f32⟩ : BufTy).Contents (Elt F)),
    unary main_v1 main_v241 (broadcastInDim S800000x1 ![0] bcast_S800000_S800000x1_0 : (⟨S800000, .i32⟩ : BufTy).Contents (Elt F) → (⟨S800000x1, .i32⟩ : BufTy).Contents (Elt F)),
    ternary main_v240 main_v241 main_v239 main_v242 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_45 (constant S_ .f32 0x40000000#32),
    unary main_cst_45 main_v243 (broadcastInDim S50000x128 ![] bcast_S_S50000x128 : (⟨S_, .f32⟩ : BufTy).Contents (Elt F) → (⟨S50000x128, .f32⟩ : BufTy).Contents (Elt F)),
    binary main_v243 main_v242 main_v244 (mulf : (⟨S50000x128, .f32⟩ : BufTy).Contents (Elt F) → (⟨S50000x128, .f32⟩ : BufTy).Contents (Elt F) → (⟨S50000x128, .f32⟩ : BufTy).Contents (Elt F)),
    binary main_v244 main_v209 main_v245 (subf : (⟨S50000x128, .f32⟩ : BufTy).Contents (Elt F) → (⟨S50000x128, .f32⟩ : BufTy).Contents (Elt F) → (⟨S50000x128, .f32⟩ : BufTy).Contents (Elt F)),
    unary main_arg10 main_v246 ((extractStridedSlice S1x128x350 ![2, 0, 0] · slices_S5x128x350_S1x128x350_2_0_0) : (⟨S5x128x350, .f32⟩ : BufTy).Contents (Elt F) → (⟨S1x128x350, .f32⟩ : BufTy).Contents (Elt F)),
    reshape main_v246 main_v247 rfl shapeCasts_S1x128x350_S128x350,
    binary main_v245 main_v247 main_v248 ((fun l r => Host.dotGeneral dot_S50000x128_S128x350_S50000x350_1_0_0_1_n_n none l r) : (⟨S50000x128, .f32⟩ : BufTy).Contents (Elt F) → (⟨S128x350, .f32⟩ : BufTy).Contents (Elt F) → (⟨S50000x350, .f32⟩ : BufTy).Contents (Elt F)),
    binary main_v229 main_v248 main_v249 (addf : (⟨S50000x350, .f32⟩ : BufTy).Contents (Elt F) → (⟨S50000x350, .f32⟩ : BufTy).Contents (Elt F) → (⟨S50000x350, .f32⟩ : BufTy).Contents (Elt F)),
    nullary main_c_46 (constantI S_ 32 0#32),
    unary main_c_46 main_v250 (broadcastInDim S800000 ![] bcast_S_S800000 : (⟨S_, .i32⟩ : BufTy).Contents (Elt F) → (⟨S800000, .i32⟩ : BufTy).Contents (Elt F)) ]
set_option maxRecDepth 8192 in
theorem piece7_sub : (piece7 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., nullary_bufs_sub .., unary_bufs_sub ..⟩
/-- The buffers piece 7 writes. -/
abbrev piece7_W : List (Ref sig .tc) := [main_v210, main_v211, main_v212, main_c_39, main_v213, main_v214, main_c_40, main_v215, main_v216, main_v217, main_v218, main_v219, main_v220, main_v221, main_v222, main_cst_41, main_v223, main_v224, main_v225, main_v226, main_v227, main_v228, main_v229, main_c_42, main_v230, main_v231, main_c_43, main_v232, main_v233, main_v234, main_v235, main_v236, main_v237, main_v238, main_v239, main_cst_44, main_v240, main_v241, main_v242, main_cst_45, main_v243, main_v244, main_v245, main_v246, main_v247, main_v248, main_v249, main_c_46, main_v250]
set_option maxHeartbeats 4000000 in
theorem piece7_writes : (piece7 : List (HloOp τ sig (Elt F))).Forall fun op => op.writes ⊆ (piece7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 309–363: layer 2, its end, and the flattening. -/
abbrev piece8 : List (HloOp τ sig (Elt F)) :=
  [ binary main_v3 main_v250 main_v251 (cmpi .slt : (⟨S800000, .i32⟩ : BufTy).Contents (Elt F) → (⟨S800000, .i32⟩ : BufTy).Contents (Elt F) → (⟨S800000, .i1⟩ : BufTy).Contents (Elt F)),
    nullary main_c_47 (constantI S_ 32 50000#32),
    unary main_c_47 main_v252 (broadcastInDim S800000 ![] bcast_S_S800000 : (⟨S_, .i32⟩ : BufTy).Contents (Elt F) → (⟨S800000, .i32⟩ : BufTy).Contents (Elt F)),
    binary main_v3 main_v252 main_v253 (addi : (⟨S800000, .i32⟩ : BufTy).Contents (Elt F) → (⟨S800000, .i32⟩ : BufTy).Contents (Elt F) → (⟨S800000, .i32⟩ : BufTy).Contents (Elt F)),
    ternary main_v251 main_v253 main_v3 main_v254 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v254 main_v255 (broadcastInDim S800000x1 ![0] bcast_S800000_S800000x1_0 : (⟨S800000, .i32⟩ : BufTy).Contents (Elt F) → (⟨S800000x1, .i32⟩ : BufTy).Contents (Elt F)),
    binary main_v245 main_v255 main_v256 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v31 main_v257 (broadcastInDim S800000x1 ![0] bcast_S800000_S800000x1_0 : (⟨S800000, .f32⟩ : BufTy).Contents (Elt F) → (⟨S800000x1, .f32⟩ : BufTy).Contents (Elt F)),
    unary main_v257 main_v258 (broadcastInDim S800000x128 ![0, 1] bcast_S800000x1_S800000x128_0_1 : (⟨S800000x1, .f32⟩ : BufTy).Contents (Elt F) → (⟨S800000x128, .f32⟩ : BufTy).Contents (Elt F)),
    binary main_v256 main_v258 main_v259 (mulf : (⟨S800000x128, .f32⟩ : BufTy).Contents (Elt F) → (⟨S800000x128, .f32⟩ : BufTy).Contents (Elt F) → (⟨S800000x128, .f32⟩ : BufTy).Contents (Elt F)),
    nullary main_cst_48 (constant S_ .f32 0x00000000#32),
    unary main_cst_48 main_v260 (broadcastInDim S50000x128 ![] bcast_S_S50000x128 : (⟨S_, .f32⟩ : BufTy).Contents (Elt F) → (⟨S50000x128, .f32⟩ : BufTy).Contents (Elt F)),
    unary main_v1 main_v261 (broadcastInDim S800000x1 ![0] bcast_S800000_S800000x1_0 : (⟨S800000, .i32⟩ : BufTy).Contents (Elt F) → (⟨S800000x1, .i32⟩ : BufTy).Contents (Elt F)),
    ternary main_v260 main_v261 main_v259 main_v262 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_49 (constant S_ .f32 0x40000000#32),
    unary main_cst_49 main_v263 (broadcastInDim S50000x128 ![] bcast_S_S50000x128 : (⟨S_, .f32⟩ : BufTy).Contents (Elt F) → (⟨S50000x128, .f32⟩ : BufTy).Contents (Elt F)),
    binary main_v263 main_v262 main_v264 (mulf : (⟨S50000x128, .f32⟩ : BufTy).Contents (Elt F) → (⟨S50000x128, .f32⟩ : BufTy).Contents (Elt F) → (⟨S50000x128, .f32⟩ : BufTy).Contents (Elt F)),
    binary main_v264 main_v225 main_v265 (subf : (⟨S50000x128, .f32⟩ : BufTy).Contents (Elt F) → (⟨S50000x128, .f32⟩ : BufTy).Contents (Elt F) → (⟨S50000x128, .f32⟩ : BufTy).Contents (Elt F)),
    unary main_arg10 main_v266 ((extractStridedSlice S1x128x350 ![3, 0, 0] · slices_S5x128x350_S1x128x350_3_0_0) : (⟨S5x128x350, .f32⟩ : BufTy).Contents (Elt F) → (⟨S1x128x350, .f32⟩ : BufTy).Contents (Elt F)),
    reshape main_v266 main_v267 rfl shapeCasts_S1x128x350_S128x350,
    binary main_v265 main_v267 main_v268 ((fun l r => Host.dotGeneral dot_S50000x128_S128x350_S50000x350_1_0_0_1_n_n none l r) : (⟨S50000x128, .f32⟩ : BufTy).Contents (Elt F) → (⟨S128x350, .f32⟩ : BufTy).Contents (Elt F) → (⟨S50000x350, .f32⟩ : BufTy).Contents (Elt F)),
    binary main_v249 main_v268 main_v269 (addf : (⟨S50000x350, .f32⟩ : BufTy).Contents (Elt F) → (⟨S50000x350, .f32⟩ : BufTy).Contents (Elt F) → (⟨S50000x350, .f32⟩ : BufTy).Contents (Elt F)),
    nullary main_c_50 (constantI S_ 32 0#32),
    unary main_c_50 main_v270 (broadcastInDim S800000 ![] bcast_S_S800000 : (⟨S_, .i32⟩ : BufTy).Contents (Elt F) → (⟨S800000, .i32⟩ : BufTy).Contents (Elt F)),
    binary main_v3 main_v270 main_v271 (cmpi .slt : (⟨S800000, .i32⟩ : BufTy).Contents (Elt F) → (⟨S800000, .i32⟩ : BufTy).Contents (Elt F) → (⟨S800000, .i1⟩ : BufTy).Contents (Elt F)),
    nullary main_c_51 (constantI S_ 32 50000#32),
    unary main_c_51 main_v272 (broadcastInDim S800000 ![] bcast_S_S800000 : (⟨S_, .i32⟩ : BufTy).Contents (Elt F) → (⟨S800000, .i32⟩ : BufTy).Contents (Elt F)),
    binary main_v3 main_v272 main_v273 (addi : (⟨S800000, .i32⟩ : BufTy).Contents (Elt F) → (⟨S800000, .i32⟩ : BufTy).Contents (Elt F) → (⟨S800000, .i32⟩ : BufTy).Contents (Elt F)),
    ternary main_v271 main_v273 main_v3 main_v274 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v274 main_v275 (broadcastInDim S800000x1 ![0] bcast_S800000_S800000x1_0 : (⟨S800000, .i32⟩ : BufTy).Contents (Elt F) → (⟨S800000x1, .i32⟩ : BufTy).Contents (Elt F)),
    binary main_v265 main_v275 main_v276 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v31 main_v277 (broadcastInDim S800000x1 ![0] bcast_S800000_S800000x1_0 : (⟨S800000, .f32⟩ : BufTy).Contents (Elt F) → (⟨S800000x1, .f32⟩ : BufTy).Contents (Elt F)),
    unary main_v277 main_v278 (broadcastInDim S800000x128 ![0, 1] bcast_S800000x1_S800000x128_0_1 : (⟨S800000x1, .f32⟩ : BufTy).Contents (Elt F) → (⟨S800000x128, .f32⟩ : BufTy).Contents (Elt F)),
    binary main_v276 main_v278 main_v279 (mulf : (⟨S800000x128, .f32⟩ : BufTy).Contents (Elt F) → (⟨S800000x128, .f32⟩ : BufTy).Contents (Elt F) → (⟨S800000x128, .f32⟩ : BufTy).Contents (Elt F)),
    nullary main_cst_52 (constant S_ .f32 0x00000000#32),
    unary main_cst_52 main_v280 (broadcastInDim S50000x128 ![] bcast_S_S50000x128 : (⟨S_, .f32⟩ : BufTy).Contents (Elt F) → (⟨S50000x128, .f32⟩ : BufTy).Contents (Elt F)),
    unary main_v1 main_v281 (broadcastInDim S800000x1 ![0] bcast_S800000_S800000x1_0 : (⟨S800000, .i32⟩ : BufTy).Contents (Elt F) → (⟨S800000x1, .i32⟩ : BufTy).Contents (Elt F)),
    ternary main_v280 main_v281 main_v279 main_v282 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_53 (constant S_ .f32 0x40000000#32),
    unary main_cst_53 main_v283 (broadcastInDim S50000x128 ![] bcast_S_S50000x128 : (⟨S_, .f32⟩ : BufTy).Contents (Elt F) → (⟨S50000x128, .f32⟩ : BufTy).Contents (Elt F)),
    binary main_v283 main_v282 main_v284 (mulf : (⟨S50000x128, .f32⟩ : BufTy).Contents (Elt F) → (⟨S50000x128, .f32⟩ : BufTy).Contents (Elt F) → (⟨S50000x128, .f32⟩ : BufTy).Contents (Elt F)),
    binary main_v284 main_v245 main_v285 (subf : (⟨S50000x128, .f32⟩ : BufTy).Contents (Elt F) → (⟨S50000x128, .f32⟩ : BufTy).Contents (Elt F) → (⟨S50000x128, .f32⟩ : BufTy).Contents (Elt F)),
    unary main_arg10 main_v286 ((extractStridedSlice S1x128x350 ![4, 0, 0] · slices_S5x128x350_S1x128x350_4_0_0) : (⟨S5x128x350, .f32⟩ : BufTy).Contents (Elt F) → (⟨S1x128x350, .f32⟩ : BufTy).Contents (Elt F)),
    reshape main_v286 main_v287 rfl shapeCasts_S1x128x350_S128x350,
    binary main_v285 main_v287 main_v288 ((fun l r => Host.dotGeneral dot_S50000x128_S128x350_S50000x350_1_0_0_1_n_n none l r) : (⟨S50000x128, .f32⟩ : BufTy).Contents (Elt F) → (⟨S128x350, .f32⟩ : BufTy).Contents (Elt F) → (⟨S50000x350, .f32⟩ : BufTy).Contents (Elt F)),
    binary main_v269 main_v288 main_v289 (addf : (⟨S50000x350, .f32⟩ : BufTy).Contents (Elt F) → (⟨S50000x350, .f32⟩ : BufTy).Contents (Elt F) → (⟨S50000x350, .f32⟩ : BufTy).Contents (Elt F)),
    unary main_arg11 main_v290 (broadcastInDim S1x350 ![1] bcast_S350_S1x350_1 : (⟨S350, .f32⟩ : BufTy).Contents (Elt F) → (⟨S1x350, .f32⟩ : BufTy).Contents (Elt F)),
    unary main_v290 main_v291 (broadcastInDim S50000x350 ![0, 1] bcast_S1x350_S50000x350_0_1 : (⟨S1x350, .f32⟩ : BufTy).Contents (Elt F) → (⟨S50000x350, .f32⟩ : BufTy).Contents (Elt F)),
    binary main_v289 main_v291 main_v292 (addf : (⟨S50000x350, .f32⟩ : BufTy).Contents (Elt F) → (⟨S50000x350, .f32⟩ : BufTy).Contents (Elt F) → (⟨S50000x350, .f32⟩ : BufTy).Contents (Elt F)),
    binary main_v209 main_arg12 main_v293 ((fun l r => Host.dotGeneral dot_S50000x128_S128x350_S50000x350_1_0_0_1_n_n none l r) : (⟨S50000x128, .f32⟩ : BufTy).Contents (Elt F) → (⟨S128x350, .f32⟩ : BufTy).Contents (Elt F) → (⟨S50000x350, .f32⟩ : BufTy).Contents (Elt F)),
    binary main_v292 main_v293 main_v294 (addf : (⟨S50000x350, .f32⟩ : BufTy).Contents (Elt F) → (⟨S50000x350, .f32⟩ : BufTy).Contents (Elt F) → (⟨S50000x350, .f32⟩ : BufTy).Contents (Elt F)),
    unary main_arg13 main_v295 (broadcastInDim S1x350 ![1] bcast_S350_S1x350_1 : (⟨S350, .f32⟩ : BufTy).Contents (Elt F) → (⟨S1x350, .f32⟩ : BufTy).Contents (Elt F)),
    unary main_v295 main_v296 (broadcastInDim S50000x350 ![0, 1] bcast_S1x350_S50000x350_0_1 : (⟨S1x350, .f32⟩ : BufTy).Contents (Elt F) → (⟨S50000x350, .f32⟩ : BufTy).Contents (Elt F)),
    binary main_v294 main_v296 main_v297 (addf : (⟨S50000x350, .f32⟩ : BufTy).Contents (Elt F) → (⟨S50000x350, .f32⟩ : BufTy).Contents (Elt F) → (⟨S50000x350, .f32⟩ : BufTy).Contents (Elt F)),
    reshape main_v297 main_v298 rfl shapeCasts_S50000x350_S17500000 ]
set_option maxRecDepth 8192 in
theorem piece8_sub : (piece8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., binary_bufs_sub .., unary_bufs_sub .., unary_bufs_sub .., binary_bufs_sub .., reshape_bufs_sub ..⟩
/-- The buffers piece 8 writes. -/
abbrev piece8_W : List (Ref sig .tc) := [main_v251, main_c_47, main_v252, main_v253, main_v254, main_v255, main_v256, main_v257, main_v258, main_v259, main_cst_48, main_v260, main_v261, main_v262, main_cst_49, main_v263, main_v264, main_v265, main_v266, main_v267, main_v268, main_v269, main_c_50, main_v270, main_v271, main_c_51, main_v272, main_v273, main_v274, main_v275, main_v276, main_v277, main_v278, main_v279, main_cst_52, main_v280, main_v281, main_v282, main_cst_53, main_v283, main_v284, main_v285, main_v286, main_v287, main_v288, main_v289, main_v290, main_v291, main_v292, main_v293, main_v294, main_v295, main_v296, main_v297, main_v298]
set_option maxHeartbeats 4000000 in
theorem piece8_writes : (piece8 : List (HloOp τ sig (Elt F))).Forall fun op => op.writes ⊆ (piece8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The printed windows, and the whole program -/

abbrev window0 : List (HloOp τ sig (Elt F)) := piece0 ++ piece1
set_option maxRecDepth 8192 in
set_option maxHeartbeats 4000000 in
theorem main_part0_eq (c : Dev nD) : main_part0 (F := F) c = seq window0 := rfl

abbrev window1 : List (HloOp τ sig (Elt F)) := piece2
set_option maxRecDepth 8192 in
set_option maxHeartbeats 4000000 in
theorem main_part1_eq (c : Dev nD) : main_part1 (F := F) c = seq window1 := rfl

abbrev window2 : List (HloOp τ sig (Elt F)) := piece3 ++ piece4
set_option maxRecDepth 8192 in
set_option maxHeartbeats 4000000 in
theorem main_part2_eq (c : Dev nD) : main_part2 (F := F) c = seq window2 := rfl

abbrev window3 : List (HloOp τ sig (Elt F)) := piece5
set_option maxRecDepth 8192 in
set_option maxHeartbeats 4000000 in
theorem main_part3_eq (c : Dev nD) : main_part3 (F := F) c = seq window3 := rfl

abbrev window4 : List (HloOp τ sig (Elt F)) := piece6 ++ piece7
set_option maxRecDepth 8192 in
set_option maxHeartbeats 4000000 in
theorem main_part4_eq (c : Dev nD) : main_part4 (F := F) c = seq window4 := rfl

abbrev window5 : List (HloOp τ sig (Elt F)) := piece8
set_option maxRecDepth 8192 in
set_option maxHeartbeats 4000000 in
theorem main_part5_eq (c : Dev nD) : main_part5 (F := F) c = seq window5 := rfl

/-- The program's 363 operations, in order. -/
abbrev ops : List (HloOp τ sig (Elt F)) :=
  window0 ++ (window1 ++ (window2 ++ (window3 ++ (window4 ++ window5))))

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, window0, window2, window4, List.mem_append] at h
    rcases h with (h | h) | h | (h | h) | h | (h | h) | h
    exacts [List.forall_iff_forall_mem.mp piece0_sub op h, List.forall_iff_forall_mem.mp piece1_sub op h, List.forall_iff_forall_mem.mp piece2_sub op h, List.forall_iff_forall_mem.mp piece3_sub op h, List.forall_iff_forall_mem.mp piece4_sub op h, List.forall_iff_forall_mem.mp piece5_sub op h, List.forall_iff_forall_mem.mp piece6_sub op h, List.forall_iff_forall_mem.mp piece7_sub op h, List.forall_iff_forall_mem.mp piece8_sub op h]

/-- The fold over the whole program is the fold over the nine pieces in turn. -/
theorem after_ops (V : Valuation τ sig (Elt F)) :
    after ops V = after piece8 (after piece7 (after piece6 (after piece5 (after piece4 (after piece3 (after piece2 (after piece1 (after piece0 V)))))))) := by
  simp only [ops, window0, window2, window4, after_append]

set_option maxRecDepth 8192 in
set_option maxHeartbeats 4000000 in
/-- THE RUN: every weakly fair execution terminates, nothing faults, and every buffer ends at the operations' fold
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- A buffer none of the nine pieces writes keeps its contents through the whole program. -/
theorem unwritten (V : Valuation τ sig (Elt F)) (r : Ref sig .tc)
    (h0 : r ∉ piece0_W) (h1 : r ∉ piece1_W) (h2 : r ∉ piece2_W) (h3 : r ∉ piece3_W) (h4 : r ∉ piece4_W) (h5 : r ∉ piece5_W) (h6 : r ∉ piece6_W) (h7 : r ∉ piece7_W) (h8 : r ∉ piece8_W) :
    after ops V (Proc.devRef .tc r) = V (Proc.devRef .tc r) := by
  rw [after_ops]
  exact (after_of_writes_sub piece8 _ piece8_writes h8).trans <|
    (after_of_writes_sub piece7 _ piece7_writes h7).trans <|
    (after_of_writes_sub piece6 _ piece6_writes h6).trans <|
    (after_of_writes_sub piece5 _ piece5_writes h5).trans <|
    (after_of_writes_sub piece4 _ piece4_writes h4).trans <|
    (after_of_writes_sub piece3 _ piece3_writes h3).trans <|
    (after_of_writes_sub piece2 _ piece2_writes h2).trans <|
    (after_of_writes_sub piece1 _ piece1_writes h1).trans <|
    (after_of_writes_sub piece0 _ piece0_writes h0)

/-- THE FRAME: the program terminates without a fault and every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c main_arg0).trans ((unwritten (launchContents m c) main_arg0 (by decide) (by decide) (by decide) (by decide) (by decide) (by decide) (by decide) (by decide) (by decide)).trans rfl),
     (h c main_arg1).trans ((unwritten (launchContents m c) main_arg1 (by decide) (by decide) (by decide) (by decide) (by decide) (by decide) (by decide) (by decide) (by decide)).trans rfl),
     (h c main_arg2).trans ((unwritten (launchContents m c) main_arg2 (by decide) (by decide) (by decide) (by decide) (by decide) (by decide) (by decide) (by decide) (by decide)).trans rfl),
     (h c main_arg3).trans ((unwritten (launchContents m c) main_arg3 (by decide) (by decide) (by decide) (by decide) (by decide) (by decide) (by decide) (by decide) (by decide)).trans rfl),
     (h c main_arg4).trans ((unwritten (launchContents m c) main_arg4 (by decide) (by decide) (by decide) (by decide) (by decide) (by decide) (by decide) (by decide) (by decide)).trans rfl),
     (h c main_arg5).trans ((unwritten (launchContents m c) main_arg5 (by decide) (by decide) (by decide) (by decide) (by decide) (by decide) (by decide) (by decide) (by decide)).trans rfl),
     (h c main_arg6).trans ((unwritten (launchContents m c) main_arg6 (by decide) (by decide) (by decide) (by decide) (by decide) (by decide) (by decide) (by decide) (by decide)).trans rfl),
     (h c main_arg7).trans ((unwritten (launchContents m c) main_arg7 (by decide) (by decide) (by decide) (by decide) (by decide) (by decide) (by decide) (by decide) (by decide)).trans rfl),
     (h c main_arg8).trans ((unwritten (launchContents m c) main_arg8 (by decide) (by decide) (by decide) (by decide) (by decide) (by decide) (by decide) (by decide) (by decide)).trans rfl),
     (h c main_arg9).trans ((unwritten (launchContents m c) main_arg9 (by decide) (by decide) (by decide) (by decide) (by decide) (by decide) (by decide) (by decide) (by decide)).trans rfl),
     (h c main_arg10).trans ((unwritten (launchContents m c) main_arg10 (by decide) (by decide) (by decide) (by decide) (by decide) (by decide) (by decide) (by decide) (by decide)).trans rfl),
     (h c main_arg11).trans ((unwritten (launchContents m c) main_arg11 (by decide) (by decide) (by decide) (by decide) (by decide) (by decide) (by decide) (by decide) (by decide)).trans rfl),
     (h c main_arg12).trans ((unwritten (launchContents m c) main_arg12 (by decide) (by decide) (by decide) (by decide) (by decide) (by decide) (by decide) (by decide) (by decide)).trans rfl),
     (h c main_arg13).trans ((unwritten (launchContents m c) main_arg13 (by decide) (by decide) (by decide) (by decide) (by decide) (by decide) (by decide) (by decide) (by decide)).trans rfl)⟩) (run m ρ)

end Cert.ReferenceIdeal.Whole

end
-- ==== Proof.IdealGlueDefs.lean ====
import proofs.«162653_j26706106646651_1_alg».proof.KernelIdeal
import proofs.«162653_j26706106646651_1_alg».proof.Proof.Gen.KernelIdeal

/-!
# The kernel program's stacking of the Chebyshev terms

Before each launch the kernel program stacks the five Chebyshev terms `T_0 … T_4` of the layer's input along a new
leading axis: each `50000 × d` term becomes a `1 × 50000 × d` slab and the five slabs are concatenated.
-/

set_option maxRecDepth 16384

noncomputable section

namespace Cert.KernelIdeal.Glue

open Cert.KernelIdeal Cert.KernelIdeal.Facts₀ Cert.KernelIdeal.Facts Idealize.ShloMosaic Idealize.ShloMosaic.TcCoe Idealize.SL.Sem

variable {F : FTy → Type} [FloatOps F]

/-- The five Chebyshev terms of a width-64 node array stacked along a new leading axis. -/
def stack64 (T0 T1 T2 T3 T4 : (⟨S50000x64, .f32⟩ : BufTy).Contents (Elt F)) : (⟨S5x50000x64, .f32⟩ : BufTy).Contents (Elt F) :=
  (concatenate S5x50000x64 0 [⟨S1x50000x64, (broadcastInDim S1x50000x64 ![1, 2] bcast_S50000x64_S1x50000x64_1_2 T0)⟩, ⟨S1x50000x64, (broadcastInDim S1x50000x64 ![1, 2] bcast_S50000x64_S1x50000x64_1_2 T1)⟩, ⟨S1x50000x64, (broadcastInDim S1x50000x64 ![1, 2] bcast_S50000x64_S1x50000x64_1_2 T2)⟩, ⟨S1x50000x64, (broadcastInDim S1x50000x64 ![1, 2] bcast_S50000x64_S1x50000x64_1_2 T3)⟩, ⟨S1x50000x64, (broadcastInDim S1x50000x64 ![1, 2] bcast_S50000x64_S1x50000x64_1_2 T4)⟩] concatenates_S1x50000x64_S1x50000x64_S1x50000x64_S1x50000x64_S1x50000x64_S5x50000x64_d0)

/-- The same for width 128. -/
def stack128 (T0 T1 T2 T3 T4 : (⟨S50000x128, .f32⟩ : BufTy).Contents (Elt F)) : (⟨S5x50000x128, .f32⟩ : BufTy).Contents (Elt F) :=
  (concatenate S5x50000x128 0 [⟨S1x50000x128, (broadcastInDim S1x50000x128 ![1, 2] bcast_S50000x128_S1x50000x128_1_2 T0)⟩, ⟨S1x50000x128, (broadcastInDim S1x50000x128 ![1, 2] bcast_S50000x128_S1x50000x128_1_2 T1)⟩, ⟨S1x50000x128, (broadcastInDim S1x50000x128 ![1, 2] bcast_S50000x128_S1x50000x128_1_2 T2)⟩, ⟨S1x50000x128, (broadcastInDim S1x50000x128 ![1, 2] bcast_S50000x128_S1x50000x128_1_2 T3)⟩, ⟨S1x50000x128, (broadcastInDim S1x50000x128 ![1, 2] bcast_S50000x128_S1x50000x128_1_2 T4)⟩] concatenates_S1x50000x128_S1x50000x128_S1x50000x128_S1x50000x128_S1x50000x128_S5x50000x128_d0)

end Cert.KernelIdeal.Glue

end
-- ==== Proof.Terms.lean ====
import proofs.«162653_j26706106646651_1_alg».proof.ReferenceIdeal
import proofs.«162653_j26706106646651_1_alg».proof.Proof.Gen.ReferenceIdeal

/-!
# The pieces both programs are built from

Both programs compute, once, from the edge list `ei` (row 0 the target nodes, row 1 the source nodes):
`rowOf ei`, `colOf ei`, and the edge weights `edgeW ei = -(d^{-1/2})[row] · (d^{-1/2})[col]`, where `d` counts the
edges into each node and `d^{-1/2}` is taken as `0` at a node with none. One propagation of a node array `t` is
`scatter-add over row of (t[col] · w)`; the Chebyshev terms of a layer's input `x` are `T_0 = x`, `T_1 = prop x`,
`T_k = 2 · prop T_{k-1} - T_{k-2}`. `chebD_k x row col w` is `T_k` for node arrays of width `D`, written with exactly
the host operations the programs use. `combineL T_0 … T_4 Wc bc Wl bl` is what the reference makes of them in layer
`L`: `((((T_0·Wc_0 + T_1·Wc_1) + T_2·Wc_2) + T_3·Wc_3) + T_4·Wc_4) + bc + T_0·Wl + bl`, followed in layers 0 and 1 by
`max(·, 0)`.
-/

set_option maxRecDepth 8192

noncomputable section

namespace Cert.ReferenceIdeal.Terms

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The target node of each edge. -/
def rowOf (ei : (⟨S2x800000, .i32⟩ : BufTy).Contents (Elt F)) : (⟨S800000, .i32⟩ : BufTy).Contents (Elt F) :=
  (shapeCast _ (extractStridedSlice S1x800000 ![0, 0] ei slices_S2x800000_S1x800000_0_0) shapeCasts_S1x800000_S800000)

/-- The source node of each edge. -/
def colOf (ei : (⟨S2x800000, .i32⟩ : BufTy).Contents (Elt F)) : (⟨S800000, .i32⟩ : BufTy).Contents (Elt F) :=
  (shapeCast _ (extractStridedSlice S1x800000 ![1, 0] ei slices_S2x800000_S1x800000_1_0) shapeCasts_S1x800000_S800000)

/-- The weight of each edge: minus the product of the inverse square roots of its two endpoints' in-degrees. -/
def edgeW (ei : (⟨S2x800000, .i32⟩ : BufTy).Contents (Elt F)) : (⟨S800000, .f32⟩ : BufTy).Contents (Elt F) :=
  (mulf (Host.negf (Host.gather gather_S50000_S800000x1_S800000_n_0_n_n_0_1_1 (select (cmpf .ogt (Host.scatterAdd scatter_S50000_S800000x1_S800000_n_0_0_1 (broadcastInDim S50000 ![] bcast_S_S50000 (constant S_ .f32 0x00000000#32 : (⟨S_, .f32⟩ : BufTy).Contents (Elt F))) (broadcastInDim S800000x1 ![0] bcast_S800000_S800000x1_0 (shapeCast _ (extractStridedSlice S1x800000 ![0, 0] ei slices_S2x800000_S1x800000_0_0) shapeCasts_S1x800000_S800000)) (broadcastInDim S800000 ![] bcast_S_S800000 (constant S_ .f32 0x3F800000#32 : (⟨S_, .f32⟩ : BufTy).Contents (Elt F)))) (broadcastInDim S50000 ![] bcast_S_S50000 (constant S_ .f32 0x00000000#32 : (⟨S_, .f32⟩ : BufTy).Contents (Elt F)))) (Host.powf (select (cmpf .ogt (Host.scatterAdd scatter_S50000_S800000x1_S800000_n_0_0_1 (broadcastInDim S50000 ![] bcast_S_S50000 (constant S_ .f32 0x00000000#32 : (⟨S_, .f32⟩ : BufTy).Contents (Elt F))) (broadcastInDim S800000x1 ![0] bcast_S800000_S800000x1_0 (shapeCast _ (extractStridedSlice S1x800000 ![0, 0] ei slices_S2x800000_S1x800000_0_0) shapeCasts_S1x800000_S800000)) (broadcastInDim S800000 ![] bcast_S_S800000 (constant S_ .f32 0x3F800000#32 : (⟨S_, .f32⟩ : BufTy).Contents (Elt F)))) (broadcastInDim S50000 ![] bcast_S_S50000 (constant S_ .f32 0x00000000#32 : (⟨S_, .f32⟩ : BufTy).Contents (Elt F)))) (Host.scatterAdd scatter_S50000_S800000x1_S800000_n_0_0_1 (broadcastInDim S50000 ![] bcast_S_S50000 (constant S_ .f32 0x00000000#32 : (⟨S_, .f32⟩ : BufTy).Contents (Elt F))) (broadcastInDim S800000x1 ![0] bcast_S800000_S800000x1_0 (shapeCast _ (extractStridedSlice S1x800000 ![0, 0] ei slices_S2x800000_S1x800000_0_0) shapeCasts_S1x800000_S800000)) (broadcastInDim S800000 ![] bcast_S_S800000 (constant S_ .f32 0x3F800000#32 : (⟨S_, .f32⟩ : BufTy).Contents (Elt F)))) (broadcastInDim S50000 ![] bcast_S_S50000 (id (constant S_ .f32 0x3F800000#32 : (⟨S_, .f32⟩ : BufTy).Contents (Elt F))))) (broadcastInDim S50000 ![] bcast_S_S50000 (constant S_ .f32 0xBF000000#32 : (⟨S_, .f32⟩ : BufTy).Contents (Elt F)))) (broadcastInDim S50000 ![] bcast_S_S50000 (id (constant S_ .f32 0x00000000#32 : (⟨S_, .f32⟩ : BufTy).Contents (Elt F))))) (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32 : (⟨S_, .i32⟩ : BufTy).Contents (Elt F)))) (addi (shapeCast _ (extractStridedSlice S1x800000 ![0, 0] ei slices_S2x800000_S1x800000_0_0) shapeCasts_S1x800000_S800000) (broadcastInDim S800000 ![] bcast_S_S800000 (constantI S_ 32 50000#32 : (⟨S_, .i32⟩ : BufTy).Contents (Elt F)))) (shapeCast _ (extractStridedSlice S1x800000 ![0, 0] ei slices_S2x800000_S1x800000_0_0) shapeCasts_S1x800000_S800000))))) (Host.gather gather_S50000_S800000x1_S800000_n_0_n_n_0_1_1 (select (cmpf .ogt (Host.scatterAdd scatter_S50000_S800000x1_S800000_n_0_0_1 (broadcastInDim S50000 ![] bcast_S_S50000 (constant S_ .f32 0x00000000#32 : (⟨S_, .f32⟩ : BufTy).Contents (Elt F))) (broadcastInDim S800000x1 ![0] bcast_S800000_S800000x1_0 (shapeCast _ (extractStridedSlice S1x800000 ![0, 0] ei slices_S2x800000_S1x800000_0_0) shapeCasts_S1x800000_S800000)) (broadcastInDim S800000 ![] bcast_S_S800000 (constant S_ .f32 0x3F800000#32 : (⟨S_, .f32⟩ : BufTy).Contents (Elt F)))) (broadcastInDim S50000 ![] bcast_S_S50000 (constant S_ .f32 0x00000000#32 : (⟨S_, .f32⟩ : BufTy).Contents (Elt F)))) (Host.powf (select (cmpf .ogt (Host.scatterAdd scatter_S50000_S800000x1_S800000_n_0_0_1 (broadcastInDim S50000 ![] bcast_S_S50000 (constant S_ .f32 0x00000000#32 : (⟨S_, .f32⟩ : BufTy).Contents (Elt F))) (broadcastInDim S800000x1 ![0] bcast_S800000_S800000x1_0 (shapeCast _ (extractStridedSlice S1x800000 ![0, 0] ei slices_S2x800000_S1x800000_0_0) shapeCasts_S1x800000_S800000)) (broadcastInDim S800000 ![] bcast_S_S800000 (constant S_ .f32 0x3F800000#32 : (⟨S_, .f32⟩ : BufTy).Contents (Elt F)))) (broadcastInDim S50000 ![] bcast_S_S50000 (constant S_ .f32 0x00000000#32 : (⟨S_, .f32⟩ : BufTy).Contents (Elt F)))) (Host.scatterAdd scatter_S50000_S800000x1_S800000_n_0_0_1 (broadcastInDim S50000 ![] bcast_S_S50000 (constant S_ .f32 0x00000000#32 : (⟨S_, .f32⟩ : BufTy).Contents (Elt F))) (broadcastInDim S800000x1 ![0] bcast_S800000_S800000x1_0 (shapeCast _ (extractStridedSlice S1x800000 ![0, 0] ei slices_S2x800000_S1x800000_0_0) shapeCasts_S1x800000_S800000)) (broadcastInDim S800000 ![] bcast_S_S800000 (constant S_ .f32 0x3F800000#32 : (⟨S_, .f32⟩ : BufTy).Contents (Elt F)))) (broadcastInDim S50000 ![] bcast_S_S50000 (id (constant S_ .f32 0x3F800000#32 : (⟨S_, .f32⟩ : BufTy).Contents (Elt F))))) (broadcastInDim S50000 ![] bcast_S_S50000 (constant S_ .f32 0xBF000000#32 : (⟨S_, .f32⟩ : BufTy).Contents (Elt F)))) (broadcastInDim S50000 ![] bcast_S_S50000 (id (constant S_ .f32 0x00000000#32 : (⟨S_, .f32⟩ : BufTy).Contents (Elt F))))) (broadcastInDim S800000x1 ![0] bcast_S800000_S800000x1_0 (select (cmpi .slt (shapeCast _ (extractStridedSlice S1x800000 ![1, 0] ei slices_S2x800000_S1x800000_1_0) shapeCasts_S1x800000_S800000) (broadcastInDim S800000 ![] bcast_S_S800000 (constantI S_ 32 0#32 : (⟨S_, .i32⟩ : BufTy).Contents (Elt F)))) (addi (shapeCast _ (extractStridedSlice S1x800000 ![1, 0] ei slices_S2x800000_S1x800000_1_0) shapeCasts_S1x800000_S800000) (broadcastInDim S800000 ![] bcast_S_S800000 (constantI S_ 32 50000#32 : (⟨S_, .i32⟩ : BufTy).Contents (Elt F)))) (shapeCast _ (extractStridedSlice S1x800000 ![1, 0] ei slices_S2x800000_S1x800000_1_0) shapeCasts_S1x800000_S800000)))))

/-- Chebyshev term 1 of a width-64 node array: one propagation of `x`. -/
def cheb64_1 (x : (⟨S50000x64, .f32⟩ : BufTy).Contents (Elt F)) (row col : (⟨S800000, .i32⟩ : BufTy).Contents (Elt F)) (w : (⟨S800000, .f32⟩ : BufTy).Contents (Elt F)) : (⟨S50000x64, .f32⟩ : BufTy).Contents (Elt F) :=
  (Host.scatterAdd scatter_S50000x64_S800000x1_S800000x64_1_0_0_1 (broadcastInDim S50000x64 ![] bcast_S_S50000x64 (constant S_ .f32 0x00000000#32 : (⟨S_, .f32⟩ : BufTy).Contents (Elt F))) (broadcastInDim S800000x1 ![0] bcast_S800000_S800000x1_0 row) (mulf (Host.gather gather_S50000x64_S800000x1_S800000x64_1_0_n_n_0_1_164 x (broadcastInDim S800000x1 ![0] bcast_S800000_S800000x1_0 (select (cmpi .slt col (broadcastInDim S800000 ![] bcast_S_S800000 (constantI S_ 32 0#32 : (⟨S_, .i32⟩ : BufTy).Contents (Elt F)))) (addi col (broadcastInDim S800000 ![] bcast_S_S800000 (constantI S_ 32 50000#32 : (⟨S_, .i32⟩ : BufTy).Contents (Elt F)))) col))) (broadcastInDim S800000x64 ![0, 1] bcast_S800000x1_S800000x64_0_1 (broadcastInDim S800000x1 ![0] bcast_S800000_S800000x1_0 w))))

/-- Chebyshev term 2 of a width-64 node array: twice the propagation of term 1, minus term 0. -/
def cheb64_2 (x : (⟨S50000x64, .f32⟩ : BufTy).Contents (Elt F)) (row col : (⟨S800000, .i32⟩ : BufTy).Contents (Elt F)) (w : (⟨S800000, .f32⟩ : BufTy).Contents (Elt F)) : (⟨S50000x64, .f32⟩ : BufTy).Contents (Elt F) :=
  (subf (mulf (broadcastInDim S50000x64 ![] bcast_S_S50000x64 (constant S_ .f32 0x40000000#32 : (⟨S_, .f32⟩ : BufTy).Contents (Elt F))) (Host.scatterAdd scatter_S50000x64_S800000x1_S800000x64_1_0_0_1 (broadcastInDim S50000x64 ![] bcast_S_S50000x64 (constant S_ .f32 0x00000000#32 : (⟨S_, .f32⟩ : BufTy).Contents (Elt F))) (broadcastInDim S800000x1 ![0] bcast_S800000_S800000x1_0 row) (mulf (Host.gather gather_S50000x64_S800000x1_S800000x64_1_0_n_n_0_1_164 (cheb64_1 x row col w) (broadcastInDim S800000x1 ![0] bcast_S800000_S800000x1_0 (select (cmpi .slt col (broadcastInDim S800000 ![] bcast_S_S800000 (constantI S_ 32 0#32 : (⟨S_, .i32⟩ : BufTy).Contents (Elt F)))) (addi col (broadcastInDim S800000 ![] bcast_S_S800000 (constantI S_ 32 50000#32 : (⟨S_, .i32⟩ : BufTy).Contents (Elt F)))) col))) (broadcastInDim S800000x64 ![0, 1] bcast_S800000x1_S800000x64_0_1 (broadcastInDim S800000x1 ![0] bcast_S800000_S800000x1_0 w))))) x)

/-- Chebyshev term 3 of a width-64 node array: twice the propagation of term 2, minus term 1. -/
def cheb64_3 (x : (⟨S50000x64, .f32⟩ : BufTy).Contents (Elt F)) (row col : (⟨S800000, .i32⟩ : BufTy).Contents (Elt F)) (w : (⟨S800000, .f32⟩ : BufTy).Contents (Elt F)) : (⟨S50000x64, .f32⟩ : BufTy).Contents (Elt F) :=
  (subf (mulf (broadcastInDim S50000x64 ![] bcast_S_S50000x64 (constant S_ .f32 0x40000000#32 : (⟨S_, .f32⟩ : BufTy).Contents (Elt F))) (Host.scatterAdd scatter_S50000x64_S800000x1_S800000x64_1_0_0_1 (broadcastInDim S50000x64 ![] bcast_S_S50000x64 (constant S_ .f32 0x00000000#32 : (⟨S_, .f32⟩ : BufTy).Contents (Elt F))) (broadcastInDim S800000x1 ![0] bcast_S800000_S800000x1_0 row) (mulf (Host.gather gather_S50000x64_S800000x1_S800000x64_1_0_n_n_0_1_164 (cheb64_2 x row col w) (broadcastInDim S800000x1 ![0] bcast_S800000_S800000x1_0 (select (cmpi .slt col (broadcastInDim S800000 ![] bcast_S_S800000 (constantI S_ 32 0#32 : (⟨S_, .i32⟩ : BufTy).Contents (Elt F)))) (addi col (broadcastInDim S800000 ![] bcast_S_S800000 (constantI S_ 32 50000#32 : (⟨S_, .i32⟩ : BufTy).Contents (Elt F)))) col))) (broadcastInDim S800000x64 ![0, 1] bcast_S800000x1_S800000x64_0_1 (broadcastInDim S800000x1 ![0] bcast_S800000_S800000x1_0 w))))) (cheb64_1 x row col w))

/-- Chebyshev term 4 of a width-64 node array: twice the propagation of term 3, minus term 2. -/
def cheb64_4 (x : (⟨S50000x64, .f32⟩ : BufTy).Contents (Elt F)) (row col : (⟨S800000, .i32⟩ : BufTy).Contents (Elt F)) (w : (⟨S800000, .f32⟩ : BufTy).Contents (Elt F)) : (⟨S50000x64, .f32⟩ : BufTy).Contents (Elt F) :=
  (subf (mulf (broadcastInDim S50000x64 ![] bcast_S_S50000x64 (constant S_ .f32 0x40000000#32 : (⟨S_, .f32⟩ : BufTy).Contents (Elt F))) (Host.scatterAdd scatter_S50000x64_S800000x1_S800000x64_1_0_0_1 (broadcastInDim S50000x64 ![] bcast_S_S50000x64 (constant S_ .f32 0x00000000#32 : (⟨S_, .f32⟩ : BufTy).Contents (Elt F))) (broadcastInDim S800000x1 ![0] bcast_S800000_S800000x1_0 row) (mulf (Host.gather gather_S50000x64_S800000x1_S800000x64_1_0_n_n_0_1_164 (cheb64_3 x row col w) (broadcastInDim S800000x1 ![0] bcast_S800000_S800000x1_0 (select (cmpi .slt col (broadcastInDim S800000 ![] bcast_S_S800000 (constantI S_ 32 0#32 : (⟨S_, .i32⟩ : BufTy).Contents (Elt F)))) (addi col (broadcastInDim S800000 ![] bcast_S_S800000 (constantI S_ 32 50000#32 : (⟨S_, .i32⟩ : BufTy).Contents (Elt F)))) col))) (broadcastInDim S800000x64 ![0, 1] bcast_S800000x1_S800000x64_0_1 (broadcastInDim S800000x1 ![0] bcast_S800000_S800000x1_0 w))))) (cheb64_2 x row col w))

/-- Chebyshev term 1 of a width-128 node array: one propagation of `x`. -/
def cheb128_1 (x : (⟨S50000x128, .f32⟩ : BufTy).Contents (Elt F)) (row col : (⟨S800000, .i32⟩ : BufTy).Contents (Elt F)) (w : (⟨S800000, .f32⟩ : BufTy).Contents (Elt F)) : (⟨S50000x128, .f32⟩ : BufTy).Contents (Elt F) :=
  (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 row) (mulf (Host.gather gather_S50000x128_S800000x1_S800000x128_1_0_n_n_0_1_1128 x (broadcastInDim S800000x1 ![0] bcast_S800000_S800000x1_0 (select (cmpi .slt col (broadcastInDim S800000 ![] bcast_S_S800000 (constantI S_ 32 0#32 : (⟨S_, .i32⟩ : BufTy).Contents (Elt F)))) (addi col (broadcastInDim S800000 ![] bcast_S_S800000 (constantI S_ 32 50000#32 : (⟨S_, .i32⟩ : BufTy).Contents (Elt F)))) col))) (broadcastInDim S800000x128 ![0, 1] bcast_S800000x1_S800000x128_0_1 (broadcastInDim S800000x1 ![0] bcast_S800000_S800000x1_0 w))))

/-- Chebyshev term 2 of a width-128 node array: twice the propagation of term 1, minus term 0. -/
def cheb128_2 (x : (⟨S50000x128, .f32⟩ : BufTy).Contents (Elt F)) (row col : (⟨S800000, .i32⟩ : BufTy).Contents (Elt F)) (w : (⟨S800000, .f32⟩ : BufTy).Contents (Elt F)) : (⟨S50000x128, .f32⟩ : BufTy).Contents (Elt F) :=
  (subf (mulf (broadcastInDim S50000x128 ![] bcast_S_S50000x128 (constant S_ .f32 0x40000000#32 : (⟨S_, .f32⟩ : BufTy).Contents (Elt F))) (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 row) (mulf (Host.gather gather_S50000x128_S800000x1_S800000x128_1_0_n_n_0_1_1128 (cheb128_1 x row col w) (broadcastInDim S800000x1 ![0] bcast_S800000_S800000x1_0 (select (cmpi .slt col (broadcastInDim S800000 ![] bcast_S_S800000 (constantI S_ 32 0#32 : (⟨S_, .i32⟩ : BufTy).Contents (Elt F)))) (addi col (broadcastInDim S800000 ![] bcast_S_S800000 (constantI S_ 32 50000#32 : (⟨S_, .i32⟩ : BufTy).Contents (Elt F)))) col))) (broadcastInDim S800000x128 ![0, 1] bcast_S800000x1_S800000x128_0_1 (broadcastInDim S800000x1 ![0] bcast_S800000_S800000x1_0 w))))) x)

/-- Chebyshev term 3 of a width-128 node array: twice the propagation of term 2, minus term 1. -/
def cheb128_3 (x : (⟨S50000x128, .f32⟩ : BufTy).Contents (Elt F)) (row col : (⟨S800000, .i32⟩ : BufTy).Contents (Elt F)) (w : (⟨S800000, .f32⟩ : BufTy).Contents (Elt F)) : (⟨S50000x128, .f32⟩ : BufTy).Contents (Elt F) :=
  (subf (mulf (broadcastInDim S50000x128 ![] bcast_S_S50000x128 (constant S_ .f32 0x40000000#32 : (⟨S_, .f32⟩ : BufTy).Contents (Elt F))) (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 row) (mulf (Host.gather gather_S50000x128_S800000x1_S800000x128_1_0_n_n_0_1_1128 (cheb128_2 x row col w) (broadcastInDim S800000x1 ![0] bcast_S800000_S800000x1_0 (select (cmpi .slt col (broadcastInDim S800000 ![] bcast_S_S800000 (constantI S_ 32 0#32 : (⟨S_, .i32⟩ : BufTy).Contents (Elt F)))) (addi col (broadcastInDim S800000 ![] bcast_S_S800000 (constantI S_ 32 50000#32 : (⟨S_, .i32⟩ : BufTy).Contents (Elt F)))) col))) (broadcastInDim S800000x128 ![0, 1] bcast_S800000x1_S800000x128_0_1 (broadcastInDim S800000x1 ![0] bcast_S800000_S800000x1_0 w))))) (cheb128_1 x row col w))

/-- Chebyshev term 4 of a width-128 node array: twice the propagation of term 3, minus term 2. -/
def cheb128_4 (x : (⟨S50000x128, .f32⟩ : BufTy).Contents (Elt F)) (row col : (⟨S800000, .i32⟩ : BufTy).Contents (Elt F)) (w : (⟨S800000, .f32⟩ : BufTy).Contents (Elt F)) : (⟨S50000x128, .f32⟩ : BufTy).Contents (Elt F) :=
  (subf (mulf (broadcastInDim S50000x128 ![] bcast_S_S50000x128 (constant S_ .f32 0x40000000#32 : (⟨S_, .f32⟩ : BufTy).Contents (Elt F))) (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 row) (mulf (Host.gather gather_S50000x128_S800000x1_S800000x128_1_0_n_n_0_1_1128 (cheb128_3 x row col w) (broadcastInDim S800000x1 ![0] bcast_S800000_S800000x1_0 (select (cmpi .slt col (broadcastInDim S800000 ![] bcast_S_S800000 (constantI S_ 32 0#32 : (⟨S_, .i32⟩ : BufTy).Contents (Elt F)))) (addi col (broadcastInDim S800000 ![] bcast_S_S800000 (constantI S_ 32 50000#32 : (⟨S_, .i32⟩ : BufTy).Contents (Elt F)))) col))) (broadcastInDim S800000x128 ![0, 1] bcast_S800000x1_S800000x128_0_1 (broadcastInDim S800000x1 ![0] bcast_S800000_S800000x1_0 w))))) (cheb128_2 x row col w))

/-- Layer 0's combination of the five Chebyshev terms with the layer's weights, as the reference orders it. -/
def combine0 (T0 T1 T2 T3 T4 : (⟨S50000x64, .f32⟩ : BufTy).Contents (Elt F)) (Wc : (⟨S5x64x128, .f32⟩ : BufTy).Contents (Elt F)) (bc : (⟨S128, .f32⟩ : BufTy).Contents (Elt F)) (Wl : (⟨S64x128, .f32⟩ : BufTy).Contents (Elt F)) (bl : (⟨S128, .f32⟩ : BufTy).Contents (Elt F)) : (⟨S50000x128, .f32⟩ : BufTy).Contents (Elt F) :=
  (maximumf (addf (addf (addf (addf (addf (addf (addf (Host.dotGeneral dot_S50000x64_S64x128_S50000x128_1_0_0_1_n_n none T0 (shapeCast _ (extractStridedSlice S1x64x128 ![0, 0, 0] Wc slices_S5x64x128_S1x64x128_0_0_0) shapeCasts_S1x64x128_S64x128)) (Host.dotGeneral dot_S50000x64_S64x128_S50000x128_1_0_0_1_n_n none T1 (shapeCast _ (extractStridedSlice S1x64x128 ![1, 0, 0] Wc slices_S5x64x128_S1x64x128_1_0_0) shapeCasts_S1x64x128_S64x128))) (Host.dotGeneral dot_S50000x64_S64x128_S50000x128_1_0_0_1_n_n none T2 (shapeCast _ (extractStridedSlice S1x64x128 ![2, 0, 0] Wc slices_S5x64x128_S1x64x128_2_0_0) shapeCasts_S1x64x128_S64x128))) (Host.dotGeneral dot_S50000x64_S64x128_S50000x128_1_0_0_1_n_n none T3 (shapeCast _ (extractStridedSlice S1x64x128 ![3, 0, 0] Wc slices_S5x64x128_S1x64x128_3_0_0) shapeCasts_S1x64x128_S64x128))) (Host.dotGeneral dot_S50000x64_S64x128_S50000x128_1_0_0_1_n_n none T4 (shapeCast _ (extractStridedSlice S1x64x128 ![4, 0, 0] Wc slices_S5x64x128_S1x64x128_4_0_0) shapeCasts_S1x64x128_S64x128))) (broadcastInDim S50000x128 ![0, 1] bcast_S1x128_S50000x128_0_1 (broadcastInDim S1x128 ![1] bcast_S128_S1x128_1 bc))) (Host.dotGeneral dot_S50000x64_S64x128_S50000x128_1_0_0_1_n_n none T0 Wl)) (broadcastInDim S50000x128 ![0, 1] bcast_S1x128_S50000x128_0_1 (broadcastInDim S1x128 ![1] bcast_S128_S1x128_1 bl))) (broadcastInDim S50000x128 ![] bcast_S_S50000x128 (constant S_ .f32 0x00000000#32 : (⟨S_, .f32⟩ : BufTy).Contents (Elt F))))

/-- Layer 0 of the reference, from its input. -/
def layer0 (x : (⟨S50000x64, .f32⟩ : BufTy).Contents (Elt F)) (row col : (⟨S800000, .i32⟩ : BufTy).Contents (Elt F)) (w : (⟨S800000, .f32⟩ : BufTy).Contents (Elt F)) (Wc : (⟨S5x64x128, .f32⟩ : BufTy).Contents (Elt F)) (bc : (⟨S128, .f32⟩ : BufTy).Contents (Elt F)) (Wl : (⟨S64x128, .f32⟩ : BufTy).Contents (Elt F)) (bl : (⟨S128, .f32⟩ : BufTy).Contents (Elt F)) : (⟨S50000x128, .f32⟩ : BufTy).Contents (Elt F) :=
  combine0 x (cheb64_1 x row col w) (cheb64_2 x row col w) (cheb64_3 x row col w) (cheb64_4 x row col w) Wc bc Wl bl

/-- Layer 1's combination of the five Chebyshev terms with the layer's weights, as the reference orders it. -/
def combine1 (T0 T1 T2 T3 T4 : (⟨S50000x128, .f32⟩ : BufTy).Contents (Elt F)) (Wc : (⟨S5x128x128, .f32⟩ : BufTy).Contents (Elt F)) (bc : (⟨S128, .f32⟩ : BufTy).Contents (Elt F)) (Wl : (⟨S128x128, .f32⟩ : BufTy).Contents (Elt F)) (bl : (⟨S128, .f32⟩ : BufTy).Contents (Elt F)) : (⟨S50000x128, .f32⟩ : BufTy).Contents (Elt F) :=
  (maximumf (addf (addf (addf (addf (addf (addf (addf (Host.dotGeneral dot_S50000x128_S128x128_S50000x128_1_0_0_1_n_n none T0 (shapeCast _ (extractStridedSlice S1x128x128 ![0, 0, 0] Wc slices_S5x128x128_S1x128x128_0_0_0) shapeCasts_S1x128x128_S128x128)) (Host.dotGeneral dot_S50000x128_S128x128_S50000x128_1_0_0_1_n_n none T1 (shapeCast _ (extractStridedSlice S1x128x128 ![1, 0, 0] Wc slices_S5x128x128_S1x128x128_1_0_0) shapeCasts_S1x128x128_S128x128))) (Host.dotGeneral dot_S50000x128_S128x128_S50000x128_1_0_0_1_n_n none T2 (shapeCast _ (extractStridedSlice S1x128x128 ![2, 0, 0] Wc slices_S5x128x128_S1x128x128_2_0_0) shapeCasts_S1x128x128_S128x128))) (Host.dotGeneral dot_S50000x128_S128x128_S50000x128_1_0_0_1_n_n none T3 (shapeCast _ (extractStridedSlice S1x128x128 ![3, 0, 0] Wc slices_S5x128x128_S1x128x128_3_0_0) shapeCasts_S1x128x128_S128x128))) (Host.dotGeneral dot_S50000x128_S128x128_S50000x128_1_0_0_1_n_n none T4 (shapeCast _ (extractStridedSlice S1x128x128 ![4, 0, 0] Wc slices_S5x128x128_S1x128x128_4_0_0) shapeCasts_S1x128x128_S128x128))) (broadcastInDim S50000x128 ![0, 1] bcast_S1x128_S50000x128_0_1 (broadcastInDim S1x128 ![1] bcast_S128_S1x128_1 bc))) (Host.dotGeneral dot_S50000x128_S128x128_S50000x128_1_0_0_1_n_n none T0 Wl)) (broadcastInDim S50000x128 ![0, 1] bcast_S1x128_S50000x128_0_1 (broadcastInDim S1x128 ![1] bcast_S128_S1x128_1 bl))) (broadcastInDim S50000x128 ![] bcast_S_S50000x128 (constant S_ .f32 0x00000000#32 : (⟨S_, .f32⟩ : BufTy).Contents (Elt F))))

/-- Layer 1 of the reference, from its input. -/
def layer1 (x : (⟨S50000x128, .f32⟩ : BufTy).Contents (Elt F)) (row col : (⟨S800000, .i32⟩ : BufTy).Contents (Elt F)) (w : (⟨S800000, .f32⟩ : BufTy).Contents (Elt F)) (Wc : (⟨S5x128x128, .f32⟩ : BufTy).Contents (Elt F)) (bc : (⟨S128, .f32⟩ : BufTy).Contents (Elt F)) (Wl : (⟨S128x128, .f32⟩ : BufTy).Contents (Elt F)) (bl : (⟨S128, .f32⟩ : BufTy).Contents (Elt F)) : (⟨S50000x128, .f32⟩ : BufTy).Contents (Elt F) :=
  combine1 x (cheb128_1 x row col w) (cheb128_2 x row col w) (cheb128_3 x row col w) (cheb128_4 x row col w) Wc bc Wl bl

/-- Layer 2's combination of the five Chebyshev terms with the layer's weights, as the reference orders it. -/
def combine2 (T0 T1 T2 T3 T4 : (⟨S50000x128, .f32⟩ : BufTy).Contents (Elt F)) (Wc : (⟨S5x128x350, .f32⟩ : BufTy).Contents (Elt F)) (bc : (⟨S350, .f32⟩ : BufTy).Contents (Elt F)) (Wl : (⟨S128x350, .f32⟩ : BufTy).Contents (Elt F)) (bl : (⟨S350, .f32⟩ : BufTy).Contents (Elt F)) : (⟨S50000x350, .f32⟩ : BufTy).Contents (Elt F) :=
  (addf (addf (addf (addf (addf (addf (addf (Host.dotGeneral dot_S50000x128_S128x350_S50000x350_1_0_0_1_n_n none T0 (shapeCast _ (extractStridedSlice S1x128x350 ![0, 0, 0] Wc slices_S5x128x350_S1x128x350_0_0_0) shapeCasts_S1x128x350_S128x350)) (Host.dotGeneral dot_S50000x128_S128x350_S50000x350_1_0_0_1_n_n none T1 (shapeCast _ (extractStridedSlice S1x128x350 ![1, 0, 0] Wc slices_S5x128x350_S1x128x350_1_0_0) shapeCasts_S1x128x350_S128x350))) (Host.dotGeneral dot_S50000x128_S128x350_S50000x350_1_0_0_1_n_n none T2 (shapeCast _ (extractStridedSlice S1x128x350 ![2, 0, 0] Wc slices_S5x128x350_S1x128x350_2_0_0) shapeCasts_S1x128x350_S128x350))) (Host.dotGeneral dot_S50000x128_S128x350_S50000x350_1_0_0_1_n_n none T3 (shapeCast _ (extractStridedSlice S1x128x350 ![3, 0, 0] Wc slices_S5x128x350_S1x128x350_3_0_0) shapeCasts_S1x128x350_S128x350))) (Host.dotGeneral dot_S50000x128_S128x350_S50000x350_1_0_0_1_n_n none T4 (shapeCast _ (extractStridedSlice S1x128x350 ![4, 0, 0] Wc slices_S5x128x350_S1x128x350_4_0_0) shapeCasts_S1x128x350_S128x350))) (broadcastInDim S50000x350 ![0, 1] bcast_S1x350_S50000x350_0_1 (broadcastInDim S1x350 ![1] bcast_S350_S1x350_1 bc))) (Host.dotGeneral dot_S50000x128_S128x350_S50000x350_1_0_0_1_n_n none T0 Wl)) (broadcastInDim S50000x350 ![0, 1] bcast_S1x350_S50000x350_0_1 (broadcastInDim S1x350 ![1] bcast_S350_S1x350_1 bl)))

/-- Layer 2 of the reference, from its input. -/
def layer2 (x : (⟨S50000x128, .f32⟩ : BufTy).Contents (Elt F)) (row col : (⟨S800000, .i32⟩ : BufTy).Contents (Elt F)) (w : (⟨S800000, .f32⟩ : BufTy).Contents (Elt F)) (Wc : (⟨S5x128x350, .f32⟩ : BufTy).Contents (Elt F)) (bc : (⟨S350, .f32⟩ : BufTy).Contents (Elt F)) (Wl : (⟨S128x350, .f32⟩ : BufTy).Contents (Elt F)) (bl : (⟨S350, .f32⟩ : BufTy).Contents (Elt F)) : (⟨S50000x350, .f32⟩ : BufTy).Contents (Elt F) :=
  combine2 x (cheb128_1 x row col w) (cheb128_2 x row col w) (cheb128_3 x row col w) (cheb128_4 x row col w) Wc bc Wl bl

/-- The flattening of the last layer's `50000 × 350` output. -/
def flat (h : (⟨S50000x350, .f32⟩ : BufTy).Contents (Elt F)) : (⟨S17500000, .f32⟩ : BufTy).Contents (Elt F) :=
  shapeCast _ h shapeCasts_S50000x350_S17500000

end Cert.ReferenceIdeal.Terms

end
-- ==== Proof.IdealGlue0.lean ====
import proofs.«162653_j26706106646651_1_alg».proof.Proof.Gen.KernelIdeal.Launch
import proofs.«162653_j26706106646651_1_alg».proof.Proof.IdealGlueDefs
import proofs.«162653_j26706106646651_1_alg».proof.Proof.Terms
import Idealize.ShloMosaic.Lib.StableHlo.Run
import Idealize.ShloMosaic.Lib.Pipeline.Frame

/-!
# What the kernel program's host stretches compute before launch 0

The edge normalisation, the four propagations of the input `z`, the stacking of its Chebyshev terms, and the two bias rows —
the same host operations as the reference's, read for any contents `V` the stretches start from.
-/

set_option maxRecDepth 16384

noncomputable section

namespace Cert.KernelIdeal.Glue0

open Cert.KernelIdeal Cert.KernelIdeal.Facts₀ Cert.KernelIdeal.Facts Idealize.ShloMosaic Idealize.ShloMosaic.TcCoe Idealize.SL.Sem

variable {F : FTy → Type} [FloatOps F]

set_option maxHeartbeats 40000000 in
theorem row_eq (V : Valuation τ sig (Elt F)) : StableHlo.after Gen.main_part2_ops0 (StableHlo.after Gen.main_part1_ops0 (StableHlo.after Gen.main_part0_ops4 (StableHlo.after Gen.main_part0_ops3 (StableHlo.after Gen.main_part0_ops2 (StableHlo.after Gen.main_part0_ops1 (StableHlo.after Gen.main_part0_ops0 (V))))))) (Proc.devRef .tc main_v1) = Cert.ReferenceIdeal.Terms.rowOf (V (Proc.devRef .tc main_arg1)) := by
  simp only [← StableHlo.after_append]
  simp only [Gen.main_part0_ops0, Gen.main_part0_ops1, Gen.main_part0_ops2, Gen.main_part0_ops3, Gen.main_part0_ops4, Gen.main_part1_ops0, Gen.main_part2_ops0, List.cons_append, List.nil_append]
  after_results_simp <;> rfl
set_option maxHeartbeats 40000000 in
theorem col_eq (V : Valuation τ sig (Elt F)) : StableHlo.after Gen.main_part2_ops0 (StableHlo.after Gen.main_part1_ops0 (StableHlo.after Gen.main_part0_ops4 (StableHlo.after Gen.main_part0_ops3 (StableHlo.after Gen.main_part0_ops2 (StableHlo.after Gen.main_part0_ops1 (StableHlo.after Gen.main_part0_ops0 (V))))))) (Proc.devRef .tc main_v3) = Cert.ReferenceIdeal.Terms.colOf (V (Proc.devRef .tc main_arg1)) := by
  simp only [← StableHlo.after_append]
  simp only [Gen.main_part0_ops0, Gen.main_part0_ops1, Gen.main_part0_ops2, Gen.main_part0_ops3, Gen.main_part0_ops4, Gen.main_part1_ops0, Gen.main_part2_ops0, List.cons_append, List.nil_append]
  after_results_simp <;> rfl
set_option maxHeartbeats 40000000 in
theorem w_eq (V : Valuation τ sig (Elt F)) : StableHlo.after Gen.main_part2_ops0 (StableHlo.after Gen.main_part1_ops0 (StableHlo.after Gen.main_part0_ops4 (StableHlo.after Gen.main_part0_ops3 (StableHlo.after Gen.main_part0_ops2 (StableHlo.after Gen.main_part0_ops1 (StableHlo.after Gen.main_part0_ops0 (V))))))) (Proc.devRef .tc main_v31) = Cert.ReferenceIdeal.Terms.edgeW (V (Proc.devRef .tc main_arg1)) := by
  simp only [← StableHlo.after_append]
  simp only [Gen.main_part0_ops0, Gen.main_part0_ops1, Gen.main_part0_ops2, Gen.main_part0_ops3, Gen.main_part0_ops4, Gen.main_part1_ops0, Gen.main_part2_ops0, List.cons_append, List.nil_append]
  after_results_simp <;> rfl

set_option maxHeartbeats 40000000 in
/-- The stacked Chebyshev terms of the layer's input. -/
theorem stack_eq (V : Valuation τ sig (Elt F)) :
    StableHlo.after Gen.main_part2_ops0 (StableHlo.after Gen.main_part1_ops0 (StableHlo.after Gen.main_part0_ops4 (StableHlo.after Gen.main_part0_ops3 (StableHlo.after Gen.main_part0_ops2 (StableHlo.after Gen.main_part0_ops1 (StableHlo.after Gen.main_part0_ops0 (V))))))) (Proc.devRef .tc main_v98)
      = Glue.stack64 (V (Proc.devRef .tc main_arg0)) (Cert.ReferenceIdeal.Terms.cheb64_1 (V (Proc.devRef .tc main_arg0)) (Cert.ReferenceIdeal.Terms.rowOf (V (Proc.devRef .tc main_arg1))) (Cert.ReferenceIdeal.Terms.colOf (V (Proc.devRef .tc main_arg1))) (Cert.ReferenceIdeal.Terms.edgeW (V (Proc.devRef .tc main_arg1)))) (Cert.ReferenceIdeal.Terms.cheb64_2 (V (Proc.devRef .tc main_arg0)) (Cert.ReferenceIdeal.Terms.rowOf (V (Proc.devRef .tc main_arg1))) (Cert.ReferenceIdeal.Terms.colOf (V (Proc.devRef .tc main_arg1))) (Cert.ReferenceIdeal.Terms.edgeW (V (Proc.devRef .tc main_arg1)))) (Cert.ReferenceIdeal.Terms.cheb64_3 (V (Proc.devRef .tc main_arg0)) (Cert.ReferenceIdeal.Terms.rowOf (V (Proc.devRef .tc main_arg1))) (Cert.ReferenceIdeal.Terms.colOf (V (Proc.devRef .tc main_arg1))) (Cert.ReferenceIdeal.Terms.edgeW (V (Proc.devRef .tc main_arg1)))) (Cert.ReferenceIdeal.Terms.cheb64_4 (V (Proc.devRef .tc main_arg0)) (Cert.ReferenceIdeal.Terms.rowOf (V (Proc.devRef .tc main_arg1))) (Cert.ReferenceIdeal.Terms.colOf (V (Proc.devRef .tc main_arg1))) (Cert.ReferenceIdeal.Terms.edgeW (V (Proc.devRef .tc main_arg1)))) := by
  simp only [← StableHlo.after_append]
  simp only [Gen.main_part0_ops0, Gen.main_part0_ops1, Gen.main_part0_ops2, Gen.main_part0_ops3, Gen.main_part0_ops4, Gen.main_part1_ops0, Gen.main_part2_ops0, List.cons_append, List.nil_append]
  after_results_simp <;> rfl
set_option maxHeartbeats 40000000 in
/-- The filter bias as a `1 × 128` row. -/
theorem bc_eq (V : Valuation τ sig (Elt F)) :
    StableHlo.after Gen.main_part2_ops0 (StableHlo.after Gen.main_part1_ops0 (StableHlo.after Gen.main_part0_ops4 (StableHlo.after Gen.main_part0_ops3 (StableHlo.after Gen.main_part0_ops2 (StableHlo.after Gen.main_part0_ops1 (StableHlo.after Gen.main_part0_ops0 (V))))))) (Proc.devRef .tc main_v99) = shapeCast _ (V (Proc.devRef .tc main_arg3)) shapeCasts_S128_S1x128 := by
  simp only [← StableHlo.after_append]
  simp only [Gen.main_part0_ops0, Gen.main_part0_ops1, Gen.main_part0_ops2, Gen.main_part0_ops3, Gen.main_part0_ops4, Gen.main_part1_ops0, Gen.main_part2_ops0, List.cons_append, List.nil_append]
  after_results_simp <;> rfl
set_option maxHeartbeats 40000000 in
/-- The residual bias as a `1 × 128` row. -/
theorem bl_eq (V : Valuation τ sig (Elt F)) :
    StableHlo.after Gen.main_part2_ops0 (StableHlo.after Gen.main_part1_ops0 (StableHlo.after Gen.main_part0_ops4 (StableHlo.after Gen.main_part0_ops3 (StableHlo.after Gen.main_part0_ops2 (StableHlo.after Gen.main_part0_ops1 (StableHlo.after Gen.main_part0_ops0 (V))))))) (Proc.devRef .tc main_v100) = shapeCast _ (V (Proc.devRef .tc main_arg5)) shapeCasts_S128_S1x128 := by
  simp only [← StableHlo.after_append]
  simp only [Gen.main_part0_ops0, Gen.main_part0_ops1, Gen.main_part0_ops2, Gen.main_part0_ops3, Gen.main_part0_ops4, Gen.main_part1_ops0, Gen.main_part2_ops0, List.cons_append, List.nil_append]
  after_results_simp <;> rfl

end Cert.KernelIdeal.Glue0

end
-- ==== Proof.IdealGlue1.lean ====
import proofs.«162653_j26706106646651_1_alg».proof.Proof.Gen.KernelIdeal.Launch
import proofs.«162653_j26706106646651_1_alg».proof.Proof.IdealGlueDefs
import proofs.«162653_j26706106646651_1_alg».proof.Proof.Terms
import Idealize.ShloMosaic.Lib.StableHlo.Run
import Idealize.ShloMosaic.Lib.Pipeline.Frame

/-!
# What the kernel program's host stretches compute before launch 1

The four propagations of layer 0's output, the stacking of its Chebyshev terms, and the two bias rows —
the same host operations as the reference's, read for any contents `V` the stretches start from.
-/

set_option maxRecDepth 16384

noncomputable section

namespace Cert.KernelIdeal.Glue1

open Cert.KernelIdeal Cert.KernelIdeal.Facts₀ Cert.KernelIdeal.Facts Idealize.ShloMosaic Idealize.ShloMosaic.TcCoe Idealize.SL.Sem

variable {F : FTy → Type} [FloatOps F]

set_option maxHeartbeats 40000000 in
/-- The stacked Chebyshev terms of the layer's input. -/
theorem stack_eq (V : Valuation τ sig (Elt F)) :
    StableHlo.after Gen.main_part3_ops0 (StableHlo.after Gen.main_part2_ops1 (V)) (Proc.devRef .tc main_v168)
      = Glue.stack128 (V (Proc.devRef .tc main_v101)) (Cert.ReferenceIdeal.Terms.cheb128_1 (V (Proc.devRef .tc main_v101)) (V (Proc.devRef .tc main_v1)) (V (Proc.devRef .tc main_v3)) (V (Proc.devRef .tc main_v31))) (Cert.ReferenceIdeal.Terms.cheb128_2 (V (Proc.devRef .tc main_v101)) (V (Proc.devRef .tc main_v1)) (V (Proc.devRef .tc main_v3)) (V (Proc.devRef .tc main_v31))) (Cert.ReferenceIdeal.Terms.cheb128_3 (V (Proc.devRef .tc main_v101)) (V (Proc.devRef .tc main_v1)) (V (Proc.devRef .tc main_v3)) (V (Proc.devRef .tc main_v31))) (Cert.ReferenceIdeal.Terms.cheb128_4 (V (Proc.devRef .tc main_v101)) (V (Proc.devRef .tc main_v1)) (V (Proc.devRef .tc main_v3)) (V (Proc.devRef .tc main_v31))) := by
  simp only [← StableHlo.after_append]
  simp only [Gen.main_part2_ops1, Gen.main_part3_ops0, List.cons_append, List.nil_append]
  after_results_simp <;> rfl
set_option maxHeartbeats 40000000 in
/-- The filter bias as a `1 × 128` row. -/
theorem bc_eq (V : Valuation τ sig (Elt F)) :
    StableHlo.after Gen.main_part3_ops0 (StableHlo.after Gen.main_part2_ops1 (V)) (Proc.devRef .tc main_v169) = shapeCast _ (V (Proc.devRef .tc main_arg7)) shapeCasts_S128_S1x128 := by
  simp only [← StableHlo.after_append]
  simp only [Gen.main_part2_ops1, Gen.main_part3_ops0, List.cons_append, List.nil_append]
  after_results_simp <;> rfl
set_option maxHeartbeats 40000000 in
/-- The residual bias as a `1 × 128` row. -/
theorem bl_eq (V : Valuation τ sig (Elt F)) :
    StableHlo.after Gen.main_part3_ops0 (StableHlo.after Gen.main_part2_ops1 (V)) (Proc.devRef .tc main_v170) = shapeCast _ (V (Proc.devRef .tc main_arg9)) shapeCasts_S128_S1x128 := by
  simp only [← StableHlo.after_append]
  simp only [Gen.main_part2_ops1, Gen.main_part3_ops0, List.cons_append, List.nil_append]
  after_results_simp <;> rfl

end Cert.KernelIdeal.Glue1

end
-- ==== Proof.IdealGlue2.lean ====
import proofs.«162653_j26706106646651_1_alg».proof.Proof.Gen.KernelIdeal.Launch
import proofs.«162653_j26706106646651_1_alg».proof.Proof.IdealGlueDefs
import proofs.«162653_j26706106646651_1_alg».proof.Proof.Terms
import Idealize.ShloMosaic.Lib.StableHlo.Run
import Idealize.ShloMosaic.Lib.Pipeline.Frame

/-!
# What the kernel program's host stretches compute before launch 2

The four propagations of layer 1's output, the stacking of its Chebyshev terms, and the two bias rows —
the same host operations as the reference's, read for any contents `V` the stretches start from.
-/

set_option maxRecDepth 16384

noncomputable section

namespace Cert.KernelIdeal.Glue2

open Cert.KernelIdeal Cert.KernelIdeal.Facts₀ Cert.KernelIdeal.Facts Idealize.ShloMosaic Idealize.ShloMosaic.TcCoe Idealize.SL.Sem

variable {F : FTy → Type} [FloatOps F]

set_option maxHeartbeats 40000000 in
/-- The stacked Chebyshev terms of the layer's input. -/
theorem stack_eq (V : Valuation τ sig (Elt F)) :
    StableHlo.after Gen.main_part4_ops0 (StableHlo.after Gen.main_part3_ops1 (V)) (Proc.devRef .tc main_v238)
      = Glue.stack128 (V (Proc.devRef .tc main_v171)) (Cert.ReferenceIdeal.Terms.cheb128_1 (V (Proc.devRef .tc main_v171)) (V (Proc.devRef .tc main_v1)) (V (Proc.devRef .tc main_v3)) (V (Proc.devRef .tc main_v31))) (Cert.ReferenceIdeal.Terms.cheb128_2 (V (Proc.devRef .tc main_v171)) (V (Proc.devRef .tc main_v1)) (V (Proc.devRef .tc main_v3)) (V (Proc.devRef .tc main_v31))) (Cert.ReferenceIdeal.Terms.cheb128_3 (V (Proc.devRef .tc main_v171)) (V (Proc.devRef .tc main_v1)) (V (Proc.devRef .tc main_v3)) (V (Proc.devRef .tc main_v31))) (Cert.ReferenceIdeal.Terms.cheb128_4 (V (Proc.devRef .tc main_v171)) (V (Proc.devRef .tc main_v1)) (V (Proc.devRef .tc main_v3)) (V (Proc.devRef .tc main_v31))) := by
  simp only [← StableHlo.after_append]
  simp only [Gen.main_part3_ops1, Gen.main_part4_ops0, List.cons_append, List.nil_append]
  after_results_simp <;> rfl
set_option maxHeartbeats 40000000 in
/-- The filter bias as a `1 × 350` row. -/
theorem bc_eq (V : Valuation τ sig (Elt F)) :
    StableHlo.after Gen.main_part4_ops0 (StableHlo.after Gen.main_part3_ops1 (V)) (Proc.devRef .tc main_v239) = shapeCast _ (V (Proc.devRef .tc main_arg11)) shapeCasts_S350_S1x350 := by
  simp only [← StableHlo.after_append]
  simp only [Gen.main_part3_ops1, Gen.main_part4_ops0, List.cons_append, List.nil_append]
  after_results_simp <;> rfl
set_option maxHeartbeats 40000000 in
/-- The residual bias as a `1 × 350` row. -/
theorem bl_eq (V : Valuation τ sig (Elt F)) :
    StableHlo.after Gen.main_part4_ops0 (StableHlo.after Gen.main_part3_ops1 (V)) (Proc.devRef .tc main_v240) = shapeCast _ (V (Proc.devRef .tc main_arg13)) shapeCasts_S350_S1x350 := by
  simp only [← StableHlo.after_append]
  simp only [Gen.main_part3_ops1, Gen.main_part4_ops0, List.cons_append, List.nil_append]
  after_results_simp <;> rfl

/-- After launch 2: the flattening of the last layer's output. -/
theorem flat_eq (V : Valuation τ sig (Elt F)) :
    StableHlo.after Gen.main_part4_ops1 V (Proc.devRef .tc main_v242) = shapeCast _ (V (Proc.devRef .tc main_v241)) shapeCasts_S50000x350_S17500000 := by
  simp only [Gen.main_part4_ops1]; after_results_simp <;> rfl

end Cert.KernelIdeal.Glue2

end
-- ==== Proof.TileLaw0.lean ====
import proofs.«162653_j26706106646651_1_alg».proof.Proof.Gen.KernelIdeal.Skeleton
import proofs.«162653_j26706106646651_1_alg».proof.Proof.Terms
import Idealize.ShloMosaic.PureOps.Ideal.Laws
import Idealize.ShloMosaic.Lib.ValueIdx
import Idealize.ShloMosaic.Lib.ValueLayout
import Idealize.ShloMosaic.Lib.Pipeline.Value

/-!
# One row tile of layer 0 against the reference's combination

At the extended reals every operation is exact and a rounding step is the identity. The tile's stored value at
(r, j) is max(((((((0 + A0·W0) + A1·W1) + A2·W2) + A3·W3) + A4·W4) + A0·Wl) + b1 + b2, 0), each product a sum over
the contracted coordinate c of A_k(r, c) · W_k(c, j). The reference's value at row 2000·t + r is
max(((((T0·W0 + T1·W1) + T2·W2) + T3·W3) + T4·W4) + bc + T0·Wl + bl, 0) with the same sums over c of
T_k(2000·t + r, c) · Wc(k, c, j). The loaded blocks hold those entries, so the two sides are the same terms added in
another grouping; addition of extended reals is commutative and associative and 0 + x = x.
-/

set_option maxRecDepth 16384

noncomputable section

namespace Cert.TileLaw0

open Cert.KernelIdeal Cert.KernelIdeal.Gen Idealize.ShloMosaic Idealize.ShloMosaic.ValueIdx

/-- The tile's product into a zero accumulator, read at (r, j): the sum over the contracted coordinate. -/
theorem kmm {φ₁ φ₂ : FTy} (A : FVec Ideal S2000x64 φ₁) (B : FVec Ideal S64x128 φ₂) (r : Fin 2000) (j : Fin 128) :
    matmul dot_S2000x64_S64x128_S2000x128_1_0_0_1_n_n none A B (constant (F := Ideal) S2000x128 .f32 0x00000000#32) (ix2 r j)
      = ∑ c : Fin 64, A (ix2 r c) * B (ix2 c j) := by
  show FloatOps.matmul _ none A B _ (ix2 r j) = _
  rw [Ideal.matmul_constant_zero_apply, ← Equiv.sum_comp (contrEquiv1 dot_S2000x64_S64x128_S2000x128_1_0_0_1_n_n 64 rfl rfl).symm]
  refine Finset.sum_congr rfl fun c _ => ?_
  have c2 := contrEquiv1_symm_val dot_S2000x64_S64x128_S2000x128_1_0_0_1_n_n 64 rfl rfl c
  have l2 : (dot_S2000x64_S64x128_S2000x128_1_0_0_1_n_n).lhsIdx (ix2 r j) ((contrEquiv1 _ 64 rfl rfl).symm c) = ix2 r c := by
    funext ax; apply Fin.ext
    match ax with
    | ⟨0, _⟩ => simp [DotDims.lhsIdx, dot_S2000x64_S64x128_S2000x128_1_0_0_1_n_n]; rfl
    | ⟨1, _⟩ => simp [DotDims.lhsIdx, dot_S2000x64_S64x128_S2000x128_1_0_0_1_n_n]; exact c2
  have r2 : (dot_S2000x64_S64x128_S2000x128_1_0_0_1_n_n).rhsIdx (ix2 r j) ((contrEquiv1 _ 64 rfl rfl).symm c) = ix2 c j := by
    funext ax; apply Fin.ext
    match ax with
    | ⟨0, _⟩ => simp [DotDims.rhsIdx, dot_S2000x64_S64x128_S2000x128_1_0_0_1_n_n]; exact c2
    | ⟨1, _⟩ => simp [DotDims.rhsIdx, dot_S2000x64_S64x128_S2000x128_1_0_0_1_n_n]; rfl
  rw [l2, r2]

/-- The reference's product of the whole node array, read at (R, j): the same sum. -/
theorem rmm {φ₁ φ₂ : FTy} (A : FVec Ideal Cert.ReferenceIdeal.S50000x64 φ₁) (B : FVec Ideal Cert.ReferenceIdeal.S64x128 φ₂) (R : Fin 50000) (j : Fin 128) :
    Host.dotGeneral (F := Ideal) Cert.ReferenceIdeal.dot_S50000x64_S64x128_S50000x128_1_0_0_1_n_n none A B (ix2 R j)
      = ∑ c : Fin 64, A (ix2 R c) * B (ix2 c j) := by
  show FloatOps.dotGeneral _ none _ A B (ix2 R j) = _
  rw [Ideal.dotGeneral_apply, ← Equiv.sum_comp (contrEquiv1 Cert.ReferenceIdeal.dot_S50000x64_S64x128_S50000x128_1_0_0_1_n_n 64 rfl rfl).symm]
  refine Finset.sum_congr rfl fun c _ => ?_
  have c2 := contrEquiv1_symm_val Cert.ReferenceIdeal.dot_S50000x64_S64x128_S50000x128_1_0_0_1_n_n 64 rfl rfl c
  have l2 : (Cert.ReferenceIdeal.dot_S50000x64_S64x128_S50000x128_1_0_0_1_n_n).lhsIdx (ix2 R j) ((contrEquiv1 _ 64 rfl rfl).symm c) = ix2 R c := by
    funext ax; apply Fin.ext
    match ax with
    | ⟨0, _⟩ => simp [DotDims.lhsIdx, Cert.ReferenceIdeal.dot_S50000x64_S64x128_S50000x128_1_0_0_1_n_n]; rfl
    | ⟨1, _⟩ => simp [DotDims.lhsIdx, Cert.ReferenceIdeal.dot_S50000x64_S64x128_S50000x128_1_0_0_1_n_n]; exact c2
  have r2 : (Cert.ReferenceIdeal.dot_S50000x64_S64x128_S50000x128_1_0_0_1_n_n).rhsIdx (ix2 R j) ((contrEquiv1 _ 64 rfl rfl).symm c) = ix2 c j := by
    funext ax; apply Fin.ext
    match ax with
    | ⟨0, _⟩ => simp [DotDims.rhsIdx, Cert.ReferenceIdeal.dot_S50000x64_S64x128_S50000x128_1_0_0_1_n_n]; exact c2
    | ⟨1, _⟩ => simp [DotDims.rhsIdx, Cert.ReferenceIdeal.dot_S50000x64_S64x128_S50000x128_1_0_0_1_n_n]; rfl
  rw [l2, r2]

/-- A tile block under its unit-axis cast and rounding step (the identity here) times a filter matrix under its
    rounding step, into a zero accumulator, read at (r, j). -/
theorem kprod (a : Vec Ideal S1x2000x64 .f32) (w : FVec Ideal S64x128 .f32) (r : Fin 2000) (j : Fin 128) :
    matmul dot_S2000x64_S64x128_S2000x128_1_0_0_1_n_n none
        (truncf .bf16 (shapeCast S2000x64 a shapeCasts_S1x2000x64_S2000x64 : FVec Ideal S2000x64 .f32) bitsLt_bf16_f32)
        (truncf .bf16 w bitsLt_bf16_f32)
        (constant (F := Ideal) S2000x128 .f32 0x00000000#32) (ix2 r j)
      = ∑ c : Fin 64, a (ix3 0 r c) * w (ix2 c j) := by
  rw [kmm]
  refine Finset.sum_congr rfl fun c _ => ?_
  rw [truncf_apply, truncf_apply, shapeCast_1ab_ab_apply]

/-- Filter k cut out of the stack of five and cast to a matrix, read at (c, j). -/
theorem wslice {α : Type} (off : Fin 3 → Nat) (k : Fin 5) (h0 : off 0 = k.val) (h1 : off 1 = 0) (h2 : off 2 = 0)
    (Wc : Cert.ReferenceIdeal.S5x64x128.Idx → α)
    (h : Cert.ReferenceIdeal.S5x64x128.Slices off Cert.ReferenceIdeal.S1x64x128)
    (hc : Cert.ReferenceIdeal.S1x64x128.ShapeCasts Cert.ReferenceIdeal.S64x128) (c : Fin 64) (j : Fin 128) :
    shapeCast Cert.ReferenceIdeal.S64x128 (extractStridedSlice Cert.ReferenceIdeal.S1x64x128 off Wc h) hc (ix2 c j)
      = Wc (ix3 k c j) := by
  rw [shapeCast_1ab_ab_apply]
  refine extractStridedSlice_apply off Wc h _ _ fun a => ?_
  match a with
  | ⟨0, _⟩ => show k.val = off 0 + 0; omega
  | ⟨1, _⟩ => show c.val = off 1 + c.val; omega
  | ⟨2, _⟩ => show j.val = off 2 + j.val; omega

/-- A bias vector made a row and copied down the rows, read at (R, j). -/
theorem rbias {α : Type} (b : Cert.ReferenceIdeal.S128.Idx → α)
    (h1 : Cert.ReferenceIdeal.S1x128.BroadcastsInDim Cert.ReferenceIdeal.S50000x128 ![0, 1])
    (h2 : Cert.ReferenceIdeal.S128.BroadcastsInDim Cert.ReferenceIdeal.S1x128 ![1]) (R : Fin 50000) (j : Fin 128) :
    broadcastInDim Cert.ReferenceIdeal.S50000x128 ![0, 1] h1 (broadcastInDim Cert.ReferenceIdeal.S1x128 ![1] h2 b) (ix2 R j) = b (ix1 j) := by
  refine (broadcastInDim_apply _ _ _ (ix2 R j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- The zero constant copied to every entry, read at (R, j), is the extended real 0. -/
theorem rzero (h : Cert.ReferenceIdeal.S_.BroadcastsInDim Cert.ReferenceIdeal.S50000x128 ![]) (R : Fin 50000) (j : Fin 128) :
    broadcastInDim Cert.ReferenceIdeal.S50000x128 ![] h (constant (F := Ideal) Cert.ReferenceIdeal.S_ .f32 0x00000000#32) (ix2 R j) = (0 : EReal) :=
  Ideal.ofBits_zero_f32

/-- A bias row copied down the tile's rows, read at (r, j). -/
theorem kbias {α : Type} (b : S1x128.Idx → α) (hc : S1x128.ShapeCasts S1x128) (hb : S1x128.Broadcasts S2000x128)
    (r : Fin 2000) (j : Fin 128) :
    broadcastTo S2000x128 (shapeCast S1x128 b hc) hb (ix2 r j) = b (ix2 0 j) := by
  rw [shapeCast_self, broadcastTo_1b_ab_apply]

/-- Row `r` of row tile `t` is row `2000·t + r` of the node arrays. -/
def rowAt (t : Fin 25) (r : Fin 2000) : Fin 50000 := ⟨2000 * t.val + r.val, by have := t.isLt; have := r.isLt; omega⟩

theorem tile_law
    (T0 T1 T2 T3 T4 : (⟨Cert.ReferenceIdeal.S50000x64, .f32⟩ : BufTy).Contents (Elt Ideal)) (Wc : (⟨Cert.ReferenceIdeal.S5x64x128, .f32⟩ : BufTy).Contents (Elt Ideal)) (bc : (⟨Cert.ReferenceIdeal.S128, .f32⟩ : BufTy).Contents (Elt Ideal))
    (Wl : (⟨Cert.ReferenceIdeal.S64x128, .f32⟩ : BufTy).Contents (Elt Ideal)) (bl : (⟨Cert.ReferenceIdeal.S128, .f32⟩ : BufTy).Contents (Elt Ideal)) (t : Fin 25)
    (a0 a1 a2 a3 a4 : Vec Ideal S1x2000x64 .f32) (w0 w1 w2 w3 w4 : Vec Ideal S1x64x128 .f32) (wl : Vec Ideal S64x128 .f32) (b1 b2 : Vec Ideal S1x128 .f32)
    (ha0 : ∀ (r : Fin 2000) (i : Fin 64), a0 (ix3 0 r i) = T0 (ix2 (rowAt t r) i))
    (ha1 : ∀ (r : Fin 2000) (i : Fin 64), a1 (ix3 0 r i) = T1 (ix2 (rowAt t r) i))
    (ha2 : ∀ (r : Fin 2000) (i : Fin 64), a2 (ix3 0 r i) = T2 (ix2 (rowAt t r) i))
    (ha3 : ∀ (r : Fin 2000) (i : Fin 64), a3 (ix3 0 r i) = T3 (ix2 (rowAt t r) i))
    (ha4 : ∀ (r : Fin 2000) (i : Fin 64), a4 (ix3 0 r i) = T4 (ix2 (rowAt t r) i))
    (hw0 : ∀ (i : Fin 64) (j : Fin 128), w0 (ix3 0 i j) = Wc (ix3 0 i j))
    (hw1 : ∀ (i : Fin 64) (j : Fin 128), w1 (ix3 0 i j) = Wc (ix3 1 i j))
    (hw2 : ∀ (i : Fin 64) (j : Fin 128), w2 (ix3 0 i j) = Wc (ix3 2 i j))
    (hw3 : ∀ (i : Fin 64) (j : Fin 128), w3 (ix3 0 i j) = Wc (ix3 3 i j))
    (hw4 : ∀ (i : Fin 64) (j : Fin 128), w4 (ix3 0 i j) = Wc (ix3 4 i j))
    (hwl : ∀ (i : Fin 64) (j : Fin 128), wl (ix2 i j) = Wl (ix2 i j))
    (hb1 : ∀ j : Fin 128, b1 (ix2 0 j) = bc (ix1 j)) (hb2 : ∀ j : Fin 128, b2 (ix2 0 j) = bl (ix1 j))
    (r : Fin 2000) (j : Fin 128) :
    k0_pay1 (F := Ideal) (k0_pay2 a0 w0 a1 w1 a2 w2) (k0_pay3 a3) (k0_pay4 w3) a4 w4 a0 wl b1 b2 (ix2 r j)
      = Cert.ReferenceIdeal.Terms.combine0 (F := Ideal) T0 T1 T2 T3 T4 Wc bc Wl bl (ix2 (rowAt t r) j) := by
  have hz : (Scalar.ofBits (F := Ideal) .f32 0x00000000#32 : Ideal .f32) = (0 : EReal) := Ideal.ofBits_zero_f32
  have s0 := fun h hc c => wslice ![0, 0, 0] 0 rfl rfl rfl Wc h hc c j
  have s1 := fun h hc c => wslice ![1, 0, 0] 1 rfl rfl rfl Wc h hc c j
  have s2 := fun h hc c => wslice ![2, 0, 0] 2 rfl rfl rfl Wc h hc c j
  have s3 := fun h hc c => wslice ![3, 0, 0] 3 rfl rfl rfl Wc h hc c j
  have s4 := fun h hc c => wslice ![4, 0, 0] 4 rfl rfl rfl Wc h hc c j
  unfold k0_pay1 k0_pay2 k0_pay3 k0_pay4 Cert.ReferenceIdeal.Terms.combine0
  simp only [maximumf_apply, addf_apply]
  rw [rbias, rbias, rzero]
  simp only [kprod, rmm, kbias, broadcast_apply, shapeCast_1ab_ab_apply,
    s0, s1, s2, s3, s4, ha0, ha1, ha2, ha3, ha4, hw0, hw1, hw2, hw3, hw4, hwl, hb1, hb2, hz, zero_add]
  ac_rfl

end Cert.TileLaw0

end
-- ==== Proof.Layout.lean ====
import proofs.«162653_j26706106646651_1_alg».proof.Proof.IdealGlueDefs
import Idealize.ShloMosaic.Lib.ValueIdx
import Idealize.ShloMosaic.Lib.ValueLayout
import Idealize.ShloMosaic.Lib.Pipeline.Value

/-!
# The stacked terms and the bias rows read at an index

The five Chebyshev terms are stacked along a new leading axis by making each a one-slab array and concatenating the
five slabs: entry `(k, n, i)` of the stack lies in slab `k`, at `(0, n, i)` there, which is entry `(n, i)` of term `k`.
A bias vector reshaped to a one-row matrix keeps its entries: row 0, column `j` is entry `j`.
-/

set_option maxRecDepth 16384

noncomputable section

namespace Cert.KernelIdeal.Layout

open Cert.KernelIdeal Cert.KernelIdeal.Facts₀ Cert.KernelIdeal.Facts Idealize.ShloMosaic Idealize.ShloMosaic.ValueIdx

variable {F : FTy → Type} [FloatOps F]

/-- One term made a one-slab stack reads, at `(0, n, i)`, the term at `(n, i)`. -/
theorem slab64_apply {α : Type} (T : S50000x64.Idx → α) (h : S50000x64.BroadcastsInDim S1x50000x64 ![1, 2])
    (n : Fin 50000) (i : Fin 64) :
    broadcastInDim S1x50000x64 ![1, 2] h T (ix3 (0 : Fin 1) n i) = T (ix2 n i) := by
  refine broadcastInDim_apply _ _ _ _ _ fun a => ?_
  match a with
  | ⟨0, _⟩ => rfl
  | ⟨1, _⟩ => rfl

/-- One term made a one-slab stack reads, at `(0, n, i)`, the term at `(n, i)`. -/
theorem slab128_apply {α : Type} (T : S50000x128.Idx → α) (h : S50000x128.BroadcastsInDim S1x50000x128 ![1, 2])
    (n : Fin 50000) (i : Fin 128) :
    broadcastInDim S1x50000x128 ![1, 2] h T (ix3 (0 : Fin 1) n i) = T (ix2 n i) := by
  refine broadcastInDim_apply _ _ _ _ _ fun a => ?_
  match a with
  | ⟨0, _⟩ => rfl
  | ⟨1, _⟩ => rfl

/-- Entry `(k, n, i)` of the stack is entry `(n, i)` of term `k`. -/
theorem stack64_apply (T0 T1 T2 T3 T4 : (⟨S50000x64, .f32⟩ : BufTy).Contents (Elt F)) (k : Fin 5) (n : Fin 50000) (i : Fin 64) :
    Glue.stack64 T0 T1 T2 T3 T4 (ix3 k n i) = (![T0, T1, T2, T3, T4] k) (ix2 n i) := by
  unfold Glue.stack64
  have hi : ∀ (k : Fin 5) (b : Fin S1x50000x64.rank), b.cast (rfl : S1x50000x64.rank = S5x50000x64.rank) ≠ (0 : Fin S5x50000x64.rank) →
      ((ix3 (0 : Fin 1) n i : S1x50000x64.Idx) b).val = ((ix3 k n i : S5x50000x64.Idx) (b.cast rfl)).val := fun k b hb =>
    match b, hb with
    | ⟨0, _⟩, hb => absurd rfl hb
    | ⟨1, _⟩, _ => rfl
    | ⟨2, _⟩, _ => rfl
  match k with
  | ⟨0, _⟩ =>
    exact (concatenate_apply_piece (0 : Fin S5x50000x64.rank) _ _ _ 0 (by simp) S1x50000x64 _ rfl rfl 0 rfl
      (ix3 (0 : Fin 1) n i) (hi _) rfl).trans (slab64_apply T0 _ n i)
  | ⟨1, _⟩ =>
    exact (concatenate_apply_piece (0 : Fin S5x50000x64.rank) _ _ _ 1 (by simp) S1x50000x64 _ rfl rfl 1 rfl
      (ix3 (0 : Fin 1) n i) (hi _) rfl).trans (slab64_apply T1 _ n i)
  | ⟨2, _⟩ =>
    exact (concatenate_apply_piece (0 : Fin S5x50000x64.rank) _ _ _ 2 (by simp) S1x50000x64 _ rfl rfl 2 rfl
      (ix3 (0 : Fin 1) n i) (hi _) rfl).trans (slab64_apply T2 _ n i)
  | ⟨3, _⟩ =>
    exact (concatenate_apply_piece (0 : Fin S5x50000x64.rank) _ _ _ 3 (by simp) S1x50000x64 _ rfl rfl 3 rfl
      (ix3 (0 : Fin 1) n i) (hi _) rfl).trans (slab64_apply T3 _ n i)
  | ⟨4, _⟩ =>
    exact (concatenate_apply_piece (0 : Fin S5x50000x64.rank) _ _ _ 4 (by simp) S1x50000x64 _ rfl rfl 4 rfl
      (ix3 (0 : Fin 1) n i) (hi _) rfl).trans (slab64_apply T4 _ n i)

theorem stack128_apply (T0 T1 T2 T3 T4 : (⟨S50000x128, .f32⟩ : BufTy).Contents (Elt F)) (k : Fin 5) (n : Fin 50000) (i : Fin 128) :
    Glue.stack128 T0 T1 T2 T3 T4 (ix3 k n i) = (![T0, T1, T2, T3, T4] k) (ix2 n i) := by
  unfold Glue.stack128
  have hi : ∀ (k : Fin 5) (b : Fin S1x50000x128.rank), b.cast (rfl : S1x50000x128.rank = S5x50000x128.rank) ≠ (0 : Fin S5x50000x128.rank) →
      ((ix3 (0 : Fin 1) n i : S1x50000x128.Idx) b).val = ((ix3 k n i : S5x50000x128.Idx) (b.cast rfl)).val := fun k b hb =>
    match b, hb with
    | ⟨0, _⟩, hb => absurd rfl hb
    | ⟨1, _⟩, _ => rfl
    | ⟨2, _⟩, _ => rfl
  match k with
  | ⟨0, _⟩ =>
    exact (concatenate_apply_piece (0 : Fin S5x50000x128.rank) _ _ _ 0 (by simp) S1x50000x128 _ rfl rfl 0 rfl
      (ix3 (0 : Fin 1) n i) (hi _) rfl).trans (slab128_apply T0 _ n i)
  | ⟨1, _⟩ =>
    exact (concatenate_apply_piece (0 : Fin S5x50000x128.rank) _ _ _ 1 (by simp) S1x50000x128 _ rfl rfl 1 rfl
      (ix3 (0 : Fin 1) n i) (hi _) rfl).trans (slab128_apply T1 _ n i)
  | ⟨2, _⟩ =>
    exact (concatenate_apply_piece (0 : Fin S5x50000x128.rank) _ _ _ 2 (by simp) S1x50000x128 _ rfl rfl 2 rfl
      (ix3 (0 : Fin 1) n i) (hi _) rfl).trans (slab128_apply T2 _ n i)
  | ⟨3, _⟩ =>
    exact (concatenate_apply_piece (0 : Fin S5x50000x128.rank) _ _ _ 3 (by simp) S1x50000x128 _ rfl rfl 3 rfl
      (ix3 (0 : Fin 1) n i) (hi _) rfl).trans (slab128_apply T3 _ n i)
  | ⟨4, _⟩ =>
    exact (concatenate_apply_piece (0 : Fin S5x50000x128.rank) _ _ _ 4 (by simp) S1x50000x128 _ rfl rfl 4 rfl
      (ix3 (0 : Fin 1) n i) (hi _) rfl).trans (slab128_apply T4 _ n i)

/-- A bias vector reshaped to a one-row matrix reads, at `(0, j)`, the vector at `j`. -/
theorem row128_apply (b : (⟨S128, .f32⟩ : BufTy).Contents (Elt F)) (j : Fin 128) :
    (shapeCast S1x128 b shapeCasts_S128_S1x128 : S1x128.Idx → Elt F .f32) (ix2 0 j) = b (ix1 j) := by
  exact shapeCast_a_1a_apply b shapeCasts_S128_S1x128 0 j

theorem row350_apply (b : (⟨S350, .f32⟩ : BufTy).Contents (Elt F)) (j : Fin 350) :
    (shapeCast S1x350 b shapeCasts_S350_S1x350 : S1x350.Idx → Elt F .f32) (ix2 0 j) = b (ix1 j) := by
  exact shapeCast_a_1a_apply b shapeCasts_S350_S1x350 0 j

end Cert.KernelIdeal.Layout

end
-- ==== Proof.IdealTile0.lean ====
import proofs.«162653_j26706106646651_1_alg».proof.Proof.IdealLayer0
import proofs.«162653_j26706106646651_1_alg».proof.Proof.TileLaw0
import proofs.«162653_j26706106646651_1_alg».proof.Proof.IdealGlueDefs
import proofs.«162653_j26706106646651_1_alg».proof.Proof.Layout
import proofs.«162653_j26706106646651_1_alg».proof.Proof.Terms
import Idealize.ShloMosaic.Lib.Pipeline.Value
import Idealize.ShloMosaic.Lib.ValueIdx

/-!
# Layer 0: from the tiles to the whole output array

The layer runs over 25 row tiles of 2000 nodes. Tile `t` is handed rows `2000·t … 2000·t + 1999` of each stacked
Chebyshev term and the whole of the filter, bias and residual arrays, and writes back rows `2000·t … 2000·t + 1999` of
the output. When those arrays hold the stack of `T_0 … T_4`, the filters, the residual matrix and the two bias vectors
as one-row matrices, the value a tile writes at `(r, j)` is, by the tile law, the reference's combination at
`(2000·t + r, j)`. Every row `n` of the output lies in tile `n / 2000`, so the 25 write-backs fill the array with the
reference's combination.
-/

set_option maxRecDepth 16384

noncomputable section

namespace Cert.KernelIdeal.Tile0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- The grid point as a tile number below 25. -/
abbrev tileOf (t : Fin cfg0.N) : Fin 25 := t.cast N_0

/-- The index maps over the grid: the stack's window moves down the node axis with the tile, the four weight windows
    stay at block 0, and the output's window moves down its rows with the tile. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Pieces

variable (V : (c : Dev nD) → (b : Ref sig .tc) → Buf (Elt Ideal) ((c : Thread nD τ).loc b)) (c : Dev nD)

/-- The stack's block at tile `t` holds, at `(k, r, i)`, the stack's entry `(k, 2000·t + r, i)`. -/
theorem block0_apply (t : Fin cfg0.N) (k : Fin 5) (r : Fin 2000) (i : Fin 64) :
    (Layer0.blockAt V c 0 t : S5x2000x64.Idx → Elt Ideal .f32) (ix3 k r i)
      = (V c main_v98 : S5x50000x64.Idx → Elt Ideal .f32) (ix3 k (Cert.TileLaw0.rowAt (tileOf t) r) i) := by
  obtain ⟨e0, e1, e2, -⟩ := idx_facts t
  unfold Layer0.blockAt
  rw [View.read_apply]
  show V c main_v98 _ = V c main_v98 _
  congr 1
  funext a
  apply Fin.ext
  match a with
  | ⟨0, _⟩ => show win0_0.index t (0 : Fin 3) * 5 + 1 * k.val = k.val; rw [e0]; omega
  | ⟨1, _⟩ => show win0_0.index t (1 : Fin 3) * 2000 + 1 * r.val = 2000 * t.val + r.val; rw [e1]; omega
  | ⟨2, _⟩ => show win0_0.index t (2 : Fin 3) * 64 + 1 * i.val = i.val; rw [e2]; omega

/-- Window 1's block is the whole of its array at every tile. -/
theorem block1_eq (t : Fin cfg0.N) :
    (Layer0.blockAt V c 1 t : S5x64x128.Idx → Elt Ideal .f32) = (V c main_arg2 : S5x64x128.Idx → Elt Ideal .f32) := by
  obtain ⟨-, -, -, e0, e1, e2, -⟩ := idx_facts t
  funext y
  unfold Layer0.blockAt
  rw [View.read_apply]
  show V c main_arg2 _ = V c main_arg2 _
  congr 1
  funext a
  apply Fin.ext
  match a with
  | ⟨0, _⟩ => show win0_1.index t (0 : Fin 3) * 5 + 1 * (y 0).val = (y 0).val; rw [e0]; omega
  | ⟨1, _⟩ => show win0_1.index t (1 : Fin 3) * 64 + 1 * (y 1).val = (y 1).val; rw [e1]; omega
  | ⟨2, _⟩ => show win0_1.index t (2 : Fin 3) * 128 + 1 * (y 2).val = (y 2).val; rw [e2]; omega

/-- Window 2's block is the whole of its array at every tile. -/
theorem block2_eq (t : Fin cfg0.N) :
    (Layer0.blockAt V c 2 t : S1x128.Idx → Elt Ideal .f32) = (V c main_v99 : S1x128.Idx → Elt Ideal .f32) := by
  obtain ⟨-, -, -, -, -, -, e0, e1, -⟩ := idx_facts t
  funext y
  unfold Layer0.blockAt
  rw [View.read_apply]
  show V c main_v99 _ = V c main_v99 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- Window 3's block is the whole of its array at every tile. -/
theorem block3_eq (t : Fin cfg0.N) :
    (Layer0.blockAt V c 3 t : S64x128.Idx → Elt Ideal .f32) = (V c main_arg4 : S64x128.Idx → Elt Ideal .f32) := by
  obtain ⟨-, -, -, -, -, -, -, -, e0, e1, -⟩ := idx_facts t
  funext y
  unfold Layer0.blockAt
  rw [View.read_apply]
  show V c main_arg4 _ = V c main_arg4 _
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega

/-- Window 4's block is the whole of its array at every tile. -/
theorem block4_eq (t : Fin cfg0.N) :
    (Layer0.blockAt V c 4 t : S1x128.Idx → Elt Ideal .f32) = (V c main_v100 : S1x128.Idx → Elt Ideal .f32) := by
  obtain ⟨-, -, -, -, -, -, -, -, -, -, e0, e1, -⟩ := idx_facts t
  funext y
  unfold Layer0.blockAt
  rw [View.read_apply]
  show V c main_v100 _ = V c main_v100 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Slab `k` of a stack block, loaded as a one-slab array, reads at `(0, r, i)` the block at `(k, r, i)`. -/
theorem stack_slab (X : Vec Ideal S5x2000x64 .f32) (k : Fin 5) (off : Fin 3 → Nat) (h0 : off 0 = k.val) (h1 : off 1 = 0) (h2 : off 2 = 0)
    (inb : ∀ a, off a + S1x2000x64.size a ≤ S5x2000x64.size a) (r : Fin 2000) (i : Fin 64) :
    (View.ld X (Rect.unit (s := S5x2000x64) off S1x2000x64.size inb) : Vec Ideal S1x2000x64 .f32) (ix3 0 r i) = X (ix3 k r i) := by
  show X _ = X _
  congr 1
  funext a
  apply Fin.ext
  match a with
  | ⟨0, _⟩ => show off 0 + 1 * 0 = k.val; omega
  | ⟨1, _⟩ => show off 1 + 1 * r.val = r.val; omega
  | ⟨2, _⟩ => show off 2 + 1 * i.val = i.val; omega

/-- Filter `k` of the filter block, loaded as a one-slab array, reads at `(0, i, j)` the block at `(k, i, j)`. -/
theorem filter_slab (X : Vec Ideal S5x64x128 .f32) (k : Fin 5) (off : Fin 3 → Nat) (h0 : off 0 = k.val) (h1 : off 1 = 0) (h2 : off 2 = 0)
    (inb : ∀ a, off a + S1x64x128.size a ≤ S5x64x128.size a) (i : Fin 64) (j : Fin 128) :
    (View.ld X (Rect.unit (s := S5x64x128) off S1x64x128.size inb) : Vec Ideal S1x64x128 .f32) (ix3 0 i j) = X (ix3 k i j) := by
  show X _ = X _
  congr 1
  funext a
  apply Fin.ext
  match a with
  | ⟨0, _⟩ => show off 0 + 1 * 0 = k.val; omega
  | ⟨1, _⟩ => show off 1 + 1 * i.val = i.val; omega
  | ⟨2, _⟩ => show off 2 + 1 * j.val = j.val; omega

/-- Row `r`, column `q` of the output's block at tile `t` is row `2000·t + r`, column `q` of the output array. -/
theorem out_emb (t : Fin cfg0.N) (r : Fin 2000) (q : Fin 128) :
    (((cfg0.win 5).blk t).view.emb (ix2 r q : S2000x128.Idx) : S50000x128.Idx) = ix2 (Cert.TileLaw0.rowAt (tileOf t) r) q := by
  obtain ⟨-, -, -, -, -, -, -, -, -, -, -, -, e0, e1⟩ := idx_facts t
  funext a
  apply Fin.ext
  match a with
  | ⟨0, _⟩ => show win0_5.index t (0 : Fin 2) * 2000 + 1 * r.val = 2000 * t.val + r.val; rw [e0]; omega
  | ⟨1, _⟩ => show win0_5.index t (1 : Fin 2) * 128 + 1 * q.val = q.val; rw [e1]; omega

/-- An index of the output array is in tile `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v101).slice (win0_5.rect t)).set ↔ _
  rw [View.set_slice_whole, Rect.mem_set_unit]
  exact Iff.rfl

/-- Every row of the output array lies in the block of the tile its number divided by 2000 names. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, -, -, -, -, e0, e1⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e1]; omega

variable (T0 T1 T2 T3 T4 : (⟨Cert.ReferenceIdeal.S50000x64, .f32⟩ : BufTy).Contents (Elt Ideal)) (Wc : (⟨Cert.ReferenceIdeal.S5x64x128, .f32⟩ : BufTy).Contents (Elt Ideal)) (bc : (⟨Cert.ReferenceIdeal.S128, .f32⟩ : BufTy).Contents (Elt Ideal))
  (Wl : (⟨Cert.ReferenceIdeal.S64x128, .f32⟩ : BufTy).Contents (Elt Ideal)) (bl : (⟨Cert.ReferenceIdeal.S128, .f32⟩ : BufTy).Contents (Elt Ideal))

/-- Slab `k` of the stack's block at tile `t` holds the tile's rows of term `k`. -/
theorem term_rows (hS : (V c main_v98 : S5x50000x64.Idx → Elt Ideal .f32) = Glue.stack64 T0 T1 T2 T3 T4)
    (t : Fin cfg0.N) (k : Fin 5) (off : Fin 3 → Nat) (h0 : off 0 = k.val) (h1 : off 1 = 0) (h2 : off 2 = 0)
    (inb : ∀ a, off a + S1x2000x64.size a ≤ S5x2000x64.size a) (r : Fin 2000) (i : Fin 64) :
    (View.ld (Layer0.blockAt V c 0 t : Vec Ideal S5x2000x64 .f32) (Rect.unit (s := S5x2000x64) off S1x2000x64.size inb) : Vec Ideal S1x2000x64 .f32) (ix3 0 r i)
      = (![T0, T1, T2, T3, T4] k) (ix2 (Cert.TileLaw0.rowAt (tileOf t) r) i) := by
  rw [stack_slab _ k off h0 h1 h2 inb r i, block0_apply, hS, Layout.stack64_apply]

/-- Slab `k` of the filter block is filter `k`. -/
theorem filter_entries (hWc : (V c main_arg2 : S5x64x128.Idx → Elt Ideal .f32) = Wc)
    (t : Fin cfg0.N) (k : Fin 5) (off : Fin 3 → Nat) (h0 : off 0 = k.val) (h1 : off 1 = 0) (h2 : off 2 = 0)
    (inb : ∀ a, off a + S1x64x128.size a ≤ S5x64x128.size a) (i : Fin 64) (j : Fin 128) :
    (View.ld (Layer0.blockAt V c 1 t : Vec Ideal S5x64x128 .f32) (Rect.unit (s := S5x64x128) off S1x64x128.size inb) : Vec Ideal S1x64x128 .f32) (ix3 0 i j)
      = Wc (ix3 k i j) := by
  rw [filter_slab _ k off h0 h1 h2 inb i j, block1_eq, hWc]

/-- The residual matrix's block, loaded whole, is the matrix. -/
theorem residual_entries (hWl : (V c main_arg4 : S64x128.Idx → Elt Ideal .f32) = Wl) (t : Fin cfg0.N)
    (inb : ∀ a, (![0, 0] : Fin 2 → Nat) a + S64x128.size a ≤ S64x128.size a) (i : Fin 64) (j : Fin 128) :
    (View.ld (Layer0.blockAt V c 3 t : Vec Ideal S64x128 .f32) (Rect.unit (s := S64x128) ![0, 0] S64x128.size inb) : Vec Ideal S64x128 .f32) (ix2 i j)
      = Wl (ix2 i j) := by
  rw [View.ld_unit_zero (S := S64x128) hz, block3_eq, hWl]

/-- A bias row's block, loaded whole, holds the bias vector's entries in its one row. -/
theorem bias_entries (w : Fin cfg0.W) (ref : Ref sig .tc) (b : (⟨Cert.ReferenceIdeal.S128, .f32⟩ : BufTy).Contents (Elt Ideal))
    (X : Vec Ideal S1x128 .f32) (hX : X = shapeCast S1x128 b Facts₀.shapeCasts_S128_S1x128)
    (inb : ∀ a, (![0, 0] : Fin 2 → Nat) a + S1x128.size a ≤ S1x128.size a) (j : Fin 128) :
    (View.ld X (Rect.unit (s := S1x128) ![0, 0] S1x128.size inb) : Vec Ideal S1x128 .f32) (ix2 0 j) = b (ix1 j) := by
  rw [View.ld_unit_zero (S := S1x128) hz, hX]
  exact Layout.row128_apply b j

/-- WHAT TILE `t` WRITES BACK is block `t` of the reference's combination. -/
theorem flushed_eq
    (hS : (V c main_v98 : S5x50000x64.Idx → Elt Ideal .f32) = Glue.stack64 T0 T1 T2 T3 T4)
    (hWc : (V c main_arg2 : S5x64x128.Idx → Elt Ideal .f32) = Wc)
    (hbc : (V c main_v99 : S1x128.Idx → Elt Ideal .f32) = shapeCast S1x128 bc Facts₀.shapeCasts_S128_S1x128)
    (hWl : (V c main_arg4 : S64x128.Idx → Elt Ideal .f32) = Wl)
    (hbl : (V c main_v100 : S1x128.Idx → Elt Ideal .f32) = shapeCast S1x128 bl Facts₀.shapeCasts_S128_S1x128)
    (t : Fin cfg0.N) :
    (Layer0.layerDat V c).flushed 5 t
      = ((cfg0.win 5).blk t).view.read (Elt Ideal) (Cert.ReferenceIdeal.Terms.combine0 (F := Ideal) T0 T1 T2 T3 T4 Wc bc Wl bl) := by
  show (cfg0.win 5).cut (grid0.coords t) ((Layer0.layerDat V c).after 5 t) = _
  rw [Layer0.after5]
  unfold Layer0.tileOut
  rw [View.canon_unit_zero hz]
  funext j
  obtain ⟨r, q, rfl⟩ : ∃ (r : Fin 2000) (q : Fin 128), j = ix2 r q := ⟨j 0, j 1, eq_ix2 j⟩
  rw [View.read_apply]
  refine Eq.trans ?_ (congrArg (Cert.ReferenceIdeal.Terms.combine0 (F := Ideal) T0 T1 T2 T3 T4 Wc bc Wl bl) (out_emb t r q).symm)
  refine Cert.TileLaw0.tile_law T0 T1 T2 T3 T4 Wc bc Wl bl (tileOf t) _ _ _ _ _ _ _ _ _ _ _ _ _
    (fun r i => term_rows V c T0 T1 T2 T3 T4 hS t 0 _ rfl rfl rfl _ r i)
    (fun r i => term_rows V c T0 T1 T2 T3 T4 hS t 1 _ rfl rfl rfl _ r i)
    (fun r i => term_rows V c T0 T1 T2 T3 T4 hS t 2 _ rfl rfl rfl _ r i)
    (fun r i => term_rows V c T0 T1 T2 T3 T4 hS t 3 _ rfl rfl rfl _ r i)
    (fun r i => term_rows V c T0 T1 T2 T3 T4 hS t 4 _ rfl rfl rfl _ r i)
    (fun i j => filter_entries V c Wc hWc t 0 _ rfl rfl rfl _ i j)
    (fun i j => filter_entries V c Wc hWc t 1 _ rfl rfl rfl _ i j)
    (fun i j => filter_entries V c Wc hWc t 2 _ rfl rfl rfl _ i j)
    (fun i j => filter_entries V c Wc hWc t 3 _ rfl rfl rfl _ i j)
    (fun i j => filter_entries V c Wc hWc t 4 _ rfl rfl rfl _ i j)
    (fun i j => residual_entries V c Wl hWl t _ i j)
    (fun j => bias_entries 2 main_v99 bc _ ((block2_eq V c t).trans hbc) _ j)
    (fun j => bias_entries 4 main_v100 bl _ ((block4_eq V c t).trans hbl) _ j)
    r q

end Pieces

/-- THE LAYER'S OUTPUT ARRAY. If the region finds the stack of `T_0 … T_4` in its first window's array, the layer's
    filter and residual matrices in the second and fourth, and the two bias vectors as one-row matrices in the third
    and fifth, then after its 25 grid points its output array holds the reference's combination of them. -/
theorem layer_array (V : (c : Dev nD) → (b : Ref sig .tc) → Buf (Elt Ideal) ((c : Thread nD τ).loc b)) (c : Dev nD)
    (T0 T1 T2 T3 T4 : (⟨Cert.ReferenceIdeal.S50000x64, .f32⟩ : BufTy).Contents (Elt Ideal)) (Wc : (⟨Cert.ReferenceIdeal.S5x64x128, .f32⟩ : BufTy).Contents (Elt Ideal)) (bc : (⟨Cert.ReferenceIdeal.S128, .f32⟩ : BufTy).Contents (Elt Ideal))
    (Wl : (⟨Cert.ReferenceIdeal.S64x128, .f32⟩ : BufTy).Contents (Elt Ideal)) (bl : (⟨Cert.ReferenceIdeal.S128, .f32⟩ : BufTy).Contents (Elt Ideal))
    (hS : (V c main_v98 : S5x50000x64.Idx → Elt Ideal .f32) = Glue.stack64 T0 T1 T2 T3 T4)
    (hWc : (V c main_arg2 : S5x64x128.Idx → Elt Ideal .f32) = Wc)
    (hbc : (V c main_v99 : S1x128.Idx → Elt Ideal .f32) = shapeCast S1x128 bc Facts₀.shapeCasts_S128_S1x128)
    (hWl : (V c main_arg4 : S64x128.Idx → Elt Ideal .f32) = Wl)
    (hbl : (V c main_v100 : S1x128.Idx → Elt Ideal .f32) = shapeCast S1x128 bl Facts₀.shapeCasts_S128_S1x128) :
    ((Layer0.layerDat V c).arrAt 5 cfg0.N : S50000x128.Idx → Elt Ideal .f32)
      = Cert.ReferenceIdeal.Terms.combine0 (F := Ideal) T0 T1 T2 T3 T4 Wc bc Wl bl := by
  exact (Layer0.layerDat V c).arrAt_eq_of_cover 5 (Cert.ReferenceIdeal.Terms.combine0 (F := Ideal) T0 T1 T2 T3 T4 Wc bc Wl bl)
    (fun t _ => flushed_eq V c T0 T1 T2 T3 T4 Wc bc Wl bl hS hWc hbc hWl hbl t) cover

end Cert.KernelIdeal.Tile0

end
-- ==== Proof.TileLaw1.lean ====
import proofs.«162653_j26706106646651_1_alg».proof.Proof.Gen.KernelIdeal.Skeleton
import proofs.«162653_j26706106646651_1_alg».proof.Proof.Terms
import Idealize.ShloMosaic.PureOps.Ideal.Laws
import Idealize.ShloMosaic.Lib.ValueIdx
import Idealize.ShloMosaic.Lib.ValueLayout
import Idealize.ShloMosaic.Lib.Pipeline.Value

/-!
# One row tile of layer 1 against the reference's combination

At the extended reals every operation is exact and a rounding step is the identity. The tile's stored value at
(r, j) is max(((((((0 + A0·W0) + A1·W1) + A2·W2) + A3·W3) + A4·W4) + A0·Wl) + b1 + b2, 0), each product a sum over
the contracted coordinate c of A_k(r, c) · W_k(c, j). The reference's value at row 2000·t + r is
max(((((T0·W0 + T1·W1) + T2·W2) + T3·W3) + T4·W4) + bc + T0·Wl + bl, 0) with the same sums over c of
T_k(2000·t + r, c) · Wc(k, c, j). The loaded blocks hold those entries, so the two sides are the same terms added in
another grouping; addition of extended reals is commutative and associative and 0 + x = x.
-/

set_option maxRecDepth 16384

noncomputable section

namespace Cert.TileLaw1

open Cert.KernelIdeal Cert.KernelIdeal.Gen Idealize.ShloMosaic Idealize.ShloMosaic.ValueIdx

/-- The tile's product into a zero accumulator, read at (r, j): the sum over the contracted coordinate. -/
theorem kmm {φ₁ φ₂ : FTy} (A : FVec Ideal S2000x128 φ₁) (B : FVec Ideal S128x128 φ₂) (r : Fin 2000) (j : Fin 128) :
    matmul dot_S2000x128_S128x128_S2000x128_1_0_0_1_n_n none A B (constant (F := Ideal) S2000x128 .f32 0x00000000#32) (ix2 r j)
      = ∑ c : Fin 128, A (ix2 r c) * B (ix2 c j) := by
  show FloatOps.matmul _ none A B _ (ix2 r j) = _
  rw [Ideal.matmul_constant_zero_apply, ← Equiv.sum_comp (contrEquiv1 dot_S2000x128_S128x128_S2000x128_1_0_0_1_n_n 128 rfl rfl).symm]
  refine Finset.sum_congr rfl fun c _ => ?_
  have c2 := contrEquiv1_symm_val dot_S2000x128_S128x128_S2000x128_1_0_0_1_n_n 128 rfl rfl c
  have l2 : (dot_S2000x128_S128x128_S2000x128_1_0_0_1_n_n).lhsIdx (ix2 r j) ((contrEquiv1 _ 128 rfl rfl).symm c) = ix2 r c := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : (dot_S2000x128_S128x128_S2000x128_1_0_0_1_n_n).rhsIdx (ix2 r j) ((contrEquiv1 _ 128 rfl rfl).symm c) = ix2 c j := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]

/-- The reference's product of the whole node array, read at (R, j): the same sum. -/
theorem rmm {φ₁ φ₂ : FTy} (A : FVec Ideal Cert.ReferenceIdeal.S50000x128 φ₁) (B : FVec Ideal Cert.ReferenceIdeal.S128x128 φ₂) (R : Fin 50000) (j : Fin 128) :
    Host.dotGeneral (F := Ideal) Cert.ReferenceIdeal.dot_S50000x128_S128x128_S50000x128_1_0_0_1_n_n none A B (ix2 R j)
      = ∑ c : Fin 128, A (ix2 R c) * B (ix2 c j) := by
  show FloatOps.dotGeneral _ none _ A B (ix2 R j) = _
  rw [Ideal.dotGeneral_apply, ← Equiv.sum_comp (contrEquiv1 Cert.ReferenceIdeal.dot_S50000x128_S128x128_S50000x128_1_0_0_1_n_n 128 rfl rfl).symm]
  refine Finset.sum_congr rfl fun c _ => ?_
  have c2 := contrEquiv1_symm_val Cert.ReferenceIdeal.dot_S50000x128_S128x128_S50000x128_1_0_0_1_n_n 128 rfl rfl c
  have l2 : (Cert.ReferenceIdeal.dot_S50000x128_S128x128_S50000x128_1_0_0_1_n_n).lhsIdx (ix2 R j) ((contrEquiv1 _ 128 rfl rfl).symm c) = ix2 R c := by
    funext ax; apply Fin.ext
    match ax with
    | ⟨0, _⟩ => simp [DotDims.lhsIdx, Cert.ReferenceIdeal.dot_S50000x128_S128x128_S50000x128_1_0_0_1_n_n]; rfl
    | ⟨1, _⟩ => simp [DotDims.lhsIdx, Cert.ReferenceIdeal.dot_S50000x128_S128x128_S50000x128_1_0_0_1_n_n]; exact c2
  have r2 : (Cert.ReferenceIdeal.dot_S50000x128_S128x128_S50000x128_1_0_0_1_n_n).rhsIdx (ix2 R j) ((contrEquiv1 _ 128 rfl rfl).symm c) = ix2 c j := by
    funext ax; apply Fin.ext
    match ax with
    | ⟨0, _⟩ => simp [DotDims.rhsIdx, Cert.ReferenceIdeal.dot_S50000x128_S128x128_S50000x128_1_0_0_1_n_n]; exact c2
    | ⟨1, _⟩ => simp [DotDims.rhsIdx, Cert.ReferenceIdeal.dot_S50000x128_S128x128_S50000x128_1_0_0_1_n_n]; rfl
  rw [l2, r2]

/-- A tile block under its unit-axis cast and rounding step (the identity here) times a filter matrix under its
    rounding step, into a zero accumulator, read at (r, j). -/
theorem kprod (a : Vec Ideal S1x2000x128 .f32) (w : FVec Ideal S128x128 .f32) (r : Fin 2000) (j : Fin 128) :
    matmul dot_S2000x128_S128x128_S2000x128_1_0_0_1_n_n none
        (truncf .bf16 (shapeCast S2000x128 a shapeCasts_S1x2000x128_S2000x128 : FVec Ideal S2000x128 .f32) bitsLt_bf16_f32)
        (truncf .bf16 w bitsLt_bf16_f32)
        (constant (F := Ideal) S2000x128 .f32 0x00000000#32) (ix2 r j)
      = ∑ c : Fin 128, a (ix3 0 r c) * w (ix2 c j) := by
  rw [kmm]
  refine Finset.sum_congr rfl fun c _ => ?_
  rw [truncf_apply, truncf_apply, shapeCast_1ab_ab_apply]

/-- Filter k cut out of the stack of five and cast to a matrix, read at (c, j). -/
theorem wslice {α : Type} (off : Fin 3 → Nat) (k : Fin 5) (h0 : off 0 = k.val) (h1 : off 1 = 0) (h2 : off 2 = 0)
    (Wc : Cert.ReferenceIdeal.S5x128x128.Idx → α)
    (h : Cert.ReferenceIdeal.S5x128x128.Slices off Cert.ReferenceIdeal.S1x128x128)
    (hc : Cert.ReferenceIdeal.S1x128x128.ShapeCasts Cert.ReferenceIdeal.S128x128) (c : Fin 128) (j : Fin 128) :
    shapeCast Cert.ReferenceIdeal.S128x128 (extractStridedSlice Cert.ReferenceIdeal.S1x128x128 off Wc h) hc (ix2 c j)
      = Wc (ix3 k c j) := by
  rw [shapeCast_1ab_ab_apply]
  refine extractStridedSlice_apply off Wc h _ _ fun a => ?_
  match a with
  | ⟨0, _⟩ => show k.val = off 0 + 0; omega
  | ⟨1, _⟩ => show c.val = off 1 + c.val; omega
  | ⟨2, _⟩ => show j.val = off 2 + j.val; omega

/-- A bias vector made a row and copied down the rows, read at (R, j). -/
theorem rbias {α : Type} (b : Cert.ReferenceIdeal.S128.Idx → α)
    (h1 : Cert.ReferenceIdeal.S1x128.BroadcastsInDim Cert.ReferenceIdeal.S50000x128 ![0, 1])
    (h2 : Cert.ReferenceIdeal.S128.BroadcastsInDim Cert.ReferenceIdeal.S1x128 ![1]) (R : Fin 50000) (j : Fin 128) :
    broadcastInDim Cert.ReferenceIdeal.S50000x128 ![0, 1] h1 (broadcastInDim Cert.ReferenceIdeal.S1x128 ![1] h2 b) (ix2 R j) = b (ix1 j) := by
  refine (broadcastInDim_apply _ _ _ (ix2 R j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- The zero constant copied to every entry, read at (R, j), is the extended real 0. -/
theorem rzero (h : Cert.ReferenceIdeal.S_.BroadcastsInDim Cert.ReferenceIdeal.S50000x128 ![]) (R : Fin 50000) (j : Fin 128) :
    broadcastInDim Cert.ReferenceIdeal.S50000x128 ![] h (constant (F := Ideal) Cert.ReferenceIdeal.S_ .f32 0x00000000#32) (ix2 R j) = (0 : EReal) :=
  Ideal.ofBits_zero_f32

/-- A bias row copied down the tile's rows, read at (r, j). -/
theorem kbias {α : Type} (b : S1x128.Idx → α) (hc : S1x128.ShapeCasts S1x128) (hb : S1x128.Broadcasts S2000x128)
    (r : Fin 2000) (j : Fin 128) :
    broadcastTo S2000x128 (shapeCast S1x128 b hc) hb (ix2 r j) = b (ix2 0 j) := by
  rw [shapeCast_self, broadcastTo_1b_ab_apply]

/-- Row `r` of row tile `t` is row `2000·t + r` of the node arrays. -/
def rowAt (t : Fin 25) (r : Fin 2000) : Fin 50000 := ⟨2000 * t.val + r.val, by have := t.isLt; have := r.isLt; omega⟩

theorem tile_law
    (T0 T1 T2 T3 T4 : (⟨Cert.ReferenceIdeal.S50000x128, .f32⟩ : BufTy).Contents (Elt Ideal)) (Wc : (⟨Cert.ReferenceIdeal.S5x128x128, .f32⟩ : BufTy).Contents (Elt Ideal)) (bc : (⟨Cert.ReferenceIdeal.S128, .f32⟩ : BufTy).Contents (Elt Ideal))
    (Wl : (⟨Cert.ReferenceIdeal.S128x128, .f32⟩ : BufTy).Contents (Elt Ideal)) (bl : (⟨Cert.ReferenceIdeal.S128, .f32⟩ : BufTy).Contents (Elt Ideal)) (t : Fin 25)
    (a0 a1 a2 a3 a4 : Vec Ideal S1x2000x128 .f32) (w0 w1 w2 w3 w4 : Vec Ideal S1x128x128 .f32) (wl : Vec Ideal S128x128 .f32) (b1 b2 : Vec Ideal S1x128 .f32)
    (ha0 : ∀ (r : Fin 2000) (i : Fin 128), a0 (ix3 0 r i) = T0 (ix2 (rowAt t r) i))
    (ha1 : ∀ (r : Fin 2000) (i : Fin 128), a1 (ix3 0 r i) = T1 (ix2 (rowAt t r) i))
    (ha2 : ∀ (r : Fin 2000) (i : Fin 128), a2 (ix3 0 r i) = T2 (ix2 (rowAt t r) i))
    (ha3 : ∀ (r : Fin 2000) (i : Fin 128), a3 (ix3 0 r i) = T3 (ix2 (rowAt t r) i))
    (ha4 : ∀ (r : Fin 2000) (i : Fin 128), a4 (ix3 0 r i) = T4 (ix2 (rowAt t r) i))
    (hw0 : ∀ (i : Fin 128) (j : Fin 128), w0 (ix3 0 i j) = Wc (ix3 0 i j))
    (hw1 : ∀ (i : Fin 128) (j : Fin 128), w1 (ix3 0 i j) = Wc (ix3 1 i j))
    (hw2 : ∀ (i : Fin 128) (j : Fin 128), w2 (ix3 0 i j) = Wc (ix3 2 i j))
    (hw3 : ∀ (i : Fin 128) (j : Fin 128), w3 (ix3 0 i j) = Wc (ix3 3 i j))
    (hw4 : ∀ (i : Fin 128) (j : Fin 128), w4 (ix3 0 i j) = Wc (ix3 4 i j))
    (hwl : ∀ (i : Fin 128) (j : Fin 128), wl (ix2 i j) = Wl (ix2 i j))
    (hb1 : ∀ j : Fin 128, b1 (ix2 0 j) = bc (ix1 j)) (hb2 : ∀ j : Fin 128, b2 (ix2 0 j) = bl (ix1 j))
    (r : Fin 2000) (j : Fin 128) :
    k1_pay1 (F := Ideal) (k1_pay2 a0 w0 a1 w1 a2 w2) (k1_pay3 a3) (k1_pay4 w3) a4 w4 a0 wl b1 b2 (ix2 r j)
      = Cert.ReferenceIdeal.Terms.combine1 (F := Ideal) T0 T1 T2 T3 T4 Wc bc Wl bl (ix2 (rowAt t r) j) := by
  have hz : (Scalar.ofBits (F := Ideal) .f32 0x00000000#32 : Ideal .f32) = (0 : EReal) := Ideal.ofBits_zero_f32
  have s0 := fun h hc c => wslice ![0, 0, 0] 0 rfl rfl rfl Wc h hc c j
  have s1 := fun h hc c => wslice ![1, 0, 0] 1 rfl rfl rfl Wc h hc c j
  have s2 := fun h hc c => wslice ![2, 0, 0] 2 rfl rfl rfl Wc h hc c j
  have s3 := fun h hc c => wslice ![3, 0, 0] 3 rfl rfl rfl Wc h hc c j
  have s4 := fun h hc c => wslice ![4, 0, 0] 4 rfl rfl rfl Wc h hc c j
  unfold k1_pay1 k1_pay2 k1_pay3 k1_pay4 Cert.ReferenceIdeal.Terms.combine1
  simp only [maximumf_apply, addf_apply]
  rw [rbias, rbias, rzero]
  simp only [kprod, rmm, kbias, broadcast_apply, shapeCast_1ab_ab_apply,
    s0, s1, s2, s3, s4, ha0, ha1, ha2, ha3, ha4, hw0, hw1, hw2, hw3, hw4, hwl, hb1, hb2, hz, zero_add]
  ac_rfl

end Cert.TileLaw1

end
-- ==== Proof.IdealTile1.lean ====
import proofs.«162653_j26706106646651_1_alg».proof.Proof.IdealLayer1
import proofs.«162653_j26706106646651_1_alg».proof.Proof.TileLaw1
import proofs.«162653_j26706106646651_1_alg».proof.Proof.IdealGlueDefs
import proofs.«162653_j26706106646651_1_alg».proof.Proof.Layout
import proofs.«162653_j26706106646651_1_alg».proof.Proof.Terms
import Idealize.ShloMosaic.Lib.Pipeline.Value
import Idealize.ShloMosaic.Lib.ValueIdx

/-!
# Layer 1: from the tiles to the whole output array

The layer runs over 25 row tiles of 2000 nodes. Tile `t` is handed rows `2000·t … 2000·t + 1999` of each stacked
Chebyshev term and the whole of the filter, bias and residual arrays, and writes back rows `2000·t … 2000·t + 1999` of
the output. When those arrays hold the stack of `T_0 … T_4`, the filters, the residual matrix and the two bias vectors
as one-row matrices, the value a tile writes at `(r, j)` is, by the tile law, the reference's combination at
`(2000·t + r, j)`. Every row `n` of the output lies in tile `n / 2000`, so the 25 write-backs fill the array with the
reference's combination.
-/

set_option maxRecDepth 16384

noncomputable section

namespace Cert.KernelIdeal.Tile1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- The grid point as a tile number below 25. -/
abbrev tileOf (t : Fin cfg1.N) : Fin 25 := t.cast N_1

/-- The index maps over the grid: the stack's window moves down the node axis with the tile, the four weight windows
    stay at block 0, and the output's window moves down its rows with the tile. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Pieces

variable (V : (c : Dev nD) → (b : Ref sig .tc) → Buf (Elt Ideal) ((c : Thread nD τ).loc b)) (c : Dev nD)

/-- The stack's block at tile `t` holds, at `(k, r, i)`, the stack's entry `(k, 2000·t + r, i)`. -/
theorem block0_apply (t : Fin cfg1.N) (k : Fin 5) (r : Fin 2000) (i : Fin 128) :
    (Layer1.blockAt V c 0 t : S5x2000x128.Idx → Elt Ideal .f32) (ix3 k r i)
      = (V c main_v168 : S5x50000x128.Idx → Elt Ideal .f32) (ix3 k (Cert.TileLaw1.rowAt (tileOf t) r) i) := by
  obtain ⟨e0, e1, e2, -⟩ := idx_facts t
  unfold Layer1.blockAt
  rw [View.read_apply]
  show V c main_v168 _ = V c main_v168 _
  congr 1
  funext a
  apply Fin.ext
  match a with
  | ⟨0, _⟩ => show win1_0.index t (0 : Fin 3) * 5 + 1 * k.val = k.val; rw [e0]; omega
  | ⟨1, _⟩ => show win1_0.index t (1 : Fin 3) * 2000 + 1 * r.val = 2000 * t.val + r.val; rw [e1]; omega
  | ⟨2, _⟩ => show win1_0.index t (2 : Fin 3) * 128 + 1 * i.val = i.val; rw [e2]; omega

/-- Window 1's block is the whole of its array at every tile. -/
theorem block1_eq (t : Fin cfg1.N) :
    (Layer1.blockAt V c 1 t : S5x128x128.Idx → Elt Ideal .f32) = (V c main_arg6 : S5x128x128.Idx → Elt Ideal .f32) := by
  obtain ⟨-, -, -, e0, e1, e2, -⟩ := idx_facts t
  funext y
  unfold Layer1.blockAt
  rw [View.read_apply]
  show V c main_arg6 _ = V c main_arg6 _
  congr 1
  funext a
  apply Fin.ext
  match a with
  | ⟨0, _⟩ => show win1_1.index t (0 : Fin 3) * 5 + 1 * (y 0).val = (y 0).val; rw [e0]; omega
  | ⟨1, _⟩ => show win1_1.index t (1 : Fin 3) * 128 + 1 * (y 1).val = (y 1).val; rw [e1]; omega
  | ⟨2, _⟩ => show win1_1.index t (2 : Fin 3) * 128 + 1 * (y 2).val = (y 2).val; rw [e2]; omega

/-- Window 2's block is the whole of its array at every tile. -/
theorem block2_eq (t : Fin cfg1.N) :
    (Layer1.blockAt V c 2 t : S1x128.Idx → Elt Ideal .f32) = (V c main_v169 : S1x128.Idx → Elt Ideal .f32) := by
  obtain ⟨-, -, -, -, -, -, e0, e1, -⟩ := idx_facts t
  funext y
  unfold Layer1.blockAt
  rw [View.read_apply]
  show V c main_v169 _ = V c main_v169 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- Window 3's block is the whole of its array at every tile. -/
theorem block3_eq (t : Fin cfg1.N) :
    (Layer1.blockAt V c 3 t : S128x128.Idx → Elt Ideal .f32) = (V c main_arg8 : S128x128.Idx → Elt Ideal .f32) := by
  obtain ⟨-, -, -, -, -, -, -, -, e0, e1, -⟩ := idx_facts t
  funext y
  unfold Layer1.blockAt
  rw [View.read_apply]
  show V c main_arg8 _ = V c main_arg8 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Window 4's block is the whole of its array at every tile. -/
theorem block4_eq (t : Fin cfg1.N) :
    (Layer1.blockAt V c 4 t : S1x128.Idx → Elt Ideal .f32) = (V c main_v170 : S1x128.Idx → Elt Ideal .f32) := by
  obtain ⟨-, -, -, -, -, -, -, -, -, -, e0, e1, -⟩ := idx_facts t
  funext y
  unfold Layer1.blockAt
  rw [View.read_apply]
  show V c main_v170 _ = V c main_v170 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- Slab `k` of a stack block, loaded as a one-slab array, reads at `(0, r, i)` the block at `(k, r, i)`. -/
theorem stack_slab (X : Vec Ideal S5x2000x128 .f32) (k : Fin 5) (off : Fin 3 → Nat) (h0 : off 0 = k.val) (h1 : off 1 = 0) (h2 : off 2 = 0)
    (inb : ∀ a, off a + S1x2000x128.size a ≤ S5x2000x128.size a) (r : Fin 2000) (i : Fin 128) :
    (View.ld X (Rect.unit (s := S5x2000x128) off S1x2000x128.size inb) : Vec Ideal S1x2000x128 .f32) (ix3 0 r i) = X (ix3 k r i) := by
  show X _ = X _
  congr 1
  funext a
  apply Fin.ext
  match a with
  | ⟨0, _⟩ => show off 0 + 1 * 0 = k.val; omega
  | ⟨1, _⟩ => show off 1 + 1 * r.val = r.val; omega
  | ⟨2, _⟩ => show off 2 + 1 * i.val = i.val; omega

/-- Filter `k` of the filter block, loaded as a one-slab array, reads at `(0, i, j)` the block at `(k, i, j)`. -/
theorem filter_slab (X : Vec Ideal S5x128x128 .f32) (k : Fin 5) (off : Fin 3 → Nat) (h0 : off 0 = k.val) (h1 : off 1 = 0) (h2 : off 2 = 0)
    (inb : ∀ a, off a + S1x128x128.size a ≤ S5x128x128.size a) (i : Fin 128) (j : Fin 128) :
    (View.ld X (Rect.unit (s := S5x128x128) off S1x128x128.size inb) : Vec Ideal S1x128x128 .f32) (ix3 0 i j) = X (ix3 k i j) := by
  show X _ = X _
  congr 1
  funext a
  apply Fin.ext
  match a with
  | ⟨0, _⟩ => show off 0 + 1 * 0 = k.val; omega
  | ⟨1, _⟩ => show off 1 + 1 * i.val = i.val; omega
  | ⟨2, _⟩ => show off 2 + 1 * j.val = j.val; omega

/-- Row `r`, column `q` of the output's block at tile `t` is row `2000·t + r`, column `q` of the output array. -/
theorem out_emb (t : Fin cfg1.N) (r : Fin 2000) (q : Fin 128) :
    (((cfg1.win 5).blk t).view.emb (ix2 r q : S2000x128.Idx) : S50000x128.Idx) = ix2 (Cert.TileLaw1.rowAt (tileOf t) r) q := by
  obtain ⟨-, -, -, -, -, -, -, -, -, -, -, -, e0, e1⟩ := idx_facts t
  funext a
  apply Fin.ext
  match a with
  | ⟨0, _⟩ => show win1_5.index t (0 : Fin 2) * 2000 + 1 * r.val = 2000 * t.val + r.val; rw [e0]; omega
  | ⟨1, _⟩ => show win1_5.index t (1 : Fin 2) * 128 + 1 * q.val = q.val; rw [e1]; omega

/-- An index of the output array is in tile `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v171).slice (win1_5.rect t)).set ↔ _
  rw [View.set_slice_whole, Rect.mem_set_unit]
  exact Iff.rfl

/-- Every row of the output array lies in the block of the tile its number divided by 2000 names. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, -, -, -, -, -, -, -, -, e0, e1⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e1]; omega

variable (T0 T1 T2 T3 T4 : (⟨Cert.ReferenceIdeal.S50000x128, .f32⟩ : BufTy).Contents (Elt Ideal)) (Wc : (⟨Cert.ReferenceIdeal.S5x128x128, .f32⟩ : BufTy).Contents (Elt Ideal)) (bc : (⟨Cert.ReferenceIdeal.S128, .f32⟩ : BufTy).Contents (Elt Ideal))
  (Wl : (⟨Cert.ReferenceIdeal.S128x128, .f32⟩ : BufTy).Contents (Elt Ideal)) (bl : (⟨Cert.ReferenceIdeal.S128, .f32⟩ : BufTy).Contents (Elt Ideal))

/-- Slab `k` of the stack's block at tile `t` holds the tile's rows of term `k`. -/
theorem term_rows (hS : (V c main_v168 : S5x50000x128.Idx → Elt Ideal .f32) = Glue.stack128 T0 T1 T2 T3 T4)
    (t : Fin cfg1.N) (k : Fin 5) (off : Fin 3 → Nat) (h0 : off 0 = k.val) (h1 : off 1 = 0) (h2 : off 2 = 0)
    (inb : ∀ a, off a + S1x2000x128.size a ≤ S5x2000x128.size a) (r : Fin 2000) (i : Fin 128) :
    (View.ld (Layer1.blockAt V c 0 t : Vec Ideal S5x2000x128 .f32) (Rect.unit (s := S5x2000x128) off S1x2000x128.size inb) : Vec Ideal S1x2000x128 .f32) (ix3 0 r i)
      = (![T0, T1, T2, T3, T4] k) (ix2 (Cert.TileLaw1.rowAt (tileOf t) r) i) := by
  rw [stack_slab _ k off h0 h1 h2 inb r i, block0_apply, hS, Layout.stack128_apply]

/-- Slab `k` of the filter block is filter `k`. -/
theorem filter_entries (hWc : (V c main_arg6 : S5x128x128.Idx → Elt Ideal .f32) = Wc)
    (t : Fin cfg1.N) (k : Fin 5) (off : Fin 3 → Nat) (h0 : off 0 = k.val) (h1 : off 1 = 0) (h2 : off 2 = 0)
    (inb : ∀ a, off a + S1x128x128.size a ≤ S5x128x128.size a) (i : Fin 128) (j : Fin 128) :
    (View.ld (Layer1.blockAt V c 1 t : Vec Ideal S5x128x128 .f32) (Rect.unit (s := S5x128x128) off S1x128x128.size inb) : Vec Ideal S1x128x128 .f32) (ix3 0 i j)
      = Wc (ix3 k i j) := by
  rw [filter_slab _ k off h0 h1 h2 inb i j, block1_eq, hWc]

/-- The residual matrix's block, loaded whole, is the matrix. -/
theorem residual_entries (hWl : (V c main_arg8 : S128x128.Idx → Elt Ideal .f32) = Wl) (t : Fin cfg1.N)
    (inb : ∀ a, (![0, 0] : Fin 2 → Nat) a + S128x128.size a ≤ S128x128.size a) (i : Fin 128) (j : Fin 128) :
    (View.ld (Layer1.blockAt V c 3 t : Vec Ideal S128x128 .f32) (Rect.unit (s := S128x128) ![0, 0] S128x128.size inb) : Vec Ideal S128x128 .f32) (ix2 i j)
      = Wl (ix2 i j) := by
  rw [View.ld_unit_zero (S := S128x128) hz, block3_eq, hWl]

/-- A bias row's block, loaded whole, holds the bias vector's entries in its one row. -/
theorem bias_entries (w : Fin cfg1.W) (ref : Ref sig .tc) (b : (⟨Cert.ReferenceIdeal.S128, .f32⟩ : BufTy).Contents (Elt Ideal))
    (X : Vec Ideal S1x128 .f32) (hX : X = shapeCast S1x128 b Facts₀.shapeCasts_S128_S1x128)
    (inb : ∀ a, (![0, 0] : Fin 2 → Nat) a + S1x128.size a ≤ S1x128.size a) (j : Fin 128) :
    (View.ld X (Rect.unit (s := S1x128) ![0, 0] S1x128.size inb) : Vec Ideal S1x128 .f32) (ix2 0 j) = b (ix1 j) := by
  rw [View.ld_unit_zero (S := S1x128) hz, hX]
  exact Layout.row128_apply b j

/-- WHAT TILE `t` WRITES BACK is block `t` of the reference's combination. -/
theorem flushed_eq
    (hS : (V c main_v168 : S5x50000x128.Idx → Elt Ideal .f32) = Glue.stack128 T0 T1 T2 T3 T4)
    (hWc : (V c main_arg6 : S5x128x128.Idx → Elt Ideal .f32) = Wc)
    (hbc : (V c main_v169 : S1x128.Idx → Elt Ideal .f32) = shapeCast S1x128 bc Facts₀.shapeCasts_S128_S1x128)
    (hWl : (V c main_arg8 : S128x128.Idx → Elt Ideal .f32) = Wl)
    (hbl : (V c main_v170 : S1x128.Idx → Elt Ideal .f32) = shapeCast S1x128 bl Facts₀.shapeCasts_S128_S1x128)
    (t : Fin cfg1.N) :
    (Layer1.layerDat V c).flushed 5 t
      = ((cfg1.win 5).blk t).view.read (Elt Ideal) (Cert.ReferenceIdeal.Terms.combine1 (F := Ideal) T0 T1 T2 T3 T4 Wc bc Wl bl) := by
  show (cfg1.win 5).cut (grid1.coords t) ((Layer1.layerDat V c).after 5 t) = _
  rw [Layer1.after5]
  unfold Layer1.tileOut
  rw [View.canon_unit_zero hz]
  funext j
  obtain ⟨r, q, rfl⟩ : ∃ (r : Fin 2000) (q : Fin 128), j = ix2 r q := ⟨j 0, j 1, eq_ix2 j⟩
  rw [View.read_apply]
  refine Eq.trans ?_ (congrArg (Cert.ReferenceIdeal.Terms.combine1 (F := Ideal) T0 T1 T2 T3 T4 Wc bc Wl bl) (out_emb t r q).symm)
  refine Cert.TileLaw1.tile_law T0 T1 T2 T3 T4 Wc bc Wl bl (tileOf t) _ _ _ _ _ _ _ _ _ _ _ _ _
    (fun r i => term_rows V c T0 T1 T2 T3 T4 hS t 0 _ rfl rfl rfl _ r i)
    (fun r i => term_rows V c T0 T1 T2 T3 T4 hS t 1 _ rfl rfl rfl _ r i)
    (fun r i => term_rows V c T0 T1 T2 T3 T4 hS t 2 _ rfl rfl rfl _ r i)
    (fun r i => term_rows V c T0 T1 T2 T3 T4 hS t 3 _ rfl rfl rfl _ r i)
    (fun r i => term_rows V c T0 T1 T2 T3 T4 hS t 4 _ rfl rfl rfl _ r i)
    (fun i j => filter_entries V c Wc hWc t 0 _ rfl rfl rfl _ i j)
    (fun i j => filter_entries V c Wc hWc t 1 _ rfl rfl rfl _ i j)
    (fun i j => filter_entries V c Wc hWc t 2 _ rfl rfl rfl _ i j)
    (fun i j => filter_entries V c Wc hWc t 3 _ rfl rfl rfl _ i j)
    (fun i j => filter_entries V c Wc hWc t 4 _ rfl rfl rfl _ i j)
    (fun i j => residual_entries V c Wl hWl t _ i j)
    (fun j => bias_entries 2 main_v169 bc _ ((block2_eq V c t).trans hbc) _ j)
    (fun j => bias_entries 4 main_v170 bl _ ((block4_eq V c t).trans hbl) _ j)
    r q

end Pieces

/-- THE LAYER'S OUTPUT ARRAY. If the region finds the stack of `T_0 … T_4` in its first window's array, the layer's
    filter and residual matrices in the second and fourth, and the two bias vectors as one-row matrices in the third
    and fifth, then after its 25 grid points its output array holds the reference's combination of them. -/
theorem layer_array (V : (c : Dev nD) → (b : Ref sig .tc) → Buf (Elt Ideal) ((c : Thread nD τ).loc b)) (c : Dev nD)
    (T0 T1 T2 T3 T4 : (⟨Cert.ReferenceIdeal.S50000x128, .f32⟩ : BufTy).Contents (Elt Ideal)) (Wc : (⟨Cert.ReferenceIdeal.S5x128x128, .f32⟩ : BufTy).Contents (Elt Ideal)) (bc : (⟨Cert.ReferenceIdeal.S128, .f32⟩ : BufTy).Contents (Elt Ideal))
    (Wl : (⟨Cert.ReferenceIdeal.S128x128, .f32⟩ : BufTy).Contents (Elt Ideal)) (bl : (⟨Cert.ReferenceIdeal.S128, .f32⟩ : BufTy).Contents (Elt Ideal))
    (hS : (V c main_v168 : S5x50000x128.Idx → Elt Ideal .f32) = Glue.stack128 T0 T1 T2 T3 T4)
    (hWc : (V c main_arg6 : S5x128x128.Idx → Elt Ideal .f32) = Wc)
    (hbc : (V c main_v169 : S1x128.Idx → Elt Ideal .f32) = shapeCast S1x128 bc Facts₀.shapeCasts_S128_S1x128)
    (hWl : (V c main_arg8 : S128x128.Idx → Elt Ideal .f32) = Wl)
    (hbl : (V c main_v170 : S1x128.Idx → Elt Ideal .f32) = shapeCast S1x128 bl Facts₀.shapeCasts_S128_S1x128) :
    ((Layer1.layerDat V c).arrAt 5 cfg1.N : S50000x128.Idx → Elt Ideal .f32)
      = Cert.ReferenceIdeal.Terms.combine1 (F := Ideal) T0 T1 T2 T3 T4 Wc bc Wl bl := by
  exact (Layer1.layerDat V c).arrAt_eq_of_cover 5 (Cert.ReferenceIdeal.Terms.combine1 (F := Ideal) T0 T1 T2 T3 T4 Wc bc Wl bl)
    (fun t _ => flushed_eq V c T0 T1 T2 T3 T4 Wc bc Wl bl hS hWc hbc hWl hbl t) cover

end Cert.KernelIdeal.Tile1

end
-- ==== Proof.TileLaw2.lean ====
import proofs.«162653_j26706106646651_1_alg».proof.Proof.Gen.KernelIdeal.Skeleton
import proofs.«162653_j26706106646651_1_alg».proof.Proof.Terms
import Idealize.ShloMosaic.PureOps.Ideal.Laws
import Idealize.ShloMosaic.Lib.ValueIdx
import Idealize.ShloMosaic.Lib.ValueLayout
import Idealize.ShloMosaic.Lib.Pipeline.Value

/-!
# One row tile of layer 2 against the reference's combination

At the extended reals every operation is exact and a rounding step is the identity. The tile's stored value at
(r, j) is ((((((0 + A0·W0) + A1·W1) + A2·W2) + A3·W3) + A4·W4) + A0·Wl) + b1 + b2, each product a sum over the
contracted coordinate c of A_k(r, c) · W_k(c, j). The reference's value at row 2000·t + r is
((((T0·W0 + T1·W1) + T2·W2) + T3·W3) + T4·W4) + bc + T0·Wl + bl with the same sums over c of
T_k(2000·t + r, c) · Wc(k, c, j); this layer takes no maximum with 0. The loaded blocks hold those entries, so the two
sides are the same terms added in another grouping; addition of extended reals is commutative and associative and
0 + x = x.
-/

set_option maxRecDepth 16384

noncomputable section

namespace Cert.TileLaw2

open Cert.KernelIdeal Cert.KernelIdeal.Gen Idealize.ShloMosaic Idealize.ShloMosaic.ValueIdx

/-- The tile's product into a zero accumulator, read at (r, j): the sum over the contracted coordinate. -/
theorem kmm {φ₁ φ₂ : FTy} (A : FVec Ideal S2000x128 φ₁) (B : FVec Ideal S128x350 φ₂) (r : Fin 2000) (j : Fin 350) :
    matmul dot_S2000x128_S128x350_S2000x350_1_0_0_1_n_n none A B (constant (F := Ideal) S2000x350 .f32 0x00000000#32) (ix2 r j)
      = ∑ c : Fin 128, A (ix2 r c) * B (ix2 c j) := by
  show FloatOps.matmul _ none A B _ (ix2 r j) = _
  rw [Ideal.matmul_constant_zero_apply, ← Equiv.sum_comp (contrEquiv1 dot_S2000x128_S128x350_S2000x350_1_0_0_1_n_n 128 rfl rfl).symm]
  refine Finset.sum_congr rfl fun c _ => ?_
  have c2 := contrEquiv1_symm_val dot_S2000x128_S128x350_S2000x350_1_0_0_1_n_n 128 rfl rfl c
  have l2 : (dot_S2000x128_S128x350_S2000x350_1_0_0_1_n_n).lhsIdx (ix2 r j) ((contrEquiv1 _ 128 rfl rfl).symm c) = ix2 r c := by
    funext ax; apply Fin.ext
    match ax with
    | ⟨0, _⟩ => simp [DotDims.lhsIdx, dot_S2000x128_S128x350_S2000x350_1_0_0_1_n_n]; rfl
    | ⟨1, _⟩ => simp [DotDims.lhsIdx, dot_S2000x128_S128x350_S2000x350_1_0_0_1_n_n]; exact c2
  have r2 : (dot_S2000x128_S128x350_S2000x350_1_0_0_1_n_n).rhsIdx (ix2 r j) ((contrEquiv1 _ 128 rfl rfl).symm c) = ix2 c j := by
    funext ax; apply Fin.ext
    match ax with
    | ⟨0, _⟩ => simp [DotDims.rhsIdx, dot_S2000x128_S128x350_S2000x350_1_0_0_1_n_n]; exact c2
    | ⟨1, _⟩ => simp [DotDims.rhsIdx, dot_S2000x128_S128x350_S2000x350_1_0_0_1_n_n]; rfl
  rw [l2, r2]

/-- The reference's product of the whole node array, read at (R, j): the same sum. -/
theorem rmm {φ₁ φ₂ : FTy} (A : FVec Ideal Cert.ReferenceIdeal.S50000x128 φ₁) (B : FVec Ideal Cert.ReferenceIdeal.S128x350 φ₂) (R : Fin 50000) (j : Fin 350) :
    Host.dotGeneral (F := Ideal) Cert.ReferenceIdeal.dot_S50000x128_S128x350_S50000x350_1_0_0_1_n_n none A B (ix2 R j)
      = ∑ c : Fin 128, A (ix2 R c) * B (ix2 c j) := by
  show FloatOps.dotGeneral _ none _ A B (ix2 R j) = _
  rw [Ideal.dotGeneral_apply, ← Equiv.sum_comp (contrEquiv1 Cert.ReferenceIdeal.dot_S50000x128_S128x350_S50000x350_1_0_0_1_n_n 128 rfl rfl).symm]
  refine Finset.sum_congr rfl fun c _ => ?_
  have c2 := contrEquiv1_symm_val Cert.ReferenceIdeal.dot_S50000x128_S128x350_S50000x350_1_0_0_1_n_n 128 rfl rfl c
  have l2 : (Cert.ReferenceIdeal.dot_S50000x128_S128x350_S50000x350_1_0_0_1_n_n).lhsIdx (ix2 R j) ((contrEquiv1 _ 128 rfl rfl).symm c) = ix2 R c := by
    funext ax; apply Fin.ext
    match ax with
    | ⟨0, _⟩ => simp [DotDims.lhsIdx, Cert.ReferenceIdeal.dot_S50000x128_S128x350_S50000x350_1_0_0_1_n_n]; rfl
    | ⟨1, _⟩ => simp [DotDims.lhsIdx, Cert.ReferenceIdeal.dot_S50000x128_S128x350_S50000x350_1_0_0_1_n_n]; exact c2
  have r2 : (Cert.ReferenceIdeal.dot_S50000x128_S128x350_S50000x350_1_0_0_1_n_n).rhsIdx (ix2 R j) ((contrEquiv1 _ 128 rfl rfl).symm c) = ix2 c j := by
    funext ax; apply Fin.ext
    match ax with
    | ⟨0, _⟩ => simp [DotDims.rhsIdx, Cert.ReferenceIdeal.dot_S50000x128_S128x350_S50000x350_1_0_0_1_n_n]; exact c2
    | ⟨1, _⟩ => simp [DotDims.rhsIdx, Cert.ReferenceIdeal.dot_S50000x128_S128x350_S50000x350_1_0_0_1_n_n]; rfl
  rw [l2, r2]

/-- A tile block under its unit-axis cast and rounding step (the identity here) times a filter matrix under its
    rounding step, into a zero accumulator, read at (r, j). -/
theorem kprod (a : Vec Ideal S1x2000x128 .f32) (w : FVec Ideal S128x350 .f32) (r : Fin 2000) (j : Fin 350) :
    matmul dot_S2000x128_S128x350_S2000x350_1_0_0_1_n_n none
        (truncf .bf16 (shapeCast S2000x128 a shapeCasts_S1x2000x128_S2000x128 : FVec Ideal S2000x128 .f32) bitsLt_bf16_f32)
        (truncf .bf16 w bitsLt_bf16_f32)
        (constant (F := Ideal) S2000x350 .f32 0x00000000#32) (ix2 r j)
      = ∑ c : Fin 128, a (ix3 0 r c) * w (ix2 c j) := by
  rw [kmm]
  refine Finset.sum_congr rfl fun c _ => ?_
  rw [truncf_apply, truncf_apply, shapeCast_1ab_ab_apply]

/-- Filter k cut out of the stack of five and cast to a matrix, read at (c, j). -/
theorem wslice {α : Type} (off : Fin 3 → Nat) (k : Fin 5) (h0 : off 0 = k.val) (h1 : off 1 = 0) (h2 : off 2 = 0)
    (Wc : Cert.ReferenceIdeal.S5x128x350.Idx → α)
    (h : Cert.ReferenceIdeal.S5x128x350.Slices off Cert.ReferenceIdeal.S1x128x350)
    (hc : Cert.ReferenceIdeal.S1x128x350.ShapeCasts Cert.ReferenceIdeal.S128x350) (c : Fin 128) (j : Fin 350) :
    shapeCast Cert.ReferenceIdeal.S128x350 (extractStridedSlice Cert.ReferenceIdeal.S1x128x350 off Wc h) hc (ix2 c j)
      = Wc (ix3 k c j) := by
  rw [shapeCast_1ab_ab_apply]
  refine extractStridedSlice_apply off Wc h _ _ fun a => ?_
  match a with
  | ⟨0, _⟩ => show k.val = off 0 + 0; omega
  | ⟨1, _⟩ => show c.val = off 1 + c.val; omega
  | ⟨2, _⟩ => show j.val = off 2 + j.val; omega

/-- A bias vector made a row and copied down the rows, read at (R, j). -/
theorem rbias {α : Type} (b : Cert.ReferenceIdeal.S350.Idx → α)
    (h1 : Cert.ReferenceIdeal.S1x350.BroadcastsInDim Cert.ReferenceIdeal.S50000x350 ![0, 1])
    (h2 : Cert.ReferenceIdeal.S350.BroadcastsInDim Cert.ReferenceIdeal.S1x350 ![1]) (R : Fin 50000) (j : Fin 350) :
    broadcastInDim Cert.ReferenceIdeal.S50000x350 ![0, 1] h1 (broadcastInDim Cert.ReferenceIdeal.S1x350 ![1] h2 b) (ix2 R j) = b (ix1 j) := by
  refine (broadcastInDim_apply _ _ _ (ix2 R j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- A bias row copied down the tile's rows, read at (r, j). -/
theorem kbias {α : Type} (b : S1x350.Idx → α) (hc : S1x350.ShapeCasts S1x350) (hb : S1x350.Broadcasts S2000x350)
    (r : Fin 2000) (j : Fin 350) :
    broadcastTo S2000x350 (shapeCast S1x350 b hc) hb (ix2 r j) = b (ix2 0 j) := by
  rw [shapeCast_self, broadcastTo_1b_ab_apply]

/-- Row `r` of row tile `t` is row `2000·t + r` of the node arrays. -/
def rowAt (t : Fin 25) (r : Fin 2000) : Fin 50000 := ⟨2000 * t.val + r.val, by have := t.isLt; have := r.isLt; omega⟩

theorem tile_law
    (T0 T1 T2 T3 T4 : (⟨Cert.ReferenceIdeal.S50000x128, .f32⟩ : BufTy).Contents (Elt Ideal)) (Wc : (⟨Cert.ReferenceIdeal.S5x128x350, .f32⟩ : BufTy).Contents (Elt Ideal)) (bc : (⟨Cert.ReferenceIdeal.S350, .f32⟩ : BufTy).Contents (Elt Ideal))
    (Wl : (⟨Cert.ReferenceIdeal.S128x350, .f32⟩ : BufTy).Contents (Elt Ideal)) (bl : (⟨Cert.ReferenceIdeal.S350, .f32⟩ : BufTy).Contents (Elt Ideal)) (t : Fin 25)
    (a0 a1 a2 a3 a4 : Vec Ideal S1x2000x128 .f32) (w0 w1 w2 w3 w4 : Vec Ideal S1x128x350 .f32) (wl : Vec Ideal S128x350 .f32) (b1 b2 : Vec Ideal S1x350 .f32)
    (ha0 : ∀ (r : Fin 2000) (i : Fin 128), a0 (ix3 0 r i) = T0 (ix2 (rowAt t r) i))
    (ha1 : ∀ (r : Fin 2000) (i : Fin 128), a1 (ix3 0 r i) = T1 (ix2 (rowAt t r) i))
    (ha2 : ∀ (r : Fin 2000) (i : Fin 128), a2 (ix3 0 r i) = T2 (ix2 (rowAt t r) i))
    (ha3 : ∀ (r : Fin 2000) (i : Fin 128), a3 (ix3 0 r i) = T3 (ix2 (rowAt t r) i))
    (ha4 : ∀ (r : Fin 2000) (i : Fin 128), a4 (ix3 0 r i) = T4 (ix2 (rowAt t r) i))
    (hw0 : ∀ (i : Fin 128) (j : Fin 350), w0 (ix3 0 i j) = Wc (ix3 0 i j))
    (hw1 : ∀ (i : Fin 128) (j : Fin 350), w1 (ix3 0 i j) = Wc (ix3 1 i j))
    (hw2 : ∀ (i : Fin 128) (j : Fin 350), w2 (ix3 0 i j) = Wc (ix3 2 i j))
    (hw3 : ∀ (i : Fin 128) (j : Fin 350), w3 (ix3 0 i j) = Wc (ix3 3 i j))
    (hw4 : ∀ (i : Fin 128) (j : Fin 350), w4 (ix3 0 i j) = Wc (ix3 4 i j))
    (hwl : ∀ (i : Fin 128) (j : Fin 350), wl (ix2 i j) = Wl (ix2 i j))
    (hb1 : ∀ j : Fin 350, b1 (ix2 0 j) = bc (ix1 j)) (hb2 : ∀ j : Fin 350, b2 (ix2 0 j) = bl (ix1 j))
    (r : Fin 2000) (j : Fin 350) :
    k2_pay1 (F := Ideal) (k2_pay2 a0 w0 a1 w1 a2 w2) (k2_pay3 a3) (k2_pay4 w3) a4 w4 a0 wl b1 b2 (ix2 r j)
      = Cert.ReferenceIdeal.Terms.combine2 (F := Ideal) T0 T1 T2 T3 T4 Wc bc Wl bl (ix2 (rowAt t r) j) := by
  have hz : (Scalar.ofBits (F := Ideal) .f32 0x00000000#32 : Ideal .f32) = (0 : EReal) := Ideal.ofBits_zero_f32
  have s0 := fun h hc c => wslice ![0, 0, 0] 0 rfl rfl rfl Wc h hc c j
  have s1 := fun h hc c => wslice ![1, 0, 0] 1 rfl rfl rfl Wc h hc c j
  have s2 := fun h hc c => wslice ![2, 0, 0] 2 rfl rfl rfl Wc h hc c j
  have s3 := fun h hc c => wslice ![3, 0, 0] 3 rfl rfl rfl Wc h hc c j
  have s4 := fun h hc c => wslice ![4, 0, 0] 4 rfl rfl rfl Wc h hc c j
  unfold k2_pay1 k2_pay2 k2_pay3 k2_pay4 Cert.ReferenceIdeal.Terms.combine2
  simp only [addf_apply]
  rw [rbias, rbias]
  simp only [kprod, rmm, kbias, broadcast_apply, shapeCast_1ab_ab_apply,
    s0, s1, s2, s3, s4, ha0, ha1, ha2, ha3, ha4, hw0, hw1, hw2, hw3, hw4, hwl, hb1, hb2, hz, zero_add]
  ac_rfl

end Cert.TileLaw2

end
-- ==== Proof.IdealTile2.lean ====
import proofs.«162653_j26706106646651_1_alg».proof.Proof.IdealLayer2
import proofs.«162653_j26706106646651_1_alg».proof.Proof.TileLaw2
import proofs.«162653_j26706106646651_1_alg».proof.Proof.IdealGlueDefs
import proofs.«162653_j26706106646651_1_alg».proof.Proof.Layout
import proofs.«162653_j26706106646651_1_alg».proof.Proof.Terms
import Idealize.ShloMosaic.Lib.Pipeline.Value
import Idealize.ShloMosaic.Lib.ValueIdx

/-!
# Layer 2: from the tiles to the whole output array

The layer runs over 25 row tiles of 2000 nodes. Tile `t` is handed rows `2000·t … 2000·t + 1999` of each stacked
Chebyshev term and the whole of the filter, bias and residual arrays, and writes back rows `2000·t … 2000·t + 1999` of
the output. When those arrays hold the stack of `T_0 … T_4`, the filters, the residual matrix and the two bias vectors
as one-row matrices, the value a tile writes at `(r, j)` is, by the tile law, the reference's combination at
`(2000·t + r, j)`. Every row `n` of the output lies in tile `n / 2000`, so the 25 write-backs fill the array with the
reference's combination.
-/

set_option maxRecDepth 16384

noncomputable section

namespace Cert.KernelIdeal.Tile2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- The grid point as a tile number below 25. -/
abbrev tileOf (t : Fin cfg2.N) : Fin 25 := t.cast N_2

/-- The index maps over the grid: the stack's window moves down the node axis with the tile, the four weight windows
    stay at block 0, and the output's window moves down its rows with the tile. -/
theorem idx_facts : ∀ t : Fin cfg2.N,
    win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Pieces

variable (V : (c : Dev nD) → (b : Ref sig .tc) → Buf (Elt Ideal) ((c : Thread nD τ).loc b)) (c : Dev nD)

/-- The stack's block at tile `t` holds, at `(k, r, i)`, the stack's entry `(k, 2000·t + r, i)`. -/
theorem block0_apply (t : Fin cfg2.N) (k : Fin 5) (r : Fin 2000) (i : Fin 128) :
    (Layer2.blockAt V c 0 t : S5x2000x128.Idx → Elt Ideal .f32) (ix3 k r i)
      = (V c main_v238 : S5x50000x128.Idx → Elt Ideal .f32) (ix3 k (Cert.TileLaw2.rowAt (tileOf t) r) i) := by
  obtain ⟨e0, e1, e2, -⟩ := idx_facts t
  unfold Layer2.blockAt
  rw [View.read_apply]
  show V c main_v238 _ = V c main_v238 _
  congr 1
  funext a
  apply Fin.ext
  match a with
  | ⟨0, _⟩ => show win2_0.index t (0 : Fin 3) * 5 + 1 * k.val = k.val; rw [e0]; omega
  | ⟨1, _⟩ => show win2_0.index t (1 : Fin 3) * 2000 + 1 * r.val = 2000 * t.val + r.val; rw [e1]; omega
  | ⟨2, _⟩ => show win2_0.index t (2 : Fin 3) * 128 + 1 * i.val = i.val; rw [e2]; omega

/-- Window 1's block is the whole of its array at every tile. -/
theorem block1_eq (t : Fin cfg2.N) :
    (Layer2.blockAt V c 1 t : S5x128x350.Idx → Elt Ideal .f32) = (V c main_arg10 : S5x128x350.Idx → Elt Ideal .f32) := by
  obtain ⟨-, -, -, e0, e1, e2, -⟩ := idx_facts t
  funext y
  unfold Layer2.blockAt
  rw [View.read_apply]
  show V c main_arg10 _ = V c main_arg10 _
  congr 1
  funext a
  apply Fin.ext
  match a with
  | ⟨0, _⟩ => show win2_1.index t (0 : Fin 3) * 5 + 1 * (y 0).val = (y 0).val; rw [e0]; omega
  | ⟨1, _⟩ => show win2_1.index t (1 : Fin 3) * 128 + 1 * (y 1).val = (y 1).val; rw [e1]; omega
  | ⟨2, _⟩ => show win2_1.index t (2 : Fin 3) * 350 + 1 * (y 2).val = (y 2).val; rw [e2]; omega

/-- Window 2's block is the whole of its array at every tile. -/
theorem block2_eq (t : Fin cfg2.N) :
    (Layer2.blockAt V c 2 t : S1x350.Idx → Elt Ideal .f32) = (V c main_v239 : S1x350.Idx → Elt Ideal .f32) := by
  obtain ⟨-, -, -, -, -, -, e0, e1, -⟩ := idx_facts t
  funext y
  unfold Layer2.blockAt
  rw [View.read_apply]
  show V c main_v239 _ = V c main_v239 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 350 + 1 * (y 1).val = (y 1).val; rw [e1]; omega

/-- Window 3's block is the whole of its array at every tile. -/
theorem block3_eq (t : Fin cfg2.N) :
    (Layer2.blockAt V c 3 t : S128x350.Idx → Elt Ideal .f32) = (V c main_arg12 : S128x350.Idx → Elt Ideal .f32) := by
  obtain ⟨-, -, -, -, -, -, -, -, e0, e1, -⟩ := idx_facts t
  funext y
  unfold Layer2.blockAt
  rw [View.read_apply]
  show V c main_arg12 _ = V c main_arg12 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 350 + 1 * (y 1).val = (y 1).val; rw [e1]; omega

/-- Window 4's block is the whole of its array at every tile. -/
theorem block4_eq (t : Fin cfg2.N) :
    (Layer2.blockAt V c 4 t : S1x350.Idx → Elt Ideal .f32) = (V c main_v240 : S1x350.Idx → Elt Ideal .f32) := by
  obtain ⟨-, -, -, -, -, -, -, -, -, -, e0, e1, -⟩ := idx_facts t
  funext y
  unfold Layer2.blockAt
  rw [View.read_apply]
  show V c main_v240 _ = V c main_v240 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 350 + 1 * (y 1).val = (y 1).val; rw [e1]; omega

/-- Slab `k` of a stack block, loaded as a one-slab array, reads at `(0, r, i)` the block at `(k, r, i)`. -/
theorem stack_slab (X : Vec Ideal S5x2000x128 .f32) (k : Fin 5) (off : Fin 3 → Nat) (h0 : off 0 = k.val) (h1 : off 1 = 0) (h2 : off 2 = 0)
    (inb : ∀ a, off a + S1x2000x128.size a ≤ S5x2000x128.size a) (r : Fin 2000) (i : Fin 128) :
    (View.ld X (Rect.unit (s := S5x2000x128) off S1x2000x128.size inb) : Vec Ideal S1x2000x128 .f32) (ix3 0 r i) = X (ix3 k r i) := by
  show X _ = X _
  congr 1
  funext a
  apply Fin.ext
  match a with
  | ⟨0, _⟩ => show off 0 + 1 * 0 = k.val; omega
  | ⟨1, _⟩ => show off 1 + 1 * r.val = r.val; omega
  | ⟨2, _⟩ => show off 2 + 1 * i.val = i.val; omega

/-- Filter `k` of the filter block, loaded as a one-slab array, reads at `(0, i, j)` the block at `(k, i, j)`. -/
theorem filter_slab (X : Vec Ideal S5x128x350 .f32) (k : Fin 5) (off : Fin 3 → Nat) (h0 : off 0 = k.val) (h1 : off 1 = 0) (h2 : off 2 = 0)
    (inb : ∀ a, off a + S1x128x350.size a ≤ S5x128x350.size a) (i : Fin 128) (j : Fin 350) :
    (View.ld X (Rect.unit (s := S5x128x350) off S1x128x350.size inb) : Vec Ideal S1x128x350 .f32) (ix3 0 i j) = X (ix3 k i j) := by
  show X _ = X _
  congr 1
  funext a
  apply Fin.ext
  match a with
  | ⟨0, _⟩ => show off 0 + 1 * 0 = k.val; omega
  | ⟨1, _⟩ => show off 1 + 1 * i.val = i.val; omega
  | ⟨2, _⟩ => show off 2 + 1 * j.val = j.val; omega

/-- Row `r`, column `q` of the output's block at tile `t` is row `2000·t + r`, column `q` of the output array. -/
theorem out_emb (t : Fin cfg2.N) (r : Fin 2000) (q : Fin 350) :
    (((cfg2.win 5).blk t).view.emb (ix2 r q : S2000x350.Idx) : S50000x350.Idx) = ix2 (Cert.TileLaw2.rowAt (tileOf t) r) q := by
  obtain ⟨-, -, -, -, -, -, -, -, -, -, -, -, e0, e1⟩ := idx_facts t
  funext a
  apply Fin.ext
  match a with
  | ⟨0, _⟩ => show win2_5.index t (0 : Fin 2) * 2000 + 1 * r.val = 2000 * t.val + r.val; rw [e0]; omega
  | ⟨1, _⟩ => show win2_5.index t (1 : Fin 2) * 350 + 1 * q.val = q.val; rw [e1]; omega

/-- An index of the output array is in tile `t`'s block iff each coordinate is in the block's range on its axis. -/
theorem mem_blk (t : Fin cfg2.N) (i : S50000x350.Idx) :
    i ∈ ((cfg2.win 5).blk t).view.set ↔ ∀ a : Fin 2, win2_5.index t a * S2000x350.size a ≤ (i a).val ∧ (i a).val < win2_5.index t a * S2000x350.size a + S2000x350.size a := by
  show i ∈ ((View.whole main_v241).slice (win2_5.rect t)).set ↔ _
  rw [View.set_slice_whole, Rect.mem_set_unit]
  exact Iff.rfl

/-- Every row of the output array lies in the block of the tile its number divided by 2000 names. -/
theorem cover (i : S50000x350.Idx) : ∃ t : Fin cfg2.N, (cfg2.win 5).flush t = true ∧ i ∈ ((cfg2.win 5).blk t).view.set := by
  have hi0 : (i 0).val < 50000 := (i 0).isLt
  have hi1 : (i 1).val < 350 := (i 1).isLt
  have hN : cfg2.N = 25 := N_2
  have ht : (i 0).val / 2000 < cfg2.N := by rw [hN]; omega
  obtain ⟨-, -, -, -, -, -, -, -, -, -, -, -, e0, e1⟩ := idx_facts ⟨(i 0).val / 2000, ht⟩
  refine ⟨⟨(i 0).val / 2000, ht⟩, flush2_5 _, ?_⟩
  rw [mem_blk]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 350 ≤ (i 1).val ∧ (i 1).val < win2_5.index ⟨(i 0).val / 2000, ht⟩ (1 : Fin 2) * 350 + 350
    rw [e1]; omega

variable (T0 T1 T2 T3 T4 : (⟨Cert.ReferenceIdeal.S50000x128, .f32⟩ : BufTy).Contents (Elt Ideal)) (Wc : (⟨Cert.ReferenceIdeal.S5x128x350, .f32⟩ : BufTy).Contents (Elt Ideal)) (bc : (⟨Cert.ReferenceIdeal.S350, .f32⟩ : BufTy).Contents (Elt Ideal))
  (Wl : (⟨Cert.ReferenceIdeal.S128x350, .f32⟩ : BufTy).Contents (Elt Ideal)) (bl : (⟨Cert.ReferenceIdeal.S350, .f32⟩ : BufTy).Contents (Elt Ideal))

/-- Slab `k` of the stack's block at tile `t` holds the tile's rows of term `k`. -/
theorem term_rows (hS : (V c main_v238 : S5x50000x128.Idx → Elt Ideal .f32) = Glue.stack128 T0 T1 T2 T3 T4)
    (t : Fin cfg2.N) (k : Fin 5) (off : Fin 3 → Nat) (h0 : off 0 = k.val) (h1 : off 1 = 0) (h2 : off 2 = 0)
    (inb : ∀ a, off a + S1x2000x128.size a ≤ S5x2000x128.size a) (r : Fin 2000) (i : Fin 128) :
    (View.ld (Layer2.blockAt V c 0 t : Vec Ideal S5x2000x128 .f32) (Rect.unit (s := S5x2000x128) off S1x2000x128.size inb) : Vec Ideal S1x2000x128 .f32) (ix3 0 r i)
      = (![T0, T1, T2, T3, T4] k) (ix2 (Cert.TileLaw2.rowAt (tileOf t) r) i) := by
  rw [stack_slab _ k off h0 h1 h2 inb r i, block0_apply, hS, Layout.stack128_apply]

/-- Slab `k` of the filter block is filter `k`. -/
theorem filter_entries (hWc : (V c main_arg10 : S5x128x350.Idx → Elt Ideal .f32) = Wc)
    (t : Fin cfg2.N) (k : Fin 5) (off : Fin 3 → Nat) (h0 : off 0 = k.val) (h1 : off 1 = 0) (h2 : off 2 = 0)
    (inb : ∀ a, off a + S1x128x350.size a ≤ S5x128x350.size a) (i : Fin 128) (j : Fin 350) :
    (View.ld (Layer2.blockAt V c 1 t : Vec Ideal S5x128x350 .f32) (Rect.unit (s := S5x128x350) off S1x128x350.size inb) : Vec Ideal S1x128x350 .f32) (ix3 0 i j)
      = Wc (ix3 k i j) := by
  rw [filter_slab _ k off h0 h1 h2 inb i j, block1_eq, hWc]

/-- The residual matrix's block, loaded whole, is the matrix. -/
theorem residual_entries (hWl : (V c main_arg12 : S128x350.Idx → Elt Ideal .f32) = Wl) (t : Fin cfg2.N)
    (inb : ∀ a, (![0, 0] : Fin 2 → Nat) a + S128x350.size a ≤ S128x350.size a) (i : Fin 128) (j : Fin 350) :
    (View.ld (Layer2.blockAt V c 3 t : Vec Ideal S128x350 .f32) (Rect.unit (s := S128x350) ![0, 0] S128x350.size inb) : Vec Ideal S128x350 .f32) (ix2 i j)
      = Wl (ix2 i j) := by
  rw [View.ld_unit_zero (S := S128x350) hz, block3_eq, hWl]

/-- A bias row's block, loaded whole, holds the bias vector's entries in its one row. -/
theorem bias_entries (w : Fin cfg2.W) (ref : Ref sig .tc) (b : (⟨Cert.ReferenceIdeal.S350, .f32⟩ : BufTy).Contents (Elt Ideal))
    (X : Vec Ideal S1x350 .f32) (hX : X = shapeCast S1x350 b Facts₀.shapeCasts_S350_S1x350)
    (inb : ∀ a, (![0, 0] : Fin 2 → Nat) a + S1x350.size a ≤ S1x350.size a) (j : Fin 350) :
    (View.ld X (Rect.unit (s := S1x350) ![0, 0] S1x350.size inb) : Vec Ideal S1x350 .f32) (ix2 0 j) = b (ix1 j) := by
  rw [View.ld_unit_zero (S := S1x350) hz, hX]
  exact Layout.row350_apply b j

/-- WHAT TILE `t` WRITES BACK is block `t` of the reference's combination. -/
theorem flushed_eq
    (hS : (V c main_v238 : S5x50000x128.Idx → Elt Ideal .f32) = Glue.stack128 T0 T1 T2 T3 T4)
    (hWc : (V c main_arg10 : S5x128x350.Idx → Elt Ideal .f32) = Wc)
    (hbc : (V c main_v239 : S1x350.Idx → Elt Ideal .f32) = shapeCast S1x350 bc Facts₀.shapeCasts_S350_S1x350)
    (hWl : (V c main_arg12 : S128x350.Idx → Elt Ideal .f32) = Wl)
    (hbl : (V c main_v240 : S1x350.Idx → Elt Ideal .f32) = shapeCast S1x350 bl Facts₀.shapeCasts_S350_S1x350)
    (t : Fin cfg2.N) :
    (Layer2.layerDat V c).flushed 5 t
      = ((cfg2.win 5).blk t).view.read (Elt Ideal) (Cert.ReferenceIdeal.Terms.combine2 (F := Ideal) T0 T1 T2 T3 T4 Wc bc Wl bl) := by
  show (cfg2.win 5).cut (grid2.coords t) ((Layer2.layerDat V c).after 5 t) = _
  rw [Layer2.after5]
  unfold Layer2.tileOut
  rw [View.canon_unit_zero hz]
  funext j
  obtain ⟨r, q, rfl⟩ : ∃ (r : Fin 2000) (q : Fin 350), j = ix2 r q := ⟨j 0, j 1, eq_ix2 j⟩
  rw [View.read_apply]
  refine Eq.trans ?_ (congrArg (Cert.ReferenceIdeal.Terms.combine2 (F := Ideal) T0 T1 T2 T3 T4 Wc bc Wl bl) (out_emb t r q).symm)
  refine Cert.TileLaw2.tile_law T0 T1 T2 T3 T4 Wc bc Wl bl (tileOf t) _ _ _ _ _ _ _ _ _ _ _ _ _
    (fun r i => term_rows V c T0 T1 T2 T3 T4 hS t 0 _ rfl rfl rfl _ r i)
    (fun r i => term_rows V c T0 T1 T2 T3 T4 hS t 1 _ rfl rfl rfl _ r i)
    (fun r i => term_rows V c T0 T1 T2 T3 T4 hS t 2 _ rfl rfl rfl _ r i)
    (fun r i => term_rows V c T0 T1 T2 T3 T4 hS t 3 _ rfl rfl rfl _ r i)
    (fun r i => term_rows V c T0 T1 T2 T3 T4 hS t 4 _ rfl rfl rfl _ r i)
    (fun i j => filter_entries V c Wc hWc t 0 _ rfl rfl rfl _ i j)
    (fun i j => filter_entries V c Wc hWc t 1 _ rfl rfl rfl _ i j)
    (fun i j => filter_entries V c Wc hWc t 2 _ rfl rfl rfl _ i j)
    (fun i j => filter_entries V c Wc hWc t 3 _ rfl rfl rfl _ i j)
    (fun i j => filter_entries V c Wc hWc t 4 _ rfl rfl rfl _ i j)
    (fun i j => residual_entries V c Wl hWl t _ i j)
    (fun j => bias_entries 2 main_v239 bc _ ((block2_eq V c t).trans hbc) _ j)
    (fun j => bias_entries 4 main_v240 bl _ ((block4_eq V c t).trans hbl) _ j)
    r q

end Pieces

/-- THE LAYER'S OUTPUT ARRAY. If the region finds the stack of `T_0 … T_4` in its first window's array, the layer's
    filter and residual matrices in the second and fourth, and the two bias vectors as one-row matrices in the third
    and fifth, then after its 25 grid points its output array holds the reference's combination of them. -/
theorem layer_array (V : (c : Dev nD) → (b : Ref sig .tc) → Buf (Elt Ideal) ((c : Thread nD τ).loc b)) (c : Dev nD)
    (T0 T1 T2 T3 T4 : (⟨Cert.ReferenceIdeal.S50000x128, .f32⟩ : BufTy).Contents (Elt Ideal)) (Wc : (⟨Cert.ReferenceIdeal.S5x128x350, .f32⟩ : BufTy).Contents (Elt Ideal)) (bc : (⟨Cert.ReferenceIdeal.S350, .f32⟩ : BufTy).Contents (Elt Ideal))
    (Wl : (⟨Cert.ReferenceIdeal.S128x350, .f32⟩ : BufTy).Contents (Elt Ideal)) (bl : (⟨Cert.ReferenceIdeal.S350, .f32⟩ : BufTy).Contents (Elt Ideal))
    (hS : (V c main_v238 : S5x50000x128.Idx → Elt Ideal .f32) = Glue.stack128 T0 T1 T2 T3 T4)
    (hWc : (V c main_arg10 : S5x128x350.Idx → Elt Ideal .f32) = Wc)
    (hbc : (V c main_v239 : S1x350.Idx → Elt Ideal .f32) = shapeCast S1x350 bc Facts₀.shapeCasts_S350_S1x350)
    (hWl : (V c main_arg12 : S128x350.Idx → Elt Ideal .f32) = Wl)
    (hbl : (V c main_v240 : S1x350.Idx → Elt Ideal .f32) = shapeCast S1x350 bl Facts₀.shapeCasts_S350_S1x350) :
    ((Layer2.layerDat V c).arrAt 5 cfg2.N : S50000x350.Idx → Elt Ideal .f32)
      = Cert.ReferenceIdeal.Terms.combine2 (F := Ideal) T0 T1 T2 T3 T4 Wc bc Wl bl := by
  exact (Layer2.layerDat V c).arrAt_eq_of_cover 5 (Cert.ReferenceIdeal.Terms.combine2 (F := Ideal) T0 T1 T2 T3 T4 Wc bc Wl bl)
    (fun t _ => flushed_eq V c T0 T1 T2 T3 T4 Wc bc Wl bl hS hWc hbc hWl hbl t) cover

end Cert.KernelIdeal.Tile2

end
-- ==== Proof.IdealValue.lean ====
import proofs.«162653_j26706106646651_1_alg».proof.Proof.IdealWhole
import proofs.«162653_j26706106646651_1_alg».proof.Proof.IdealGlue0
import proofs.«162653_j26706106646651_1_alg».proof.Proof.IdealGlue1
import proofs.«162653_j26706106646651_1_alg».proof.Proof.IdealGlue2
import proofs.«162653_j26706106646651_1_alg».proof.Proof.IdealTile0
import proofs.«162653_j26706106646651_1_alg».proof.Proof.IdealTile1
import proofs.«162653_j26706106646651_1_alg».proof.Proof.IdealTile2
import proofs.«162653_j26706106646651_1_alg».proof.Proof.Terms

/-!
# What the kernel program computes

Followed from boundary to boundary at the extended reals: the stretches before launch 0 leave the stack of the
Chebyshev terms of the input `z` (and the edges' targets, sources and weights, which every later stretch reads
again); launch 0 leaves the reference's layer 0 of `z` in its output array; the stretches before launch 1 leave the
stack of the Chebyshev terms of that array; and so on. The last operation flattens layer 2's output. So the program's
result is the flattened `layer2 (layer1 (layer0 z))` of the launch contents — the very term the reference's run ends
with.
-/

set_option maxRecDepth 16384

noncomputable section

namespace Cert.KernelIdeal.Values

open Cert.KernelIdeal Cert.KernelIdeal.Gen Idealize.ShloMosaic Idealize.ShloMosaic.TcCoe
open Idealize.SL Idealize.SL.Sem

variable (m : (ℓ : Loc nD τ sig) → Buf (Elt Ideal) ℓ) (ρ : Dev nD → PrngReg)

/-- Layer 0 of the launch contents. -/
def h1 (c : Dev nD) : (⟨Cert.ReferenceIdeal.S50000x128, .f32⟩ : BufTy).Contents (Elt Ideal) :=
  Cert.ReferenceIdeal.Terms.layer0 (m ((c : Thread nD τ).loc main_arg0)) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1))) (m ((c : Thread nD τ).loc main_arg2)) (m ((c : Thread nD τ).loc main_arg3)) (m ((c : Thread nD τ).loc main_arg4)) (m ((c : Thread nD τ).loc main_arg5))
/-- Layer 1 of that. -/
def h2 (c : Dev nD) : (⟨Cert.ReferenceIdeal.S50000x128, .f32⟩ : BufTy).Contents (Elt Ideal) :=
  Cert.ReferenceIdeal.Terms.layer1 (h1 m c) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1))) (m ((c : Thread nD τ).loc main_arg6)) (m ((c : Thread nD τ).loc main_arg7)) (m ((c : Thread nD τ).loc main_arg8)) (m ((c : Thread nD τ).loc main_arg9))
/-- Layer 2 of that. -/
def h3 (c : Dev nD) : (⟨Cert.ReferenceIdeal.S50000x350, .f32⟩ : BufTy).Contents (Elt Ideal) :=
  Cert.ReferenceIdeal.Terms.layer2 (h2 m c) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1))) (m ((c : Thread nD τ).loc main_arg10)) (m ((c : Thread nD τ).loc main_arg11)) (m ((c : Thread nD τ).loc main_arg12)) (m ((c : Thread nD τ).loc main_arg13))

/-! ## The edge data, computed once before launch 0 and read again before launches 1 and 2 -/

theorem row7 (c : Dev nD) : Whole.B7 m ρ c (Proc.devRef .tc main_v1) = (Cert.ReferenceIdeal.Terms.rowOf (m ((c : Thread nD τ).loc main_arg1))) := Glue0.row_eq (Whole.B0 m ρ c)
theorem col7 (c : Dev nD) : Whole.B7 m ρ c (Proc.devRef .tc main_v3) = (Cert.ReferenceIdeal.Terms.colOf (m ((c : Thread nD τ).loc main_arg1))) := Glue0.col_eq (Whole.B0 m ρ c)
theorem w7 (c : Dev nD) : Whole.B7 m ρ c (Proc.devRef .tc main_v31) = (Cert.ReferenceIdeal.Terms.edgeW (m ((c : Thread nD τ).loc main_arg1))) := Glue0.w_eq (Whole.B0 m ρ c)
theorem row8 (c : Dev nD) : Whole.B8 m ρ c (Proc.devRef .tc main_v1) = (Cert.ReferenceIdeal.Terms.rowOf (m ((c : Thread nD τ).loc main_arg1))) :=
  (show Whole.B8 m ρ c (Proc.devRef .tc main_v1) = Whole.B7 m ρ c (Proc.devRef .tc main_v1) from (Whole.B8_of_ne m ρ c main_v1 (by decide)).trans <| rfl).trans (row7 m ρ c)
theorem row11 (c : Dev nD) : Whole.B11 m ρ c (Proc.devRef .tc main_v1) = (Cert.ReferenceIdeal.Terms.rowOf (m ((c : Thread nD τ).loc main_arg1))) :=
  (show Whole.B11 m ρ c (Proc.devRef .tc main_v1) = Whole.B7 m ρ c (Proc.devRef .tc main_v1) from (Whole.B11_of_ne m ρ c main_v1 (by decide)).trans <| (Whole.B10_keeps m ρ c main_v1 (by decide)).trans <| (Whole.B9_keeps m ρ c main_v1 (by decide)).trans <| (Whole.B8_of_ne m ρ c main_v1 (by decide)).trans <| rfl).trans (row7 m ρ c)
theorem col8 (c : Dev nD) : Whole.B8 m ρ c (Proc.devRef .tc main_v3) = (Cert.ReferenceIdeal.Terms.colOf (m ((c : Thread nD τ).loc main_arg1))) :=
  (show Whole.B8 m ρ c (Proc.devRef .tc main_v3) = Whole.B7 m ρ c (Proc.devRef .tc main_v3) from (Whole.B8_of_ne m ρ c main_v3 (by decide)).trans <| rfl).trans (col7 m ρ c)
theorem col11 (c : Dev nD) : Whole.B11 m ρ c (Proc.devRef .tc main_v3) = (Cert.ReferenceIdeal.Terms.colOf (m ((c : Thread nD τ).loc main_arg1))) :=
  (show Whole.B11 m ρ c (Proc.devRef .tc main_v3) = Whole.B7 m ρ c (Proc.devRef .tc main_v3) from (Whole.B11_of_ne m ρ c main_v3 (by decide)).trans <| (Whole.B10_keeps m ρ c main_v3 (by decide)).trans <| (Whole.B9_keeps m ρ c main_v3 (by decide)).trans <| (Whole.B8_of_ne m ρ c main_v3 (by decide)).trans <| rfl).trans (col7 m ρ c)
theorem w8 (c : Dev nD) : Whole.B8 m ρ c (Proc.devRef .tc main_v31) = (Cert.ReferenceIdeal.Terms.edgeW (m ((c : Thread nD τ).loc main_arg1))) :=
  (show Whole.B8 m ρ c (Proc.devRef .tc main_v31) = Whole.B7 m ρ c (Proc.devRef .tc main_v31) from (Whole.B8_of_ne m ρ c main_v31 (by decide)).trans <| rfl).trans (w7 m ρ c)
theorem w11 (c : Dev nD) : Whole.B11 m ρ c (Proc.devRef .tc main_v31) = (Cert.ReferenceIdeal.Terms.edgeW (m ((c : Thread nD τ).loc main_arg1))) :=
  (show Whole.B11 m ρ c (Proc.devRef .tc main_v31) = Whole.B7 m ρ c (Proc.devRef .tc main_v31) from (Whole.B11_of_ne m ρ c main_v31 (by decide)).trans <| (Whole.B10_keeps m ρ c main_v31 (by decide)).trans <| (Whole.B9_keeps m ρ c main_v31 (by decide)).trans <| (Whole.B8_of_ne m ρ c main_v31 (by decide)).trans <| rfl).trans (w7 m ρ c)

/-! ## Layer 0 -/

/-- What launch 0's region finds: the layer's weights, as launched. -/
theorem at7_main_arg2 (c : Dev nD) : Whole.B7 m ρ c (Proc.devRef .tc main_arg2) = (m ((c : Thread nD τ).loc main_arg2)) := (Whole.B7_keeps m ρ c main_arg2 (by decide)).trans <| (Whole.B6_keeps m ρ c main_arg2 (by decide)).trans <| (Whole.B5_keeps m ρ c main_arg2 (by decide)).trans <| (Whole.B4_keeps m ρ c main_arg2 (by decide)).trans <| (Whole.B3_keeps m ρ c main_arg2 (by decide)).trans <| (Whole.B2_keeps m ρ c main_arg2 (by decide)).trans <| (Whole.B1_keeps m ρ c main_arg2 (by decide)).trans <| rfl
theorem at7_main_arg4 (c : Dev nD) : Whole.B7 m ρ c (Proc.devRef .tc main_arg4) = (m ((c : Thread nD τ).loc main_arg4)) := (Whole.B7_keeps m ρ c main_arg4 (by decide)).trans <| (Whole.B6_keeps m ρ c main_arg4 (by decide)).trans <| (Whole.B5_keeps m ρ c main_arg4 (by decide)).trans <| (Whole.B4_keeps m ρ c main_arg4 (by decide)).trans <| (Whole.B3_keeps m ρ c main_arg4 (by decide)).trans <| (Whole.B2_keeps m ρ c main_arg4 (by decide)).trans <| (Whole.B1_keeps m ρ c main_arg4 (by decide)).trans <| rfl

/-- Launch 0 leaves layer 0 of the input in its output array. -/
theorem out0 (c : Dev nD) : Whole.B8 m ρ c (Proc.devRef .tc main_v101) = h1 m c := by
  refine (Whole.B8_arr m ρ c 5).trans ?_
  refine Tile0.layer_array (Whole.E0 m ρ) c (m ((c : Thread nD τ).loc main_arg0))
    (Cert.ReferenceIdeal.Terms.cheb64_1 (m ((c : Thread nD τ).loc main_arg0)) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1)))) (Cert.ReferenceIdeal.Terms.cheb64_2 (m ((c : Thread nD τ).loc main_arg0)) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1))))
    (Cert.ReferenceIdeal.Terms.cheb64_3 (m ((c : Thread nD τ).loc main_arg0)) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1)))) (Cert.ReferenceIdeal.Terms.cheb64_4 (m ((c : Thread nD τ).loc main_arg0)) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1))))
    (m ((c : Thread nD τ).loc main_arg2)) (m ((c : Thread nD τ).loc main_arg3)) (m ((c : Thread nD τ).loc main_arg4)) (m ((c : Thread nD τ).loc main_arg5)) ?_ (at7_main_arg2 m ρ c) ?_ (at7_main_arg4 m ρ c) ?_
  · exact Glue0.stack_eq (Whole.B0 m ρ c)
  · exact Glue0.bc_eq (Whole.B0 m ρ c)
  · exact Glue0.bl_eq (Whole.B0 m ρ c)

/-! ## Layer 1 -/

/-- What launch 1's region finds: the layer's weights, as launched. -/
theorem at10_main_arg6 (c : Dev nD) : Whole.B10 m ρ c (Proc.devRef .tc main_arg6) = (m ((c : Thread nD τ).loc main_arg6)) := (Whole.B10_keeps m ρ c main_arg6 (by decide)).trans <| (Whole.B9_keeps m ρ c main_arg6 (by decide)).trans <| (Whole.B8_of_ne m ρ c main_arg6 (by decide)).trans <| (Whole.B7_keeps m ρ c main_arg6 (by decide)).trans <| (Whole.B6_keeps m ρ c main_arg6 (by decide)).trans <| (Whole.B5_keeps m ρ c main_arg6 (by decide)).trans <| (Whole.B4_keeps m ρ c main_arg6 (by decide)).trans <| (Whole.B3_keeps m ρ c main_arg6 (by decide)).trans <| (Whole.B2_keeps m ρ c main_arg6 (by decide)).trans <| (Whole.B1_keeps m ρ c main_arg6 (by decide)).trans <| rfl
theorem at10_main_arg8 (c : Dev nD) : Whole.B10 m ρ c (Proc.devRef .tc main_arg8) = (m ((c : Thread nD τ).loc main_arg8)) := (Whole.B10_keeps m ρ c main_arg8 (by decide)).trans <| (Whole.B9_keeps m ρ c main_arg8 (by decide)).trans <| (Whole.B8_of_ne m ρ c main_arg8 (by decide)).trans <| (Whole.B7_keeps m ρ c main_arg8 (by decide)).trans <| (Whole.B6_keeps m ρ c main_arg8 (by decide)).trans <| (Whole.B5_keeps m ρ c main_arg8 (by decide)).trans <| (Whole.B4_keeps m ρ c main_arg8 (by decide)).trans <| (Whole.B3_keeps m ρ c main_arg8 (by decide)).trans <| (Whole.B2_keeps m ρ c main_arg8 (by decide)).trans <| (Whole.B1_keeps m ρ c main_arg8 (by decide)).trans <| rfl
theorem at8_main_arg7 (c : Dev nD) : Whole.B8 m ρ c (Proc.devRef .tc main_arg7) = (m ((c : Thread nD τ).loc main_arg7)) := (Whole.B8_of_ne m ρ c main_arg7 (by decide)).trans <| (Whole.B7_keeps m ρ c main_arg7 (by decide)).trans <| (Whole.B6_keeps m ρ c main_arg7 (by decide)).trans <| (Whole.B5_keeps m ρ c main_arg7 (by decide)).trans <| (Whole.B4_keeps m ρ c main_arg7 (by decide)).trans <| (Whole.B3_keeps m ρ c main_arg7 (by decide)).trans <| (Whole.B2_keeps m ρ c main_arg7 (by decide)).trans <| (Whole.B1_keeps m ρ c main_arg7 (by decide)).trans <| rfl
theorem at8_main_arg9 (c : Dev nD) : Whole.B8 m ρ c (Proc.devRef .tc main_arg9) = (m ((c : Thread nD τ).loc main_arg9)) := (Whole.B8_of_ne m ρ c main_arg9 (by decide)).trans <| (Whole.B7_keeps m ρ c main_arg9 (by decide)).trans <| (Whole.B6_keeps m ρ c main_arg9 (by decide)).trans <| (Whole.B5_keeps m ρ c main_arg9 (by decide)).trans <| (Whole.B4_keeps m ρ c main_arg9 (by decide)).trans <| (Whole.B3_keeps m ρ c main_arg9 (by decide)).trans <| (Whole.B2_keeps m ρ c main_arg9 (by decide)).trans <| (Whole.B1_keeps m ρ c main_arg9 (by decide)).trans <| rfl

/-- Launch 1 leaves layer 1 of layer 0's output in its output array. -/
theorem out1 (c : Dev nD) : Whole.B11 m ρ c (Proc.devRef .tc main_v171) = h2 m c := by
  refine (Whole.B11_arr m ρ c 5).trans ?_
  refine Tile1.layer_array (Whole.E1 m ρ) c (h1 m c)
    (Cert.ReferenceIdeal.Terms.cheb128_1 (h1 m c) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1)))) (Cert.ReferenceIdeal.Terms.cheb128_2 (h1 m c) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1))))
    (Cert.ReferenceIdeal.Terms.cheb128_3 (h1 m c) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1)))) (Cert.ReferenceIdeal.Terms.cheb128_4 (h1 m c) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1))))
    (m ((c : Thread nD τ).loc main_arg6)) (m ((c : Thread nD τ).loc main_arg7)) (m ((c : Thread nD τ).loc main_arg8)) (m ((c : Thread nD τ).loc main_arg9)) ?_ (at10_main_arg6 m ρ c) ?_ (at10_main_arg8 m ρ c) ?_
  · refine (Glue1.stack_eq (Whole.B8 m ρ c)).trans ?_
    rw [out0 m ρ c, row8 m ρ c, col8 m ρ c, w8 m ρ c]
  · refine (Glue1.bc_eq (Whole.B8 m ρ c)).trans ?_
    rw [at8_main_arg7 m ρ c]
  · refine (Glue1.bl_eq (Whole.B8 m ρ c)).trans ?_
    rw [at8_main_arg9 m ρ c]

/-! ## Layer 2 -/

/-- What launch 2's region finds: the layer's weights, as launched. -/
theorem at13_main_arg10 (c : Dev nD) : Whole.B13 m ρ c (Proc.devRef .tc main_arg10) = (m ((c : Thread nD τ).loc main_arg10)) := (Whole.B13_keeps m ρ c main_arg10 (by decide)).trans <| (Whole.B12_keeps m ρ c main_arg10 (by decide)).trans <| (Whole.B11_of_ne m ρ c main_arg10 (by decide)).trans <| (Whole.B10_keeps m ρ c main_arg10 (by decide)).trans <| (Whole.B9_keeps m ρ c main_arg10 (by decide)).trans <| (Whole.B8_of_ne m ρ c main_arg10 (by decide)).trans <| (Whole.B7_keeps m ρ c main_arg10 (by decide)).trans <| (Whole.B6_keeps m ρ c main_arg10 (by decide)).trans <| (Whole.B5_keeps m ρ c main_arg10 (by decide)).trans <| (Whole.B4_keeps m ρ c main_arg10 (by decide)).trans <| (Whole.B3_keeps m ρ c main_arg10 (by decide)).trans <| (Whole.B2_keeps m ρ c main_arg10 (by decide)).trans <| (Whole.B1_keeps m ρ c main_arg10 (by decide)).trans <| rfl
theorem at13_main_arg12 (c : Dev nD) : Whole.B13 m ρ c (Proc.devRef .tc main_arg12) = (m ((c : Thread nD τ).loc main_arg12)) := (Whole.B13_keeps m ρ c main_arg12 (by decide)).trans <| (Whole.B12_keeps m ρ c main_arg12 (by decide)).trans <| (Whole.B11_of_ne m ρ c main_arg12 (by decide)).trans <| (Whole.B10_keeps m ρ c main_arg12 (by decide)).trans <| (Whole.B9_keeps m ρ c main_arg12 (by decide)).trans <| (Whole.B8_of_ne m ρ c main_arg12 (by decide)).trans <| (Whole.B7_keeps m ρ c main_arg12 (by decide)).trans <| (Whole.B6_keeps m ρ c main_arg12 (by decide)).trans <| (Whole.B5_keeps m ρ c main_arg12 (by decide)).trans <| (Whole.B4_keeps m ρ c main_arg12 (by decide)).trans <| (Whole.B3_keeps m ρ c main_arg12 (by decide)).trans <| (Whole.B2_keeps m ρ c main_arg12 (by decide)).trans <| (Whole.B1_keeps m ρ c main_arg12 (by decide)).trans <| rfl
theorem at11_main_arg11 (c : Dev nD) : Whole.B11 m ρ c (Proc.devRef .tc main_arg11) = (m ((c : Thread nD τ).loc main_arg11)) := (Whole.B11_of_ne m ρ c main_arg11 (by decide)).trans <| (Whole.B10_keeps m ρ c main_arg11 (by decide)).trans <| (Whole.B9_keeps m ρ c main_arg11 (by decide)).trans <| (Whole.B8_of_ne m ρ c main_arg11 (by decide)).trans <| (Whole.B7_keeps m ρ c main_arg11 (by decide)).trans <| (Whole.B6_keeps m ρ c main_arg11 (by decide)).trans <| (Whole.B5_keeps m ρ c main_arg11 (by decide)).trans <| (Whole.B4_keeps m ρ c main_arg11 (by decide)).trans <| (Whole.B3_keeps m ρ c main_arg11 (by decide)).trans <| (Whole.B2_keeps m ρ c main_arg11 (by decide)).trans <| (Whole.B1_keeps m ρ c main_arg11 (by decide)).trans <| rfl
theorem at11_main_arg13 (c : Dev nD) : Whole.B11 m ρ c (Proc.devRef .tc main_arg13) = (m ((c : Thread nD τ).loc main_arg13)) := (Whole.B11_of_ne m ρ c main_arg13 (by decide)).trans <| (Whole.B10_keeps m ρ c main_arg13 (by decide)).trans <| (Whole.B9_keeps m ρ c main_arg13 (by decide)).trans <| (Whole.B8_of_ne m ρ c main_arg13 (by decide)).trans <| (Whole.B7_keeps m ρ c main_arg13 (by decide)).trans <| (Whole.B6_keeps m ρ c main_arg13 (by decide)).trans <| (Whole.B5_keeps m ρ c main_arg13 (by decide)).trans <| (Whole.B4_keeps m ρ c main_arg13 (by decide)).trans <| (Whole.B3_keeps m ρ c main_arg13 (by decide)).trans <| (Whole.B2_keeps m ρ c main_arg13 (by decide)).trans <| (Whole.B1_keeps m ρ c main_arg13 (by decide)).trans <| rfl

/-- Launch 2 leaves layer 2 of layer 1's output in its output array. -/
theorem out2 (c : Dev nD) : Whole.B14 m ρ c (Proc.devRef .tc main_v241) = h3 m c := by
  refine (Whole.B14_arr m ρ c 5).trans ?_
  refine Tile2.layer_array (Whole.E2 m ρ) c (h2 m c)
    (Cert.ReferenceIdeal.Terms.cheb128_1 (h2 m c) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1)))) (Cert.ReferenceIdeal.Terms.cheb128_2 (h2 m c) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1))))
    (Cert.ReferenceIdeal.Terms.cheb128_3 (h2 m c) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1)))) (Cert.ReferenceIdeal.Terms.cheb128_4 (h2 m c) (Cert.ReferenceIdeal.Terms.rowOf (m ((c : Thread nD τ).loc main_arg1))) (Cert.ReferenceIdeal.Terms.colOf (m ((c : Thread nD τ).loc main_arg1))) (Cert.ReferenceIdeal.Terms.edgeW (m ((c : Thread nD τ).loc main_arg1))))
    (m ((c : Thread nD τ).loc main_arg10)) (m ((c : Thread nD τ).loc main_arg11)) (m ((c : Thread nD τ).loc main_arg12)) (m ((c : Thread nD τ).loc main_arg13)) ?_ (at13_main_arg10 m ρ c) ?_ (at13_main_arg12 m ρ c) ?_
  · refine (Glue2.stack_eq (Whole.B11 m ρ c)).trans ?_
    rw [out1 m ρ c, row11 m ρ c, col11 m ρ c, w11 m ρ c]
  · refine (Glue2.bc_eq (Whole.B11 m ρ c)).trans ?_
    rw [at11_main_arg11 m ρ c]
  · refine (Glue2.bl_eq (Whole.B11 m ρ c)).trans ?_
    rw [at11_main_arg13 m ρ c]

/-! ## The result -/

/-- The program's result array at the last boundary: the flattened layer 2 of layer 1 of layer 0 of the input. -/
theorem result (c : Dev nD) : Whole.B15 m ρ c (Proc.devRef .tc main_v242) = Cert.ReferenceIdeal.Terms.flat (h3 m c) := by
  refine (Glue2.flat_eq (Whole.B14 m ρ c)).trans ?_
  rw [out2 m ρ c]
  rfl

end Cert.KernelIdeal.Values

end
-- ==== Proof.RefValue.lean ====
import proofs.«162653_j26706106646651_1_alg».proof.Proof.RefWhole
import proofs.«162653_j26706106646651_1_alg».proof.Proof.Terms

/-!
# What the reference computes

Read piece by piece: the first piece leaves the edges' targets, sources and weights (`rowOf`, `colOf`, `edgeW` of the
edge list); each layer's pieces leave the layer's output at `layerL` of the layer's input, those three arrays and the
layer's four weight arrays; nothing a later piece reads is overwritten in between. So the program's result is the
flattened `layer2 (layer1 (layer0 z))` of the launch contents.
-/

set_option maxRecDepth 16384

noncomputable section

namespace Cert.ReferenceIdeal.Values

open Cert.ReferenceIdeal Cert.ReferenceIdeal.Whole Cert.ReferenceIdeal.Facts₀ Cert.ReferenceIdeal.Facts Idealize.ShloMosaic Idealize.ShloMosaic.TcCoe Idealize.SL.Sem Idealize.ShloMosaic.StableHlo

variable {F : FTy → Type} [FloatOps F]

/-! ## The edge data -/

set_option maxHeartbeats 4000000 in
theorem row_eq (V : Valuation τ sig (Elt F)) : after piece0 V (Proc.devRef .tc main_v1) = Terms.rowOf (V (Proc.devRef .tc main_arg1)) := by
  simp only [piece0]; after_results_simp <;> rfl
set_option maxHeartbeats 4000000 in
theorem col_eq (V : Valuation τ sig (Elt F)) : after piece0 V (Proc.devRef .tc main_v3) = Terms.colOf (V (Proc.devRef .tc main_arg1)) := by
  simp only [piece0]; after_results_simp <;> rfl
set_option maxHeartbeats 4000000 in
theorem w_eq (V : Valuation τ sig (Elt F)) : after piece0 V (Proc.devRef .tc main_v31) = Terms.edgeW (V (Proc.devRef .tc main_arg1)) := by
  simp only [piece0]; after_results_simp <;> rfl
theorem keep0 (V : Valuation τ sig (Elt F)) (r : Ref sig .tc) (h : r ∉ piece0_W) : after piece0 V (Proc.devRef .tc r) = V (Proc.devRef .tc r) :=
  after_of_writes_sub piece0 _ piece0_writes h

/-! ## Layer 0 -/

set_option maxHeartbeats 40000000 in
/-- Layer 0's pieces leave its output at `layer0` of what they find. -/
theorem layer0_eq (V : Valuation τ sig (Elt F)) :
    after piece3 (after piece2 (after piece1 (V))) (Proc.devRef .tc main_v120)
      = Terms.layer0 (V (Proc.devRef .tc main_arg0)) (V (Proc.devRef .tc main_v1)) (V (Proc.devRef .tc main_v3)) (V (Proc.devRef .tc main_v31)) (V (Proc.devRef .tc main_arg2)) (V (Proc.devRef .tc main_arg3)) (V (Proc.devRef .tc main_arg4)) (V (Proc.devRef .tc main_arg5)) := by
  simp only [← StableHlo.after_append]
  simp only [piece1, piece2, piece3, List.cons_append, List.nil_append]
  after_results_simp <;> rfl
/-- and overwrite nothing outside their own results. -/
theorem keepL0 (V : Valuation τ sig (Elt F)) (r : Ref sig .tc) (h1 : r ∉ piece1_W) (h2 : r ∉ piece2_W) (h3 : r ∉ piece3_W) :
    after piece3 (after piece2 (after piece1 (V))) (Proc.devRef .tc r) = V (Proc.devRef .tc r) :=
  (after_of_writes_sub piece3 _ piece3_writes h3).trans <| (after_of_writes_sub piece2 _ piece2_writes h2).trans <| (after_of_writes_sub piece1 _ piece1_writes h1)

/-! ## Layer 1 -/

set_option maxHeartbeats 40000000 in
/-- Layer 1's pieces leave its output at `layer1` of what they find. -/
theorem layer1_eq (V : Valuation τ sig (Elt F)) :
    after piece6 (after piece5 (after piece4 (V))) (Proc.devRef .tc main_v209)
      = Terms.layer1 (V (Proc.devRef .tc main_v120)) (V (Proc.devRef .tc main_v1)) (V (Proc.devRef .tc main_v3)) (V (Proc.devRef .tc main_v31)) (V (Proc.devRef .tc main_arg6)) (V (Proc.devRef .tc main_arg7)) (V (Proc.devRef .tc main_arg8)) (V (Proc.devRef .tc main_arg9)) := by
  simp only [← StableHlo.after_append]
  simp only [piece4, piece5, piece6, List.cons_append, List.nil_append]
  after_results_simp <;> rfl
/-- and overwrite nothing outside their own results. -/
theorem keepL1 (V : Valuation τ sig (Elt F)) (r : Ref sig .tc) (h4 : r ∉ piece4_W) (h5 : r ∉ piece5_W) (h6 : r ∉ piece6_W) :
    after piece6 (after piece5 (after piece4 (V))) (Proc.devRef .tc r) = V (Proc.devRef .tc r) :=
  (after_of_writes_sub piece6 _ piece6_writes h6).trans <| (after_of_writes_sub piece5 _ piece5_writes h5).trans <| (after_of_writes_sub piece4 _ piece4_writes h4)

/-! ## Layer 2 -/

set_option maxHeartbeats 40000000 in
/-- Layer 2's pieces leave its output at `layer2` of what they find. -/
theorem layer2_eq (V : Valuation τ sig (Elt F)) :
    after piece8 (after piece7 (V)) (Proc.devRef .tc main_v297)
      = Terms.layer2 (V (Proc.devRef .tc main_v209)) (V (Proc.devRef .tc main_v1)) (V (Proc.devRef .tc main_v3)) (V (Proc.devRef .tc main_v31)) (V (Proc.devRef .tc main_arg10)) (V (Proc.devRef .tc main_arg11)) (V (Proc.devRef .tc main_arg12)) (V (Proc.devRef .tc main_arg13)) := by
  simp only [← StableHlo.after_append]
  simp only [piece7, piece8, List.cons_append, List.nil_append]
  after_results_simp <;> rfl
/-- and overwrite nothing outside their own results. -/
theorem keepL2 (V : Valuation τ sig (Elt F)) (r : Ref sig .tc) (h7 : r ∉ piece7_W) (h8 : r ∉ piece8_W) :
    after piece8 (after piece7 (V)) (Proc.devRef .tc r) = V (Proc.devRef .tc r) :=
  (after_of_writes_sub piece8 _ piece8_writes h8).trans <| (after_of_writes_sub piece7 _ piece7_writes h7)

set_option maxHeartbeats 4000000 in
/-- The last operation flattens layer 2's output. -/
theorem flat_eq (V : Valuation τ sig (Elt F)) :
    after piece8 (after piece7 (V)) (Proc.devRef .tc main_v298) = Terms.flat (after piece8 (after piece7 (V)) (Proc.devRef .tc main_v297)) := by
  simp only [piece8]; after_results_simp <;> rfl

/-! ## The whole program's result -/

/-- The program's result, from the launch contents `V`. -/
theorem result_eq (V : Valuation τ sig (Elt F)) :
    after ops V (Proc.devRef .tc main_v298)
      = Terms.flat (Terms.layer2
          (Terms.layer1
            (Terms.layer0 (V (Proc.devRef .tc main_arg0)) (Terms.rowOf (V (Proc.devRef .tc main_arg1))) (Terms.colOf (V (Proc.devRef .tc main_arg1))) (Terms.edgeW (V (Proc.devRef .tc main_arg1)))
              (V (Proc.devRef .tc main_arg2)) (V (Proc.devRef .tc main_arg3)) (V (Proc.devRef .tc main_arg4)) (V (Proc.devRef .tc main_arg5)))
            (Terms.rowOf (V (Proc.devRef .tc main_arg1))) (Terms.colOf (V (Proc.devRef .tc main_arg1))) (Terms.edgeW (V (Proc.devRef .tc main_arg1)))
            (V (Proc.devRef .tc main_arg6)) (V (Proc.devRef .tc main_arg7)) (V (Proc.devRef .tc main_arg8)) (V (Proc.devRef .tc main_arg9)))
          (Terms.rowOf (V (Proc.devRef .tc main_arg1))) (Terms.colOf (V (Proc.devRef .tc main_arg1))) (Terms.edgeW (V (Proc.devRef .tc main_arg1)))
          (V (Proc.devRef .tc main_arg10)) (V (Proc.devRef .tc main_arg11)) (V (Proc.devRef .tc main_arg12)) (V (Proc.devRef .tc main_arg13))) := by
  rw [after_ops, flat_eq, layer2_eq, layer1_eq, layer0_eq]
  -- what each layer reads of the earlier pieces' results and of the arguments
  have k (r : Ref sig .tc) (h0 : r ∉ piece0_W) : after piece0 V (Proc.devRef .tc r) = V (Proc.devRef .tc r) := keep0 V r h0
  simp only [keepL1 _ main_v1 (by decide) (by decide) (by decide), keepL1 _ main_v3 (by decide) (by decide) (by decide), keepL1 _ main_v31 (by decide) (by decide) (by decide),
    keepL0 _ main_v1 (by decide) (by decide) (by decide), keepL0 _ main_v3 (by decide) (by decide) (by decide), keepL0 _ main_v31 (by decide) (by decide) (by decide),
    keepL1 _ main_arg10 (by decide) (by decide) (by decide), keepL0 _ main_arg10 (by decide) (by decide) (by decide), k main_arg10 (by decide),
    keepL1 _ main_arg11 (by decide) (by decide) (by decide), keepL0 _ main_arg11 (by decide) (by decide) (by decide), k main_arg11 (by decide),
    keepL1 _ main_arg12 (by decide) (by decide) (by decide), keepL0 _ main_arg12 (by decide) (by decide) (by decide), k main_arg12 (by decide),
    keepL1 _ main_arg13 (by decide) (by decide) (by decide), keepL0 _ main_arg13 (by decide) (by decide) (by decide), k main_arg13 (by decide),
    keepL0 _ main_arg6 (by decide) (by decide) (by decide), k main_arg6 (by decide),
    keepL0 _ main_arg7 (by decide) (by decide) (by decide), k main_arg7 (by decide),
    keepL0 _ main_arg8 (by decide) (by decide) (by decide), k main_arg8 (by decide),
    keepL0 _ main_arg9 (by decide) (by decide) (by decide), k main_arg9 (by decide),
    k main_arg0 (by decide), k main_arg2 (by decide), k main_arg3 (by decide), k main_arg4 (by decide), k main_arg5 (by decide)]
  rw [row_eq V, col_eq V, w_eq V]

end Cert.ReferenceIdeal.Values

end
-- ==== Proof.lean ====
import proofs.«162653_j26706106646651_1_alg».proof.Defs
import proofs.«162653_j26706106646651_1_alg».proof.Proof.Gen.Kernel
import proofs.«162653_j26706106646651_1_alg».proof.Proof.Gen.Kernel.Skeleton
import proofs.«162653_j26706106646651_1_alg».proof.Proof.Gen.Kernel.Launch
import proofs.«162653_j26706106646651_1_alg».proof.Proof.Gen.Kernel.Regions
import proofs.«162653_j26706106646651_1_alg».proof.Proof.Gen.Kernel.Points
import proofs.«162653_j26706106646651_1_alg».proof.Proof.Gen.KernelIdeal
import proofs.«162653_j26706106646651_1_alg».proof.Proof.Gen.KernelIdeal.Skeleton
import proofs.«162653_j26706106646651_1_alg».proof.Proof.Gen.KernelIdeal.Launch
import proofs.«162653_j26706106646651_1_alg».proof.Proof.Gen.KernelIdeal.Regions
import proofs.«162653_j26706106646651_1_alg».proof.Proof.Gen.KernelIdeal.Points
import proofs.«162653_j26706106646651_1_alg».proof.Proof.Gen.ReferenceIdeal
import proofs.«162653_j26706106646651_1_alg».proof.Proof.Gen.Pre_finite_inputs
import proofs.«162653_j26706106646651_1_alg».proof.Proof.BitsWhole
import proofs.«162653_j26706106646651_1_alg».proof.Proof.IdealWhole
import proofs.«162653_j26706106646651_1_alg».proof.Proof.RefWhole
import proofs.«162653_j26706106646651_1_alg».proof.Proof.IdealValue
import proofs.«162653_j26706106646651_1_alg».proof.Proof.RefValue
import Idealize.ShloMosaic.Adequacy
import Idealize.ShloMosaic.Init

/-!
# A three-layer Chebyshev graph convolution, fused per layer, against its plain reference

Each layer takes a node array `x` (50000 nodes), forms the Chebyshev terms `T_0 = x`, `T_1 = L x`,
`T_k = 2 L T_{k-1} - T_{k-2}` of the normalised graph operator `L` (a gather along the edges' sources, a product with
the edge weights, a scatter-add onto the edges' targets), and outputs `∑_k T_k · Wc_k + bc + x · Wl + bl`, followed by
`max(·, 0)` in the first two layers. The kernel program stacks `T_0 … T_4` and computes the sums of products, the
biases and the maximum in one pass over row tiles of 2000 nodes; the reference interleaves the five products with the
propagations and adds the biases in another order.

The three programs terminate without a fault and leave their argument arrays alone: the kernel programs by following
the buffers from piece to piece of the program (three launches among stretches of host operations), the reference as a
straight line of host operations. The idealising pass rewrote nothing, so the word-level and the idealised kernel
programs are the same text. Over the extended reals the two idealised programs compute the same function: the
propagation glue is operation for operation the same on both sides, and a layer's two orders of summation differ by
the commutativity and associativity of addition and by `0 + a = a`; no finiteness of the inputs is used.
-/

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Whole.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Whole.frame m ρ

theorem frame_reference : Cert.frame_ReferenceIdeal (hReferenceIdeal := Cert.ReferenceIdeal.Gen.facts) (hPre_finite_inputs := Cert.Pre_finite_inputs.Gen.facts) :=
  fun m ρ _ => Cert.ReferenceIdeal.Whole.frame m ρ

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  by
  intro m ρ m' ρ' _ hagree
  refine ⟨fun c => Cert.ReferenceIdeal.Terms.flat (Cert.KernelIdeal.Values.h3 m c), ?_, ?_⟩
  · -- the kernel program: its run, the result read at the last boundary, the arguments as launched
    exact (θ_run Cert.KernelIdeal.defs _ _).mono (fun r h c =>
      ⟨(h c _ (Cert.KernelIdeal.Whole.mem_uc Cert.KernelIdeal.main_v242 (by decide))).trans (Cert.KernelIdeal.Values.result m ρ c),
       (h c _ (Cert.KernelIdeal.Whole.mem_uc Cert.KernelIdeal.main_arg0 (by decide))).trans (Cert.KernelIdeal.Whole.kept_arg0 m ρ c),
       (h c _ (Cert.KernelIdeal.Whole.mem_uc Cert.KernelIdeal.main_arg1 (by decide))).trans (Cert.KernelIdeal.Whole.kept_arg1 m ρ c),
       (h c _ (Cert.KernelIdeal.Whole.mem_uc Cert.KernelIdeal.main_arg2 (by decide))).trans (Cert.KernelIdeal.Whole.kept_arg2 m ρ c),
       (h c _ (Cert.KernelIdeal.Whole.mem_uc Cert.KernelIdeal.main_arg3 (by decide))).trans (Cert.KernelIdeal.Whole.kept_arg3 m ρ c),
       (h c _ (Cert.KernelIdeal.Whole.mem_uc Cert.KernelIdeal.main_arg4 (by decide))).trans (Cert.KernelIdeal.Whole.kept_arg4 m ρ c),
       (h c _ (Cert.KernelIdeal.Whole.mem_uc Cert.KernelIdeal.main_arg5 (by decide))).trans (Cert.KernelIdeal.Whole.kept_arg5 m ρ c),
       (h c _ (Cert.KernelIdeal.Whole.mem_uc Cert.KernelIdeal.main_arg6 (by decide))).trans (Cert.KernelIdeal.Whole.kept_arg6 m ρ c),
       (h c _ (Cert.KernelIdeal.Whole.mem_uc Cert.KernelIdeal.main_arg7 (by decide))).trans (Cert.KernelIdeal.Whole.kept_arg7 m ρ c),
       (h c _ (Cert.KernelIdeal.Whole.mem_uc Cert.KernelIdeal.main_arg8 (by decide))).trans (Cert.KernelIdeal.Whole.kept_arg8 m ρ c),
       (h c _ (Cert.KernelIdeal.Whole.mem_uc Cert.KernelIdeal.main_arg9 (by decide))).trans (Cert.KernelIdeal.Whole.kept_arg9 m ρ c),
       (h c _ (Cert.KernelIdeal.Whole.mem_uc Cert.KernelIdeal.main_arg10 (by decide))).trans (Cert.KernelIdeal.Whole.kept_arg10 m ρ c),
       (h c _ (Cert.KernelIdeal.Whole.mem_uc Cert.KernelIdeal.main_arg11 (by decide))).trans (Cert.KernelIdeal.Whole.kept_arg11 m ρ c),
       (h c _ (Cert.KernelIdeal.Whole.mem_uc Cert.KernelIdeal.main_arg12 (by decide))).trans (Cert.KernelIdeal.Whole.kept_arg12 m ρ c),
       (h c _ (Cert.KernelIdeal.Whole.mem_uc Cert.KernelIdeal.main_arg13 (by decide))).trans (Cert.KernelIdeal.Whole.kept_arg13 m ρ c)⟩)
      (Cert.KernelIdeal.Whole.run m ρ)
  · -- the reference: the same term of ITS launch contents, which agree with the kernel's on every argument
    refine (θ_run Cert.ReferenceIdeal.defs _ _).mono (fun r h c =>
      ⟨?_,
       (h c Cert.ReferenceIdeal.main_arg0).trans ((Cert.ReferenceIdeal.Whole.unwritten (StableHlo.launchContents m' c) Cert.ReferenceIdeal.main_arg0 (by decide) (by decide) (by decide) (by decide) (by decide) (by decide) (by decide) (by decide) (by decide)).trans rfl),
       (h c Cert.ReferenceIdeal.main_arg1).trans ((Cert.ReferenceIdeal.Whole.unwritten (StableHlo.launchContents m' c) Cert.ReferenceIdeal.main_arg1 (by decide) (by decide) (by decide) (by decide) (by decide) (by decide) (by decide) (by decide) (by decide)).trans rfl),
       (h c Cert.ReferenceIdeal.main_arg2).trans ((Cert.ReferenceIdeal.Whole.unwritten (StableHlo.launchContents m' c) Cert.ReferenceIdeal.main_arg2 (by decide) (by decide) (by decide) (by decide) (by decide) (by decide) (by decide) (by decide) (by decide)).trans rfl),
       (h c Cert.ReferenceIdeal.main_arg3).trans ((Cert.ReferenceIdeal.Whole.unwritten (StableHlo.launchContents m' c) Cert.ReferenceIdeal.main_arg3 (by decide) (by decide) (by decide) (by decide) (by decide) (by decide) (by decide) (by decide) (by decide)).trans rfl),
       (h c Cert.ReferenceIdeal.main_arg4).trans ((Cert.ReferenceIdeal.Whole.unwritten (StableHlo.launchContents m' c) Cert.ReferenceIdeal.main_arg4 (by decide) (by decide) (by decide) (by decide) (by decide) (by decide) (by decide) (by decide) (by decide)).trans rfl),
       (h c Cert.ReferenceIdeal.main_arg5).trans ((Cert.ReferenceIdeal.Whole.unwritten (StableHlo.launchContents m' c) Cert.ReferenceIdeal.main_arg5 (by decide) (by decide) (by decide) (by decide) (by decide) (by decide) (by decide) (by decide) (by decide)).trans rfl),
       (h c Cert.ReferenceIdeal.main_arg6).trans ((Cert.ReferenceIdeal.Whole.unwritten (StableHlo.launchContents m' c) Cert.ReferenceIdeal.main_arg6 (by decide) (by decide) (by decide) (by decide) (by decide) (by decide) (by decide) (by decide) (by decide)).trans rfl),
       (h c Cert.ReferenceIdeal.main_arg7).trans ((Cert.ReferenceIdeal.Whole.unwritten (StableHlo.launchContents m' c) Cert.ReferenceIdeal.main_arg7 (by decide) (by decide) (by decide) (by decide) (by decide) (by decide) (by decide) (by decide) (by decide)).trans rfl),
       (h c Cert.ReferenceIdeal.main_arg8).trans ((Cert.ReferenceIdeal.Whole.unwritten (StableHlo.launchContents m' c) Cert.ReferenceIdeal.main_arg8 (by decide) (by decide) (by decide) (by decide) (by decide) (by decide) (by decide) (by decide) (by decide)).trans rfl),
       (h c Cert.ReferenceIdeal.main_arg9).trans ((Cert.ReferenceIdeal.Whole.unwritten (StableHlo.launchContents m' c) Cert.ReferenceIdeal.main_arg9 (by decide) (by decide) (by decide) (by decide) (by decide) (by decide) (by decide) (by decide) (by decide)).trans rfl),
       (h c Cert.ReferenceIdeal.main_arg10).trans ((Cert.ReferenceIdeal.Whole.unwritten (StableHlo.launchContents m' c) Cert.ReferenceIdeal.main_arg10 (by decide) (by decide) (by decide) (by decide) (by decide) (by decide) (by decide) (by decide) (by decide)).trans rfl),
       (h c Cert.ReferenceIdeal.main_arg11).trans ((Cert.ReferenceIdeal.Whole.unwritten (StableHlo.launchContents m' c) Cert.ReferenceIdeal.main_arg11 (by decide) (by decide) (by decide) (by decide) (by decide) (by decide) (by decide) (by decide) (by decide)).trans rfl),
       (h c Cert.ReferenceIdeal.main_arg12).trans ((Cert.ReferenceIdeal.Whole.unwritten (StableHlo.launchContents m' c) Cert.ReferenceIdeal.main_arg12 (by decide) (by decide) (by decide) (by decide) (by decide) (by decide) (by decide) (by decide) (by decide)).trans rfl),
       (h c Cert.ReferenceIdeal.main_arg13).trans ((Cert.ReferenceIdeal.Whole.unwritten (StableHlo.launchContents m' c) Cert.ReferenceIdeal.main_arg13 (by decide) (by decide) (by decide) (by decide) (by decide) (by decide) (by decide) (by decide) (by decide)).trans rfl)⟩)
      (Cert.ReferenceIdeal.Whole.run m' ρ')
    refine (h c Cert.ReferenceIdeal.main_v298).trans ((Cert.ReferenceIdeal.Values.result_eq (StableHlo.launchContents m' c)).trans ?_)
    obtain ⟨e0, e1, e2, e3, e4, e5, e6, e7, e8, e9, e10, e11, e12, e13⟩ := hagree c
    simp only [show ∀ r : Ref Cert.ReferenceIdeal.sig .tc, StableHlo.launchContents m' c (Proc.devRef .tc r) = m' ((c.tc : Thread Cert.ReferenceIdeal.nD Cert.ReferenceIdeal.τ).loc r) from fun _ => rfl]
    rw [e0, e1, e2, e3, e4, e5, e6, e7, e8, e9, e10, e11, e12, e13]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
